-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg0 : IVec S1024 32) (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  let main_c_22 : IVec S_ 32 := constantI S_ 32 0#32
  let main_v59 : IVec S1024 32 := broadcastInDim S1024 ![] bcast_S_S1024 main_c_22
  let main_v60 : IVec S1024 1 := cmpi .sge main_arg0 main_v59
  let main_c_23 : IVec S_ 32 := constantI S_ 32 9999#32
  let main_v61 : IVec S1024 32 := broadcastInDim S1024 ![] bcast_S_S1024 main_c_23
  let main_v62 : IVec S1024 1 := cmpi .sle main_arg0 main_v61
  let main_v63 : IVec S1024 1 := andi main_v60 main_v62
  let main_c_24 : IVec S_ 1 := constantI S_ 1 1#1
  let main_v64 : IVec S_ 1 := (fun x v => Host.reduce IntOp.andi x v reducesTo_S1024_S_d0 h_S_) main_v63 main_c_24
  let main_v65 : IVec S_ 1 := andi main_v58 main_v64
  main_v65

def fn_part2 {F : FTy → Type} [FloatOps F] (main_arg0 : IVec S1024 32) (main_arg8 : FVec F S128x128 .f32) (main_arg9 : FVec F S128x128 .f32) (main_arg10 : FVec F S128 .f32) (main_arg11 : FVec F S128x40 .f32) (main_arg12 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg11
  let main_cst_18 : FVec F S_ .f32 := constant S_ .f32 0x7F800000#32
  let main_v50 : FVec F S128x40 .f32 := broadcastInDim S128x40 ![] bcast_S_S128x40 main_cst_18
  fn_part3 (F := F) main_arg0 main_arg12 main_v48 main_v49 main_v50

def fn_part1 {F : FTy → Type} [FloatOps F] (main_arg0 : IVec S1024 32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x40 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S1024 32) (main_arg1 : FVec F S10000x128 .f32) (main_arg2 : FVec F S10000x10000 .f32) (main_arg3 : FVec F S10000x10000 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x40 .f32) (main_arg12 : FVec F S40 .f32) : IVec S_ 1 :=
  let main_v0 : FVec F S10000x128 .f32 := Host.absf main_arg1
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg3
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_arg6 main_arg7 main_arg8 main_arg9 main_arg10 main_arg11 main_arg12 main_v13 main_v16
-- ==== Kernel.lean ====
abbrev S1024 : Shape := ⟨1, ![1024]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S1x40 : Shape := ⟨2, ![1, 40]⟩
abbrev S10000x2 : Shape := ⟨2, ![10000, 2]⟩
abbrev S200x10000 : Shape := ⟨2, ![200, 10000]⟩
abbrev S200x2 : Shape := ⟨2, ![200, 2]⟩
abbrev S200x128 : Shape := ⟨2, ![200, 128]⟩
abbrev S200 : Shape := ⟨1, ![200]⟩
abbrev S200x1 : Shape := ⟨2, ![200, 1]⟩
abbrev S1024x128 : Shape := ⟨2, ![1024, 128]⟩
abbrev S32 : Shape := ⟨1, ![32]⟩
abbrev S32x128 : Shape := ⟨2, ![32, 128]⟩
abbrev S1024x40 : Shape := ⟨2, ![1024, 40]⟩
abbrev S2x10000 : Shape := ⟨2, ![2, 10000]⟩

abbrev nBuf : Table → Nat
  | .hbm => 26
  | .local .tc .vmem => 22
  | .local .scVector .vmem => 2
  | _ => 0

abbrev bufTy : (tb : Table) → Fin (nBuf tb) → BufTy
  | .hbm, ⟨0, _⟩ => ⟨S1024, .i32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S1x40, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S10000x2, .f32⟩
  | .hbm, ⟨22, _⟩ => ⟨S10000x128, .f32⟩
  | .hbm, ⟨23, _⟩ => ⟨S1024x128, .f32⟩
  | .hbm, ⟨24, _⟩ => ⟨S1024x40, .f32⟩
  | .hbm, ⟨25, _⟩ => ⟨S2x10000, .f32⟩
  | .local .tc .vmem, ⟨0, _⟩ => ⟨S200x10000, .f32⟩
  | .local .tc .vmem, ⟨1, _⟩ => ⟨S200x10000, .f32⟩
  | .local .tc .vmem, ⟨2, _⟩ => ⟨S200x10000, .f32⟩
  | .local .tc .vmem, ⟨3, _⟩ => ⟨S200x10000, .f32⟩
  | .local .tc .vmem, ⟨4, _⟩ => ⟨S10000x128, .f32⟩
  | .local .tc .vmem, ⟨5, _⟩ => ⟨S128x128, .f32⟩
  | .local .tc .vmem, ⟨6, _⟩ => ⟨S128x128, .f32⟩
  | .local .tc .vmem, ⟨7, _⟩ => ⟨S128x128, .f32⟩
  | .local .tc .vmem, ⟨8, _⟩ => ⟨S128x128, .f32⟩
  | .local .tc .vmem, ⟨9, _⟩ => ⟨S128x128, .f32⟩
  | .local .tc .vmem, ⟨10, _⟩ => ⟨S128x128, .f32⟩
  | .local .tc .vmem, ⟨11, _⟩ => ⟨S1x128, .f32⟩
  | .local .tc .vmem, ⟨12, _⟩ => ⟨S128x128, .f32⟩
  | .local .tc .vmem, ⟨13, _⟩ => ⟨S1x128, .f32⟩
  | .local .tc .vmem, ⟨14, _⟩ => ⟨S200x2, .f32⟩
  | .local .tc .vmem, ⟨15, _⟩ => ⟨S200x2, .f32⟩
  | .local .tc .vmem, ⟨16, _⟩ => ⟨S200x128, .f32⟩
  | .local .tc .vmem, ⟨17, _⟩ => ⟨S200x128, .f32⟩
  | .local .tc .vmem, ⟨18, _⟩ => ⟨S10000x128, .bf16⟩
  | .local .tc .vmem, ⟨19, _⟩ => ⟨S10000x128, .bf16⟩
  | .local .tc .vmem, ⟨20, _⟩ => ⟨S128x128, .f32⟩
  | .local .tc .vmem, ⟨21, _⟩ => ⟨S128x128, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v4_1_scv : Ref sig .scVector := ⟨.hbm, 22, rfl⟩
abbrev main_arg0_scv : Ref sig .scVector := ⟨.hbm, 0, rfl⟩
abbrev main_v5_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let c1_i32 : BitVec 32 := 1#32
  let arg0 : BitVec 32 := BitVec.ofNat 32 (i 0).val
  let v3 : BitVec 32 := Scalar.muli c1_i32 arg0
  let c0_i32_1 : BitVec 32 := 0#32
  let v4 : BitVec 32 := Scalar.addi v3 c0_i32_1
  let c200_i32 : BitVec 32 := 200#32
  let v5 : BitVec 32 := Scalar.muli v4 c200_i32
  let v6 : Index := Scalar.indexCast v5
  let c0 : Index := 0#32
  ![v6.toNat, 0]
def cc0_transform_0 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S200x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  pads_S128x40_S128x128_000_0880 : S128x40.Pads (![0, 0] : Fin 2 → Nat) ![0, 88] ![0, 0] S128x128
  h_S_ : 0 < S_.numel
  shapeCasts_S40_S1x40 : S40.ShapeCasts S1x40
  pads_S1x40_S1x128_000_0880 : S1x40.Pads (![0, 0] : Fin 2 → Nat) ![0, 88] ![0, 0] S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  shapeCasts_S128x128_S128x128 : S128x128.ShapeCasts S128x128
  h_S200x128 : 0 < S200x128.numel
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  concatenates_S200x1_S200x1_S200x2_d1 : Shape.Concatenates [S200x1, S200x1] S200x2 1
  inb_S200x2_S200x2_0_0 : ∀ a, (![0, 0] : Fin 2 → Nat) a + S200x2.size a ≤ S200x2.size a
  h_S200x2 : 0 < S200x2.numel
  broadcasts_S200x1_S200x128 : S200x1.Broadcasts S200x128
  inb_S200x128_S200x128_0_0 : ∀ a, (![0, 0] : Fin 2 → Nat) a + S200x128.size a ≤ S200x128.size a
  gathers_S10000x128_S32x128 : S10000x128.Gathers 0 S32x128
  slices_S1024x128_S1024x40_0_0 : S1024x128.Slices ![0, 0] S1024x40
  transposes_S10000x2_S2x10000_1_0 : S10000x2.Transposes [1, 0] S2x10000
  dot_S128x128_S128x128_S128x128_1_0_0_1_n_n_wf : DotDims.WF S128x128 S128x128 S128x128 [1] [0] [0] [1] [] []
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hcc1_scratch2 : 18 + S_.numel ≤ 21
  hcc1_scoped0 : 19 + S_.numel ≤ 21
  hcc1_scoped1 : 20 + S_.numel ≤ 21
  hscKind : ∀ q, scKind q ≠ .tc
  hscCore : ∀ q, scNCore q ≤ τ.nSC
  hscSub : ∀ q, scNSub q ≤ τ.nSub
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S200x2.size a ≤ S10000x2.size a
  hwx0_12 : ∀ i : grid0.Coords, EltTy.bits .f32 = 32 ∨ (Rect.block (s := S10000x2) S200x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S200x128.size a ≤ S10000x128.size a
  hwx0_13 : ∀ i : grid0.Coords, EltTy.bits .f32 = 32 ∨ (Rect.block (s := S10000x128) S200x128.size (cc0_transform_13 i) (hinb0_13 i)).WholeWords (EltTy.packing .f32)
  hcore1 : grid1.bound 0 ≤ τ.nSC
  hsub1 : grid1.bound 1 ≤ τ.nSub
  k1_off1_inb : ∀ i : grid1.Coords, ∀ a, (k1_off1 i) a + S32.size a ≤ S1024.size a
  k1_off2_inb : ∀ i : grid1.Coords, ∀ a, (k1_off2 i) a + S32x128.size a ≤ S1024x128.size a

variable [Facts₀]

abbrev cc1_scratch2 : DmaSems sig S_ := SemArray.consecutive 18 S_ hcc1_scratch2
abbrev cc1_scoped0 : DmaSems sig S_ := SemArray.consecutive 19 S_ hcc1_scoped0
abbrev cc1_scoped1 : DmaSems sig S_ := SemArray.consecutive 20 S_ hcc1_scoped1
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_0) S200x2.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_1) S200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1024 : Shape := ⟨1, ![1024]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x10000x128 : Shape := ⟨3, ![1, 10000, 128]⟩
abbrev S2x10000x128 : Shape := ⟨3, ![2, 10000, 128]⟩
abbrev S2x10000 : Shape := ⟨2, ![2, 10000]⟩
abbrev S10000 : Shape := ⟨1, ![10000]⟩
abbrev S1x10000 : Shape := ⟨2, ![1, 10000]⟩
abbrev S2x10000x1 : Shape := ⟨3, ![2, 10000, 1]⟩
abbrev S10000x40 : Shape := ⟨2, ![10000, 40]⟩
abbrev S1x40 : Shape := ⟨2, ![1, 40]⟩
abbrev S1024x1 : Shape := ⟨2, ![1024, 1]⟩
abbrev S1024x40 : Shape := ⟨2, ![1024, 40]⟩

abbrev nBuf : Space → Nat
  | .hbm => 66
  | .vmem => 0
  | .smem => 0
  | _ => 0

abbrev bufTy : (tb : Table) → Fin (tcTables nBuf tb) → BufTy
  | .hbm, ⟨0, _⟩ => ⟨S1024, .i32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S1x10000x128, .f32⟩
  | .hbm, ⟨30, _⟩ => ⟨S1x10000x128, .f32⟩
  | .hbm, ⟨31, _⟩ => ⟨S2x10000x128, .f32⟩
  | .hbm, ⟨32, _⟩ => ⟨S2x10000x128, .f32⟩
  | .hbm, ⟨33, _⟩ => ⟨S2x10000, .f32⟩
  | .hbm, ⟨34, _⟩ => ⟨S_, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S1x10000, .f32⟩
  | .hbm, ⟨40, _⟩ => ⟨S2x10000, .f32⟩
  | .hbm, ⟨41, _⟩ => ⟨S2x10000, .f32⟩
  | .hbm, ⟨42, _⟩ => ⟨S2x10000, .f32⟩
  | .hbm, ⟨43, _⟩ => ⟨S_, .f32⟩
  | .hbm, ⟨44, _⟩ => ⟨S10000, .f32⟩
  | .hbm, ⟨45, _⟩ => ⟨S1x10000, .f32⟩
  | .hbm, ⟨46, _⟩ => ⟨S2x10000, .f32⟩
  | .hbm, ⟨47, _⟩ => ⟨S2x10000, .f32⟩
  | .hbm, ⟨48, _⟩ => ⟨S2x10000x1, .f32⟩
  | .hbm, ⟨49, _⟩ => ⟨S2x10000x128, .f32⟩
  | .hbm, ⟨50, _⟩ => ⟨S2x10000x128, .f32⟩
  | .hbm, ⟨51, _⟩ => ⟨S_, .f32⟩
  | .hbm, ⟨52, _⟩ => ⟨S10000x128, .f32⟩
  | .hbm, ⟨53, _⟩ => ⟨S10000x40, .f32⟩
  | .hbm, ⟨54, _⟩ => ⟨S1x40, .f32⟩
  | .hbm, ⟨55, _⟩ => ⟨S10000x40, .f32⟩
  | .hbm, ⟨56, _⟩ => ⟨S10000x40, .f32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1024x40, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_v36 : Ref sig .tc := ⟨.hbm, 58, rfl⟩
abbrev main_v37 : Ref sig .tc := ⟨.hbm, 59, rfl⟩
abbrev main_c_3 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  reducesTo_S2x10000_S10000_d0 : S2x10000.ReducesTo [0] S10000
  h_S_ : 0 < S_.numel
  bcast_S_S10000 : S_.BroadcastsInDim S10000 (![] : Fin 0 → Fin S10000.rank)
  bcast_S10000_S1x10000_1 : S10000.BroadcastsInDim S1x10000 (![1] : Fin 1 → Fin S1x10000.rank)
  bcast_S1x10000_S2x10000_0_1 : S1x10000.BroadcastsInDim S2x10000 (![0, 1] : Fin 2 → Fin S2x10000.rank)
  bcast_S2x10000_S2x10000x1_0_1 : S2x10000.BroadcastsInDim S2x10000x1 (![0, 1] : Fin 2 → Fin S2x10000x1.rank)
  bcast_S2x10000x1_S2x10000x128_0_1_2 : S2x10000x1.BroadcastsInDim S2x10000x128 (![0, 1, 2] : Fin 3 → Fin S2x10000x128.rank)
  reducesTo_S2x10000x128_S10000x128_d0 : S2x10000x128.ReducesTo [0] S10000x128
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  bcast_S_S1024 : S_.BroadcastsInDim S1024 (![] : Fin 0 → Fin S1024.rank)
  bcast_S1024_S1024x1_0 : S1024.BroadcastsInDim S1024x1 (![0] : Fin 1 → Fin S1024x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S2x10000x128_S128_S2x10000_2_0_01_n_n_n_wf : DotDims.WF S2x10000x128 S128 S2x10000 [2] [0] [0, 1] [] [] []
  dot_S10000x128_S128x40_S10000x40_1_0_0_1_n_n_wf : DotDims.WF S10000x128 S128x40 S10000x40 [1] [0] [0] [1] [] []
  gather_S10000x40_S1024x1_S1024x40_1_0_n_n_0_1_140_wf : GatherDims.WF S10000x40 S1024x1 S1024x40 [1] [0] [] [0] [] 1 ![1, 40]

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S2x10000x128_S128_S2x10000_2_0_01_n_n_n : DotDims S2x10000x128 S128 S2x10000 where
  lhsContracting := [2]
  rhsContracting := [0]
  lhsNonContracting := [0, 1]
  rhsNonContracting := []
  lhsBatch := []
  rhsBatch := []
  wf := dot_S2x10000x128_S128_S2x10000_2_0_01_n_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S10000x40_S1024x1_S1024x40_1_0_n_n_0_1_140 : GatherDims S10000x40 S1024x1 S1024x40 where
  offsetDims := [1]
  collapsedSliceDims := [0]
  operandBatchingDims := []
  startIndicesBatchingDims := []
  startIndexMap := [0]
  indexVectorDim := 1
  sliceSizes := ![1, 40]
  wf := gather_S10000x40_S1024x1_S1024x40_1_0_n_n_0_1_140_wf

class Facts : Prop extends Facts₀ where

variable [Facts]
-- ==== Proof.TcBodyIDefs.lean ====
/- The TensorCore region of the program: the blocks its windows stage, and the closed forms of what its body
   leaves in the four carried scratch buffers and in the two output windows, as pure terms over the body's
   payloads. -/
import proofs.«208996_g46033459479168_cont_8to1c4_133_24_alg».proof.Proof.Gen.KernelIdeal.Launch
import proofs.«208996_g46033459479168_cont_8to1c4_133_24_alg».proof.Proof.Gen.KernelIdeal.Skeleton
import proofs.«208996_g46033459479168_cont_8to1c4_133_24_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point: the one at which the body fills its scratch buffers. -/
def t0 : Fin cfg0.N := ⟨0, by decide⟩

/-! ## The body as a function of what it reads

Window numbering: 0, 1 = the two adjacency row blocks [200, 10000]; 2 = the feature matrix [10000, 128]; 3, 4 = the
two preparation weights; 5, 6 = the two aggregation weights; 7, 8 = the two self weights; 9 = the attention vector
[1, 128]; 10 = the padded classifier weight [128, 128]; 11 = the padded classifier bias [1, 128]; 12, 13 = the two
results' row blocks [200, 2] and [200, 128]. -/

/-- Rows `200 i .. 200 i + 200` of the feature matrix: the body's load through the point's row offset. -/
def fblk (x2 : Vec F S10000x128 .f32) (i : grid0.Coords) : Vec F S200x128 .f32 :=
  View.ld x2 (Rect.unit (s := S10000x128) (k0_off1 i) S200x128.size (k0_off1_inb i))

/-- The first carried scratch buffer: feats · (W_prep1 · W_agg_0), rounded to bf16. -/
def s0of (x2 : Vec F S10000x128 .f32) (x4 x5 : Vec F S128x128 .f32) : Vec F S10000x128 .bf16 := k0_pay11 x2 x4 x5
/-- The second: feats · (W_prep1 · W_agg_1), rounded to bf16. -/
def s1of (x2 : Vec F S10000x128 .f32) (x4 x6 : Vec F S128x128 .f32) : Vec F S10000x128 .bf16 := k0_pay12 x2 x4 x6
/-- The third: W_prep0 · W_self_0. -/
def c0of (x3 x7 : Vec F S128x128 .f32) : Vec F S128x128 .f32 := k0_pay13 x3 x7
/-- The fourth: W_prep0 · W_self_1. -/
def c1of (x3 x8 : Vec F S128x128 .f32) : Vec F S128x128 .f32 := k0_pay14 x3 x8

/-- The first hidden block h0 = relu (adj0 · s0 + fblk · c0). -/
def h0of (i : grid0.Coords) (x0 : Vec F S200x10000 .f32) (x2 : Vec F S10000x128 .f32) (s0 : Vec F S10000x128 .bf16) (c0 : Vec F S128x128 .f32) :
    Vec F S200x128 .f32 := k0_pay15 (fblk x2 i) x0 s0 c0
/-- The second hidden block h1 = relu (adj1 · s1 + fblk · c1). -/
def h1of (i : grid0.Coords) (x1 : Vec F S200x10000 .f32) (x2 : Vec F S10000x128 .f32) (s1 : Vec F S10000x128 .bf16) (c1 : Vec F S128x128 .f32) :
    Vec F S200x128 .f32 := k0_pay16 (fblk x2 i) x1 s1 c1
/-- tanh h0 times the attention vector, before the row sum. -/
def a0of (i : grid0.Coords) (x0 : Vec F S200x10000 .f32) (x2 : Vec F S10000x128 .f32) (s0 : Vec F S10000x128 .bf16) (c0 : Vec F S128x128 .f32)
    (x9 : Vec F S1x128 .f32) : Vec F S200x128 .f32 := k0_pay17 (fblk x2 i) x0 s0 c0 x9

/-- What the body stores in the first result's block: the two attention weights, side by side. -/
def out12 (i : grid0.Coords) (x0 x1 : Vec F S200x10000 .f32) (x2 : Vec F S10000x128 .f32) (s0 s1 : Vec F S10000x128 .bf16)
    (c0 c1 : Vec F S128x128 .f32) (x9 : Vec F S1x128 .f32) : Vec F S200x2 .f32 :=
  k0_pay9 (h1of i x1 x2 s1 c1) (a0of i x0 x2 s0 c0 x9) x9

/-- What the body stores in the second result's block: the attention-weighted sum of the hidden blocks through the
    classifier. -/
def out13 (i : grid0.Coords) (x0 x1 : Vec F S200x10000 .f32) (x2 : Vec F S10000x128 .f32) (s0 s1 : Vec F S10000x128 .bf16)
    (c0 c1 : Vec F S128x128 .f32) (x9 : Vec F S1x128 .f32) (x10 : Vec F S128x128 .f32) (x11 : Vec F S1x128 .f32) : Vec F S200x128 .f32 :=
  k0_pay10 (h0of i x0 x2 s0 c0) (h1of i x1 x2 s1 c1) (a0of i x0 x2 s0 c0 x9) x9 x10 x11

/-! ## At the region-entry contents -/

/-- The scratch buffers' contents from the first point on: computed there from the whole-array windows' blocks. -/
def S0 (c : Dev nD) : Vec F S10000x128 .bf16 := s0of (iblk0 V c 2 t0) (iblk0 V c 4 t0) (iblk0 V c 5 t0)
def S1 (c : Dev nD) : Vec F S10000x128 .bf16 := s1of (iblk0 V c 2 t0) (iblk0 V c 4 t0) (iblk0 V c 6 t0)
def C0 (c : Dev nD) : Vec F S128x128 .f32 := c0of (iblk0 V c 3 t0) (iblk0 V c 7 t0)
def C1 (c : Dev nD) : Vec F S128x128 .f32 := c1of (iblk0 V c 3 t0) (iblk0 V c 8 t0)

/-- What the body leaves in the first result's staging buffer at point `t`. -/
def OUT12 (c : Dev nD) (t : Fin cfg0.N) : Vec F S200x2 .f32 :=
  out12 (grid0.coords t) (iblk0 V c 0 t) (iblk0 V c 1 t) (iblk0 V c 2 t) (S0 V c) (S1 V c) (C0 V c) (C1 V c) (iblk0 V c 9 t)

/-- What the body leaves in the second result's staging buffer at point `t`. -/
def OUT13 (c : Dev nD) (t : Fin cfg0.N) : Vec F S200x128 .f32 :=
  out13 (grid0.coords t) (iblk0 V c 0 t) (iblk0 V c 1 t) (iblk0 V c 2 t) (S0 V c) (S1 V c) (C0 V c) (C1 V c) (iblk0 V c 9 t)
    (iblk0 V c 10 t) (iblk0 V c 11 t)

end Cert.Proof.TcBodyI

end
-- ==== Proof.TcBodyIRuns.lean ====
/- The TensorCore region's body: what its two control cases share — the branch condition in closed form over the
   grid, and the staging memrefs the pipeline passes the body at a point. -/
import proofs.«208996_g46033459479168_cont_8to1c4_133_24_alg».proof.Proof.TcBodyIDefs
import Idealize.ShloMosaic.Lib.Ring

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's one conditional ("is this the first grid point?"), from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the 50 points. -/
theorem hcond0_0 : ∀ t : Fin cfg0.N, cond0_0 (grid0.coords t) ↔ t.val % 50 = 0 :=
  (by decide +kernel : ∀ t : Fin grid0.N, cond0_0 (grid0.coords t) ↔ t.val % 50 = 0)

/-- The zero offsets of a rank-two rectangle, as the constant function. -/
theorem zoff2 : (![0, 0] : Fin 2 → ℕ) = fun _ => 0 := by funext a; fin_cases a <;> rfl

/-- One store through the whole-shape rectangle at zero offsets leaves its payload, whatever the buffer held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Cert.Proof.TcBodyI

end
-- ==== Proof.TcBodyIRunA.lean ====
/- The TensorCore region's body at the first grid point: the branch taken, the four scratch buffers filled from the
   whole-array windows, then the point's two result blocks computed from them. -/
import proofs.«208996_g46033459479168_cont_8to1c4_133_24_alg».proof.Proof.TcBodyIRuns

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

set_option maxHeartbeats 2000000 in
/-- The body where the conditional is taken: on whole staging memrefs, the inputs' at their contents `x·` and the
    outputs' and the scratch buffers' at anything, it runs to the continuation holding the inputs' as they were, the
    scratch buffers at the products of the weights (`s0of` … `c1of`) and the outputs' at `out12`, `out13` of the
    inputs and those products. Each store covers its whole buffer, so what is read back is the stored payload. -/
theorem kernelRun0_A (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S200x2 .f32) (harg13 : arg13.IsWhole) (arg14 : Memref sig .tc .vmem S200x128 .f32) (harg14 : arg14.IsWhole) (arg15 : Memref sig .tc .vmem S10000x128 .bf16) (harg15 : arg15.IsWhole) (arg16 : Memref sig .tc .vmem S10000x128 .bf16) (harg16 : arg16.IsWhole) (arg17 : Memref sig .tc .vmem S128x128 .f32) (harg17 : arg17.IsWhole) (arg18 : Memref sig .tc .vmem S128x128 .f32) (harg18 : arg18.IsWhole) (hc0 : cond0_0 i)
    (x0 x1 : Vec F S200x10000 .f32) (x2 : Vec F S10000x128 .f32) (x3 x4 x5 x6 x7 x8 : Vec F S128x128 .f32) (x9 : Vec F S1x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (out12 i x0 x1 x2 (s0of x2 x4 x5) (s1of x2 x4 x6) (c0of x3 x7) (c1of x3 x8) x9)
            ∗ owns (c : Thread nD τ) arg14 fullShare (out13 i x0 x1 x2 (s0of x2 x4 x5) (s1of x2 x4 x6) (c0of x3 x7) (c1of x3 x8) x9 x10 x11)
            ∗ owns (c : Thread nD τ) arg15 fullShare (s0of x2 x4 x5) ∗ owns (c : Thread nD τ) arg16 fullShare (s1of x2 x4 x6)
            ∗ owns (c : Thread nD τ) arg17 fullShare (c0of x3 x7) ∗ owns (c : Thread nD τ) arg18 fullShare (c1of x3 x8)) -∗ K ⟨⟩))
      ⊢ wp frame (wpE (defs₀ (F := F)) Variants.none c none) E (cc0__hingcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11
  sl_unfold [cc0__hingcn_body]
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_run_names
    rw [read_writes_unit_zero _ _ zoff2]
    unfold out12 h1of a0of fblk s0of s1of c0of c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H13]
  · iexists _; isplitr; swap; · iexact H13
    ipureintro
    sl_unfold_run_names
    rw [read_writes_unit_zero _ _ zoff2]
    unfold out13 h0of h1of a0of fblk s0of s1of c0of c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H14]
  · iexists _; isplitr; swap; · iexact H14
    ipureintro
    sl_unfold_run_names
    rw [read_writes_unit_zero _ _ zoff2]
    unfold s0of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H15]
  · iexists _; isplitr; swap; · iexact H15
    ipureintro
    sl_unfold_run_names
    rw [read_writes_unit_zero _ _ zoff2]
    unfold s1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H16]
  · iexists _; isplitr; swap; · iexact H16
    ipureintro
    sl_unfold_run_names
    rw [read_writes_unit_zero _ _ zoff2]
    unfold c0of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  · iexists _; isplitr; swap; · iexact H17
    ipureintro
    sl_unfold_run_names
    rw [read_writes_unit_zero _ _ zoff2]
    unfold c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]

end Cert.Proof.TcBodyI

end
-- ==== Proof.TcBodyIRunB.lean ====
/- The TensorCore region's body at every later grid point: the branch not taken, the four scratch buffers read as the
   first point left them, the point's two result blocks computed from them. -/
import proofs.«208996_g46033459479168_cont_8to1c4_133_24_alg».proof.Proof.TcBodyIRuns

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

set_option maxHeartbeats 2000000 in
/-- The body where the conditional is not taken: on whole staging memrefs, the inputs' at their contents `x·`, the
    scratch buffers at `s0 s1 c0 c1` and the outputs' at anything, it runs to the continuation holding the inputs' and
    the scratch buffers as they were and the outputs' at `out12`, `out13` of them. -/
theorem kernelRun0_B (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S200x2 .f32) (harg13 : arg13.IsWhole) (arg14 : Memref sig .tc .vmem S200x128 .f32) (harg14 : arg14.IsWhole) (arg15 : Memref sig .tc .vmem S10000x128 .bf16) (harg15 : arg15.IsWhole) (arg16 : Memref sig .tc .vmem S10000x128 .bf16) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 x1 : Vec F S200x10000 .f32) (x2 : Vec F S10000x128 .f32) (x3 x4 x5 x6 x7 x8 : Vec F S128x128 .f32) (x9 : Vec F S1x128 .f32) (x10 : Vec F S128x128 .f32) (x11 : Vec F S1x128 .f32) (s0 s1 : Vec F S10000x128 .bf16) (c0 c1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ owns (c : Thread nD τ) arg15 fullShare s0 ∗ owns (c : Thread nD τ) arg16 fullShare s1 ∗ owns (c : Thread nD τ) arg17 fullShare c0 ∗ owns (c : Thread nD τ) arg18 fullShare c1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (out12 i x0 x1 x2 s0 s1 c0 c1 x9)
            ∗ owns (c : Thread nD τ) arg14 fullShare (out13 i x0 x1 x2 s0 s1 c0 c1 x9 x10 x11)
            ∗ owns (c : Thread nD τ) arg15 fullShare s0 ∗ owns (c : Thread nD τ) arg16 fullShare s1 ∗ owns (c : Thread nD τ) arg17 fullShare c0 ∗ owns (c : Thread nD τ) arg18 fullShare c1) -∗ K ⟨⟩))
      ⊢ wp frame (wpE (defs₀ (F := F)) Variants.none c none) E (cc0__hingcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf14 hf15 hf16 hf17
  sl_unfold [cc0__hingcn_body]
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_run_names
    rw [read_writes_unit_zero _ _ zoff2]
    unfold out12 h1of a0of fblk
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H13]
  · iexists _; isplitr; swap; · iexact H13
    ipureintro
    sl_unfold_run_names
    rw [read_writes_unit_zero _ _ zoff2]
    unfold out13 h0of h1of a0of fblk
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  · iexists f17; isplitr; · ipureintro; rfl
    iexact H17

end Cert.Proof.TcBodyI

end
-- ==== Proof.TcBodyI.lean ====
/- The TensorCore region of the program: its proof data — what each window's staging buffer holds after the body at
   each grid point, and the invariant carried from point to point — and the body obligation. The body fills four
   scratch buffers at the first point and only reads them afterwards, so from the second point on the invariant
   holds them at the first point's values; both result windows are stored whole at every point. -/
import proofs.«208996_g46033459479168_cont_8to1c4_133_24_alg».proof.Proof.TcBodyIRunA
import proofs.«208996_g46033459479168_cont_8to1c4_133_24_alg».proof.Proof.TcBodyIRunB

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

variable (V : (c : Dev nD) → (b : Ref sig .tc) → Buf (Elt F) ((c : Thread nD τ).loc b))
variable (O : CellTallies nD τ sig Ix) (Rec : Set (SemLoc sig × Ix))

/-! ## The memrefs the body is called with -/

/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200x2 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S200x128 .f32 := win0_13.stage (cfg0.slots t 13)
abbrev hs0_13 (t : Fin cfg0.N) : (ms0_13 t).IsWhole := hstage0_13 ((cfg0.slots t 13).cast nbuf0_13)
/-- The four scratch buffers, whole. -/
abbrev scM0 : Memref sig .tc .vmem S10000x128 .bf16 := Memref.whole cc0_scratch0
abbrev scM1 : Memref sig .tc .vmem S10000x128 .bf16 := Memref.whole cc0_scratch1
abbrev scM2 : Memref sig .tc .vmem S128x128 .f32 := Memref.whole cc0_scratch2
abbrev scM3 : Memref sig .tc .vmem S128x128 .f32 := Memref.whole cc0_scratch3

/-! ## The invariant -/

/-- Before the first point the scratch buffers hold anything; before every later point (and after the last) they
    hold the first point's values. The generator register is carried along untouched. -/
def Phi0 (c : Dev nD) (t : Fin (cfg0.N + 1)) : sProp 𝕄 :=
  if t.val = 0 then
    iprop(Pipeline.scopedRest (Ix := Ix) (Name := ℕ) (U := UU) (Lvl := ℕ) (Val := Elt F) spec0 c ∗ ∃ r, prngReg c r)
  else
    iprop((owns (c : Thread nD τ) scM0 fullShare (S0 V c) ∗ owns (c : Thread nD τ) scM1 fullShare (S1 V c)
      ∗ owns (c : Thread nD τ) scM2 fullShare (C0 V c) ∗ owns (c : Thread nD τ) scM3 fullShare (C1 V c)) ∗ ∃ r, prngReg c r)

/-- Before the first point: the four scratch buffers owned at some contents, and the register. -/
theorem Phi0_first (c : Dev nD) (t : Fin (cfg0.N + 1)) (h : t.val = 0) :
    (Phi0 (Ix := Ix) (UU := UU) V c t : sProp 𝕄)
      = iprop(((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ ∃ r, prngReg c r) := by
  unfold Phi0; rw [if_pos h, scopedRest0_eq]; simp only [scM0, scM1, scM2, scM3, owns_whole]; try rfl

/-- Later: at the first point's values. -/
theorem Phi0_later (c : Dev nD) (t : Fin (cfg0.N + 1)) (h : t.val ≠ 0) :
    (Phi0 (Ix := Ix) (UU := UU) V c t : sProp 𝕄)
      = iprop((owns (c : Thread nD τ) scM0 fullShare (S0 V c) ∗ owns (c : Thread nD τ) scM1 fullShare (S1 V c)
          ∗ owns (c : Thread nD τ) scM2 fullShare (C0 V c) ∗ owns (c : Thread nD τ) scM3 fullShare (C1 V c)) ∗ ∃ r, prngReg c r) := by
  unfold Phi0; rw [if_neg h]

/-! ## The proof data -/

/-- The proof data of the pipeline on core `c`: the arrays as the region finds them (`V`); after the body at point `t`
    each input's buffer at its block and the two results' at `OUT12`, `OUT13`; the invariant `Phi0`; full shares; the
    tallies `O` owed and the bound `Rec` on the recorded waits throughout (the body neither waits nor signals). -/
def dat0 (c : Dev nD) : Dat τ (Elt F) Ix ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => OUT12 V c t
    | ⟨13, _⟩ => OUT13 V c t
  Φ t := Phi0 V c t
  q _ := fullShare
  owed _ := O
  recorded _ := Rec

theorem A_eq0 (c : Dev nD) (w : Fin cfg0.W) : (dat0 (UU := UU) V O Rec c).A w = V c (Pipeline.arrRef spec0 w) := by
  dsimp only [dat0]

theorem Phi_eq0 (c : Dev nD) (t : Fin (cfg0.N + 1)) : (dat0 (UU := UU) V O Rec c).Φ t = Phi0 V c t := by dsimp only [dat0]

theorem after0_0 (c : Dev nD) (t : Fin cfg0.N) : (dat0 (UU := UU) V O Rec c).after 0 t = iblk0 V c 0 t := by dsimp only [dat0]
theorem after0_1 (c : Dev nD) (t : Fin cfg0.N) : (dat0 (UU := UU) V O Rec c).after 1 t = iblk0 V c 1 t := by dsimp only [dat0]
theorem after0_2 (c : Dev nD) (t : Fin cfg0.N) : (dat0 (UU := UU) V O Rec c).after 2 t = iblk0 V c 2 t := by dsimp only [dat0]
theorem after0_3 (c : Dev nD) (t : Fin cfg0.N) : (dat0 (UU := UU) V O Rec c).after 3 t = iblk0 V c 3 t := by dsimp only [dat0]
theorem after0_4 (c : Dev nD) (t : Fin cfg0.N) : (dat0 (UU := UU) V O Rec c).after 4 t = iblk0 V c 4 t := by dsimp only [dat0]
theorem after0_5 (c : Dev nD) (t : Fin cfg0.N) : (dat0 (UU := UU) V O Rec c).after 5 t = iblk0 V c 5 t := by dsimp only [dat0]
theorem after0_6 (c : Dev nD) (t : Fin cfg0.N) : (dat0 (UU := UU) V O Rec c).after 6 t = iblk0 V c 6 t := by dsimp only [dat0]
theorem after0_7 (c : Dev nD) (t : Fin cfg0.N) : (dat0 (UU := UU) V O Rec c).after 7 t = iblk0 V c 7 t := by dsimp only [dat0]
theorem after0_8 (c : Dev nD) (t : Fin cfg0.N) : (dat0 (UU := UU) V O Rec c).after 8 t = iblk0 V c 8 t := by dsimp only [dat0]
theorem after0_9 (c : Dev nD) (t : Fin cfg0.N) : (dat0 (UU := UU) V O Rec c).after 9 t = iblk0 V c 9 t := by dsimp only [dat0]
theorem after0_10 (c : Dev nD) (t : Fin cfg0.N) : (dat0 (UU := UU) V O Rec c).after 10 t = iblk0 V c 10 t := by dsimp only [dat0]
theorem after0_11 (c : Dev nD) (t : Fin cfg0.N) : (dat0 (UU := UU) V O Rec c).after 11 t = iblk0 V c 11 t := by dsimp only [dat0]
theorem after0_12 (c : Dev nD) (t : Fin cfg0.N) : (dat0 (UU := UU) V O Rec c).after 12 t = OUT12 V c t := by dsimp only [dat0]
theorem after0_13 (c : Dev nD) (t : Fin cfg0.N) : (dat0 (UU := UU) V O Rec c).after 13 t = OUT13 V c t := by dsimp only [dat0]

/-- Each input's current staging buffer holds its block at every point, fetched there or not. -/
theorem before0_0 (c : Dev nD) (t : Fin cfg0.N) (d) : (dat0 (UU := UU) V O Rec c).before 0 t d = iblk0 V c 0 t :=
  ((dat0 (UU := UU) V O Rec c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 (UU := UU) V O Rec c).before 1 t d = iblk0 V c 1 t :=
  ((dat0 (UU := UU) V O Rec c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 (UU := UU) V O Rec c).before 2 t d = iblk0 V c 2 t :=
  ((dat0 (UU := UU) V O Rec c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 (UU := UU) V O Rec c).before 3 t d = iblk0 V c 3 t :=
  ((dat0 (UU := UU) V O Rec c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 (UU := UU) V O Rec c).before 4 t d = iblk0 V c 4 t :=
  ((dat0 (UU := UU) V O Rec c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 (UU := UU) V O Rec c).before 5 t d = iblk0 V c 5 t :=
  ((dat0 (UU := UU) V O Rec c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 (UU := UU) V O Rec c).before 6 t d = iblk0 V c 6 t :=
  ((dat0 (UU := UU) V O Rec c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 (UU := UU) V O Rec c).before 7 t d = iblk0 V c 7 t :=
  ((dat0 (UU := UU) V O Rec c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 (UU := UU) V O Rec c).before 8 t d = iblk0 V c 8 t :=
  ((dat0 (UU := UU) V O Rec c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 (UU := UU) V O Rec c).before 9 t d = iblk0 V c 9 t :=
  ((dat0 (UU := UU) V O Rec c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 (UU := UU) V O Rec c).before 10 t d = iblk0 V c 10 t :=
  ((dat0 (UU := UU) V O Rec c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 (UU := UU) V O Rec c).before 11 t d = iblk0 V c 11 t :=
  ((dat0 (UU := UU) V O Rec c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (ι : Ix) (t : Fin cfg0.N) : sProp 𝕄 :=
  iprop((dat0 (UU := UU) V O Rec c).Φ t.castSucc ∗ (dat0 (UU := UU) V O Rec c).owesAt ι t.castSucc
    ∗ (∃ d, owns (c : Thread nD τ) (ms0_0 t) fullShare ((dat0 (UU := UU) V O Rec c).before 0 t d))
    ∗ (∃ d, owns (c : Thread nD τ) (ms0_1 t) fullShare ((dat0 (UU := UU) V O Rec c).before 1 t d))
    ∗ (∃ d, owns (c : Thread nD τ) (ms0_2 t) fullShare ((dat0 (UU := UU) V O Rec c).before 2 t d))
    ∗ (∃ d, owns (c : Thread nD τ) (ms0_3 t) fullShare ((dat0 (UU := UU) V O Rec c).before 3 t d))
    ∗ (∃ d, owns (c : Thread nD τ) (ms0_4 t) fullShare ((dat0 (UU := UU) V O Rec c).before 4 t d))
    ∗ (∃ d, owns (c : Thread nD τ) (ms0_5 t) fullShare ((dat0 (UU := UU) V O Rec c).before 5 t d))
    ∗ (∃ d, owns (c : Thread nD τ) (ms0_6 t) fullShare ((dat0 (UU := UU) V O Rec c).before 6 t d))
    ∗ (∃ d, owns (c : Thread nD τ) (ms0_7 t) fullShare ((dat0 (UU := UU) V O Rec c).before 7 t d))
    ∗ (∃ d, owns (c : Thread nD τ) (ms0_8 t) fullShare ((dat0 (UU := UU) V O Rec c).before 8 t d))
    ∗ (∃ d, owns (c : Thread nD τ) (ms0_9 t) fullShare ((dat0 (UU := UU) V O Rec c).before 9 t d))
    ∗ (∃ d, owns (c : Thread nD τ) (ms0_10 t) fullShare ((dat0 (UU := UU) V O Rec c).before 10 t d))
    ∗ (∃ d, owns (c : Thread nD τ) (ms0_11 t) fullShare ((dat0 (UU := UU) V O Rec c).before 11 t d))
    ∗ (∃ d, owns (c : Thread nD τ) (ms0_12 t) fullShare ((dat0 (UU := UU) V O Rec c).before 12 t d))
    ∗ (∃ d, owns (c : Thread nD τ) (ms0_13 t) fullShare ((dat0 (UU := UU) V O Rec c).before 13 t d)))

/-- and what it returns. -/
def bodyPost0 (c : Dev nD) (ι : Ix) (t : Fin cfg0.N) : sProp 𝕄 :=
  iprop((dat0 (UU := UU) V O Rec c).Φ t.succ ∗ (dat0 (UU := UU) V O Rec c).owesAt ι t.succ
    ∗ owns (c : Thread nD τ) (ms0_0 t) fullShare ((dat0 (UU := UU) V O Rec c).after 0 t)
    ∗ owns (c : Thread nD τ) (ms0_1 t) fullShare ((dat0 (UU := UU) V O Rec c).after 1 t)
    ∗ owns (c : Thread nD τ) (ms0_2 t) fullShare ((dat0 (UU := UU) V O Rec c).after 2 t)
    ∗ owns (c : Thread nD τ) (ms0_3 t) fullShare ((dat0 (UU := UU) V O Rec c).after 3 t)
    ∗ owns (c : Thread nD τ) (ms0_4 t) fullShare ((dat0 (UU := UU) V O Rec c).after 4 t)
    ∗ owns (c : Thread nD τ) (ms0_5 t) fullShare ((dat0 (UU := UU) V O Rec c).after 5 t)
    ∗ owns (c : Thread nD τ) (ms0_6 t) fullShare ((dat0 (UU := UU) V O Rec c).after 6 t)
    ∗ owns (c : Thread nD τ) (ms0_7 t) fullShare ((dat0 (UU := UU) V O Rec c).after 7 t)
    ∗ owns (c : Thread nD τ) (ms0_8 t) fullShare ((dat0 (UU := UU) V O Rec c).after 8 t)
    ∗ owns (c : Thread nD τ) (ms0_9 t) fullShare ((dat0 (UU := UU) V O Rec c).after 9 t)
    ∗ owns (c : Thread nD τ) (ms0_10 t) fullShare ((dat0 (UU := UU) V O Rec c).after 10 t)
    ∗ owns (c : Thread nD τ) (ms0_11 t) fullShare ((dat0 (UU := UU) V O Rec c).after 11 t)
    ∗ owns (c : Thread nD τ) (ms0_12 t) fullShare ((dat0 (UU := UU) V O Rec c).after 12 t)
    ∗ owns (c : Thread nD τ) (ms0_13 t) fullShare ((dat0 (UU := UU) V O Rec c).after 13 t))

set_option maxHeartbeats 1600000 in
/-- The body at any point. At the first point the conditional is taken: the scratch buffers, held at anything, are
    filled, and what they then hold is by definition `S0` … `C1`. At a later point it is not: the invariant holds them
    at those values, the body reads them and leaves them. Either way the inputs' buffers hold their blocks, the two
    results' buffers are overwritten whole, and what the core owes passes through untouched. -/
theorem sound_body0 (c : Dev nD) (ι : Ix) (t : Fin cfg0.N) :
    bodyPre0 (UU := UU) V O Rec c ι t ⊢ wp frame (wpE (defs₀ (F := F)) Variants.none c none) Set.univ (bodyAt0 t) (fun _ => bodyPost0 (UU := UU) V O Rec c ι t) := by
  unfold bodyPre0 bodyPost0 bodyAt0
  simp only [before0_0, before0_1, before0_2, before0_3, before0_4, before0_5, before0_6, before0_7, before0_8, before0_9, before0_10, before0_11]
  rw [show (dat0 (UU := UU) V O Rec c).owesAt ι t.succ = (dat0 (UU := UU) V O Rec c).owesAt ι t.castSucc from rfl,
    after0_0, after0_1, after0_2, after0_3, after0_4, after0_5, after0_6, after0_7, after0_8, after0_9, after0_10, after0_11, after0_12, after0_13,
    Phi_eq0, Phi_eq0]
  have hN : t.val < 50 := lt_of_lt_of_eq t.isLt (show cfg0.N = 50 from N_0)
  rw [Phi0_later V c t.succ (Nat.succ_ne_zero _)]
  by_cases h0 : t.val = 0
  · obtain rfl : t = t0 := Fin.ext h0
    rw [Phi0_first V c t0.castSucc rfl]
    unfold OUT12 OUT13 S0 S1 C0 C1
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun0_A c Set.univ (grid0.coords t0) _ _ _ _ _ _ _ _ _ _ _ _ _ _ _ _ _ _ _ _ _ _ _ _ _ _ _ _ _ _ _ _ _ _ _ _
      ((hcond0_0 t0).mpr rfl) (iblk0 V c 0 t0) (iblk0 V c 1 t0) (iblk0 V c 2 t0) (iblk0 V c 3 t0) (iblk0 V c 4 t0) (iblk0 V c 5 t0)
      (iblk0 V c 6 t0) (iblk0 V c 7 t0) (iblk0 V c 8 t0) (iblk0 V c 9 t0) (iblk0 V c 10 t0) (iblk0 V c 11 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [Phi0_later V c t.castSucc h0]
    unfold OUT12 OUT13
    have hc : ¬cond0_0 (grid0.coords t) := fun h => h0 (by have := (hcond0_0 t).mp h; omega)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun0_B c Set.univ (grid0.coords t) _ _ _ _ _ _ _ _ _ _ _ _ _ _ _ _ _ _ _ _ _ _ _ _ _ _ _ _ _ _ _ _ _ _ _ _
      hc (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (S0 V c) (S1 V c) (C0 V c) (C1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation, at every point. -/
theorem body_obligation0 (c : Dev nD) (ι : Ix) :
    BodyObligation (dat0 (F := F) (UU := UU) V O Rec c) (defs₀ (F := F)) Variants.none ι Set.univ := fun t => by
  rw [bigSep_W0, bigSep_W0]
  exact sound_body0 V O Rec c ι t

/-- The same in the form the pipeline's loop takes it. -/
theorem body_obligation0_loose (c : Dev nD) (ι : Ix) :
    Pipeline.BodyObligationLoose (dat0 (F := F) (UU := UU) V O Rec c) (defs₀ (F := F)) Variants.none ι Set.univ :=
  (body_obligation0 V O Rec c ι).loose

end Cert.Proof.TcBodyI

end
-- ==== Proof.TcBodyIPhi.lean ====
/- The TensorCore region's invariant at the region's two ends: what the region's entry hands it becomes the invariant
   before the first point, and the invariant after the last point gives the scratch buffers back. -/
import proofs.«208996_g46033459479168_cont_8to1c4_133_24_alg».proof.Proof.TcBodyI

set_option maxRecDepth 16384

noncomputable section

namespace Cert.Proof.TcBodyI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

variable (V : (c : Dev nD) → (b : Ref sig .tc) → Buf (Elt F) ((c : Thread nD τ).loc b))
variable (O : CellTallies nD τ sig Ix) (Rec : Set (SemLoc sig × Ix))

/-- Entry: the generator register and the scoped buffers that are no staging buffer (the four scratch buffers, at
    anything) are the invariant before the first point. -/
theorem phi_in0' (c : Dev nD) :
    (iprop((∃ r, prngReg c r) ∗ Pipeline.scopedRest (Ix := Ix) (Name := ℕ) (U := UU) (Lvl := ℕ) (Val := Elt F) spec0 c) : sProp 𝕄)
      ⊢ (dat0 (UU := UU) V O Rec c).Φ 0 := by
  rw [Phi_eq0]; unfold Phi0; rw [if_pos (show ((0 : Fin (cfg0.N + 1)).val = 0) from rfl)]
  iintro ⟨Hg, HS⟩
  isplitl [HS]; · iexact HS
  iexact Hg

/-- The same with whatever else the entry hands over (`P`: the prefetched tables' share, none here) set aside. -/
theorem phi_in0 (c : Dev nD) (P : sProp 𝕄) :
    (iprop((∃ r, prngReg c r) ∗ P ∗ Pipeline.scopedRest (Ix := Ix) (Name := ℕ) (U := UU) (Lvl := ℕ) (Val := Elt F) spec0 c) : sProp 𝕄)
      ⊢ (dat0 (UU := UU) V O Rec c).Φ 0 := by
  iintro ⟨Hg, -, HS⟩
  iapply (phi_in0' V O Rec c)
  isplitl [Hg]; · iexact Hg
  iexact HS

/-- Exit: after the last point the scratch buffers, held at the first point's values, are scoped buffers at some
    contents again; the kernel has no semaphore of its own. -/
theorem phi_out0 (c : Dev nD) :
    (dat0 (UU := UU) V O Rec c).Φ (Fin.last cfg0.N)
      ⊢ (iprop((∃ r, prngReg c r) ∗ Pipeline.ownSems0 (Ix := Ix) (Name := ℕ) (U := UU) (Lvl := ℕ) (Val := Elt F) (τ := τ) (fun k : PEmpty => k.elim) c
          ∗ Pipeline.scopedRest (Ix := Ix) (Name := ℕ) (U := UU) (Lvl := ℕ) (Val := Elt F) spec0 c) : sProp 𝕄) := by
  rw [Phi_eq0, Phi0_later V c (Fin.last cfg0.N) (by decide), Pipeline.ownSems0_none, scopedRest0_eq]
  simp only [scM0, scM1, scM2, scM3, owns_whole]
  iintro ⟨⟨H0, H1, H2, H3⟩, Hg⟩
  isplitl [Hg]; · iexact Hg
  isplitr; · iempintro
  isplitl [H0]; · iexists _; iexact H0
  isplitl [H1]; · iexists _; iexact H1
  isplitl [H2]; · iexists _; iexact H2
  iexists _; iexact H3

end Cert.Proof.TcBodyI

end
-- ==== Proof.ScGatherI.lean ====
/-
  The SparseCore call of the program: thirty-two tasks (two SparseCores, sixteen vector subcores each). The task at
  SparseCore c, subcore s works on the thirty-two rows starting at row 64 s + 32 c of the index vector and of the
  result: it copies its thirty-two indices into its index scratch, transfers the rows of the table they name into its
  row scratch by one indirect gather, and copies the row scratch out to its rows of the result. Every task reads the
  whole table, so the table is handed out as thirty-two read shares (the full share cut in two, each half in sixteen) and joined
  again at the end. The value is carried: on return the result array holds, at row b and column j, the table's entry
  at row ids b and column j.
-/
import proofs.«208996_g46033459479168_cont_8to1c4_133_24_alg».proof.Proof.Gen.KernelIdeal
import proofs.«208996_g46033459479168_cont_8to1c4_133_24_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.Proof.ScGatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {UU : Type} [URA UU] [CountersIn UU]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

local notation "𝕄" => MT nD τ sig (HIx 1) (Elt F) ℕ UU ℕ

/-! ## The buffers -/

abbrev iLoc (d : Dev nD) : Loc nD τ sig := (SparseCore.T d).loc main_arg0
abbrev tLoc (d : Dev nD) : Loc nD τ sig := (SparseCore.T d).loc main_v4_1
abbrev oLoc (d : Dev nD) : Loc nD τ sig := (SparseCore.T d).loc main_v5

local notation "iV" => (Memref.whole Cert.KernelIdeal.main_arg0_scv : Memref Cert.KernelIdeal.sig Kind.scVector Space.hbm Cert.KernelIdeal.S1024 EltTy.i32)
local notation "tV" => (Memref.whole Cert.KernelIdeal.main_v4_1_scv : Memref Cert.KernelIdeal.sig Kind.scVector Space.hbm Cert.KernelIdeal.S10000x128 EltTy.f32)
local notation "oV" => (Memref.whole Cert.KernelIdeal.main_v5_scv : Memref Cert.KernelIdeal.sig Kind.scVector Space.hbm Cert.KernelIdeal.S1024x128 EltTy.f32)
local notation "sV" => (Memref.whole Cert.KernelIdeal.cc1_scratch0 : Memref Cert.KernelIdeal.sig Kind.scVector Space.vmem Cert.KernelIdeal.S32 EltTy.i32)
local notation "rV" => (Memref.whole Cert.KernelIdeal.cc1_scratch1 : Memref Cert.KernelIdeal.sig Kind.scVector Space.vmem Cert.KernelIdeal.S32x128 EltTy.f32)

/-! ## The value: the result array as a function of the table and the indices -/

/-- Entry (b, j) of the result is the table's entry at row ids b and column j (row 0 where ids b names no row,
    which the precondition excludes). -/
def gathered {d : Dev nD} (tab : Buf (Elt F) (tLoc d)) (ids : Buf (Elt F) (iLoc d)) : Buf (Elt F) (oLoc d) :=
  fun (x : S1024x128.Idx) =>
    if h : ((ids (ix1 (x 0) : S1024.Idx) : BitVec 32)).toNat < 10000
    then (tab (ix2 (⟨_, h⟩ : Fin 10000) (x 1) : S10000x128.Idx) : Elt F .f32)
    else (tab (ix2 (⟨0, by decide⟩ : Fin 10000) (x 1) : S10000x128.Idx) : Elt F .f32)

/-! ## The rows of the two row-partitioned arrays, per task -/

/-- The grid point of the task at SparseCore c, subcore s. -/
def coordsV (c : Fin (grid1.bound 0)) (s : Fin (grid1.bound 1)) : grid1.Coords :=
  fun | 0 => c | 1 => s | ⟨_ + 2, h⟩ => absurd h (Nat.not_lt.2 (Nat.le_add_left _ _))

abbrev irowK (L : grid1.Coords) : Rect S1024 := Rect.unit (s := S1024) (k1_off1 L) S32.size (k1_off1_inb L)
abbrev orowK (L : grid1.Coords) : Rect S1024x128 := Rect.unit (s := S1024x128) (k1_off2 L) S32x128.size (k1_off2_inb L)
/-- The task's rows of the index vector and of the result, and all of the table, as the task addresses them. -/
abbrev iRowK (L : grid1.Coords) : Memref sig .scVector .hbm S32 .i32 := (iV).slice (irowK L) (fun _ => rfl)
abbrev oRowK (L : grid1.Coords) : Memref sig .scVector .hbm S32x128 .f32 := (oV).slice (orowK L) (fun _ => rfl)
abbrev tAllK : Memref sig .scVector .hbm S10000x128 .f32 := (tV).slice (Rect.unit (s := S10000x128) ![0, 0] S10000x128.size inb_S10000x128_S10000x128_0_0) (fun _ => rfl)

abbrev iRowSet (L : grid1.Coords) : Finset S1024.Idx := (iRowK L).view.set
abbrev oRowSet (L : grid1.Coords) : Finset S1024x128.Idx := (oRowK L).view.set

/-! ## Shares of the table: the full share cut in two, each half cut in sixteen -/

/-- The share of the table the task at SparseCore c, subcore s reads through. -/
def tq (c : Fin 2) (s : Fin 16) : PosShare TreeShare := pieceOf (pieceOf fullShare 2 (by decide) c) 16 (by decide) s

variable [FloatOps F]

/-! ## What the handshakes carry -/

variable (m : (ℓ : Loc nD τ sig) → Buf (Elt F) ℓ) (tab : (d : Dev nD) → Buf (Elt F) (tLoc d))

abbrev iPts (d : Dev nD) : sProp 𝕄 := iLoc d ↦{fullShare} m (iLoc d)
abbrev tPts (d : Dev nD) : sProp 𝕄 := tLoc d ↦{fullShare} tab d
abbrev oPts (d : Dev nD) (f : Buf (Elt F) (oLoc d)) : sProp 𝕄 := oLoc d ↦{fullShare} f
abbrev iRowPts (d : Dev nD) (L : grid1.Coords) : sProp 𝕄 := iLoc d ↦[iRowSet L]{fullShare} m (iLoc d)
abbrev tShPts (d : Dev nD) (c : Fin 2) (s : Fin 16) : sProp 𝕄 := tLoc d ↦{tq c s} tab d
abbrev oRowPts (d : Dev nD) (L : grid1.Coords) (f : Buf (Elt F) (oLoc d)) : sProp 𝕄 := oLoc d ↦[oRowSet L]{fullShare} f

/-- What the task at SparseCore c, subcore s is handed: its rows of the indices, its share of the table, its rows of
    the result at some contents. -/
abbrev goT (d : Dev nD) (c : Fin 2) (s : Fin 16) : sProp 𝕄 :=
  iprop(iRowPts m d (coordsV c s) ∗ tShPts tab d c s ∗ ∃ f, oRowPts d (coordsV c s) f)
/-- What it hands back: the same, its rows of the result at the gathered value. -/
abbrev tdT (d : Dev nD) (c : Fin 2) (s : Fin 16) : sProp 𝕄 :=
  iprop(iRowPts m d (coordsV c s) ∗ tShPts tab d c s ∗ oRowPts d (coordsV c s) (gathered (tab d) (m (iLoc d))))

/-- A SparseCore takes its sixteen tasks' operands and brings their results back. -/
def P : (K (F := F)).Pay (nD := nD) (Val := Elt F) (Name := ℕ) (U := UU) where
  st := fun q d c => match q with
    | 0 => bigSep Finset.univ fun s : Fin 16 => goT m tab d (Fin.cast nCore_zero c) s
  dn := fun q d c => match q with
    | 0 => bigSep Finset.univ fun s : Fin 16 => tdT m tab d (Fin.cast nCore_zero c) s
  go := fun q d c i => match q with
    | 0 => goT m tab d (Fin.cast nCore_zero c) (Fin.cast nSub_zero i)
  td := fun q d c i => match q with
    | 0 => tdT m tab d (Fin.cast nCore_zero c) (Fin.cast nSub_zero i)
  x := fun _ _ => iprop(emp)

instance P_storable : (P (F := F) (UU := UU) m tab).IsStorable where
  st q d c := match q with
    | 0 => (inferInstance : BI.Storable (upEmb : UEmb _ 𝕄) (bigSep Finset.univ fun s : Fin 16 => goT m tab d (Fin.cast nCore_zero c) s))
  dn q d c := match q with
    | 0 => (inferInstance : BI.Storable (upEmb : UEmb _ 𝕄) (bigSep Finset.univ fun s : Fin 16 => tdT m tab d (Fin.cast nCore_zero c) s))
  go q d c i := match q with
    | 0 => (inferInstance : BI.Storable (upEmb : UEmb _ 𝕄) (goT m tab d (Fin.cast nCore_zero c) (Fin.cast nSub_zero i)))
  td q d c i := match q with
    | 0 => (inferInstance : BI.Storable (upEmb : UEmb _ 𝕄) (tdT m tab d (Fin.cast nCore_zero c) (Fin.cast nSub_zero i)))

/-! ## The task -/

section Tile

variable (d : Dev nD) (L : grid1.Coords)

abbrev cV (L : grid1.Coords) : Fin τ.nSC := (L 0).castLE hcore1
abbrev jV (L : grid1.Coords) : Fin τ.nSub := (L 1).castLE hsub1

omit [FloatOps F] in
theorem pts_iRowK (f : Buf (Elt F) (iLoc d)) :
    ((iRowK L).view.loc (V d (cV L) (jV L)) ↦[(iRowK L).view.set]{fullShare} f : sProp 𝕄) = iLoc d ↦[iRowSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The three DMA semaphores of a task: the index fetch's, the gather's, the copy-out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The list the gather reads is in range: what the index fetch landed in the index scratch is the task's rows of the
    index vector, each word below the table's row count. -/
theorem list_inb (hin : ∀ d (j : S1024.Idx), ((m (iLoc d) j : BitVec 32)).toNat < 10000)
    (fs : Buf (Elt F) ((V d (cV L) (jV L)).loc cc1_scratch0)) (pay : S32.Idx → Elt F .i32)
    (hpay : pay = (iRowK L).view.read (Elt F) (m (iLoc d))) :
    ∀ x, ((sV).view.read (Elt F) (View.write (Elt F) (sV).view fs pay Finset.univ) x).toNat < S10000x128.size gathers_S10000x128_S32x128.axis := by
  intro x
  have e : (sV).view.read (Elt F) (View.write (Elt F) (sV).view fs pay Finset.univ) x = m (iLoc d) ((iRowK L).view.emb x) := by
    rw [View.read_write_univ, hpay]; exact (View.read_apply _ _).trans (cast_eq _ _)
  rw [e]; exact hin d _

/-! ### The value the task leaves in its rows of the result -/

omit [FloatOps F] in
/-- Two indices of a matrix with equal coordinates are equal. -/
theorem idx2_ext {n0 n1 : ℕ} (z z' : (⟨2, ![n0, n1]⟩ : Shape).Idx) (h0 : (z 0).val = (z' 0).val) (h1 : (z 1).val = (z' 1).val) : z = z' := by
  funext a
  match a with
  | ⟨0, _⟩ => exact Fin.ext h0
  | ⟨1, _⟩ => exact Fin.ext h1
omit [FloatOps F] in
/-- Two indices of a vector with equal coordinates are equal. -/
theorem idx1_ext {n0 : ℕ} (z z' : (⟨1, ![n0]⟩ : Shape).Idx) (h0 : (z 0).val = (z' 0).val) : z = z' := by
  funext a
  match a with
  | ⟨0, _⟩ => exact Fin.ext h0

omit [FloatOps F] in
/-- The table, addressed through the task's slice of all of it, is the table. -/
theorem tAllK_emb (z : S10000x128.Idx) : (tAllK).view.emb z = z := by
  apply idx2_ext
  · show (0 + 1 * (z 0).val) = _; omega
  · show (0 + 1 * (z 1).val) = _; omega

omit [FloatOps F] in
/-- Row x of the task's rows of the index vector is row (its first row + x) of the index vector. -/
theorem iRowK_emb_val (x : S32.Idx) : (((iRowK L).view.emb x) 0).val = k1_off1 L 0 + (x 0).val := by
  show (k1_off1 L 0 + 1 * (x 0).val) = _; omega
omit [FloatOps F] in
/-- Entry (y 0, y 1) of the task's rows of the result is entry (its first row + y 0, y 1) of the result. -/
theorem oRowK_emb_val0 (y : S32x128.Idx) : (((oRowK L).view.emb y) 0).val = k1_off2 L 0 + (y 0).val := by
  show (k1_off2 L 0 + 1 * (y 0).val) = _; omega
omit [FloatOps F] in
theorem oRowK_emb_val1 (y : S32x128.Idx) : (((oRowK L).view.emb y) 1).val = (y 1).val := by
  show (k1_off2 L 1 + 1 * (y 1).val) = _
  rw [k1_off2_eq]; show 0 + 1 * (y 1).val = _; omega
omit [FloatOps F] in
/-- The two row-partitioned arrays are cut at the same rows. -/
theorem off1_eq_off2 : k1_off1 L 0 = k1_off2 L 0 := by rw [k1_off1_eq, k1_off2_eq]; rfl

/-- What the gather lands at entry y of the row scratch is the gathered value at the entry of the result the copy-out
    writes it to: the list's word x is word (first row + x) of the index vector, and the row it names is read at y's
    own column. -/
theorem gp_value (hin : ∀ d (j : S1024.Idx), ((m (iLoc d) j : BitVec 32)).toNat < 10000)
    (lst : S32.Idx → Elt F .i32) (hlst : ∀ x, lst x = m (iLoc d) ((iRowK L).view.emb x))
    (hn : S32.numel = S32x128.size gathers_S10000x128_S32x128.axis')
    (hin' : ∀ x, (lst x).toNat < S10000x128.size gathers_S10000x128_S32x128.axis) (y : S32x128.Idx) :
    SparseCore.gatherPayload gathers_S10000x128_S32x128 ((tAllK).view.read (Elt F) (tab d)) (SparseCore.rows lst hn hin') y
      = gathered (tab d) (m (iLoc d)) ((oRowK L).view.emb y) := by
  unfold SparseCore.gatherPayload gathered
  rw [show ∀ z, (tAllK).view.read (Elt F) (tab d) z = tab d ((tAllK).view.emb z) from fun z => (View.read_apply _ _).trans (cast_eq _ _), tAllK_emb]
  have hx : ∀ x : S32.Idx, (x 0).val = (y 0).val → (iRowK L).view.emb x = (ix1 (((oRowK L).view.emb y) 0) : S1024.Idx) := fun x hx => by
    apply idx1_ext
    rw [iRowK_emb_val, hx, off1_eq_off2]; exact (oRowK_emb_val0 L y).symm
  have hr : ∀ k : Fin S32.numel, ((S32.rowMajor.symm k) 0).val = k.val := fun k => by
    rw [← Shape.rowMajor_val_one, Equiv.apply_symm_apply]
  rw [dif_pos (hin d _)]
  refine congrArg (tab d) ?_
  apply idx2_ext
  · show ((gathers_S10000x128_S32x128.idx (SparseCore.rows lst hn hin') y) gathers_S10000x128_S32x128.axis).val = _
    rw [Shape.Gathers.idx_axis]
    show (lst (S32.rowMajor.symm ((y gathers_S10000x128_S32x128.axis').cast hn.symm))).toNat = _
    have hk : ((S32.rowMajor.symm ((y gathers_S10000x128_S32x128.axis').cast hn.symm)) 0).val = (y 0).val := (hr _).trans rfl
    rw [hlst, hx _ hk]
  · show ((gathers_S10000x128_S32x128.idx (SparseCore.rows lst hn hin') y) 1).val = ((oRowK L).view.emb y 1).val
    rw [Shape.Gathers.idx_of_ne _ _ _ _ (by decide), oRowK_emb_val1]; rfl

omit [FloatOps F] in
/-- A buffer written, through the task's rows of the result, with a payload that is the gathered value entry by entry
    holds the gathered value on those rows. -/
theorem out_value (G : Buf (Elt F) (oLoc d)) (fo : Buf (Elt F) (oLoc d)) (pay : S32x128.Idx → Elt F .f32)
    (hpay : ∀ y, pay y = G ((oRowK L).view.emb y)) :
    ∀ i ∈ oRowSet L, (oRowK L).view.writes (Elt F) fo [⟨Rect.whole S32x128, pay⟩] i = G i := by
  intro i hi
  obtain ⟨y, -, rfl⟩ := Finset.mem_map.mp hi
  have h := congrFun (View.read_writes_whole (oRowK L).view fo pay) y
  rw [View.read_apply] at h
  rw [← hpay y, ← h]; exact (cast_eq _ _).symm

set_option maxHeartbeats 4000000 in
/-- The task on vector subcore (L 0, L 1) of device d: the index fetch and its wait, the indirect gather and its wait,
    the copy-out and its wait; on return its rows of the result hold the gathered value. -/
theorem tile_body (hF : (K (F := F)).Facts) (hin : ∀ d (j : S1024.Idx), ((m (iLoc d) j : BitVec 32)).toNat < 10000) (q : PosShare TreeShare)
    (O : CellTallies nD τ sig (HIx 1)) (W : Waits sig (HIx 1)) (hO : ∀ g, O g none = 0) :
    (iprop(levAts (K (F := F)).L (K (F := F)).lev ∗ emp
        ∗ (iRowPts m d L ∗ (tLoc d ↦{q} tab d) ∗ ∃ f, oRowPts d L f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gk L tV (Memref.isWhole_whole _) iV (Memref.isWhole_whole _) oV (Memref.isWhole_whole _)
            sV (Memref.isWhole_whole _) rV (Memref.isWhole_whole _) cc1_scratch2 cc1_scoped0 cc1_scoped1)
          fun _ => iprop((iRowPts m d L ∗ (tLoc d ↦{q} tab d) ∗ oRowPts d L (gathered (tab d) (m (iLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gk_eq_skeleton]; unfold cc1_gk_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (UU := UU) d L _).symm) $$ Hi
  ihave Ho' := (Entails.of_eq (pts_oRowK (F := F) (UU := UU) d L _).symm) $$ Ho
  ihave Ht' := (Entails.of_eq (pts_tV (F := F) (UU := UU) d L _ _).symm) $$ Ht
  ihave Hs' := (Entails.of_eq (pts_sV (F := F) (UU := UU) d L _).symm) $$ Hs
  ihave Hr' := (Entails.of_eq (pts_rV (F := F) (UU := UU) d L _).symm) $$ Hr
  sl_exec
  -- the indirect gather: the tile hands in its share of the table (the slice's elements), the row scratch, the list's
  -- buffer whole and the semaphore at zero; the list's words are in range by the precondition
  ihave Hts := (pointsTo_split_subset (q := q) (f := tab d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S10000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S10000x128_S32x128) (default : HIx 1)
      (rV).view.dmaCredit (hN _) (by decide) (list_inb m d L hin fs _ rfl)) $$ [Hts Hr'' Hs'' HsemB]
  · isplitl [Hts]; · iexact Hts
    isplitl [Hr'']; · iexact Hr''
    isplitl [Hs'']; · iexact Hs''
    iexact HsemB
  iintro Hfl
  sl_exec
  -- its wait: the row scratch written with the gathered rows, the table's share and the list's buffer back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemB, HO⟩
  ihave Ht' := (pointsTo_split_subset (q := q) (f := tab d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the value: the copy-out's payload is the row scratch as the gather left it, entry by entry the gathered value
  have hpay : ∀ y, tile_body.sl.dma0_1 m tab d L hin fs fr y = gathered (tab d) (m (iLoc d)) ((oRowK L).view.emb y) := fun y =>
    (congrFun (View.read_write_univ _ _) y).trans
      (gp_value m tab d L hin _ (fun x => (congrFun (View.read_write_univ _ _) x).trans ((View.read_apply _ _).trans (cast_eq _ _))) _ _ y)
  ihave Ho2 := (Entails.of_eq (pointsTo_congr (q := fullShare)
      (out_value d L (gathered (tab d) (m (iLoc d))) fo (tile_body.sl.dma0_1 m tab d L hin fs fr) hpay))) $$ Ho'
  isplitl [Hi' Ht' Ho2]
  · isplitl [Hi']; · iexact Hi'
    isplitl [Ht']; · iexact Ht'
    iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

theorem defs₀_vector (c : Fin τ.nSC) (s : Fin τ.nSub) :
    defs₀ (F := F) (.scVector c s) 1 ()
      = SparseCore.onTile hcore1 hsub1 (fun c s => cc1_gk (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation: from its operands to its rows of the result at the gathered value. -/
theorem tileObl (hF : (K (F := F)).Facts) (hin : ∀ d (j : S1024.Idx), ((m (iLoc d) j : BitVec 32)).toNat < 10000) :
    (K (F := F)).TileObl (D (F := F)) 𝒱 (P (UU := UU) m tab) v₀ 0 := by
  intro d c i O W hO _ _
  simp only [show (P (UU := UU) m tab).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m tab d (coordsV ⟨_, hci.1⟩ ⟨_, hci.2⟩) hF hin _ O W hO).trans (wp_mono frame _ _ fun _ => obl_post)

end Obl

/-! ## The rows split and join; the shares of the table -/

section Split

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The grid point of the task numbered by the pair (SparseCore, subcore). -/
abbrev Lp (p : Fin 2 × Fin 16) : grid1.Coords := coordsV p.1 p.2

omit [FloatOps F] in
theorem off1_Lp (p : Fin 2 × Fin 16) : k1_off1 (Lp p) 0 = 64 * p.2.val + 32 * p.1.val := by rw [k1_off1_eq]; rfl
omit [FloatOps F] in
theorem off2_Lp0 (p : Fin 2 × Fin 16) : k1_off2 (Lp p) 0 = 64 * p.2.val + 32 * p.1.val := by rw [k1_off2_eq]; rfl
omit [FloatOps F] in
theorem off2_Lp1 (p : Fin 2 × Fin 16) : k1_off2 (Lp p) 1 = 0 := by rw [k1_off2_eq]; rfl

omit [FloatOps F] in
theorem iRowSet_eq (L : grid1.Coords) : iRowSet L = (irowK L).set := by
  show ((View.whole (main_arg0_scv : Ref sig .scVector)).slice (irowK L)).set = _
  exact View.set_slice_whole _ _
omit [FloatOps F] in
theorem oRowSet_eq (L : grid1.Coords) : oRowSet L = (orowK L).set := by
  show ((View.whole (main_v5_scv : Ref sig .scVector)).slice (orowK L)).set = _
  exact View.set_slice_whole _ _

omit [FloatOps F] in
/-- Two different tasks start at rows at least thirty-two apart. -/
theorem starts_apart {p p' : Fin 2 × Fin 16} (hne : p ≠ p') :
    64 * p.2.val + 32 * p.1.val + 32 ≤ 64 * p'.2.val + 32 * p'.1.val ∨ 64 * p'.2.val + 32 * p'.1.val + 32 ≤ 64 * p.2.val + 32 * p.1.val := by
  have h1 := p.1.isLt; have h1' := p'.1.isLt
  have : p.1.val ≠ p'.1.val ∨ p.2.val ≠ p'.2.val := by
    by_contra h; rw [not_or, not_not, not_not] at h; exact hne (Prod.ext (Fin.ext h.1) (Fin.ext h.2))
  omega

omit [FloatOps F] in
theorem irows_disjoint : ∀ p ∈ (Finset.univ : Finset (Fin 2 × Fin 16)), ∀ p' ∈ (Finset.univ : Finset (Fin 2 × Fin 16)), p ≠ p' →
    Disjoint (iRowSet (Lp p)) (iRowSet (Lp p')) := by
  intro p _ p' _ hne
  rw [iRowSet_eq, iRowSet_eq]
  refine Rect.unit_disjoint 0 ?_
  rw [off1_Lp, off1_Lp]
  exact starts_apart hne
omit [FloatOps F] in
theorem orows_disjoint : ∀ p ∈ (Finset.univ : Finset (Fin 2 × Fin 16)), ∀ p' ∈ (Finset.univ : Finset (Fin 2 × Fin 16)), p ≠ p' →
    Disjoint (oRowSet (Lp p)) (oRowSet (Lp p')) := by
  intro p _ p' _ hne
  rw [oRowSet_eq, oRowSet_eq]
  refine Rect.unit_disjoint 0 ?_
  rw [off2_Lp0, off2_Lp0]
  exact starts_apart hne

omit [FloatOps F] in
/-- Every row belongs to the task whose subcore is the row's quotient by sixty-four and whose SparseCore is the half
    of that block of sixty-four the row falls in. -/
theorem irows_cover : (Finset.univ : Finset (Fin 2 × Fin 16)).biUnion (fun p => iRowSet (Lp p)) = Finset.univ := by
  ext i
  simp only [Finset.mem_biUnion, Finset.mem_univ, true_and, iff_true]
  have hi : (i 0).val < 1024 := (i 0).isLt
  obtain ⟨p, hp1, hp2⟩ : ∃ p : Fin 2 × Fin 16, p.1.val = (i 0).val % 64 / 32 ∧ p.2.val = (i 0).val / 64 :=
    ⟨(⟨(i 0).val % 64 / 32, by omega⟩, ⟨(i 0).val / 64, by omega⟩), rfl, rfl⟩
  refine ⟨p, ?_⟩
  rw [iRowSet_eq, Rect.mem_set_unit]
  intro a
  match a with
  | ⟨0, _⟩ =>
    show k1_off1 (Lp p) 0 ≤ (i 0).val ∧ (i 0).val < k1_off1 (Lp p) 0 + 32
    rw [off1_Lp]
    omega
omit [FloatOps F] in
theorem orows_cover : (Finset.univ : Finset (Fin 2 × Fin 16)).biUnion (fun p => oRowSet (Lp p)) = Finset.univ := by
  ext i
  simp only [Finset.mem_biUnion, Finset.mem_univ, true_and, iff_true]
  have hi : (i 0).val < 1024 := (i 0).isLt
  have hj : (i 1).val < 128 := (i 1).isLt
  obtain ⟨p, hp1, hp2⟩ : ∃ p : Fin 2 × Fin 16, p.1.val = (i 0).val % 64 / 32 ∧ p.2.val = (i 0).val / 64 :=
    ⟨(⟨(i 0).val % 64 / 32, by omega⟩, ⟨(i 0).val / 64, by omega⟩), rfl, rfl⟩
  refine ⟨p, ?_⟩
  rw [oRowSet_eq, Rect.mem_set_unit]
  intro a
  match a with
  | ⟨0, _⟩ =>
    show k1_off2 (Lp p) 0 ≤ (i 0).val ∧ (i 0).val < k1_off2 (Lp p) 0 + 32
    rw [off2_Lp0]
    omega
  | ⟨1, _⟩ =>
    show k1_off2 (Lp p) 1 ≤ (i 1).val ∧ (i 1).val < k1_off2 (Lp p) 1 + 128
    rw [off2_Lp1]
    omega

omit [FloatOps F] in
theorem iPts_rows (d : Dev nD) (f : Buf (Elt F) (iLoc d)) :
    (iLoc d ↦{fullShare} f : sProp 𝕄) = bigSep Finset.univ fun p : Fin 2 × Fin 16 => iLoc d ↦[iRowSet (Lp p)]{fullShare} f := by
  rw [← pointsTo_biUnion Finset.univ (ℓ := iLoc d) (fun p => iRowSet (Lp p)) irows_disjoint, irows_cover]
omit [FloatOps F] in
theorem oPts_rows (d : Dev nD) (f : Buf (Elt F) (oLoc d)) :
    (oLoc d ↦{fullShare} f : sProp 𝕄) = bigSep Finset.univ fun p : Fin 2 × Fin 16 => oLoc d ↦[oRowSet (Lp p)]{fullShare} f := by
  rw [← pointsTo_biUnion Finset.univ (ℓ := oLoc d) (fun p => oRowSet (Lp p)) orows_disjoint, orows_cover]
omit [FloatOps F] in
theorem tPts_shares (d : Dev nD) (f : Buf (Elt F) (tLoc d)) :
    (tLoc d ↦{fullShare} f : sProp 𝕄) = bigSep Finset.univ fun p : Fin 2 × Fin 16 => tLoc d ↦{tq p.1 p.2} f := by
  rw [bigSep_univ_prod, pointsTo_piecesOf Finset.univ f (by decide : 0 < 2) fullShare]
  refine bigSep_congr fun c _ => ?_
  rw [pointsTo_piecesOf Finset.univ f (by decide : 0 < 16) (pieceOf fullShare 2 (by decide) c)]; rfl

/-- A SparseCore's operands are its sixteen tasks' and its results theirs: nothing to do. -/
theorem vecSplit : (K (F := F)).VecSplit' (P (UU := UU) m tab) 0 := by
  intro d c
  show (bigSep Finset.univ fun s : Fin 16 => goT m tab d (Fin.cast nCore_zero c) s) ⊢ |={Set.univ}=> iprop(
      (bigSep Finset.univ fun i : Fin ((K (F := F)).nSub 0) => goT m tab d (Fin.cast nCore_zero c) (Fin.cast nSub_zero i))
      ∗ ((bigSep Finset.univ fun i : Fin ((K (F := F)).nSub 0) => tdT m tab d (Fin.cast nCore_zero c) (Fin.cast nSub_zero i))
          -∗ bigSep Finset.univ fun s : Fin 16 => tdT m tab d (Fin.cast nCore_zero c) s))
  rw [bigSep_tasks (F := F) (fun s => goT m tab d (Fin.cast nCore_zero c) s), bigSep_tasks (F := F) (fun s => tdT m tab d (Fin.cast nCore_zero c) s)]
  iintro H; imodintro
  isplitl [H]; · iexact H
  iintro H; iexact H

omit [FloatOps F] in
theorem oRow_some (d : Dev nD) (L : grid1.Coords) (f : Buf (Elt F) (oLoc d)) :
    (oLoc d ↦[oRowSet L]{fullShare} f : sProp 𝕄) ⊢ iprop(∃ f, oRowPts d L f) := by
  iintro H; iexists f; iexact H

/-- The three arrays whole are the thirty-two tasks' operands: the index vector and the result cut by rows, the table by
    shares. -/
theorem st_of_whole (d : Dev nD) (f : Buf (Elt F) (oLoc d)) :
    iprop(iPts m d ∗ tPts tab d ∗ oPts d f) ⊢ (bigSep Finset.univ fun c : Fin ((K (F := F)).nCore 0) => (P (UU := UU) m tab).st 0 d c) := by
  show iprop(iPts m d ∗ tPts tab d ∗ oPts d f)
    ⊢ bigSep Finset.univ fun c : Fin ((K (F := F)).nCore 0) => bigSep Finset.univ fun s : Fin 16 => goT m tab d (Fin.cast nCore_zero c) s
  rw [bigSep_cores (F := F) (fun c => bigSep Finset.univ fun s : Fin 16 => goT m tab d c s),
    ← bigSep_univ_prod (fun p : Fin 2 × Fin 16 => goT m tab d p.1 p.2), bigSep_sep', bigSep_sep']
  unfold iPts tPts oPts
  rw [iPts_rows, tPts_shares, oPts_rows]
  iintro ⟨Hi, Ht, Ho⟩
  isplitl [Hi]; · iexact Hi
  isplitl [Ht]; · iexact Ht
  iapply (Transfers.ent (bigSep_mono (s := Finset.univ) (Φ := fun p : Fin 2 × Fin 16 => (oLoc d ↦[oRowSet (Lp p)]{fullShare} f : sProp 𝕄))
    (Ψ := fun p : Fin 2 × Fin 16 => (iprop(∃ f, oRowPts d (Lp p) f) : sProp 𝕄)) fun p _ => oRow_some d (Lp p) f))
  iexact Ho

/-- The thirty-two tasks' results are the three arrays whole, the result at the gathered value. -/
theorem whole_of_dn (d : Dev nD) :
    (bigSep Finset.univ fun c : Fin ((K (F := F)).nCore 0) => (P (UU := UU) m tab).dn 0 d c)
      ⊢ iprop(iPts m d ∗ tPts tab d ∗ oPts d (gathered (tab d) (m (iLoc d)))) := by
  show (bigSep Finset.univ fun c : Fin ((K (F := F)).nCore 0) => bigSep Finset.univ fun s : Fin 16 => tdT m tab d (Fin.cast nCore_zero c) s)
    ⊢ iprop(iPts m d ∗ tPts tab d ∗ oPts d (gathered (tab d) (m (iLoc d))))
  rw [bigSep_cores (F := F) (fun c => bigSep Finset.univ fun s : Fin 16 => tdT m tab d c s),
    ← bigSep_univ_prod (fun p : Fin 2 × Fin 16 => tdT m tab d p.1 p.2), bigSep_sep', bigSep_sep']
  unfold iPts tPts oPts
  rw [iPts_rows, tPts_shares, oPts_rows]

end Split

end Cert.Proof.ScGatherI

end
-- ==== Proof.LaunchI.lean ====
/-
  The run of the whole program, every thread of it: on each device the TensorCore runs @main — the host operations that lay the
  attention vector out as a row and pad the classifier's weight and bias to 128 columns, the kernel region (fifty grid points,
  each a block of 200 nodes), the call of the SparseCore kernel that gathers the requested nodes' rows, the slice of their
  first 40 columns and the transposition of the metapath weights — while the two sequencers dispatch the 32 vector subcores'
  tasks. Every weakly fair execution terminates, and every unscoped buffer of every device ends at contents named here as a
  fold through @main: the launch contents, the host operations' results, the region's arrays at what its write-backs leave,
  the gathered rows, the last two host results.

  The region's proof data (its invariant, its body obligation) and the SparseCore call's (the handshakes' payload, a tile's
  task) are supplied as two records; this module threads the resources between them: the TensorCore owes the SparseCore call's
  start signals while the region runs, so the region's waits on its staging cells are recorded at the index below every
  call's, and the bound on the recorded waits is handed back to the call.
-/
import proofs.«208996_g46033459479168_cont_8to1c4_133_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.Pipeline.FrameBody
import Idealize.ShloMosaic.Lib.Pipeline.RegionsLoop
import Idealize.ShloMosaic.Lib.Pipeline.FrameSuffix
import proofs.«208996_g46033459479168_cont_8to1c4_133_24_alg».proof.Proof.Gen.KernelIdeal
import proofs.«208996_g46033459479168_cont_8to1c4_133_24_alg».proof.Proof.Gen.KernelIdeal.Skeleton
import proofs.«208996_g46033459479168_cont_8to1c4_133_24_alg».proof.Proof.Gen.KernelIdeal.Launch
import proofs.«208996_g46033459479168_cont_8to1c4_133_24_alg».proof.Proof.Gen.KernelIdeal.Points
import proofs.«208996_g46033459479168_cont_8to1c4_133_24_alg».proof.Proof.TcBodyI
import proofs.«208996_g46033459479168_cont_8to1c4_133_24_alg».proof.Proof.TcBodyIPhi
import proofs.«208996_g46033459479168_cont_8to1c4_133_24_alg».proof.Proof.ScGatherI

set_option maxRecDepth 16384

noncomputable section

namespace Cert.Proof.LaunchI

open Cert.KernelIdeal Cert.KernelIdeal.Gen

open Idealize.ShloMosaic Idealize.ShloMosaic.TcCoe
open Idealize.ShloMosaic.Pipeline (Dat)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-! ## The launch element: the handshakes' rounds, the pipeline's staging cells, the transfers' counters -/

def u₀ : UU := (initOf (K (F := F)).hsCells (K (F := F)).hsToks, (initOf (Pipeline.cells cfgs cellOf_inj) (Pipeline.launchToks cfgs cellOf_inj), 1))

/-- What the launch deals device `d`'s TensorCore for the pipeline: its staging cells' ghost state and duty tokens. -/
def G (d : Dev nD) : sProp 𝕄 :=
  iprop((bigSep Finset.univ fun p : Fin 1 => Pipeline.cellsGhost cfgs (EP (F := F)) p d) ∗ (bigSep Finset.univ fun p : Fin 1 => Pipeline.toksInit cfgs (EP (F := F)) p d))

theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => P.x q thr) := by
  unfold u₀
  iintro ⟨Hu, Hcr, Hfree⟩
  ihave H := (ownU_pair _ _) $$ Hu
  icases H with ⟨HH, HR⟩
  ihave HR' := (own_pair_emb embR _ (1 : Counters)) $$ HR
  icases HR' with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg] <;> iassumption
  rw [show (bigSep Finset.univ fun thr : Thread nD τ => bigSep Finset.univ fun q : Fin 1 => P.x q thr) = bigSep Finset.univ fun _ : Thread nD τ => (iprop(emp) : sProp 𝕄) from
    bigSep_congr fun thr _ => (bigSep_univ_of_subsingleton (0 : Fin 1)).trans (hx 0 thr),
    show (bigSep Finset.univ fun _ : Thread nD τ => (iprop(emp) : sProp 𝕄)) = iprop(emp) from bigSep_emp_const _]
  iempintro

variable [FloatOps F] (m : (ℓ : Loc nD τ sig) → Buf (Elt F) ℓ) (ρ : Dev nD → PrngReg)

/-- The host operations before the kernel region: the attention vector as a row, the classifier's weight and bias padded to 128 columns. -/
def preOps : List (HloOp τ sig (Elt F)) :=
  [ StableHlo.reshape main_arg10 main_v0 rfl shapeCasts_S128_S1x128,
    StableHlo.nullary main_c (constantI S_ 32 0#32),
    StableHlo.TRef.unary (.of main_c : StableHlo.TRef sig ⟨S_, .i32⟩) main_call0.v0 (sitofp .f32),
    StableHlo.TRef.binary (.of main_arg11 : StableHlo.TRef sig ⟨S128x40, .f32⟩) main_call0.v0 main_call0.v1 (fun x v => pad S128x128 ![0, 0] ![0, 88] ![0, 0] x v pads_S128x40_S128x128_000_0880 h_S_),
    StableHlo.reshape main_arg12 main_v2 rfl shapeCasts_S40_S1x40,
    StableHlo.nullary main_c_0 (constantI S_ 32 0#32),
    StableHlo.TRef.unary (.of main_c_0 : StableHlo.TRef sig ⟨S_, .i32⟩) main_call1.v0 (sitofp .f32),
    StableHlo.TRef.binary (.of main_v2 : StableHlo.TRef sig ⟨S1x40, .f32⟩) main_call1.v0 main_call1.v1 (fun x v => pad S1x128 ![0, 0] ![0, 88] ![0, 0] x v pads_S1x40_S1x128_000_0880 h_S_) ]

/-- The host operations after the SparseCore call: the first 40 columns of the gathered rows, the weights transposed. -/
def postOps : List (HloOp τ sig (Elt F)) :=
  [ StableHlo.unary main_v5 main_v6 ((extractStridedSlice S1024x40 ![0, 0] · slices_S1024x128_S1024x40_0_0) : (⟨S1024x128, .f32⟩ : BufTy).Contents (Elt F) → (⟨S1024x40, .f32⟩ : BufTy).Contents (Elt F)),
    StableHlo.unary main_v4_0 main_v7 ((transpose S2x10000 [1, 0] · transposes_S10000x2_S2x10000_1_0) : (⟨S10000x2, .f32⟩ : BufTy).Contents (Elt F) → (⟨S2x10000, .f32⟩ : BufTy).Contents (Elt F)) ]

theorem main_eq (d : Dev nD) : main (F := F) d
    = (StableHlo.seq (preOps (F := F)) >>= fun _ => (Prog.lift (.customCall (SparseCore.inner (Pipeline.entry 0)) ()) >>= fun _ =>
        ((sc (F := F)).run d 0 >>= fun _ => StableHlo.seq (postOps (F := F))))) := by
  unfold main preOps postOps fn_pad.body fn_pad_0.body
  simp only [StableHlo.seq, bind_assoc, pure_bind]

/-! ## The buffers' contents at each boundary of @main -/

/-- At launch. -/
abbrev W0 (d : Dev nD) : Valuation τ sig (Elt F) := fun b => m (d, b)
/-- At the region's entry: the host operations' results. -/
def Wpre (d : Dev nD) : Valuation τ sig (Elt F) := StableHlo.after (preOps (F := F)) (W0 m d)
/-- The same read at the TensorCore's references. -/
abbrev Vpre : (c : Dev nD) → (b : Ref sig .tc) → Buf (Elt F) ((c : Thread nD τ).loc b) := fun c b => Wpre m c b

/-- What the TensorCore owes through the region (the SparseCore call's start signals), and the bound on what it has waited on. -/
abbrev Otc (d : Dev nD) : CellTallies nD τ sig (HIx 1) := (K (F := F)).Otc d 0
abbrev Rec (d : Dev nD) : Set (SemLoc sig × HIx 1) := {p | (K (F := F)).lev ((T d), p.1) p.2 ≤ 0}

/-- What the region's proof supplies: the proof data over the entry contents, owing `Otc` throughout, with its body obligation and
    the invariant's two ends. -/
structure TcData (c : Dev nD) where
  dat : Dat τ (Elt F) (HIx 1) ℕ UU ℕ cfg0 c
  A_eq : ∀ w, dat.A w = Vpre m c (Pipeline.arrRef spec0 w)
  q_full : ∀ w, dat.q w = fullShare
  owed_eq : ∀ t, dat.owed t = Otc (F := F) c
  rec_eq : ∀ t, dat.recorded t = Rec (F := F) c
  body : Pipeline.BodyObligationLoose dat (defs₀ (F := F)) Variants.none (none : HIx 1) Set.univ
  phi_in : iprop((∃ r, prngReg c r) ∗ Pipeline.scopedRest (Ix := HIx 1) (Name := ℕ) (U := UU) (Lvl := ℕ) (Val := Elt F) spec0 c) ⊢ dat.Φ 0
  phi_out : dat.Φ (Fin.last _) ⊢ iprop((∃ r, prngReg c r) ∗ Pipeline.scopedRest (Ix := HIx 1) (Name := ℕ) (U := UU) (Lvl := ℕ) (Val := Elt F) spec0 c)

variable (tc : (c : Dev nD) → TcData (F := F) m c)

/-- At the region's exit: its arrays at what the pipeline leaves, every other buffer as entered. -/
def W1 (c : Dev nD) : Valuation τ sig (Elt F) :=
  Pipeline.withArrays spec0 c (Wpre m c) fun w => (tc c).dat.arrAt w cfg0.N
theorem W1_arr (c : Dev nD) (w : Fin cfg0.W) :
    W1 m tc c (Proc.devRef .tc (Pipeline.arrRef spec0 w)) = (tc c).dat.arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m tc c (Proc.devRef .tc b) = Wpre m c (Proc.devRef .tc b) := by
  unfold W1; exact Pipeline.withArrays_of_ne spec0 c _ _ b hb
abbrev V1 : (c : Dev nD) → (b : Ref sig .tc) → Buf (Elt F) ((c : Thread nD τ).loc b) := fun c b => W1 m tc c b
theorem hF0 (c : Dev nD) (w : Fin cfg0.W) : (tc c).dat.arrAt w cfg0.N = V1 m tc c (Pipeline.arrRef spec0 w) :=
  (W1_arr m tc c w).symm
theorem hrest0 (c : Dev nD) : ∀ b, b ∉ Finset.univ.image (Pipeline.arrRef spec0) → V1 m tc c b = Vpre m c b :=
  fun b hb => W1_of_ne m tc c b fun w e => hb (Finset.mem_image.mpr ⟨w, Finset.mem_univ _, e⟩)

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => (tc c).dat

/-- What rides beside the buffers through the region: the generator register and what the TensorCore owes, its recorded waits bounded. -/
abbrev Rst (c : Dev nD) : sProp 𝕄 :=
  iprop((∃ r, prngReg c r) ∗ ∃ W, ⌜(K (F := F)).WBelow (T c) W 0⌝ ∗ owes (T c) (Otc (F := F) c) W)

theorem Otc_none (c : Dev nD) (g : GSem nD τ sig) : Otc (F := F) c g none = 0 := by
  by_contra h
  have := (K (F := F)).lev_of_Otc_pos (d := c) (n := 0) (g := g) (ι := none) (Nat.pos_of_ne_zero h)
  rw [SparseCore.Cfg.lev_none] at this; omega

-- a library lemma stated over `pin pcs a p` unifies with the pinned configuration only when unification may unfold plain
-- definitions in a metavariable's type
set_option backward.isDefEq.respectTransparency.types false in
/-- The kernel region over the thread state: entered from every unscoped buffer at `Wpre`, left at `W1`; its arrays split out
    of the unscoped buffers and put back at the exit contents; the generator register into the invariant and out; the TensorCore
    owes the SparseCore call's start signals throughout, its waits on the staging cells at index `none`, below them. -/
def reg0 : Pipeline.RegionSeg (pcfgs (F := F)) adm (pdats m tc) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (tc c).body
  hwaits c := Pipeline.cellsWaits_intro _ _ _ _ _ fun w s t => by
    rw [show (pdats m tc 0 c).owed t = Otc (F := F) c from (tc c).owed_eq t]
    exact (K (F := F)).mayWait_none _ (Otc_none c)
  pre c := iprop(StableHlo.held (c : Thread nD τ) (Pipeline.ucRefs τ sig) (Wpre m c) ∗ Rst (F := F) c)
  post c := iprop(StableHlo.held (c : Thread nD τ) (Pipeline.ucRefs τ sig) (W1 m tc c) ∗ Rst (F := F) c)
  X c := iprop(∃ r, prngReg c r)
  Y c := iprop(∃ r, prngReg c r)
  Z c := Pipeline.unscopedRest (Ix := HIx 1) (Name := ℕ) (U := UU) (Lvl := ℕ) spec0 c (Vpre m c)
  hentry c := by
    rw [Pipeline.ownSems0_none]
    have hsplit := Pipeline.arrays_of_unscopedBufs (p := 0) (pcfgs (F := F)) adm (pdats m tc) launch0.win launch0.arr_whole c
      ((pdats m tc 0 c).share_full (tc c).q_full) (Vpre m c) (tc c).A_eq
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; intro p hp; refine Or.inl ?_
        rw [show (pdats m tc 0 c).recorded 0 = Rec (F := F) c from (tc c).rec_eq 0]
        exact hW p hp
      rw [show (pdats m tc 0 c).owed 0 = Otc (F := F) c from (tc c).owed_eq 0]
      iexact HO
    isplitl [Hp]; · iexact Hp
    iexact Hrest
  hin c := by
    rw [show (pdats m tc 0 c).Φ 0 = (tc c).dat.Φ 0 from rfl]
    iintro ⟨Hp, -, Hr⟩
    iapply (tc c).phi_in
    isplitl [Hp]; · iexact Hp
    iexact Hr
  hout c := by
    rw [Pipeline.ownSems0_none, show (pdats m tc 0 c).Φ (Fin.last _) = (tc c).dat.Φ (Fin.last _) from rfl]
    iintro H
    ihave H' := (tc c).phi_out $$ H
    icases H' with ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m tc) ((pdats m tc 0 c).share_full (tc c).q_full)
      (Vpre m c) (V1 m tc c) ((pdats m tc 0 c).arrAt · cfg0.N) (hF0 m tc c) (hrest0 m tc c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | h
      · rw [show (pdats m tc 0 c).recorded (Fin.last _) = Rec (F := F) c from (tc c).rec_eq _] at h; exact h
      · obtain ⟨w, s, rfl⟩ := h; exact le_of_eq (SparseCore.Cfg.lev_none _ _)
    rw [show (pdats m tc 0 c).owed (Fin.last _) = Otc (F := F) c from (tc c).owed_eq _]
    iexact HO

/-! ## @main on the TensorCore -/

section Main

abbrev i' : DevRef τ sig := Proc.devRef .tc main_arg0
abbrev t' : DevRef τ sig := Proc.devRef .tc main_v4_1
abbrev o' : DevRef τ sig := Proc.devRef .tc main_v5
abbrev iLoc (d : Dev nD) : Loc nD τ sig := (SparseCore.T d).loc main_arg0
abbrev tLoc (d : Dev nD) : Loc nD τ sig := (SparseCore.T d).loc main_v4_1
abbrev oLoc (d : Dev nD) : Loc nD τ sig := (SparseCore.T d).loc main_v5

/-- The table the SparseCore kernel gathers from: the classifier's rows as the region left them. -/
def tab (d : Dev nD) : Buf (Elt F) (tLoc d) := W1 m tc d t'

/-- What the SparseCore call's proof supplies: the handshakes' payload, the gathered rows as one function, how the whole arrays
    split into the SparseCores' shares and join again, the tiles' obligation and their split. -/
structure ScData where
  P : (K (F := F)).Pay (nD := nD) (Val := Elt F) (Name := ℕ) (U := UU)
  hx : ∀ q thr, P.x q thr = (iprop(emp) : sProp (MT nD τ sig (HIx 1) (Elt F) ℕ UU ℕ))
  gath : (d : Dev nD) → Buf (Elt F) (oLoc d)
  st_of_whole : ∀ (d : Dev nD) (f : Buf (Elt F) (oLoc d)),
    (iprop((iLoc d ↦{fullShare} m (iLoc d)) ∗ (tLoc d ↦{fullShare} tab m tc d) ∗ (oLoc d ↦{fullShare} f)) : sProp (MT nD τ sig (HIx 1) (Elt F) ℕ UU ℕ))
      ⊢ bigSep Finset.univ fun c : Fin ((K (F := F)).nCore 0) => P.st 0 d c
  whole_of_dn : ∀ d : Dev nD, (bigSep Finset.univ fun c : Fin ((K (F := F)).nCore 0) => P.dn 0 d c : sProp (MT nD τ sig (HIx 1) (Elt F) ℕ UU ℕ))
      ⊢ iprop((iLoc d ↦{fullShare} m (iLoc d)) ∗ (tLoc d ↦{fullShare} tab m tc d) ∗ (oLoc d ↦{fullShare} gath d))

variable (sd : ScData (F := F) m tc)

/-- After the SparseCore call: the gathered rows in `main_v5`. -/
def W2 (d : Dev nD) : Valuation τ sig (Elt F) := Function.update (W1 m tc d) o' (sd.gath d)
/-- At the end: the two host operations' results. -/
def Wfin (d : Dev nD) : Valuation τ sig (Elt F) := StableHlo.after (postOps (F := F)) (W2 m tc sd d)

def S3 : Finset (DevRef τ sig) := {i', t', o'}
theorem S3_sub : S3 ⊆ Pipeline.ucRefs τ sig := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem preOps_sub : ∀ op ∈ preOps (F := F), op.bufs ⊆ Pipeline.ucRefs τ sig := by
  intro op h; simp only [preOps, List.mem_cons, List.mem_nil_iff, or_false] at h
  rcases h with rfl | rfl | rfl | rfl | rfl | rfl | rfl | rfl
  · exact (show ({Proc.devRef .tc main_arg10, Proc.devRef .tc main_v0} : Finset (DevRef τ sig)) ⊆ Pipeline.ucRefs τ sig by decide)
  · exact (show ({Proc.devRef .tc main_c} : Finset (DevRef τ sig)) ⊆ Pipeline.ucRefs τ sig by decide)
  · exact (show ({Proc.devRef .tc main_c, Proc.devRef .tc main_call0_v0} : Finset (DevRef τ sig)) ⊆ Pipeline.ucRefs τ sig by decide)
  · exact (show ({Proc.devRef .tc main_arg11, Proc.devRef .tc main_call0_v0, Proc.devRef .tc main_v1} : Finset (DevRef τ sig)) ⊆ Pipeline.ucRefs τ sig by decide)
  · exact (show ({Proc.devRef .tc main_arg12, Proc.devRef .tc main_v2} : Finset (DevRef τ sig)) ⊆ Pipeline.ucRefs τ sig by decide)
  · exact (show ({Proc.devRef .tc main_c_0} : Finset (DevRef τ sig)) ⊆ Pipeline.ucRefs τ sig by decide)
  · exact (show ({Proc.devRef .tc main_c_0, Proc.devRef .tc main_call1_v0} : Finset (DevRef τ sig)) ⊆ Pipeline.ucRefs τ sig by decide)
  · exact (show ({Proc.devRef .tc main_v2, Proc.devRef .tc main_call1_v0, Proc.devRef .tc main_v3} : Finset (DevRef τ sig)) ⊆ Pipeline.ucRefs τ sig by decide)
theorem preOps_fresh : ∀ op ∈ preOps (F := F), op.fresh = ∅ := by
  intro op h; simp only [preOps, List.mem_cons, List.mem_nil_iff, or_false] at h
  rcases h with rfl | rfl | rfl | rfl | rfl | rfl | rfl | rfl <;> rfl
theorem postOps_sub : ∀ op ∈ postOps (F := F), op.bufs ⊆ Pipeline.ucRefs τ sig := by
  intro op h; simp only [postOps, List.mem_cons, List.mem_nil_iff, or_false] at h
  rcases h with rfl | rfl
  · exact (show ({Proc.devRef .tc main_v5, Proc.devRef .tc main_v6} : Finset (DevRef τ sig)) ⊆ Pipeline.ucRefs τ sig by decide)
  · exact (show ({Proc.devRef .tc main_v4_0, Proc.devRef .tc main_v7} : Finset (DevRef τ sig)) ⊆ Pipeline.ucRefs τ sig by decide)
theorem postOps_fresh : ∀ op ∈ postOps (F := F), op.fresh = ∅ := by
  intro op h; simp only [postOps, List.mem_cons, List.mem_nil_iff, or_false] at h
  rcases h with rfl | rfl <;> rfl

/-- The references the host operations before the region write, and after the call. -/
def preW : List (Ref sig .tc) := [main_v0, main_c, main_call0_v0, main_v1, main_v2, main_c_0, main_call1_v0, main_v3]
def postW : List (Ref sig .tc) := [main_v6, main_v7]
theorem preOps_writes : (preOps (F := F)).Forall fun op => op.writes ⊆ (preW.map (Proc.devRef (τ := τ) .tc)).toFinset := by
  simp only [preOps, List.forall_cons, List.Forall]
  refine ⟨?_, ?_, ?_, ?_, ?_, ?_, ?_, ?_⟩
  · exact (show ({Proc.devRef .tc main_v0} : Finset (DevRef τ sig)) ⊆ _ by decide)
  · exact (show ({Proc.devRef .tc main_c} : Finset (DevRef τ sig)) ⊆ _ by decide)
  · exact (show ({Proc.devRef .tc main_call0_v0} : Finset (DevRef τ sig)) ⊆ _ by decide)
  · exact (show ({Proc.devRef .tc main_v1} : Finset (DevRef τ sig)) ⊆ _ by decide)
  · exact (show ({Proc.devRef .tc main_v2} : Finset (DevRef τ sig)) ⊆ _ by decide)
  · exact (show ({Proc.devRef .tc main_c_0} : Finset (DevRef τ sig)) ⊆ _ by decide)
  · exact (show ({Proc.devRef .tc main_call1_v0} : Finset (DevRef τ sig)) ⊆ _ by decide)
  · exact (show ({Proc.devRef .tc main_v3} : Finset (DevRef τ sig)) ⊆ _ by decide)
theorem postOps_writes : (postOps (F := F)).Forall fun op => op.writes ⊆ (postW.map (Proc.devRef (τ := τ) .tc)).toFinset := by
  simp only [postOps, List.forall_cons, List.Forall]
  refine ⟨?_, ?_⟩
  · exact (show ({Proc.devRef .tc main_v6} : Finset (DevRef τ sig)) ⊆ _ by decide)
  · exact (show ({Proc.devRef .tc main_v7} : Finset (DevRef τ sig)) ⊆ _ by decide)
/-- A buffer the host prefix does not write enters the region as launched. -/
theorem Wpre_of_not_mem (d : Dev nD) (r : Ref sig .tc) (hr : r ∉ preW) : Wpre m d (Proc.devRef .tc r) = m (d, Proc.devRef .tc r) := by
  unfold Wpre; exact StableHlo.after_of_writes_sub (preOps (F := F)) (W0 m d) preOps_writes hr

theorem W1_i (d : Dev nD) : W1 m tc d i' = m (iLoc d) :=
  (W1_of_ne m tc d main_arg0 (by decide)).trans (Wpre_of_not_mem m d main_arg0 (by decide))

theorem held_S3 (d : Dev nD) (Vv : Valuation τ sig (Elt F)) :
    (StableHlo.held (T d) S3 Vv : sProp 𝕄) = iprop(((d, i') ↦{fullShare} Vv i') ∗ ((d, t') ↦{fullShare} Vv t') ∗ ((d, o') ↦{fullShare} Vv o')) := by
  unfold StableHlo.held S3
  rw [SparseCore.bigSep_insert' (by decide), SparseCore.bigSep_insert' (by decide), bigSep_singleton]

theorem held_W2 (d : Dev nD) :
    (StableHlo.held (T d) (Pipeline.ucRefs τ sig) (W2 m tc sd d) : sProp 𝕄)
      = iprop((((iLoc d) ↦{fullShare} m (iLoc d)) ∗ ((tLoc d) ↦{fullShare} tab m tc d) ∗ ((oLoc d) ↦{fullShare} sd.gath d))
          ∗ StableHlo.held (T d) (Pipeline.ucRefs τ sig \ S3) (W1 m tc d)) := by
  rw [StableHlo.held_sub_split (T d) S3_sub (W2 m tc sd d), held_S3,
    StableHlo.held_congr (T d) (V := W2 m tc sd d) (V' := W1 m tc d) (fun b hb => Function.update_of_ne (fun e => by
      subst e; exact (Finset.mem_sdiff.mp hb).2 (by decide)) _ _)]
  unfold W2
  rw [Function.update_of_ne (show (i' : DevRef τ sig) ≠ o' by decide), Function.update_of_ne (show (t' : DevRef τ sig) ≠ o' by decide), Function.update_self, W1_i]
  rfl

/-- The TensorCore's state before call 0, its debts apart. -/
def TR (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) : ((K (F := F)).tcSt EH d 0 : sProp 𝕄)
    = iprop((∃ W, ⌜(K (F := F)).WBelow (T d) W 0⌝ ∗ owes (T d) (Otc (F := F) d) W) ∗ TR (F := F) d) := rfl

/-- What @main leaves the claim: every unscoped buffer at the last boundary's contents. -/
abbrev FIN (d : Dev nD) : sProp 𝕄 := StableHlo.held (T d) (Pipeline.ucRefs τ sig) (Wfin m tc sd d)

set_option backward.isDefEq.respectTransparency.types false in
theorem hmain (κ : GSem nD τ sig → ℕ) (d : Dev nD) :
    iprop((K (F := F)).ctx EH sd.P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m tc sd d) := by
  unfold SparseCore.Cfg.tcRes
  rw [Pipeline.unscopedBufs_held d (W0 m d), main_eq]
  iintro ⟨#Hctx, Hst, ⟨Hb, Hheld, -, Hprng⟩, HG⟩
  -- the host operations before the region
  iapply (StableHlo.wp_seq (defs := (K (F := F)).defs (D (F := F))) 𝒱 none Set.univ d (Pipeline.ucRefs τ sig) _ (preOps (F := F)) preOps_sub preOps_fresh (W0 m d)) $$ [Hb Hheld]
  · isplitl [Hb] <;> iassumption
  iintro ⟨Hb, Hheld⟩
  ihave Hheld := (Entails.of_eq (show (StableHlo.held (T d) (Pipeline.ucRefs τ sig) (StableHlo.after (preOps (F := F)) (W0 m d)) : sProp 𝕄)
      = StableHlo.held (T d) (Pipeline.ucRefs τ sig) (Wpre m d) from rfl)) $$ Hheld
  -- the kernel region, from the pipeline's ghost state; the TensorCore's debts ride through it
  ihave Hst' := (Entails.of_eq (tcSt_eq (F := F) d)) $$ Hst
  icases Hst' with ⟨HO, HTR⟩
  ihave Hlev := (SparseCore.Cfg.ctx_levAts κ) $$ Hctx
  unfold G
  icases HG with ⟨Hg, Ht⟩
  ihave Hg' := (Entails.of_eq (bigSep_univ_of_subsingleton (0 : Fin 1) (Φ := fun p : Fin 1 => Pipeline.cellsGhost cfgs (EP (F := F)) p d))) $$ Hg
  ihave Ht' := (Entails.of_eq (bigSep_univ_of_subsingleton (0 : Fin 1) (Φ := fun p : Fin 1 => Pipeline.toksInit cfgs (EP (F := F)) p d))) $$ Ht
  rw [wp_bind]
  iapply ((K (F := F)).wp_liftProg (D (F := F)) 𝒱 (T d) Set.univ none (Prog.lift (.customCall (Pipeline.entry 0) ())) _)
  iapply (Pipeline.RegionSeg.wp (pcfgs (F := F)) adm (pdats m tc) (none : HIx 1) cellOf_inj (EP (F := F)) defs₀ 𝒱₀ (K (F := F)).L (K (F := F)).lev
    (reg0 m tc) d none (fun u hu => nomatch hu) (fun x => .ret x) _) $$ [Hb Hheld Hprng HO Hlev Hg' Ht' HTR]
  isplitr [Hb Hheld Hprng HO Hlev Hg' Ht']
  swap
  · isplitl [Hb]; · iexact Hb
    isplitl [Hheld Hprng HO]
    · iapply (Entails.of_eq (show (iprop(StableHlo.held (d : Thread nD τ) (Pipeline.ucRefs τ sig) (Wpre m d) ∗ Rst (F := F) d) : sProp 𝕄) = (reg0 m tc).pre d from rfl))
      isplitl [Hheld]; · iexact Hheld
      isplitl [Hprng]; · iexists _; iexact Hprng
      iexact HO
    isplitl [Hlev]; · iexact Hlev
    isplitl [Hg']; · iexact Hg'
    iexact Ht'
  iintro ⟨Hb, Hpost⟩
  ihave Hpost' := (Entails.of_eq (show (reg0 m tc).post d = (iprop(StableHlo.held (d : Thread nD τ) (Pipeline.ucRefs τ sig) (W1 m tc d) ∗ Rst (F := F) d) : sProp 𝕄) from rfl)) $$ Hpost
  icases Hpost' with ⟨Hheld, Hprng, HO⟩
  rw [wp_ret]; imodintro
  -- the SparseCore call: the node ids, the table and the rows' destination out of the unscoped buffers and back
  rw [wp_bind]
  ihave Hh := (Entails.of_eq (StableHlo.held_sub_split (T d) S3_sub (W1 m tc d))) $$ Hheld
  icases Hh with ⟨H3, Hrest⟩
  ihave H3' := (Entails.of_eq (held_S3 (F := F) d (W1 m tc d))) $$ H3
  icases H3' with ⟨Hi, Ht, Ho⟩
  iapply ((K (F := F)).wp_run (D (F := F)) 𝒱 (EH := EH) (P := sd.P) κ d 0) $$ [HO HTR Hi Ht Ho Hb Hrest Hprng]
  isplitr; · iexact Hctx
  isplitl [HO HTR]
  · iapply (Entails.of_eq (tcSt_eq (F := F) d).symm)
    isplitl [HO] <;> iassumption
  isplitl [Hi Ht Ho]
  · iapply (sd.st_of_whole d (W1 m tc d o'))
    isplitl [Hi]; · rw [W1_i]; iexact Hi
    isplitl [Ht]; · iexact Ht
    iexact Ho
  iintro ⟨Hst, Hdn⟩
  ihave Hdn' := (sd.whole_of_dn d) $$ Hdn
  icases Hdn' with ⟨Hi, Ht, Ho⟩
  ihave Hheld := (Entails.of_eq (held_W2 (F := F) m tc sd d).symm) $$ [Hi Ht Ho Hrest]
  · isplitr [Hrest]
    · isplitl [Hi]; · iexact Hi
      isplitl [Ht]; · iexact Ht
      iexact Ho
    iexact Hrest
  -- the two host operations after it
  iapply (StableHlo.wp_seq (defs := (K (F := F)).defs (D (F := F))) 𝒱 none Set.univ d (Pipeline.ucRefs τ sig) (fun x => .ret x) (postOps (F := F)) postOps_sub postOps_fresh (W2 m tc sd d)) $$ [Hb Hheld]
  · isplitl [Hb] <;> iassumption
  iintro ⟨Hb, Hheld⟩
  rw [wp_ret]; imodintro
  isplitl [Hst]; · iexact Hst
  iexact Hheld

/-- The claim read off a final memory: every unscoped buffer of the device holds the last boundary's contents. -/
def fq (d : Dev nD) (s' : Phys nD τ sig (Elt F)) : Prop := ∀ b ∈ Pipeline.ucRefs τ sig, s'.mem.mem (d, b) = Wfin m tc sd d b

theorem hfin (d : Dev nD) (s' : Phys nD τ sig (Elt F)) : iprop(FIN m tc sd d ∗ SI s') ⊢ (⌜fq m tc sd d s'⌝ : sProp 𝕄) := by
  unfold FIN StableHlo.held
  refine (pointsTo_read_all (Pipeline.ucRefs τ sig) (fun b => ((d, b) : Loc nD τ sig)) (Wfin m tc sd d) s').trans ?_
  iintro ⟨%h, -⟩
  ipureintro; exact h

def QC : PUnit × MemSt nD τ sig (Elt F) → Prop := fun r => ∀ c : Dev nD, ∀ b ∈ Pipeline.ucRefs τ sig, r.2.mem (c, b) = Wfin m tc sd c b

end Main

/-! ## The two proofs' data, and the program's run -/

/-- The region's proof data at the entry contents. -/
def tcData (c : Dev nD) : TcData (F := F) m c where
  dat := Cert.Proof.TcBodyI.dat0 (F := F) (Ix := HIx 1) (UU := UU) (Vpre m) (Otc (F := F) c) (Rec (F := F) c) c
  A_eq := Cert.Proof.TcBodyI.A_eq0 (F := F) (Ix := HIx 1) (UU := UU) (Vpre m) (Otc (F := F) c) (Rec (F := F) c) c
  q_full := fun _ => rfl
  owed_eq := fun _ => rfl
  rec_eq := fun _ => rfl
  body := Cert.Proof.TcBodyI.body_obligation0_loose (F := F) (Ix := HIx 1) (UU := UU) (Vpre m) (Otc (F := F) c) (Rec (F := F) c) c none
  phi_in := Cert.Proof.TcBodyI.phi_in0' (F := F) (Ix := HIx 1) (UU := UU) (Vpre m) (Otc (F := F) c) (Rec (F := F) c) c
  phi_out := (Cert.Proof.TcBodyI.phi_out0 (F := F) (Ix := HIx 1) (UU := UU) (Vpre m) (Otc (F := F) c) (Rec (F := F) c) c).trans (by
    rw [Pipeline.ownSems0_none]
    iintro ⟨Hp, -, Hr⟩
    isplitl [Hp] <;> iassumption)

/-- The SparseCore call's proof data over the table the region leaves. -/
def scData : ScData (F := F) m (tcData m) where
  P := Cert.Proof.ScGatherI.P (F := F) (UU := UU) m (tab m (tcData m))
  hx := fun _ _ => rfl
  gath := fun d => Cert.Proof.ScGatherI.gathered (tab m (tcData m) d) (m (iLoc d))
  st_of_whole := fun d f => Cert.Proof.ScGatherI.st_of_whole (F := F) (UU := UU) m (tab m (tcData m)) d f
  whole_of_dn := fun d => Cert.Proof.ScGatherI.whole_of_dn (F := F) (UU := UU) m (tab m (tcData m)) d

instance scP_storable : (scData (F := F) m).P.IsStorable := Cert.Proof.ScGatherI.P_storable (F := F) (UU := UU) m (tab m (tcData m))

/-- The run of the whole program: every weakly fair execution of all its threads terminates, and every unscoped buffer of every
    device ends at the last boundary's contents. -/
theorem run_main [∀ e, Nonempty (Elt F e)] (hin : ∀ (d : Dev nD) (j : S1024.Idx), (m (iLoc d) j).toNat < 10000) :
    θ_run (Cert.KernelIdeal.defs (F := F)) (Cert.KernelIdeal.threads (F := F)) ⟨m, fun _ => 0, ρ⟩ (QC m (tcData m) (scData m)) :=
  SparseCore.Cfg.θ_run_sc (K := K (F := F)) (D := D (F := F)) (𝒱 := 𝒱) (EH := EH) (P := (scData (F := F) m).P) facts v₀
    (fun q hq => match q with | 0 => nomatch hq)
    (fun q _ => match q with | 0 => Cert.Proof.ScGatherI.tileObl (F := F) (UU := UU) m (tab m (tcData m)) facts hin)
    (fun q _ => match q with | 0 => SparseCore.Cfg.VecSplit.of_plain (Cert.Proof.ScGatherI.vecSplit (F := F) (UU := UU) m (tab m (tcData m))))
    m ρ main (G (F := F)) (FIN m (tcData m) (scData m)) (u₀ (F := F)) (hu₀ (scData (F := F) m).P (scData (F := F) m).hx)
    (hmain m ρ (tcData m) (scData m)) (fq m (tcData m) (scData m)) (hfin m (tcData m) (scData m)) (QC m (tcData m) (scData m)) (fun _ h => h)

end Cert.Proof.LaunchI

end
-- ==== Proof.FoldArgsI.lean ====
/-
  The argument arrays end as launched: no host operation writes one, the kernel region only reads the nine it stages (an input
  window's array is left at its entry contents) and bypasses the other four, and the SparseCore call writes only the gathered
  rows' buffer. So the fold of contents through @main, read at an argument's buffer, walks back to the launch memory; the
  frame of the program is its run with everything else forgotten.
-/
import proofs.«208996_g46033459479168_cont_8to1c4_133_24_alg».proof.Proof.LaunchI

set_option maxRecDepth 16384

noncomputable section

namespace Cert.Proof.FoldArgsI

open Cert.KernelIdeal Cert.KernelIdeal.Gen Cert.Proof.LaunchI
open Idealize.ShloMosaic Idealize.ShloMosaic.TcCoe
open Idealize.SL Idealize.SL.Sem

variable {F : FTy → Type} [FloatOps F] (m : (ℓ : Loc nD τ sig) → Buf (Elt F) ℓ) (ρ : Dev nD → PrngReg)
variable (tc : (c : Dev nD) → TcData (F := F) m c) (sd : ScData (F := F) m tc)

/-- A buffer that no host operation writes, that is no array of the region and not the gathered rows' keeps its launch contents. -/
theorem Wfin_rest (d : Dev nD) (r : Ref sig .tc) (h1 : r ∉ postW) (h2 : (Proc.devRef .tc r : DevRef τ sig) ≠ o')
    (h3 : ∀ w, Pipeline.arrRef spec0 w ≠ r) (h4 : r ∉ preW) :
    Wfin m tc sd d (Proc.devRef .tc r) = m (d, Proc.devRef .tc r) :=
  (StableHlo.after_of_writes_sub (postOps (F := F)) (W2 m tc sd d) postOps_writes h1).trans
    ((Function.update_of_ne h2 _ _).trans ((W1_of_ne m tc d r h3).trans (Wpre_of_not_mem m d r h4)))

/-- An input window's array keeps its launch contents: the region leaves it as entered. -/
theorem Wfin_win (d : Dev nD) (w : Fin cfg0.W) (hw : (cfg0.win w).isOut = false) (h1 : Pipeline.arrRef spec0 w ∉ postW)
    (h2 : (Proc.devRef .tc (Pipeline.arrRef spec0 w) : DevRef τ sig) ≠ o') (h4 : Pipeline.arrRef spec0 w ∉ preW) :
    Wfin m tc sd d (Proc.devRef .tc (Pipeline.arrRef spec0 w)) = m (d, Proc.devRef .tc (Pipeline.arrRef spec0 w)) :=
  (StableHlo.after_of_writes_sub (postOps (F := F)) (W2 m tc sd d) postOps_writes h1).trans
    ((Function.update_of_ne h2 _ _).trans ((W1_arr m tc d w).trans (((tc d).dat.arrAt_in w hw _).trans
      (((tc d).A_eq w).trans (Wpre_of_not_mem m d _ h4)))))

/-- Every argument array ends as launched, in any final memory that holds the fold's last contents. -/
theorem args_of_QC (r : PUnit × MemSt nD τ sig (Elt F)) (h : QC m tc sd r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
    ⟨(h c _ (mem_uc main_arg0 (by decide))).trans (Wfin_rest m _ _ c main_arg0 (by decide) (by decide) (by decide) (by decide)),
     (h c _ (mem_uc main_arg1 (by decide))).trans (Wfin_win m _ _ c 2 rfl (by decide) (by decide) (by decide)),
     (h c _ (mem_uc main_arg2 (by decide))).trans (Wfin_win m _ _ c 0 rfl (by decide) (by decide) (by decide)),
     (h c _ (mem_uc main_arg3 (by decide))).trans (Wfin_win m _ _ c 1 rfl (by decide) (by decide) (by decide)),
     (h c _ (mem_uc main_arg4 (by decide))).trans (Wfin_win m _ _ c 3 rfl (by decide) (by decide) (by decide)),
     (h c _ (mem_uc main_arg5 (by decide))).trans (Wfin_win m _ _ c 4 rfl (by decide) (by decide) (by decide)),
     (h c _ (mem_uc main_arg6 (by decide))).trans (Wfin_win m _ _ c 5 rfl (by decide) (by decide) (by decide)),
     (h c _ (mem_uc main_arg7 (by decide))).trans (Wfin_win m _ _ c 6 rfl (by decide) (by decide) (by decide)),
     (h c _ (mem_uc main_arg8 (by decide))).trans (Wfin_win m _ _ c 7 rfl (by decide) (by decide) (by decide)),
     (h c _ (mem_uc main_arg9 (by decide))).trans (Wfin_win m _ _ c 8 rfl (by decide) (by decide) (by decide)),
     (h c _ (mem_uc main_arg10 (by decide))).trans (Wfin_rest m _ _ c main_arg10 (by decide) (by decide) (by decide) (by decide)),
     (h c _ (mem_uc main_arg11 (by decide))).trans (Wfin_rest m _ _ c main_arg11 (by decide) (by decide) (by decide) (by decide)),
     (h c _ (mem_uc main_arg12 (by decide))).trans (Wfin_rest m _ _ c main_arg12 (by decide) (by decide) (by decide) (by decide))⟩

/-- The program's run with the results forgotten: every argument array ends as launched. -/
theorem frame_run [∀ e, Nonempty (Elt F e)] (hin : ∀ (d : Dev nD) (j : S1024.Idx), (m (iLoc d) j).toNat < 10000) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.KernelIdeal.defs (F := F)) _ _).mono (fun r h c => args_of_QC m _ _ r h c) (run_main m ρ hin)

end Cert.Proof.FoldArgsI

end
-- ==== Proof.TcBodyKDefs.lean ====
/- The TensorCore region of the program: the blocks its windows stage, and the closed forms of what its body
   leaves in the four carried scratch buffers and in the two output windows, as pure terms over the body's
   payloads. -/
import proofs.«208996_g46033459479168_cont_8to1c4_133_24_alg».proof.Proof.Gen.Kernel.Launch
import proofs.«208996_g46033459479168_cont_8to1c4_133_24_alg».proof.Proof.Gen.Kernel.Skeleton
import proofs.«208996_g46033459479168_cont_8to1c4_133_24_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point: the one at which the body fills its scratch buffers. -/
def t0 : Fin cfg0.N := ⟨0, by decide⟩

/-! ## The body as a function of what it reads

Window numbering: 0, 1 = the two adjacency row blocks [200, 10000]; 2 = the feature matrix [10000, 128]; 3, 4 = the
two preparation weights; 5, 6 = the two aggregation weights; 7, 8 = the two self weights; 9 = the attention vector
[1, 128]; 10 = the padded classifier weight [128, 128]; 11 = the padded classifier bias [1, 128]; 12, 13 = the two
results' row blocks [200, 2] and [200, 128]. -/

/-- Rows `200 i .. 200 i + 200` of the feature matrix: the body's load through the point's row offset. -/
def fblk (x2 : Vec F S10000x128 .f32) (i : grid0.Coords) : Vec F S200x128 .f32 :=
  View.ld x2 (Rect.unit (s := S10000x128) (k0_off1 i) S200x128.size (k0_off1_inb i))

/-- The first carried scratch buffer: feats · (W_prep1 · W_agg_0), rounded to bf16. -/
def s0of (x2 : Vec F S10000x128 .f32) (x4 x5 : Vec F S128x128 .f32) : Vec F S10000x128 .bf16 := k0_pay11 x2 x4 x5
/-- The second: feats · (W_prep1 · W_agg_1), rounded to bf16. -/
def s1of (x2 : Vec F S10000x128 .f32) (x4 x6 : Vec F S128x128 .f32) : Vec F S10000x128 .bf16 := k0_pay12 x2 x4 x6
/-- The third: W_prep0 · W_self_0. -/
def c0of (x3 x7 : Vec F S128x128 .f32) : Vec F S128x128 .f32 := k0_pay13 x3 x7
/-- The fourth: W_prep0 · W_self_1. -/
def c1of (x3 x8 : Vec F S128x128 .f32) : Vec F S128x128 .f32 := k0_pay14 x3 x8

/-- The first hidden block h0 = relu (adj0 · s0 + fblk · c0). -/
def h0of (i : grid0.Coords) (x0 : Vec F S200x10000 .f32) (x2 : Vec F S10000x128 .f32) (s0 : Vec F S10000x128 .bf16) (c0 : Vec F S128x128 .f32) :
    Vec F S200x128 .f32 := k0_pay15 (fblk x2 i) x0 s0 c0
/-- The second hidden block h1 = relu (adj1 · s1 + fblk · c1). -/
def h1of (i : grid0.Coords) (x1 : Vec F S200x10000 .f32) (x2 : Vec F S10000x128 .f32) (s1 : Vec F S10000x128 .bf16) (c1 : Vec F S128x128 .f32) :
    Vec F S200x128 .f32 := k0_pay16 (fblk x2 i) x1 s1 c1
/-- tanh h0 times the attention vector, before the row sum. -/
def a0of (i : grid0.Coords) (x0 : Vec F S200x10000 .f32) (x2 : Vec F S10000x128 .f32) (s0 : Vec F S10000x128 .bf16) (c0 : Vec F S128x128 .f32)
    (x9 : Vec F S1x128 .f32) : Vec F S200x128 .f32 := k0_pay17 (fblk x2 i) x0 s0 c0 x9

/-- What the body stores in the first result's block: the two attention weights, side by side. -/
def out12 (i : grid0.Coords) (x0 x1 : Vec F S200x10000 .f32) (x2 : Vec F S10000x128 .f32) (s0 s1 : Vec F S10000x128 .bf16)
    (c0 c1 : Vec F S128x128 .f32) (x9 : Vec F S1x128 .f32) : Vec F S200x2 .f32 :=
  k0_pay9 (h1of i x1 x2 s1 c1) (a0of i x0 x2 s0 c0 x9) x9

/-- What the body stores in the second result's block: the attention-weighted sum of the hidden blocks through the
    classifier. -/
def out13 (i : grid0.Coords) (x0 x1 : Vec F S200x10000 .f32) (x2 : Vec F S10000x128 .f32) (s0 s1 : Vec F S10000x128 .bf16)
    (c0 c1 : Vec F S128x128 .f32) (x9 : Vec F S1x128 .f32) (x10 : Vec F S128x128 .f32) (x11 : Vec F S1x128 .f32) : Vec F S200x128 .f32 :=
  k0_pay10 (h0of i x0 x2 s0 c0) (h1of i x1 x2 s1 c1) (a0of i x0 x2 s0 c0 x9) x9 x10 x11

/-! ## At the region-entry contents -/

/-- The scratch buffers' contents from the first point on: computed there from the whole-array windows' blocks. -/
def S0 (c : Dev nD) : Vec F S10000x128 .bf16 := s0of (iblk0 V c 2 t0) (iblk0 V c 4 t0) (iblk0 V c 5 t0)
def S1 (c : Dev nD) : Vec F S10000x128 .bf16 := s1of (iblk0 V c 2 t0) (iblk0 V c 4 t0) (iblk0 V c 6 t0)
def C0 (c : Dev nD) : Vec F S128x128 .f32 := c0of (iblk0 V c 3 t0) (iblk0 V c 7 t0)
def C1 (c : Dev nD) : Vec F S128x128 .f32 := c1of (iblk0 V c 3 t0) (iblk0 V c 8 t0)

/-- What the body leaves in the first result's staging buffer at point `t`. -/
def OUT12 (c : Dev nD) (t : Fin cfg0.N) : Vec F S200x2 .f32 :=
  out12 (grid0.coords t) (iblk0 V c 0 t) (iblk0 V c 1 t) (iblk0 V c 2 t) (S0 V c) (S1 V c) (C0 V c) (C1 V c) (iblk0 V c 9 t)

/-- What the body leaves in the second result's staging buffer at point `t`. -/
def OUT13 (c : Dev nD) (t : Fin cfg0.N) : Vec F S200x128 .f32 :=
  out13 (grid0.coords t) (iblk0 V c 0 t) (iblk0 V c 1 t) (iblk0 V c 2 t) (S0 V c) (S1 V c) (C0 V c) (C1 V c) (iblk0 V c 9 t)
    (iblk0 V c 10 t) (iblk0 V c 11 t)

end Cert.Proof.TcBodyK

end
-- ==== Proof.TcBodyKRuns.lean ====
/- The TensorCore region's body: what its two control cases share — the branch condition in closed form over the
   grid, and the staging memrefs the pipeline passes the body at a point. -/
import proofs.«208996_g46033459479168_cont_8to1c4_133_24_alg».proof.Proof.TcBodyKDefs
import Idealize.ShloMosaic.Lib.Ring

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's one conditional ("is this the first grid point?"), from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the 50 points. -/
theorem hcond0_0 : ∀ t : Fin cfg0.N, cond0_0 (grid0.coords t) ↔ t.val % 50 = 0 :=
  (by decide +kernel : ∀ t : Fin grid0.N, cond0_0 (grid0.coords t) ↔ t.val % 50 = 0)

/-- The zero offsets of a rank-two rectangle, as the constant function. -/
theorem zoff2 : (![0, 0] : Fin 2 → ℕ) = fun _ => 0 := by funext a; fin_cases a <;> rfl

/-- One store through the whole-shape rectangle at zero offsets leaves its payload, whatever the buffer held. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Cert.Proof.TcBodyK

end
-- ==== Proof.TcBodyKRunA.lean ====
/- The TensorCore region's body at the first grid point: the branch taken, the four scratch buffers filled from the
   whole-array windows, then the point's two result blocks computed from them. -/
import proofs.«208996_g46033459479168_cont_8to1c4_133_24_alg».proof.Proof.TcBodyKRuns

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

set_option maxHeartbeats 2000000 in
/-- The body where the conditional is taken: on whole staging memrefs, the inputs' at their contents `x·` and the
    outputs' and the scratch buffers' at anything, it runs to the continuation holding the inputs' as they were, the
    scratch buffers at the products of the weights (`s0of` … `c1of`) and the outputs' at `out12`, `out13` of the
    inputs and those products. Each store covers its whole buffer, so what is read back is the stored payload. -/
theorem kernelRun0_A (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S200x2 .f32) (harg13 : arg13.IsWhole) (arg14 : Memref sig .tc .vmem S200x128 .f32) (harg14 : arg14.IsWhole) (arg15 : Memref sig .tc .vmem S10000x128 .bf16) (harg15 : arg15.IsWhole) (arg16 : Memref sig .tc .vmem S10000x128 .bf16) (harg16 : arg16.IsWhole) (arg17 : Memref sig .tc .vmem S128x128 .f32) (harg17 : arg17.IsWhole) (arg18 : Memref sig .tc .vmem S128x128 .f32) (harg18 : arg18.IsWhole) (hc0 : cond0_0 i)
    (x0 x1 : Vec F S200x10000 .f32) (x2 : Vec F S10000x128 .f32) (x3 x4 x5 x6 x7 x8 : Vec F S128x128 .f32) (x9 : Vec F S1x128 .f32) (x10 : Vec F S128x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (out12 i x0 x1 x2 (s0of x2 x4 x5) (s1of x2 x4 x6) (c0of x3 x7) (c1of x3 x8) x9)
            ∗ owns (c : Thread nD τ) arg14 fullShare (out13 i x0 x1 x2 (s0of x2 x4 x5) (s1of x2 x4 x6) (c0of x3 x7) (c1of x3 x8) x9 x10 x11)
            ∗ owns (c : Thread nD τ) arg15 fullShare (s0of x2 x4 x5) ∗ owns (c : Thread nD τ) arg16 fullShare (s1of x2 x4 x6)
            ∗ owns (c : Thread nD τ) arg17 fullShare (c0of x3 x7) ∗ owns (c : Thread nD τ) arg18 fullShare (c1of x3 x8)) -∗ K ⟨⟩))
      ⊢ wp frame (wpE (defs₀ (F := F)) Variants.none c none) E (cc0__hingcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11
  sl_unfold [cc0__hingcn_body]
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_run_names
    rw [read_writes_unit_zero _ _ zoff2]
    unfold out12 h1of a0of fblk s0of s1of c0of c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H13]
  · iexists _; isplitr; swap; · iexact H13
    ipureintro
    sl_unfold_run_names
    rw [read_writes_unit_zero _ _ zoff2]
    unfold out13 h0of h1of a0of fblk s0of s1of c0of c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H14]
  · iexists _; isplitr; swap; · iexact H14
    ipureintro
    sl_unfold_run_names
    rw [read_writes_unit_zero _ _ zoff2]
    unfold s0of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H15]
  · iexists _; isplitr; swap; · iexact H15
    ipureintro
    sl_unfold_run_names
    rw [read_writes_unit_zero _ _ zoff2]
    unfold s1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H16]
  · iexists _; isplitr; swap; · iexact H16
    ipureintro
    sl_unfold_run_names
    rw [read_writes_unit_zero _ _ zoff2]
    unfold c0of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  · iexists _; isplitr; swap; · iexact H17
    ipureintro
    sl_unfold_run_names
    rw [read_writes_unit_zero _ _ zoff2]
    unfold c1of
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]

end Cert.Proof.TcBodyK

end
-- ==== Proof.TcBodyKRunB.lean ====
/- The TensorCore region's body at every later grid point: the branch not taken, the four scratch buffers read as the
   first point left them, the point's two result blocks computed from them. -/
import proofs.«208996_g46033459479168_cont_8to1c4_133_24_alg».proof.Proof.TcBodyKRuns

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

set_option maxHeartbeats 2000000 in
/-- The body where the conditional is not taken: on whole staging memrefs, the inputs' at their contents `x·`, the
    scratch buffers at `s0 s1 c0 c1` and the outputs' at anything, it runs to the continuation holding the inputs' and
    the scratch buffers as they were and the outputs' at `out12`, `out13` of them. -/
theorem kernelRun0_B (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S200x2 .f32) (harg13 : arg13.IsWhole) (arg14 : Memref sig .tc .vmem S200x128 .f32) (harg14 : arg14.IsWhole) (arg15 : Memref sig .tc .vmem S10000x128 .bf16) (harg15 : arg15.IsWhole) (arg16 : Memref sig .tc .vmem S10000x128 .bf16) (harg16 : arg16.IsWhole) (arg17 : Memref sig .tc .vmem S128x128 .f32) (harg17 : arg17.IsWhole) (arg18 : Memref sig .tc .vmem S128x128 .f32) (harg18 : arg18.IsWhole) (hc0 : ¬cond0_0 i)
    (x0 x1 : Vec F S200x10000 .f32) (x2 : Vec F S10000x128 .f32) (x3 x4 x5 x6 x7 x8 : Vec F S128x128 .f32) (x9 : Vec F S1x128 .f32) (x10 : Vec F S128x128 .f32) (x11 : Vec F S1x128 .f32) (s0 s1 : Vec F S10000x128 .bf16) (c0 c1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ owns (c : Thread nD τ) arg15 fullShare s0 ∗ owns (c : Thread nD τ) arg16 fullShare s1 ∗ owns (c : Thread nD τ) arg17 fullShare c0 ∗ owns (c : Thread nD τ) arg18 fullShare c1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (out12 i x0 x1 x2 s0 s1 c0 c1 x9)
            ∗ owns (c : Thread nD τ) arg14 fullShare (out13 i x0 x1 x2 s0 s1 c0 c1 x9 x10 x11)
            ∗ owns (c : Thread nD τ) arg15 fullShare s0 ∗ owns (c : Thread nD τ) arg16 fullShare s1 ∗ owns (c : Thread nD τ) arg17 fullShare c0 ∗ owns (c : Thread nD τ) arg18 fullShare c1) -∗ K ⟨⟩))
      ⊢ wp frame (wpE (defs₀ (F := F)) Variants.none c none) E (cc0__hingcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf14 hf15 hf16 hf17
  sl_unfold [cc0__hingcn_body]
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_run_names
    rw [read_writes_unit_zero _ _ zoff2]
    unfold out12 h1of a0of fblk
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H13]
  · iexists _; isplitr; swap; · iexact H13
    ipureintro
    sl_unfold_run_names
    rw [read_writes_unit_zero _ _ zoff2]
    unfold out13 h0of h1of a0of fblk
    simp only [View.readAt_eq_ld, View.ld_unit_zero (S := S200x10000) zoff2, View.ld_unit_zero (S := S10000x128) zoff2, View.ld_unit_zero (S := S128x128) zoff2, View.ld_unit_zero (S := S1x128) zoff2, View.readCov_unit_zero (S := S10000x128) _ zoff2, View.readCov_unit_zero (S := S128x128) _ zoff2]
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  · iexists f17; isplitr; · ipureintro; rfl
    iexact H17

end Cert.Proof.TcBodyK

end
-- ==== Proof.TcBodyK.lean ====
/- The TensorCore region of the program: its proof data — what each window's staging buffer holds after the body at
   each grid point, and the invariant carried from point to point — and the body obligation. The body fills four
   scratch buffers at the first point and only reads them afterwards, so from the second point on the invariant
   holds them at the first point's values; both result windows are stored whole at every point. -/
import proofs.«208996_g46033459479168_cont_8to1c4_133_24_alg».proof.Proof.TcBodyKRunA
import proofs.«208996_g46033459479168_cont_8to1c4_133_24_alg».proof.Proof.TcBodyKRunB

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

variable (V : (c : Dev nD) → (b : Ref sig .tc) → Buf (Elt F) ((c : Thread nD τ).loc b))
variable (O : CellTallies nD τ sig Ix) (Rec : Set (SemLoc sig × Ix))

/-! ## The memrefs the body is called with -/

/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200x2 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S200x128 .f32 := win0_13.stage (cfg0.slots t 13)
abbrev hs0_13 (t : Fin cfg0.N) : (ms0_13 t).IsWhole := hstage0_13 ((cfg0.slots t 13).cast nbuf0_13)
/-- The four scratch buffers, whole. -/
abbrev scM0 : Memref sig .tc .vmem S10000x128 .bf16 := Memref.whole cc0_scratch0
abbrev scM1 : Memref sig .tc .vmem S10000x128 .bf16 := Memref.whole cc0_scratch1
abbrev scM2 : Memref sig .tc .vmem S128x128 .f32 := Memref.whole cc0_scratch2
abbrev scM3 : Memref sig .tc .vmem S128x128 .f32 := Memref.whole cc0_scratch3

/-! ## The invariant -/

/-- Before the first point the scratch buffers hold anything; before every later point (and after the last) they
    hold the first point's values. The generator register is carried along untouched. -/
def Phi0 (c : Dev nD) (t : Fin (cfg0.N + 1)) : sProp 𝕄 :=
  if t.val = 0 then
    iprop(Pipeline.scopedRest (Ix := Ix) (Name := ℕ) (U := UU) (Lvl := ℕ) (Val := Elt F) spec0 c ∗ ∃ r, prngReg c r)
  else
    iprop((owns (c : Thread nD τ) scM0 fullShare (S0 V c) ∗ owns (c : Thread nD τ) scM1 fullShare (S1 V c)
      ∗ owns (c : Thread nD τ) scM2 fullShare (C0 V c) ∗ owns (c : Thread nD τ) scM3 fullShare (C1 V c)) ∗ ∃ r, prngReg c r)

/-- Before the first point: the four scratch buffers owned at some contents, and the register. -/
theorem Phi0_first (c : Dev nD) (t : Fin (cfg0.N + 1)) (h : t.val = 0) :
    (Phi0 (Ix := Ix) (UU := UU) V c t : sProp 𝕄)
      = iprop(((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ ∃ r, prngReg c r) := by
  unfold Phi0; rw [if_pos h, scopedRest0_eq]; simp only [scM0, scM1, scM2, scM3, owns_whole]; try rfl

/-- Later: at the first point's values. -/
theorem Phi0_later (c : Dev nD) (t : Fin (cfg0.N + 1)) (h : t.val ≠ 0) :
    (Phi0 (Ix := Ix) (UU := UU) V c t : sProp 𝕄)
      = iprop((owns (c : Thread nD τ) scM0 fullShare (S0 V c) ∗ owns (c : Thread nD τ) scM1 fullShare (S1 V c)
          ∗ owns (c : Thread nD τ) scM2 fullShare (C0 V c) ∗ owns (c : Thread nD τ) scM3 fullShare (C1 V c)) ∗ ∃ r, prngReg c r) := by
  unfold Phi0; rw [if_neg h]

/-! ## The proof data -/

/-- The proof data of the pipeline on core `c`: the arrays as the region finds them (`V`); after the body at point `t`
    each input's buffer at its block and the two results' at `OUT12`, `OUT13`; the invariant `Phi0`; full shares; the
    tallies `O` owed and the bound `Rec` on the recorded waits throughout (the body neither waits nor signals). -/
def dat0 (c : Dev nD) : Dat τ (Elt F) Ix ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => OUT12 V c t
    | ⟨13, _⟩ => OUT13 V c t
  Φ t := Phi0 V c t
  q _ := fullShare
  owed _ := O
  recorded _ := Rec

theorem A_eq0 (c : Dev nD) (w : Fin cfg0.W) : (dat0 (UU := UU) V O Rec c).A w = V c (Pipeline.arrRef spec0 w) := by
  dsimp only [dat0]

theorem Phi_eq0 (c : Dev nD) (t : Fin (cfg0.N + 1)) : (dat0 (UU := UU) V O Rec c).Φ t = Phi0 V c t := by dsimp only [dat0]

theorem after0_0 (c : Dev nD) (t : Fin cfg0.N) : (dat0 (UU := UU) V O Rec c).after 0 t = iblk0 V c 0 t := by dsimp only [dat0]
theorem after0_1 (c : Dev nD) (t : Fin cfg0.N) : (dat0 (UU := UU) V O Rec c).after 1 t = iblk0 V c 1 t := by dsimp only [dat0]
theorem after0_2 (c : Dev nD) (t : Fin cfg0.N) : (dat0 (UU := UU) V O Rec c).after 2 t = iblk0 V c 2 t := by dsimp only [dat0]
theorem after0_3 (c : Dev nD) (t : Fin cfg0.N) : (dat0 (UU := UU) V O Rec c).after 3 t = iblk0 V c 3 t := by dsimp only [dat0]
theorem after0_4 (c : Dev nD) (t : Fin cfg0.N) : (dat0 (UU := UU) V O Rec c).after 4 t = iblk0 V c 4 t := by dsimp only [dat0]
theorem after0_5 (c : Dev nD) (t : Fin cfg0.N) : (dat0 (UU := UU) V O Rec c).after 5 t = iblk0 V c 5 t := by dsimp only [dat0]
theorem after0_6 (c : Dev nD) (t : Fin cfg0.N) : (dat0 (UU := UU) V O Rec c).after 6 t = iblk0 V c 6 t := by dsimp only [dat0]
theorem after0_7 (c : Dev nD) (t : Fin cfg0.N) : (dat0 (UU := UU) V O Rec c).after 7 t = iblk0 V c 7 t := by dsimp only [dat0]
theorem after0_8 (c : Dev nD) (t : Fin cfg0.N) : (dat0 (UU := UU) V O Rec c).after 8 t = iblk0 V c 8 t := by dsimp only [dat0]
theorem after0_9 (c : Dev nD) (t : Fin cfg0.N) : (dat0 (UU := UU) V O Rec c).after 9 t = iblk0 V c 9 t := by dsimp only [dat0]
theorem after0_10 (c : Dev nD) (t : Fin cfg0.N) : (dat0 (UU := UU) V O Rec c).after 10 t = iblk0 V c 10 t := by dsimp only [dat0]
theorem after0_11 (c : Dev nD) (t : Fin cfg0.N) : (dat0 (UU := UU) V O Rec c).after 11 t = iblk0 V c 11 t := by dsimp only [dat0]
theorem after0_12 (c : Dev nD) (t : Fin cfg0.N) : (dat0 (UU := UU) V O Rec c).after 12 t = OUT12 V c t := by dsimp only [dat0]
theorem after0_13 (c : Dev nD) (t : Fin cfg0.N) : (dat0 (UU := UU) V O Rec c).after 13 t = OUT13 V c t := by dsimp only [dat0]

/-- Each input's current staging buffer holds its block at every point, fetched there or not. -/
theorem before0_0 (c : Dev nD) (t : Fin cfg0.N) (d) : (dat0 (UU := UU) V O Rec c).before 0 t d = iblk0 V c 0 t :=
  ((dat0 (UU := UU) V O Rec c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 (UU := UU) V O Rec c).before 1 t d = iblk0 V c 1 t :=
  ((dat0 (UU := UU) V O Rec c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 (UU := UU) V O Rec c).before 2 t d = iblk0 V c 2 t :=
  ((dat0 (UU := UU) V O Rec c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 (UU := UU) V O Rec c).before 3 t d = iblk0 V c 3 t :=
  ((dat0 (UU := UU) V O Rec c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 (UU := UU) V O Rec c).before 4 t d = iblk0 V c 4 t :=
  ((dat0 (UU := UU) V O Rec c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 (UU := UU) V O Rec c).before 5 t d = iblk0 V c 5 t :=
  ((dat0 (UU := UU) V O Rec c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 (UU := UU) V O Rec c).before 6 t d = iblk0 V c 6 t :=
  ((dat0 (UU := UU) V O Rec c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 (UU := UU) V O Rec c).before 7 t d = iblk0 V c 7 t :=
  ((dat0 (UU := UU) V O Rec c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 (UU := UU) V O Rec c).before 8 t d = iblk0 V c 8 t :=
  ((dat0 (UU := UU) V O Rec c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 (UU := UU) V O Rec c).before 9 t d = iblk0 V c 9 t :=
  ((dat0 (UU := UU) V O Rec c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 (UU := UU) V O Rec c).before 10 t d = iblk0 V c 10 t :=
  ((dat0 (UU := UU) V O Rec c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 (UU := UU) V O Rec c).before 11 t d = iblk0 V c 11 t :=
  ((dat0 (UU := UU) V O Rec c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (ι : Ix) (t : Fin cfg0.N) : sProp 𝕄 :=
  iprop((dat0 (UU := UU) V O Rec c).Φ t.castSucc ∗ (dat0 (UU := UU) V O Rec c).owesAt ι t.castSucc
    ∗ (∃ d, owns (c : Thread nD τ) (ms0_0 t) fullShare ((dat0 (UU := UU) V O Rec c).before 0 t d))
    ∗ (∃ d, owns (c : Thread nD τ) (ms0_1 t) fullShare ((dat0 (UU := UU) V O Rec c).before 1 t d))
    ∗ (∃ d, owns (c : Thread nD τ) (ms0_2 t) fullShare ((dat0 (UU := UU) V O Rec c).before 2 t d))
    ∗ (∃ d, owns (c : Thread nD τ) (ms0_3 t) fullShare ((dat0 (UU := UU) V O Rec c).before 3 t d))
    ∗ (∃ d, owns (c : Thread nD τ) (ms0_4 t) fullShare ((dat0 (UU := UU) V O Rec c).before 4 t d))
    ∗ (∃ d, owns (c : Thread nD τ) (ms0_5 t) fullShare ((dat0 (UU := UU) V O Rec c).before 5 t d))
    ∗ (∃ d, owns (c : Thread nD τ) (ms0_6 t) fullShare ((dat0 (UU := UU) V O Rec c).before 6 t d))
    ∗ (∃ d, owns (c : Thread nD τ) (ms0_7 t) fullShare ((dat0 (UU := UU) V O Rec c).before 7 t d))
    ∗ (∃ d, owns (c : Thread nD τ) (ms0_8 t) fullShare ((dat0 (UU := UU) V O Rec c).before 8 t d))
    ∗ (∃ d, owns (c : Thread nD τ) (ms0_9 t) fullShare ((dat0 (UU := UU) V O Rec c).before 9 t d))
    ∗ (∃ d, owns (c : Thread nD τ) (ms0_10 t) fullShare ((dat0 (UU := UU) V O Rec c).before 10 t d))
    ∗ (∃ d, owns (c : Thread nD τ) (ms0_11 t) fullShare ((dat0 (UU := UU) V O Rec c).before 11 t d))
    ∗ (∃ d, owns (c : Thread nD τ) (ms0_12 t) fullShare ((dat0 (UU := UU) V O Rec c).before 12 t d))
    ∗ (∃ d, owns (c : Thread nD τ) (ms0_13 t) fullShare ((dat0 (UU := UU) V O Rec c).before 13 t d)))

/-- and what it returns. -/
def bodyPost0 (c : Dev nD) (ι : Ix) (t : Fin cfg0.N) : sProp 𝕄 :=
  iprop((dat0 (UU := UU) V O Rec c).Φ t.succ ∗ (dat0 (UU := UU) V O Rec c).owesAt ι t.succ
    ∗ owns (c : Thread nD τ) (ms0_0 t) fullShare ((dat0 (UU := UU) V O Rec c).after 0 t)
    ∗ owns (c : Thread nD τ) (ms0_1 t) fullShare ((dat0 (UU := UU) V O Rec c).after 1 t)
    ∗ owns (c : Thread nD τ) (ms0_2 t) fullShare ((dat0 (UU := UU) V O Rec c).after 2 t)
    ∗ owns (c : Thread nD τ) (ms0_3 t) fullShare ((dat0 (UU := UU) V O Rec c).after 3 t)
    ∗ owns (c : Thread nD τ) (ms0_4 t) fullShare ((dat0 (UU := UU) V O Rec c).after 4 t)
    ∗ owns (c : Thread nD τ) (ms0_5 t) fullShare ((dat0 (UU := UU) V O Rec c).after 5 t)
    ∗ owns (c : Thread nD τ) (ms0_6 t) fullShare ((dat0 (UU := UU) V O Rec c).after 6 t)
    ∗ owns (c : Thread nD τ) (ms0_7 t) fullShare ((dat0 (UU := UU) V O Rec c).after 7 t)
    ∗ owns (c : Thread nD τ) (ms0_8 t) fullShare ((dat0 (UU := UU) V O Rec c).after 8 t)
    ∗ owns (c : Thread nD τ) (ms0_9 t) fullShare ((dat0 (UU := UU) V O Rec c).after 9 t)
    ∗ owns (c : Thread nD τ) (ms0_10 t) fullShare ((dat0 (UU := UU) V O Rec c).after 10 t)
    ∗ owns (c : Thread nD τ) (ms0_11 t) fullShare ((dat0 (UU := UU) V O Rec c).after 11 t)
    ∗ owns (c : Thread nD τ) (ms0_12 t) fullShare ((dat0 (UU := UU) V O Rec c).after 12 t)
    ∗ owns (c : Thread nD τ) (ms0_13 t) fullShare ((dat0 (UU := UU) V O Rec c).after 13 t))

set_option maxHeartbeats 1600000 in
/-- The body at any point. At the first point the conditional is taken: the scratch buffers, held at anything, are
    filled, and what they then hold is by definition `S0` … `C1`. At a later point it is not: the invariant holds them
    at those values, the body reads them and leaves them. Either way the inputs' buffers hold their blocks, the two
    results' buffers are overwritten whole, and what the core owes passes through untouched. -/
theorem sound_body0 (c : Dev nD) (ι : Ix) (t : Fin cfg0.N) :
    bodyPre0 (UU := UU) V O Rec c ι t ⊢ wp frame (wpE (defs₀ (F := F)) Variants.none c none) Set.univ (bodyAt0 t) (fun _ => bodyPost0 (UU := UU) V O Rec c ι t) := by
  unfold bodyPre0 bodyPost0 bodyAt0
  simp only [before0_0, before0_1, before0_2, before0_3, before0_4, before0_5, before0_6, before0_7, before0_8, before0_9, before0_10, before0_11]
  rw [show (dat0 (UU := UU) V O Rec c).owesAt ι t.succ = (dat0 (UU := UU) V O Rec c).owesAt ι t.castSucc from rfl,
    after0_0, after0_1, after0_2, after0_3, after0_4, after0_5, after0_6, after0_7, after0_8, after0_9, after0_10, after0_11, after0_12, after0_13,
    Phi_eq0, Phi_eq0]
  have hN : t.val < 50 := lt_of_lt_of_eq t.isLt (show cfg0.N = 50 from N_0)
  rw [Phi0_later V c t.succ (Nat.succ_ne_zero _)]
  by_cases h0 : t.val = 0
  · obtain rfl : t = t0 := Fin.ext h0
    rw [Phi0_first V c t0.castSucc rfl]
    unfold OUT12 OUT13 S0 S1 C0 C1
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun0_A c Set.univ (grid0.coords t0) _ _ _ _ _ _ _ _ _ _ _ _ _ _ _ _ _ _ _ _ _ _ _ _ _ _ _ _ _ _ _ _ _ _ _ _
      ((hcond0_0 t0).mpr rfl) (iblk0 V c 0 t0) (iblk0 V c 1 t0) (iblk0 V c 2 t0) (iblk0 V c 3 t0) (iblk0 V c 4 t0) (iblk0 V c 5 t0)
      (iblk0 V c 6 t0) (iblk0 V c 7 t0) (iblk0 V c 8 t0) (iblk0 V c 9 t0) (iblk0 V c 10 t0) (iblk0 V c 11 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [Phi0_later V c t.castSucc h0]
    unfold OUT12 OUT13
    have hc : ¬cond0_0 (grid0.coords t) := fun h => h0 (by have := (hcond0_0 t).mp h; omega)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (kernelRun0_B c Set.univ (grid0.coords t) _ _ _ _ _ _ _ _ _ _ _ _ _ _ _ _ _ _ _ _ _ _ _ _ _ _ _ _ _ _ _ _ _ _ _ _
      hc (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (S0 V c) (S1 V c) (C0 V c) (C1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation, at every point. -/
theorem body_obligation0 (c : Dev nD) (ι : Ix) :
    BodyObligation (dat0 (F := F) (UU := UU) V O Rec c) (defs₀ (F := F)) Variants.none ι Set.univ := fun t => by
  rw [bigSep_W0, bigSep_W0]
  exact sound_body0 V O Rec c ι t

/-- The same in the form the pipeline's loop takes it. -/
theorem body_obligation0_loose (c : Dev nD) (ι : Ix) :
    Pipeline.BodyObligationLoose (dat0 (F := F) (UU := UU) V O Rec c) (defs₀ (F := F)) Variants.none ι Set.univ :=
  (body_obligation0 V O Rec c ι).loose

end Cert.Proof.TcBodyK

end
-- ==== Proof.TcBodyKPhi.lean ====
/- The TensorCore region's invariant at the region's two ends: what the region's entry hands it becomes the invariant
   before the first point, and the invariant after the last point gives the scratch buffers back. -/
import proofs.«208996_g46033459479168_cont_8to1c4_133_24_alg».proof.Proof.TcBodyK

set_option maxRecDepth 16384

noncomputable section

namespace Cert.Proof.TcBodyK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] [Inhabited Ix] {UU : Type} [URA UU] [CountersIn UU]

local notation "𝕄" => MT nD τ sig Ix (Elt F) ℕ UU ℕ

variable (V : (c : Dev nD) → (b : Ref sig .tc) → Buf (Elt F) ((c : Thread nD τ).loc b))
variable (O : CellTallies nD τ sig Ix) (Rec : Set (SemLoc sig × Ix))

/-- Entry: the generator register and the scoped buffers that are no staging buffer (the four scratch buffers, at
    anything) are the invariant before the first point. -/
theorem phi_in0' (c : Dev nD) :
    (iprop((∃ r, prngReg c r) ∗ Pipeline.scopedRest (Ix := Ix) (Name := ℕ) (U := UU) (Lvl := ℕ) (Val := Elt F) spec0 c) : sProp 𝕄)
      ⊢ (dat0 (UU := UU) V O Rec c).Φ 0 := by
  rw [Phi_eq0]; unfold Phi0; rw [if_pos (show ((0 : Fin (cfg0.N + 1)).val = 0) from rfl)]
  iintro ⟨Hg, HS⟩
  isplitl [HS]; · iexact HS
  iexact Hg

/-- The same with whatever else the entry hands over (`P`: the prefetched tables' share, none here) set aside. -/
theorem phi_in0 (c : Dev nD) (P : sProp 𝕄) :
    (iprop((∃ r, prngReg c r) ∗ P ∗ Pipeline.scopedRest (Ix := Ix) (Name := ℕ) (U := UU) (Lvl := ℕ) (Val := Elt F) spec0 c) : sProp 𝕄)
      ⊢ (dat0 (UU := UU) V O Rec c).Φ 0 := by
  iintro ⟨Hg, -, HS⟩
  iapply (phi_in0' V O Rec c)
  isplitl [Hg]; · iexact Hg
  iexact HS

/-- Exit: after the last point the scratch buffers, held at the first point's values, are scoped buffers at some
    contents again; the kernel has no semaphore of its own. -/
theorem phi_out0 (c : Dev nD) :
    (dat0 (UU := UU) V O Rec c).Φ (Fin.last cfg0.N)
      ⊢ (iprop((∃ r, prngReg c r) ∗ Pipeline.ownSems0 (Ix := Ix) (Name := ℕ) (U := UU) (Lvl := ℕ) (Val := Elt F) (τ := τ) (fun k : PEmpty => k.elim) c
          ∗ Pipeline.scopedRest (Ix := Ix) (Name := ℕ) (U := UU) (Lvl := ℕ) (Val := Elt F) spec0 c) : sProp 𝕄) := by
  rw [Phi_eq0, Phi0_later V c (Fin.last cfg0.N) (by decide), Pipeline.ownSems0_none, scopedRest0_eq]
  simp only [scM0, scM1, scM2, scM3, owns_whole]
  iintro ⟨⟨H0, H1, H2, H3⟩, Hg⟩
  isplitl [Hg]; · iexact Hg
  isplitr; · iempintro
  isplitl [H0]; · iexists _; iexact H0
  isplitl [H1]; · iexists _; iexact H1
  isplitl [H2]; · iexists _; iexact H2
  iexists _; iexact H3

end Cert.Proof.TcBodyK

end
-- ==== Proof.ScGatherK.lean ====
/-
  The SparseCore call of the program: thirty-two tasks (two SparseCores, sixteen vector subcores each). The task at
  SparseCore c, subcore s works on the thirty-two rows starting at row 64 s + 32 c of the index vector and of the
  result: it copies its thirty-two indices into its index scratch, transfers the rows of the table they name into its
  row scratch by one indirect gather, and copies the row scratch out to its rows of the result. Every task reads the
  whole table, so the table is handed out as thirty-two read shares (the full share cut in two, each half in sixteen) and joined
  again at the end. The value is carried: on return the result array holds, at row b and column j, the table's entry
  at row ids b and column j.
-/
import proofs.«208996_g46033459479168_cont_8to1c4_133_24_alg».proof.Proof.Gen.Kernel
import proofs.«208996_g46033459479168_cont_8to1c4_133_24_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.Proof.ScGatherK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {UU : Type} [URA UU] [CountersIn UU]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

local notation "𝕄" => MT nD τ sig (HIx 1) (Elt F) ℕ UU ℕ

/-! ## The buffers -/

abbrev iLoc (d : Dev nD) : Loc nD τ sig := (SparseCore.T d).loc main_arg0
abbrev tLoc (d : Dev nD) : Loc nD τ sig := (SparseCore.T d).loc main_v4_1
abbrev oLoc (d : Dev nD) : Loc nD τ sig := (SparseCore.T d).loc main_v5

local notation "iV" => (Memref.whole Cert.Kernel.main_arg0_scv : Memref Cert.Kernel.sig Kind.scVector Space.hbm Cert.Kernel.S1024 EltTy.i32)
local notation "tV" => (Memref.whole Cert.Kernel.main_v4_1_scv : Memref Cert.Kernel.sig Kind.scVector Space.hbm Cert.Kernel.S10000x128 EltTy.f32)
local notation "oV" => (Memref.whole Cert.Kernel.main_v5_scv : Memref Cert.Kernel.sig Kind.scVector Space.hbm Cert.Kernel.S1024x128 EltTy.f32)
local notation "sV" => (Memref.whole Cert.Kernel.cc1_scratch0 : Memref Cert.Kernel.sig Kind.scVector Space.vmem Cert.Kernel.S32 EltTy.i32)
local notation "rV" => (Memref.whole Cert.Kernel.cc1_scratch1 : Memref Cert.Kernel.sig Kind.scVector Space.vmem Cert.Kernel.S32x128 EltTy.f32)

/-! ## The value: the result array as a function of the table and the indices -/

/-- Entry (b, j) of the result is the table's entry at row ids b and column j (row 0 where ids b names no row,
    which the precondition excludes). -/
def gathered {d : Dev nD} (tab : Buf (Elt F) (tLoc d)) (ids : Buf (Elt F) (iLoc d)) : Buf (Elt F) (oLoc d) :=
  fun (x : S1024x128.Idx) =>
    if h : ((ids (ix1 (x 0) : S1024.Idx) : BitVec 32)).toNat < 10000
    then (tab (ix2 (⟨_, h⟩ : Fin 10000) (x 1) : S10000x128.Idx) : Elt F .f32)
    else (tab (ix2 (⟨0, by decide⟩ : Fin 10000) (x 1) : S10000x128.Idx) : Elt F .f32)

/-! ## The rows of the two row-partitioned arrays, per task -/

/-- The grid point of the task at SparseCore c, subcore s. -/
def coordsV (c : Fin (grid1.bound 0)) (s : Fin (grid1.bound 1)) : grid1.Coords :=
  fun | 0 => c | 1 => s | ⟨_ + 2, h⟩ => absurd h (Nat.not_lt.2 (Nat.le_add_left _ _))

abbrev irowK (L : grid1.Coords) : Rect S1024 := Rect.unit (s := S1024) (k1_off1 L) S32.size (k1_off1_inb L)
abbrev orowK (L : grid1.Coords) : Rect S1024x128 := Rect.unit (s := S1024x128) (k1_off2 L) S32x128.size (k1_off2_inb L)
/-- The task's rows of the index vector and of the result, and all of the table, as the task addresses them. -/
abbrev iRowK (L : grid1.Coords) : Memref sig .scVector .hbm S32 .i32 := (iV).slice (irowK L) (fun _ => rfl)
abbrev oRowK (L : grid1.Coords) : Memref sig .scVector .hbm S32x128 .f32 := (oV).slice (orowK L) (fun _ => rfl)
abbrev tAllK : Memref sig .scVector .hbm S10000x128 .f32 := (tV).slice (Rect.unit (s := S10000x128) ![0, 0] S10000x128.size inb_S10000x128_S10000x128_0_0) (fun _ => rfl)

abbrev iRowSet (L : grid1.Coords) : Finset S1024.Idx := (iRowK L).view.set
abbrev oRowSet (L : grid1.Coords) : Finset S1024x128.Idx := (oRowK L).view.set

/-! ## Shares of the table: the full share cut in two, each half cut in sixteen -/

/-- The share of the table the task at SparseCore c, subcore s reads through. -/
def tq (c : Fin 2) (s : Fin 16) : PosShare TreeShare := pieceOf (pieceOf fullShare 2 (by decide) c) 16 (by decide) s

variable [FloatOps F]

/-! ## What the handshakes carry -/

variable (m : (ℓ : Loc nD τ sig) → Buf (Elt F) ℓ) (tab : (d : Dev nD) → Buf (Elt F) (tLoc d))

abbrev iPts (d : Dev nD) : sProp 𝕄 := iLoc d ↦{fullShare} m (iLoc d)
abbrev tPts (d : Dev nD) : sProp 𝕄 := tLoc d ↦{fullShare} tab d
abbrev oPts (d : Dev nD) (f : Buf (Elt F) (oLoc d)) : sProp 𝕄 := oLoc d ↦{fullShare} f
abbrev iRowPts (d : Dev nD) (L : grid1.Coords) : sProp 𝕄 := iLoc d ↦[iRowSet L]{fullShare} m (iLoc d)
abbrev tShPts (d : Dev nD) (c : Fin 2) (s : Fin 16) : sProp 𝕄 := tLoc d ↦{tq c s} tab d
abbrev oRowPts (d : Dev nD) (L : grid1.Coords) (f : Buf (Elt F) (oLoc d)) : sProp 𝕄 := oLoc d ↦[oRowSet L]{fullShare} f

/-- What the task at SparseCore c, subcore s is handed: its rows of the indices, its share of the table, its rows of
    the result at some contents. -/
abbrev goT (d : Dev nD) (c : Fin 2) (s : Fin 16) : sProp 𝕄 :=
  iprop(iRowPts m d (coordsV c s) ∗ tShPts tab d c s ∗ ∃ f, oRowPts d (coordsV c s) f)
/-- What it hands back: the same, its rows of the result at the gathered value. -/
abbrev tdT (d : Dev nD) (c : Fin 2) (s : Fin 16) : sProp 𝕄 :=
  iprop(iRowPts m d (coordsV c s) ∗ tShPts tab d c s ∗ oRowPts d (coordsV c s) (gathered (tab d) (m (iLoc d))))

/-- A SparseCore takes its sixteen tasks' operands and brings their results back. -/
def P : (K (F := F)).Pay (nD := nD) (Val := Elt F) (Name := ℕ) (U := UU) where
  st := fun q d c => match q with
    | 0 => bigSep Finset.univ fun s : Fin 16 => goT m tab d (Fin.cast nCore_zero c) s
  dn := fun q d c => match q with
    | 0 => bigSep Finset.univ fun s : Fin 16 => tdT m tab d (Fin.cast nCore_zero c) s
  go := fun q d c i => match q with
    | 0 => goT m tab d (Fin.cast nCore_zero c) (Fin.cast nSub_zero i)
  td := fun q d c i => match q with
    | 0 => tdT m tab d (Fin.cast nCore_zero c) (Fin.cast nSub_zero i)
  x := fun _ _ => iprop(emp)

instance P_storable : (P (F := F) (UU := UU) m tab).IsStorable where
  st q d c := match q with
    | 0 => (inferInstance : BI.Storable (upEmb : UEmb _ 𝕄) (bigSep Finset.univ fun s : Fin 16 => goT m tab d (Fin.cast nCore_zero c) s))
  dn q d c := match q with
    | 0 => (inferInstance : BI.Storable (upEmb : UEmb _ 𝕄) (bigSep Finset.univ fun s : Fin 16 => tdT m tab d (Fin.cast nCore_zero c) s))
  go q d c i := match q with
    | 0 => (inferInstance : BI.Storable (upEmb : UEmb _ 𝕄) (goT m tab d (Fin.cast nCore_zero c) (Fin.cast nSub_zero i)))
  td q d c i := match q with
    | 0 => (inferInstance : BI.Storable (upEmb : UEmb _ 𝕄) (tdT m tab d (Fin.cast nCore_zero c) (Fin.cast nSub_zero i)))

/-! ## The task -/

section Tile

variable (d : Dev nD) (L : grid1.Coords)

abbrev cV (L : grid1.Coords) : Fin τ.nSC := (L 0).castLE hcore1
abbrev jV (L : grid1.Coords) : Fin τ.nSub := (L 1).castLE hsub1

omit [FloatOps F] in
theorem pts_iRowK (f : Buf (Elt F) (iLoc d)) :
    ((iRowK L).view.loc (V d (cV L) (jV L)) ↦[(iRowK L).view.set]{fullShare} f : sProp 𝕄) = iLoc d ↦[iRowSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The three DMA semaphores of a task: the index fetch's, the gather's, the copy-out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The list the gather reads is in range: what the index fetch landed in the index scratch is the task's rows of the
    index vector, each word below the table's row count. -/
theorem list_inb (hin : ∀ d (j : S1024.Idx), ((m (iLoc d) j : BitVec 32)).toNat < 10000)
    (fs : Buf (Elt F) ((V d (cV L) (jV L)).loc cc1_scratch0)) (pay : S32.Idx → Elt F .i32)
    (hpay : pay = (iRowK L).view.read (Elt F) (m (iLoc d))) :
    ∀ x, ((sV).view.read (Elt F) (View.write (Elt F) (sV).view fs pay Finset.univ) x).toNat < S10000x128.size gathers_S10000x128_S32x128.axis := by
  intro x
  have e : (sV).view.read (Elt F) (View.write (Elt F) (sV).view fs pay Finset.univ) x = m (iLoc d) ((iRowK L).view.emb x) := by
    rw [View.read_write_univ, hpay]; exact (View.read_apply _ _).trans (cast_eq _ _)
  rw [e]; exact hin d _

/-! ### The value the task leaves in its rows of the result -/

omit [FloatOps F] in
/-- Two indices of a matrix with equal coordinates are equal. -/
theorem idx2_ext {n0 n1 : ℕ} (z z' : (⟨2, ![n0, n1]⟩ : Shape).Idx) (h0 : (z 0).val = (z' 0).val) (h1 : (z 1).val = (z' 1).val) : z = z' := by
  funext a
  match a with
  | ⟨0, _⟩ => exact Fin.ext h0
  | ⟨1, _⟩ => exact Fin.ext h1
omit [FloatOps F] in
/-- Two indices of a vector with equal coordinates are equal. -/
theorem idx1_ext {n0 : ℕ} (z z' : (⟨1, ![n0]⟩ : Shape).Idx) (h0 : (z 0).val = (z' 0).val) : z = z' := by
  funext a
  match a with
  | ⟨0, _⟩ => exact Fin.ext h0

omit [FloatOps F] in
/-- The table, addressed through the task's slice of all of it, is the table. -/
theorem tAllK_emb (z : S10000x128.Idx) : (tAllK).view.emb z = z := by
  apply idx2_ext
  · show (0 + 1 * (z 0).val) = _; omega
  · show (0 + 1 * (z 1).val) = _; omega

omit [FloatOps F] in
/-- Row x of the task's rows of the index vector is row (its first row + x) of the index vector. -/
theorem iRowK_emb_val (x : S32.Idx) : (((iRowK L).view.emb x) 0).val = k1_off1 L 0 + (x 0).val := by
  show (k1_off1 L 0 + 1 * (x 0).val) = _; omega
omit [FloatOps F] in
/-- Entry (y 0, y 1) of the task's rows of the result is entry (its first row + y 0, y 1) of the result. -/
theorem oRowK_emb_val0 (y : S32x128.Idx) : (((oRowK L).view.emb y) 0).val = k1_off2 L 0 + (y 0).val := by
  show (k1_off2 L 0 + 1 * (y 0).val) = _; omega
omit [FloatOps F] in
theorem oRowK_emb_val1 (y : S32x128.Idx) : (((oRowK L).view.emb y) 1).val = (y 1).val := by
  show (k1_off2 L 1 + 1 * (y 1).val) = _
  rw [k1_off2_eq]; show 0 + 1 * (y 1).val = _; omega
omit [FloatOps F] in
/-- The two row-partitioned arrays are cut at the same rows. -/
theorem off1_eq_off2 : k1_off1 L 0 = k1_off2 L 0 := by rw [k1_off1_eq, k1_off2_eq]; rfl

/-- What the gather lands at entry y of the row scratch is the gathered value at the entry of the result the copy-out
    writes it to: the list's word x is word (first row + x) of the index vector, and the row it names is read at y's
    own column. -/
theorem gp_value (hin : ∀ d (j : S1024.Idx), ((m (iLoc d) j : BitVec 32)).toNat < 10000)
    (lst : S32.Idx → Elt F .i32) (hlst : ∀ x, lst x = m (iLoc d) ((iRowK L).view.emb x))
    (hn : S32.numel = S32x128.size gathers_S10000x128_S32x128.axis')
    (hin' : ∀ x, (lst x).toNat < S10000x128.size gathers_S10000x128_S32x128.axis) (y : S32x128.Idx) :
    SparseCore.gatherPayload gathers_S10000x128_S32x128 ((tAllK).view.read (Elt F) (tab d)) (SparseCore.rows lst hn hin') y
      = gathered (tab d) (m (iLoc d)) ((oRowK L).view.emb y) := by
  unfold SparseCore.gatherPayload gathered
  rw [show ∀ z, (tAllK).view.read (Elt F) (tab d) z = tab d ((tAllK).view.emb z) from fun z => (View.read_apply _ _).trans (cast_eq _ _), tAllK_emb]
  have hx : ∀ x : S32.Idx, (x 0).val = (y 0).val → (iRowK L).view.emb x = (ix1 (((oRowK L).view.emb y) 0) : S1024.Idx) := fun x hx => by
    apply idx1_ext
    rw [iRowK_emb_val, hx, off1_eq_off2]; exact (oRowK_emb_val0 L y).symm
  have hr : ∀ k : Fin S32.numel, ((S32.rowMajor.symm k) 0).val = k.val := fun k => by
    rw [← Shape.rowMajor_val_one, Equiv.apply_symm_apply]
  rw [dif_pos (hin d _)]
  refine congrArg (tab d) ?_
  apply idx2_ext
  · show ((gathers_S10000x128_S32x128.idx (SparseCore.rows lst hn hin') y) gathers_S10000x128_S32x128.axis).val = _
    rw [Shape.Gathers.idx_axis]
    show (lst (S32.rowMajor.symm ((y gathers_S10000x128_S32x128.axis').cast hn.symm))).toNat = _
    have hk : ((S32.rowMajor.symm ((y gathers_S10000x128_S32x128.axis').cast hn.symm)) 0).val = (y 0).val := (hr _).trans rfl
    rw [hlst, hx _ hk]
  · show ((gathers_S10000x128_S32x128.idx (SparseCore.rows lst hn hin') y) 1).val = ((oRowK L).view.emb y 1).val
    rw [Shape.Gathers.idx_of_ne _ _ _ _ (by decide), oRowK_emb_val1]; rfl

omit [FloatOps F] in
/-- A buffer written, through the task's rows of the result, with a payload that is the gathered value entry by entry
    holds the gathered value on those rows. -/
theorem out_value (G : Buf (Elt F) (oLoc d)) (fo : Buf (Elt F) (oLoc d)) (pay : S32x128.Idx → Elt F .f32)
    (hpay : ∀ y, pay y = G ((oRowK L).view.emb y)) :
    ∀ i ∈ oRowSet L, (oRowK L).view.writes (Elt F) fo [⟨Rect.whole S32x128, pay⟩] i = G i := by
  intro i hi
  obtain ⟨y, -, rfl⟩ := Finset.mem_map.mp hi
  have h := congrFun (View.read_writes_whole (oRowK L).view fo pay) y
  rw [View.read_apply] at h
  rw [← hpay y, ← h]; exact (cast_eq _ _).symm

set_option maxHeartbeats 4000000 in
/-- The task on vector subcore (L 0, L 1) of device d: the index fetch and its wait, the indirect gather and its wait,
    the copy-out and its wait; on return its rows of the result hold the gathered value. -/
theorem tile_body (hF : (K (F := F)).Facts) (hin : ∀ d (j : S1024.Idx), ((m (iLoc d) j : BitVec 32)).toNat < 10000) (q : PosShare TreeShare)
    (O : CellTallies nD τ sig (HIx 1)) (W : Waits sig (HIx 1)) (hO : ∀ g, O g none = 0) :
    (iprop(levAts (K (F := F)).L (K (F := F)).lev ∗ emp
        ∗ (iRowPts m d L ∗ (tLoc d ↦{q} tab d) ∗ ∃ f, oRowPts d L f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gk L tV (Memref.isWhole_whole _) iV (Memref.isWhole_whole _) oV (Memref.isWhole_whole _)
            sV (Memref.isWhole_whole _) rV (Memref.isWhole_whole _) cc1_scratch2 cc1_scoped0 cc1_scoped1)
          fun _ => iprop((iRowPts m d L ∗ (tLoc d ↦{q} tab d) ∗ oRowPts d L (gathered (tab d) (m (iLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gk_eq_skeleton]; unfold cc1_gk_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (UU := UU) d L _).symm) $$ Hi
  ihave Ho' := (Entails.of_eq (pts_oRowK (F := F) (UU := UU) d L _).symm) $$ Ho
  ihave Ht' := (Entails.of_eq (pts_tV (F := F) (UU := UU) d L _ _).symm) $$ Ht
  ihave Hs' := (Entails.of_eq (pts_sV (F := F) (UU := UU) d L _).symm) $$ Hs
  ihave Hr' := (Entails.of_eq (pts_rV (F := F) (UU := UU) d L _).symm) $$ Hr
  sl_exec
  -- the indirect gather: the tile hands in its share of the table (the slice's elements), the row scratch, the list's
  -- buffer whole and the semaphore at zero; the list's words are in range by the precondition
  ihave Hts := (pointsTo_split_subset (q := q) (f := tab d) (S := Finset.univ) (Finset.subset_univ (tAllK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S10000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S10000x128_S32x128) (default : HIx 1)
      (rV).view.dmaCredit (hN _) (by decide) (list_inb m d L hin fs _ rfl)) $$ [Hts Hr'' Hs'' HsemB]
  · isplitl [Hts]; · iexact Hts
    isplitl [Hr'']; · iexact Hr''
    isplitl [Hs'']; · iexact Hs''
    iexact HsemB
  iintro Hfl
  sl_exec
  -- its wait: the row scratch written with the gathered rows, the table's share and the list's buffer back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hs'⟩, HsemB, HO⟩
  ihave Ht' := (pointsTo_split_subset (q := q) (f := tab d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the value: the copy-out's payload is the row scratch as the gather left it, entry by entry the gathered value
  have hpay : ∀ y, tile_body.sl.dma0_1 m tab d L hin fs fr y = gathered (tab d) (m (iLoc d)) ((oRowK L).view.emb y) := fun y =>
    (congrFun (View.read_write_univ _ _) y).trans
      (gp_value m tab d L hin _ (fun x => (congrFun (View.read_write_univ _ _) x).trans ((View.read_apply _ _).trans (cast_eq _ _))) _ _ y)
  ihave Ho2 := (Entails.of_eq (pointsTo_congr (q := fullShare)
      (out_value d L (gathered (tab d) (m (iLoc d))) fo (tile_body.sl.dma0_1 m tab d L hin fs fr) hpay))) $$ Ho'
  isplitl [Hi' Ht' Ho2]
  · isplitl [Hi']; · iexact Hi'
    isplitl [Ht']; · iexact Ht'
    iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

theorem defs₀_vector (c : Fin τ.nSC) (s : Fin τ.nSub) :
    defs₀ (F := F) (.scVector c s) 1 ()
      = SparseCore.onTile hcore1 hsub1 (fun c s => cc1_gk (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation: from its operands to its rows of the result at the gathered value. -/
theorem tileObl (hF : (K (F := F)).Facts) (hin : ∀ d (j : S1024.Idx), ((m (iLoc d) j : BitVec 32)).toNat < 10000) :
    (K (F := F)).TileObl (D (F := F)) 𝒱 (P (UU := UU) m tab) v₀ 0 := by
  intro d c i O W hO _ _
  simp only [show (P (UU := UU) m tab).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m tab d (coordsV ⟨_, hci.1⟩ ⟨_, hci.2⟩) hF hin _ O W hO).trans (wp_mono frame _ _ fun _ => obl_post)

end Obl

/-! ## The rows split and join; the shares of the table -/

section Split

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The grid point of the task numbered by the pair (SparseCore, subcore). -/
abbrev Lp (p : Fin 2 × Fin 16) : grid1.Coords := coordsV p.1 p.2

omit [FloatOps F] in
theorem off1_Lp (p : Fin 2 × Fin 16) : k1_off1 (Lp p) 0 = 64 * p.2.val + 32 * p.1.val := by rw [k1_off1_eq]; rfl
omit [FloatOps F] in
theorem off2_Lp0 (p : Fin 2 × Fin 16) : k1_off2 (Lp p) 0 = 64 * p.2.val + 32 * p.1.val := by rw [k1_off2_eq]; rfl
omit [FloatOps F] in
theorem off2_Lp1 (p : Fin 2 × Fin 16) : k1_off2 (Lp p) 1 = 0 := by rw [k1_off2_eq]; rfl

omit [FloatOps F] in
theorem iRowSet_eq (L : grid1.Coords) : iRowSet L = (irowK L).set := by
  show ((View.whole (main_arg0_scv : Ref sig .scVector)).slice (irowK L)).set = _
  exact View.set_slice_whole _ _
omit [FloatOps F] in
theorem oRowSet_eq (L : grid1.Coords) : oRowSet L = (orowK L).set := by
  show ((View.whole (main_v5_scv : Ref sig .scVector)).slice (orowK L)).set = _
  exact View.set_slice_whole _ _

omit [FloatOps F] in
/-- Two different tasks start at rows at least thirty-two apart. -/
theorem starts_apart {p p' : Fin 2 × Fin 16} (hne : p ≠ p') :
    64 * p.2.val + 32 * p.1.val + 32 ≤ 64 * p'.2.val + 32 * p'.1.val ∨ 64 * p'.2.val + 32 * p'.1.val + 32 ≤ 64 * p.2.val + 32 * p.1.val := by
  have h1 := p.1.isLt; have h1' := p'.1.isLt
  have : p.1.val ≠ p'.1.val ∨ p.2.val ≠ p'.2.val := by
    by_contra h; rw [not_or, not_not, not_not] at h; exact hne (Prod.ext (Fin.ext h.1) (Fin.ext h.2))
  omega

omit [FloatOps F] in
theorem irows_disjoint : ∀ p ∈ (Finset.univ : Finset (Fin 2 × Fin 16)), ∀ p' ∈ (Finset.univ : Finset (Fin 2 × Fin 16)), p ≠ p' →
    Disjoint (iRowSet (Lp p)) (iRowSet (Lp p')) := by
  intro p _ p' _ hne
  rw [iRowSet_eq, iRowSet_eq]
  refine Rect.unit_disjoint 0 ?_
  rw [off1_Lp, off1_Lp]
  exact starts_apart hne
omit [FloatOps F] in
theorem orows_disjoint : ∀ p ∈ (Finset.univ : Finset (Fin 2 × Fin 16)), ∀ p' ∈ (Finset.univ : Finset (Fin 2 × Fin 16)), p ≠ p' →
    Disjoint (oRowSet (Lp p)) (oRowSet (Lp p')) := by
  intro p _ p' _ hne
  rw [oRowSet_eq, oRowSet_eq]
  refine Rect.unit_disjoint 0 ?_
  rw [off2_Lp0, off2_Lp0]
  exact starts_apart hne

omit [FloatOps F] in
/-- Every row belongs to the task whose subcore is the row's quotient by sixty-four and whose SparseCore is the half
    of that block of sixty-four the row falls in. -/
theorem irows_cover : (Finset.univ : Finset (Fin 2 × Fin 16)).biUnion (fun p => iRowSet (Lp p)) = Finset.univ := by
  ext i
  simp only [Finset.mem_biUnion, Finset.mem_univ, true_and, iff_true]
  have hi : (i 0).val < 1024 := (i 0).isLt
  obtain ⟨p, hp1, hp2⟩ : ∃ p : Fin 2 × Fin 16, p.1.val = (i 0).val % 64 / 32 ∧ p.2.val = (i 0).val / 64 :=
    ⟨(⟨(i 0).val % 64 / 32, by omega⟩, ⟨(i 0).val / 64, by omega⟩), rfl, rfl⟩
  refine ⟨p, ?_⟩
  rw [iRowSet_eq, Rect.mem_set_unit]
  intro a
  match a with
  | ⟨0, _⟩ =>
    show k1_off1 (Lp p) 0 ≤ (i 0).val ∧ (i 0).val < k1_off1 (Lp p) 0 + 32
    rw [off1_Lp]
    omega
omit [FloatOps F] in
theorem orows_cover : (Finset.univ : Finset (Fin 2 × Fin 16)).biUnion (fun p => oRowSet (Lp p)) = Finset.univ := by
  ext i
  simp only [Finset.mem_biUnion, Finset.mem_univ, true_and, iff_true]
  have hi : (i 0).val < 1024 := (i 0).isLt
  have hj : (i 1).val < 128 := (i 1).isLt
  obtain ⟨p, hp1, hp2⟩ : ∃ p : Fin 2 × Fin 16, p.1.val = (i 0).val % 64 / 32 ∧ p.2.val = (i 0).val / 64 :=
    ⟨(⟨(i 0).val % 64 / 32, by omega⟩, ⟨(i 0).val / 64, by omega⟩), rfl, rfl⟩
  refine ⟨p, ?_⟩
  rw [oRowSet_eq, Rect.mem_set_unit]
  intro a
  match a with
  | ⟨0, _⟩ =>
    show k1_off2 (Lp p) 0 ≤ (i 0).val ∧ (i 0).val < k1_off2 (Lp p) 0 + 32
    rw [off2_Lp0]
    omega
  | ⟨1, _⟩ =>
    show k1_off2 (Lp p) 1 ≤ (i 1).val ∧ (i 1).val < k1_off2 (Lp p) 1 + 128
    rw [off2_Lp1]
    omega

omit [FloatOps F] in
theorem iPts_rows (d : Dev nD) (f : Buf (Elt F) (iLoc d)) :
    (iLoc d ↦{fullShare} f : sProp 𝕄) = bigSep Finset.univ fun p : Fin 2 × Fin 16 => iLoc d ↦[iRowSet (Lp p)]{fullShare} f := by
  rw [← pointsTo_biUnion Finset.univ (ℓ := iLoc d) (fun p => iRowSet (Lp p)) irows_disjoint, irows_cover]
omit [FloatOps F] in
theorem oPts_rows (d : Dev nD) (f : Buf (Elt F) (oLoc d)) :
    (oLoc d ↦{fullShare} f : sProp 𝕄) = bigSep Finset.univ fun p : Fin 2 × Fin 16 => oLoc d ↦[oRowSet (Lp p)]{fullShare} f := by
  rw [← pointsTo_biUnion Finset.univ (ℓ := oLoc d) (fun p => oRowSet (Lp p)) orows_disjoint, orows_cover]
omit [FloatOps F] in
theorem tPts_shares (d : Dev nD) (f : Buf (Elt F) (tLoc d)) :
    (tLoc d ↦{fullShare} f : sProp 𝕄) = bigSep Finset.univ fun p : Fin 2 × Fin 16 => tLoc d ↦{tq p.1 p.2} f := by
  rw [bigSep_univ_prod, pointsTo_piecesOf Finset.univ f (by decide : 0 < 2) fullShare]
  refine bigSep_congr fun c _ => ?_
  rw [pointsTo_piecesOf Finset.univ f (by decide : 0 < 16) (pieceOf fullShare 2 (by decide) c)]; rfl

/-- A SparseCore's operands are its sixteen tasks' and its results theirs: nothing to do. -/
theorem vecSplit : (K (F := F)).VecSplit' (P (UU := UU) m tab) 0 := by
  intro d c
  show (bigSep Finset.univ fun s : Fin 16 => goT m tab d (Fin.cast nCore_zero c) s) ⊢ |={Set.univ}=> iprop(
      (bigSep Finset.univ fun i : Fin ((K (F := F)).nSub 0) => goT m tab d (Fin.cast nCore_zero c) (Fin.cast nSub_zero i))
      ∗ ((bigSep Finset.univ fun i : Fin ((K (F := F)).nSub 0) => tdT m tab d (Fin.cast nCore_zero c) (Fin.cast nSub_zero i))
          -∗ bigSep Finset.univ fun s : Fin 16 => tdT m tab d (Fin.cast nCore_zero c) s))
  rw [bigSep_tasks (F := F) (fun s => goT m tab d (Fin.cast nCore_zero c) s), bigSep_tasks (F := F) (fun s => tdT m tab d (Fin.cast nCore_zero c) s)]
  iintro H; imodintro
  isplitl [H]; · iexact H
  iintro H; iexact H

omit [FloatOps F] in
theorem oRow_some (d : Dev nD) (L : grid1.Coords) (f : Buf (Elt F) (oLoc d)) :
    (oLoc d ↦[oRowSet L]{fullShare} f : sProp 𝕄) ⊢ iprop(∃ f, oRowPts d L f) := by
  iintro H; iexists f; iexact H

/-- The three arrays whole are the thirty-two tasks' operands: the index vector and the result cut by rows, the table by
    shares. -/
theorem st_of_whole (d : Dev nD) (f : Buf (Elt F) (oLoc d)) :
    iprop(iPts m d ∗ tPts tab d ∗ oPts d f) ⊢ (bigSep Finset.univ fun c : Fin ((K (F := F)).nCore 0) => (P (UU := UU) m tab).st 0 d c) := by
  show iprop(iPts m d ∗ tPts tab d ∗ oPts d f)
    ⊢ bigSep Finset.univ fun c : Fin ((K (F := F)).nCore 0) => bigSep Finset.univ fun s : Fin 16 => goT m tab d (Fin.cast nCore_zero c) s
  rw [bigSep_cores (F := F) (fun c => bigSep Finset.univ fun s : Fin 16 => goT m tab d c s),
    ← bigSep_univ_prod (fun p : Fin 2 × Fin 16 => goT m tab d p.1 p.2), bigSep_sep', bigSep_sep']
  unfold iPts tPts oPts
  rw [iPts_rows, tPts_shares, oPts_rows]
  iintro ⟨Hi, Ht, Ho⟩
  isplitl [Hi]; · iexact Hi
  isplitl [Ht]; · iexact Ht
  iapply (Transfers.ent (bigSep_mono (s := Finset.univ) (Φ := fun p : Fin 2 × Fin 16 => (oLoc d ↦[oRowSet (Lp p)]{fullShare} f : sProp 𝕄))
    (Ψ := fun p : Fin 2 × Fin 16 => (iprop(∃ f, oRowPts d (Lp p) f) : sProp 𝕄)) fun p _ => oRow_some d (Lp p) f))
  iexact Ho

/-- The thirty-two tasks' results are the three arrays whole, the result at the gathered value. -/
theorem whole_of_dn (d : Dev nD) :
    (bigSep Finset.univ fun c : Fin ((K (F := F)).nCore 0) => (P (UU := UU) m tab).dn 0 d c)
      ⊢ iprop(iPts m d ∗ tPts tab d ∗ oPts d (gathered (tab d) (m (iLoc d)))) := by
  show (bigSep Finset.univ fun c : Fin ((K (F := F)).nCore 0) => bigSep Finset.univ fun s : Fin 16 => tdT m tab d (Fin.cast nCore_zero c) s)
    ⊢ iprop(iPts m d ∗ tPts tab d ∗ oPts d (gathered (tab d) (m (iLoc d))))
  rw [bigSep_cores (F := F) (fun c => bigSep Finset.univ fun s : Fin 16 => tdT m tab d c s),
    ← bigSep_univ_prod (fun p : Fin 2 × Fin 16 => tdT m tab d p.1 p.2), bigSep_sep', bigSep_sep']
  unfold iPts tPts oPts
  rw [iPts_rows, tPts_shares, oPts_rows]

end Split

end Cert.Proof.ScGatherK

end
-- ==== Proof.LaunchK.lean ====
/-
  The run of the whole program, every thread of it: on each device the TensorCore runs @main — the host operations that lay the
  attention vector out as a row and pad the classifier's weight and bias to 128 columns, the kernel region (fifty grid points,
  each a block of 200 nodes), the call of the SparseCore kernel that gathers the requested nodes' rows, the slice of their
  first 40 columns and the transposition of the metapath weights — while the two sequencers dispatch the 32 vector subcores'
  tasks. Every weakly fair execution terminates, and every unscoped buffer of every device ends at contents named here as a
  fold through @main: the launch contents, the host operations' results, the region's arrays at what its write-backs leave,
  the gathered rows, the last two host results.

  The region's proof data (its invariant, its body obligation) and the SparseCore call's (the handshakes' payload, a tile's
  task) are supplied as two records; this module threads the resources between them: the TensorCore owes the SparseCore call's
  start signals while the region runs, so the region's waits on its staging cells are recorded at the index below every
  call's, and the bound on the recorded waits is handed back to the call.
-/
import proofs.«208996_g46033459479168_cont_8to1c4_133_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.Pipeline.FrameBody
import Idealize.ShloMosaic.Lib.Pipeline.RegionsLoop
import Idealize.ShloMosaic.Lib.Pipeline.FrameSuffix
import proofs.«208996_g46033459479168_cont_8to1c4_133_24_alg».proof.Proof.Gen.Kernel
import proofs.«208996_g46033459479168_cont_8to1c4_133_24_alg».proof.Proof.Gen.Kernel.Skeleton
import proofs.«208996_g46033459479168_cont_8to1c4_133_24_alg».proof.Proof.Gen.Kernel.Launch
import proofs.«208996_g46033459479168_cont_8to1c4_133_24_alg».proof.Proof.Gen.Kernel.Points
import proofs.«208996_g46033459479168_cont_8to1c4_133_24_alg».proof.Proof.TcBodyK
import proofs.«208996_g46033459479168_cont_8to1c4_133_24_alg».proof.Proof.TcBodyKPhi
import proofs.«208996_g46033459479168_cont_8to1c4_133_24_alg».proof.Proof.ScGatherK

set_option maxRecDepth 16384

noncomputable section

namespace Cert.Proof.LaunchK

open Cert.Kernel Cert.Kernel.Gen

open Idealize.ShloMosaic Idealize.ShloMosaic.TcCoe
open Idealize.ShloMosaic.Pipeline (Dat)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-! ## The launch element: the handshakes' rounds, the pipeline's staging cells, the transfers' counters -/

def u₀ : UU := (initOf (K (F := F)).hsCells (K (F := F)).hsToks, (initOf (Pipeline.cells cfgs cellOf_inj) (Pipeline.launchToks cfgs cellOf_inj), 1))

/-- What the launch deals device `d`'s TensorCore for the pipeline: its staging cells' ghost state and duty tokens. -/
def G (d : Dev nD) : sProp 𝕄 :=
  iprop((bigSep Finset.univ fun p : Fin 1 => Pipeline.cellsGhost cfgs (EP (F := F)) p d) ∗ (bigSep Finset.univ fun p : Fin 1 => Pipeline.toksInit cfgs (EP (F := F)) p d))

theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => P.x q thr) := by
  unfold u₀
  iintro ⟨Hu, Hcr, Hfree⟩
  ihave H := (ownU_pair _ _) $$ Hu
  icases H with ⟨HH, HR⟩
  ihave HR' := (own_pair_emb embR _ (1 : Counters)) $$ HR
  icases HR' with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg] <;> iassumption
  rw [show (bigSep Finset.univ fun thr : Thread nD τ => bigSep Finset.univ fun q : Fin 1 => P.x q thr) = bigSep Finset.univ fun _ : Thread nD τ => (iprop(emp) : sProp 𝕄) from
    bigSep_congr fun thr _ => (bigSep_univ_of_subsingleton (0 : Fin 1)).trans (hx 0 thr),
    show (bigSep Finset.univ fun _ : Thread nD τ => (iprop(emp) : sProp 𝕄)) = iprop(emp) from bigSep_emp_const _]
  iempintro

variable [FloatOps F] (m : (ℓ : Loc nD τ sig) → Buf (Elt F) ℓ) (ρ : Dev nD → PrngReg)

/-- The host operations before the kernel region: the attention vector as a row, the classifier's weight and bias padded to 128 columns. -/
def preOps : List (HloOp τ sig (Elt F)) :=
  [ StableHlo.reshape main_arg10 main_v0 rfl shapeCasts_S128_S1x128,
    StableHlo.nullary main_c (constantI S_ 32 0#32),
    StableHlo.TRef.unary (.of main_c : StableHlo.TRef sig ⟨S_, .i32⟩) main_call0.v0 (sitofp .f32),
    StableHlo.TRef.binary (.of main_arg11 : StableHlo.TRef sig ⟨S128x40, .f32⟩) main_call0.v0 main_call0.v1 (fun x v => pad S128x128 ![0, 0] ![0, 88] ![0, 0] x v pads_S128x40_S128x128_000_0880 h_S_),
    StableHlo.reshape main_arg12 main_v2 rfl shapeCasts_S40_S1x40,
    StableHlo.nullary main_c_0 (constantI S_ 32 0#32),
    StableHlo.TRef.unary (.of main_c_0 : StableHlo.TRef sig ⟨S_, .i32⟩) main_call1.v0 (sitofp .f32),
    StableHlo.TRef.binary (.of main_v2 : StableHlo.TRef sig ⟨S1x40, .f32⟩) main_call1.v0 main_call1.v1 (fun x v => pad S1x128 ![0, 0] ![0, 88] ![0, 0] x v pads_S1x40_S1x128_000_0880 h_S_) ]

/-- The host operations after the SparseCore call: the first 40 columns of the gathered rows, the weights transposed. -/
def postOps : List (HloOp τ sig (Elt F)) :=
  [ StableHlo.unary main_v5 main_v6 ((extractStridedSlice S1024x40 ![0, 0] · slices_S1024x128_S1024x40_0_0) : (⟨S1024x128, .f32⟩ : BufTy).Contents (Elt F) → (⟨S1024x40, .f32⟩ : BufTy).Contents (Elt F)),
    StableHlo.unary main_v4_0 main_v7 ((transpose S2x10000 [1, 0] · transposes_S10000x2_S2x10000_1_0) : (⟨S10000x2, .f32⟩ : BufTy).Contents (Elt F) → (⟨S2x10000, .f32⟩ : BufTy).Contents (Elt F)) ]

theorem main_eq (d : Dev nD) : main (F := F) d
    = (StableHlo.seq (preOps (F := F)) >>= fun _ => (Prog.lift (.customCall (SparseCore.inner (Pipeline.entry 0)) ()) >>= fun _ =>
        ((sc (F := F)).run d 0 >>= fun _ => StableHlo.seq (postOps (F := F))))) := by
  unfold main preOps postOps fn_pad.body fn_pad_0.body
  simp only [StableHlo.seq, bind_assoc, pure_bind]

/-! ## The buffers' contents at each boundary of @main -/

/-- At launch. -/
abbrev W0 (d : Dev nD) : Valuation τ sig (Elt F) := fun b => m (d, b)
/-- At the region's entry: the host operations' results. -/
def Wpre (d : Dev nD) : Valuation τ sig (Elt F) := StableHlo.after (preOps (F := F)) (W0 m d)
/-- The same read at the TensorCore's references. -/
abbrev Vpre : (c : Dev nD) → (b : Ref sig .tc) → Buf (Elt F) ((c : Thread nD τ).loc b) := fun c b => Wpre m c b

/-- What the TensorCore owes through the region (the SparseCore call's start signals), and the bound on what it has waited on. -/
abbrev Otc (d : Dev nD) : CellTallies nD τ sig (HIx 1) := (K (F := F)).Otc d 0
abbrev Rec (d : Dev nD) : Set (SemLoc sig × HIx 1) := {p | (K (F := F)).lev ((T d), p.1) p.2 ≤ 0}

/-- What the region's proof supplies: the proof data over the entry contents, owing `Otc` throughout, with its body obligation and
    the invariant's two ends. -/
structure TcData (c : Dev nD) where
  dat : Dat τ (Elt F) (HIx 1) ℕ UU ℕ cfg0 c
  A_eq : ∀ w, dat.A w = Vpre m c (Pipeline.arrRef spec0 w)
  q_full : ∀ w, dat.q w = fullShare
  owed_eq : ∀ t, dat.owed t = Otc (F := F) c
  rec_eq : ∀ t, dat.recorded t = Rec (F := F) c
  body : Pipeline.BodyObligationLoose dat (defs₀ (F := F)) Variants.none (none : HIx 1) Set.univ
  phi_in : iprop((∃ r, prngReg c r) ∗ Pipeline.scopedRest (Ix := HIx 1) (Name := ℕ) (U := UU) (Lvl := ℕ) (Val := Elt F) spec0 c) ⊢ dat.Φ 0
  phi_out : dat.Φ (Fin.last _) ⊢ iprop((∃ r, prngReg c r) ∗ Pipeline.scopedRest (Ix := HIx 1) (Name := ℕ) (U := UU) (Lvl := ℕ) (Val := Elt F) spec0 c)

variable (tc : (c : Dev nD) → TcData (F := F) m c)

/-- At the region's exit: its arrays at what the pipeline leaves, every other buffer as entered. -/
def W1 (c : Dev nD) : Valuation τ sig (Elt F) :=
  Pipeline.withArrays spec0 c (Wpre m c) fun w => (tc c).dat.arrAt w cfg0.N
theorem W1_arr (c : Dev nD) (w : Fin cfg0.W) :
    W1 m tc c (Proc.devRef .tc (Pipeline.arrRef spec0 w)) = (tc c).dat.arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m tc c (Proc.devRef .tc b) = Wpre m c (Proc.devRef .tc b) := by
  unfold W1; exact Pipeline.withArrays_of_ne spec0 c _ _ b hb
abbrev V1 : (c : Dev nD) → (b : Ref sig .tc) → Buf (Elt F) ((c : Thread nD τ).loc b) := fun c b => W1 m tc c b
theorem hF0 (c : Dev nD) (w : Fin cfg0.W) : (tc c).dat.arrAt w cfg0.N = V1 m tc c (Pipeline.arrRef spec0 w) :=
  (W1_arr m tc c w).symm
theorem hrest0 (c : Dev nD) : ∀ b, b ∉ Finset.univ.image (Pipeline.arrRef spec0) → V1 m tc c b = Vpre m c b :=
  fun b hb => W1_of_ne m tc c b fun w e => hb (Finset.mem_image.mpr ⟨w, Finset.mem_univ _, e⟩)

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => (tc c).dat

/-- What rides beside the buffers through the region: the generator register and what the TensorCore owes, its recorded waits bounded. -/
abbrev Rst (c : Dev nD) : sProp 𝕄 :=
  iprop((∃ r, prngReg c r) ∗ ∃ W, ⌜(K (F := F)).WBelow (T c) W 0⌝ ∗ owes (T c) (Otc (F := F) c) W)

theorem Otc_none (c : Dev nD) (g : GSem nD τ sig) : Otc (F := F) c g none = 0 := by
  by_contra h
  have := (K (F := F)).lev_of_Otc_pos (d := c) (n := 0) (g := g) (ι := none) (Nat.pos_of_ne_zero h)
  rw [SparseCore.Cfg.lev_none] at this; omega

-- a library lemma stated over `pin pcs a p` unifies with the pinned configuration only when unification may unfold plain
-- definitions in a metavariable's type
set_option backward.isDefEq.respectTransparency.types false in
/-- The kernel region over the thread state: entered from every unscoped buffer at `Wpre`, left at `W1`; its arrays split out
    of the unscoped buffers and put back at the exit contents; the generator register into the invariant and out; the TensorCore
    owes the SparseCore call's start signals throughout, its waits on the staging cells at index `none`, below them. -/
def reg0 : Pipeline.RegionSeg (pcfgs (F := F)) adm (pdats m tc) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (tc c).body
  hwaits c := Pipeline.cellsWaits_intro _ _ _ _ _ fun w s t => by
    rw [show (pdats m tc 0 c).owed t = Otc (F := F) c from (tc c).owed_eq t]
    exact (K (F := F)).mayWait_none _ (Otc_none c)
  pre c := iprop(StableHlo.held (c : Thread nD τ) (Pipeline.ucRefs τ sig) (Wpre m c) ∗ Rst (F := F) c)
  post c := iprop(StableHlo.held (c : Thread nD τ) (Pipeline.ucRefs τ sig) (W1 m tc c) ∗ Rst (F := F) c)
  X c := iprop(∃ r, prngReg c r)
  Y c := iprop(∃ r, prngReg c r)
  Z c := Pipeline.unscopedRest (Ix := HIx 1) (Name := ℕ) (U := UU) (Lvl := ℕ) spec0 c (Vpre m c)
  hentry c := by
    rw [Pipeline.ownSems0_none]
    have hsplit := Pipeline.arrays_of_unscopedBufs (p := 0) (pcfgs (F := F)) adm (pdats m tc) launch0.win launch0.arr_whole c
      ((pdats m tc 0 c).share_full (tc c).q_full) (Vpre m c) (tc c).A_eq
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; intro p hp; refine Or.inl ?_
        rw [show (pdats m tc 0 c).recorded 0 = Rec (F := F) c from (tc c).rec_eq 0]
        exact hW p hp
      rw [show (pdats m tc 0 c).owed 0 = Otc (F := F) c from (tc c).owed_eq 0]
      iexact HO
    isplitl [Hp]; · iexact Hp
    iexact Hrest
  hin c := by
    rw [show (pdats m tc 0 c).Φ 0 = (tc c).dat.Φ 0 from rfl]
    iintro ⟨Hp, -, Hr⟩
    iapply (tc c).phi_in
    isplitl [Hp]; · iexact Hp
    iexact Hr
  hout c := by
    rw [Pipeline.ownSems0_none, show (pdats m tc 0 c).Φ (Fin.last _) = (tc c).dat.Φ (Fin.last _) from rfl]
    iintro H
    ihave H' := (tc c).phi_out $$ H
    icases H' with ⟨Hp, Hr⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m tc) ((pdats m tc 0 c).share_full (tc c).q_full)
      (Vpre m c) (V1 m tc c) ((pdats m tc 0 c).arrAt · cfg0.N) (hF0 m tc c) (hrest0 m tc c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | h
      · rw [show (pdats m tc 0 c).recorded (Fin.last _) = Rec (F := F) c from (tc c).rec_eq _] at h; exact h
      · obtain ⟨w, s, rfl⟩ := h; exact le_of_eq (SparseCore.Cfg.lev_none _ _)
    rw [show (pdats m tc 0 c).owed (Fin.last _) = Otc (F := F) c from (tc c).owed_eq _]
    iexact HO

/-! ## @main on the TensorCore -/

section Main

abbrev i' : DevRef τ sig := Proc.devRef .tc main_arg0
abbrev t' : DevRef τ sig := Proc.devRef .tc main_v4_1
abbrev o' : DevRef τ sig := Proc.devRef .tc main_v5
abbrev iLoc (d : Dev nD) : Loc nD τ sig := (SparseCore.T d).loc main_arg0
abbrev tLoc (d : Dev nD) : Loc nD τ sig := (SparseCore.T d).loc main_v4_1
abbrev oLoc (d : Dev nD) : Loc nD τ sig := (SparseCore.T d).loc main_v5

/-- The table the SparseCore kernel gathers from: the classifier's rows as the region left them. -/
def tab (d : Dev nD) : Buf (Elt F) (tLoc d) := W1 m tc d t'

/-- What the SparseCore call's proof supplies: the handshakes' payload, the gathered rows as one function, how the whole arrays
    split into the SparseCores' shares and join again, the tiles' obligation and their split. -/
structure ScData where
  P : (K (F := F)).Pay (nD := nD) (Val := Elt F) (Name := ℕ) (U := UU)
  hx : ∀ q thr, P.x q thr = (iprop(emp) : sProp (MT nD τ sig (HIx 1) (Elt F) ℕ UU ℕ))
  gath : (d : Dev nD) → Buf (Elt F) (oLoc d)
  st_of_whole : ∀ (d : Dev nD) (f : Buf (Elt F) (oLoc d)),
    (iprop((iLoc d ↦{fullShare} m (iLoc d)) ∗ (tLoc d ↦{fullShare} tab m tc d) ∗ (oLoc d ↦{fullShare} f)) : sProp (MT nD τ sig (HIx 1) (Elt F) ℕ UU ℕ))
      ⊢ bigSep Finset.univ fun c : Fin ((K (F := F)).nCore 0) => P.st 0 d c
  whole_of_dn : ∀ d : Dev nD, (bigSep Finset.univ fun c : Fin ((K (F := F)).nCore 0) => P.dn 0 d c : sProp (MT nD τ sig (HIx 1) (Elt F) ℕ UU ℕ))
      ⊢ iprop((iLoc d ↦{fullShare} m (iLoc d)) ∗ (tLoc d ↦{fullShare} tab m tc d) ∗ (oLoc d ↦{fullShare} gath d))

variable (sd : ScData (F := F) m tc)

/-- After the SparseCore call: the gathered rows in `main_v5`. -/
def W2 (d : Dev nD) : Valuation τ sig (Elt F) := Function.update (W1 m tc d) o' (sd.gath d)
/-- At the end: the two host operations' results. -/
def Wfin (d : Dev nD) : Valuation τ sig (Elt F) := StableHlo.after (postOps (F := F)) (W2 m tc sd d)

def S3 : Finset (DevRef τ sig) := {i', t', o'}
theorem S3_sub : S3 ⊆ Pipeline.ucRefs τ sig := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem preOps_sub : ∀ op ∈ preOps (F := F), op.bufs ⊆ Pipeline.ucRefs τ sig := by
  intro op h; simp only [preOps, List.mem_cons, List.mem_nil_iff, or_false] at h
  rcases h with rfl | rfl | rfl | rfl | rfl | rfl | rfl | rfl
  · exact (show ({Proc.devRef .tc main_arg10, Proc.devRef .tc main_v0} : Finset (DevRef τ sig)) ⊆ Pipeline.ucRefs τ sig by decide)
  · exact (show ({Proc.devRef .tc main_c} : Finset (DevRef τ sig)) ⊆ Pipeline.ucRefs τ sig by decide)
  · exact (show ({Proc.devRef .tc main_c, Proc.devRef .tc main_call0_v0} : Finset (DevRef τ sig)) ⊆ Pipeline.ucRefs τ sig by decide)
  · exact (show ({Proc.devRef .tc main_arg11, Proc.devRef .tc main_call0_v0, Proc.devRef .tc main_v1} : Finset (DevRef τ sig)) ⊆ Pipeline.ucRefs τ sig by decide)
  · exact (show ({Proc.devRef .tc main_arg12, Proc.devRef .tc main_v2} : Finset (DevRef τ sig)) ⊆ Pipeline.ucRefs τ sig by decide)
  · exact (show ({Proc.devRef .tc main_c_0} : Finset (DevRef τ sig)) ⊆ Pipeline.ucRefs τ sig by decide)
  · exact (show ({Proc.devRef .tc main_c_0, Proc.devRef .tc main_call1_v0} : Finset (DevRef τ sig)) ⊆ Pipeline.ucRefs τ sig by decide)
  · exact (show ({Proc.devRef .tc main_v2, Proc.devRef .tc main_call1_v0, Proc.devRef .tc main_v3} : Finset (DevRef τ sig)) ⊆ Pipeline.ucRefs τ sig by decide)
theorem preOps_fresh : ∀ op ∈ preOps (F := F), op.fresh = ∅ := by
  intro op h; simp only [preOps, List.mem_cons, List.mem_nil_iff, or_false] at h
  rcases h with rfl | rfl | rfl | rfl | rfl | rfl | rfl | rfl <;> rfl
theorem postOps_sub : ∀ op ∈ postOps (F := F), op.bufs ⊆ Pipeline.ucRefs τ sig := by
  intro op h; simp only [postOps, List.mem_cons, List.mem_nil_iff, or_false] at h
  rcases h with rfl | rfl
  · exact (show ({Proc.devRef .tc main_v5, Proc.devRef .tc main_v6} : Finset (DevRef τ sig)) ⊆ Pipeline.ucRefs τ sig by decide)
  · exact (show ({Proc.devRef .tc main_v4_0, Proc.devRef .tc main_v7} : Finset (DevRef τ sig)) ⊆ Pipeline.ucRefs τ sig by decide)
theorem postOps_fresh : ∀ op ∈ postOps (F := F), op.fresh = ∅ := by
  intro op h; simp only [postOps, List.mem_cons, List.mem_nil_iff, or_false] at h
  rcases h with rfl | rfl <;> rfl

/-- The references the host operations before the region write, and after the call. -/
def preW : List (Ref sig .tc) := [main_v0, main_c, main_call0_v0, main_v1, main_v2, main_c_0, main_call1_v0, main_v3]
def postW : List (Ref sig .tc) := [main_v6, main_v7]
theorem preOps_writes : (preOps (F := F)).Forall fun op => op.writes ⊆ (preW.map (Proc.devRef (τ := τ) .tc)).toFinset := by
  simp only [preOps, List.forall_cons, List.Forall]
  refine ⟨?_, ?_, ?_, ?_, ?_, ?_, ?_, ?_⟩
  · exact (show ({Proc.devRef .tc main_v0} : Finset (DevRef τ sig)) ⊆ _ by decide)
  · exact (show ({Proc.devRef .tc main_c} : Finset (DevRef τ sig)) ⊆ _ by decide)
  · exact (show ({Proc.devRef .tc main_call0_v0} : Finset (DevRef τ sig)) ⊆ _ by decide)
  · exact (show ({Proc.devRef .tc main_v1} : Finset (DevRef τ sig)) ⊆ _ by decide)
  · exact (show ({Proc.devRef .tc main_v2} : Finset (DevRef τ sig)) ⊆ _ by decide)
  · exact (show ({Proc.devRef .tc main_c_0} : Finset (DevRef τ sig)) ⊆ _ by decide)
  · exact (show ({Proc.devRef .tc main_call1_v0} : Finset (DevRef τ sig)) ⊆ _ by decide)
  · exact (show ({Proc.devRef .tc main_v3} : Finset (DevRef τ sig)) ⊆ _ by decide)
theorem postOps_writes : (postOps (F := F)).Forall fun op => op.writes ⊆ (postW.map (Proc.devRef (τ := τ) .tc)).toFinset := by
  simp only [postOps, List.forall_cons, List.Forall]
  refine ⟨?_, ?_⟩
  · exact (show ({Proc.devRef .tc main_v6} : Finset (DevRef τ sig)) ⊆ _ by decide)
  · exact (show ({Proc.devRef .tc main_v7} : Finset (DevRef τ sig)) ⊆ _ by decide)
/-- A buffer the host prefix does not write enters the region as launched. -/
theorem Wpre_of_not_mem (d : Dev nD) (r : Ref sig .tc) (hr : r ∉ preW) : Wpre m d (Proc.devRef .tc r) = m (d, Proc.devRef .tc r) := by
  unfold Wpre; exact StableHlo.after_of_writes_sub (preOps (F := F)) (W0 m d) preOps_writes hr

theorem W1_i (d : Dev nD) : W1 m tc d i' = m (iLoc d) :=
  (W1_of_ne m tc d main_arg0 (by decide)).trans (Wpre_of_not_mem m d main_arg0 (by decide))

theorem held_S3 (d : Dev nD) (Vv : Valuation τ sig (Elt F)) :
    (StableHlo.held (T d) S3 Vv : sProp 𝕄) = iprop(((d, i') ↦{fullShare} Vv i') ∗ ((d, t') ↦{fullShare} Vv t') ∗ ((d, o') ↦{fullShare} Vv o')) := by
  unfold StableHlo.held S3
  rw [SparseCore.bigSep_insert' (by decide), SparseCore.bigSep_insert' (by decide), bigSep_singleton]

theorem held_W2 (d : Dev nD) :
    (StableHlo.held (T d) (Pipeline.ucRefs τ sig) (W2 m tc sd d) : sProp 𝕄)
      = iprop((((iLoc d) ↦{fullShare} m (iLoc d)) ∗ ((tLoc d) ↦{fullShare} tab m tc d) ∗ ((oLoc d) ↦{fullShare} sd.gath d))
          ∗ StableHlo.held (T d) (Pipeline.ucRefs τ sig \ S3) (W1 m tc d)) := by
  rw [StableHlo.held_sub_split (T d) S3_sub (W2 m tc sd d), held_S3,
    StableHlo.held_congr (T d) (V := W2 m tc sd d) (V' := W1 m tc d) (fun b hb => Function.update_of_ne (fun e => by
      subst e; exact (Finset.mem_sdiff.mp hb).2 (by decide)) _ _)]
  unfold W2
  rw [Function.update_of_ne (show (i' : DevRef τ sig) ≠ o' by decide), Function.update_of_ne (show (t' : DevRef τ sig) ≠ o' by decide), Function.update_self, W1_i]
  rfl

/-- The TensorCore's state before call 0, its debts apart. -/
def TR (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_eq (d : Dev nD) : ((K (F := F)).tcSt EH d 0 : sProp 𝕄)
    = iprop((∃ W, ⌜(K (F := F)).WBelow (T d) W 0⌝ ∗ owes (T d) (Otc (F := F) d) W) ∗ TR (F := F) d) := rfl

/-- What @main leaves the claim: every unscoped buffer at the last boundary's contents. -/
abbrev FIN (d : Dev nD) : sProp 𝕄 := StableHlo.held (T d) (Pipeline.ucRefs τ sig) (Wfin m tc sd d)

set_option backward.isDefEq.respectTransparency.types false in
theorem hmain (κ : GSem nD τ sig → ℕ) (d : Dev nD) :
    iprop((K (F := F)).ctx EH sd.P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m tc sd d) := by
  unfold SparseCore.Cfg.tcRes
  rw [Pipeline.unscopedBufs_held d (W0 m d), main_eq]
  iintro ⟨#Hctx, Hst, ⟨Hb, Hheld, -, Hprng⟩, HG⟩
  -- the host operations before the region
  iapply (StableHlo.wp_seq (defs := (K (F := F)).defs (D (F := F))) 𝒱 none Set.univ d (Pipeline.ucRefs τ sig) _ (preOps (F := F)) preOps_sub preOps_fresh (W0 m d)) $$ [Hb Hheld]
  · isplitl [Hb] <;> iassumption
  iintro ⟨Hb, Hheld⟩
  ihave Hheld := (Entails.of_eq (show (StableHlo.held (T d) (Pipeline.ucRefs τ sig) (StableHlo.after (preOps (F := F)) (W0 m d)) : sProp 𝕄)
      = StableHlo.held (T d) (Pipeline.ucRefs τ sig) (Wpre m d) from rfl)) $$ Hheld
  -- the kernel region, from the pipeline's ghost state; the TensorCore's debts ride through it
  ihave Hst' := (Entails.of_eq (tcSt_eq (F := F) d)) $$ Hst
  icases Hst' with ⟨HO, HTR⟩
  ihave Hlev := (SparseCore.Cfg.ctx_levAts κ) $$ Hctx
  unfold G
  icases HG with ⟨Hg, Ht⟩
  ihave Hg' := (Entails.of_eq (bigSep_univ_of_subsingleton (0 : Fin 1) (Φ := fun p : Fin 1 => Pipeline.cellsGhost cfgs (EP (F := F)) p d))) $$ Hg
  ihave Ht' := (Entails.of_eq (bigSep_univ_of_subsingleton (0 : Fin 1) (Φ := fun p : Fin 1 => Pipeline.toksInit cfgs (EP (F := F)) p d))) $$ Ht
  rw [wp_bind]
  iapply ((K (F := F)).wp_liftProg (D (F := F)) 𝒱 (T d) Set.univ none (Prog.lift (.customCall (Pipeline.entry 0) ())) _)
  iapply (Pipeline.RegionSeg.wp (pcfgs (F := F)) adm (pdats m tc) (none : HIx 1) cellOf_inj (EP (F := F)) defs₀ 𝒱₀ (K (F := F)).L (K (F := F)).lev
    (reg0 m tc) d none (fun u hu => nomatch hu) (fun x => .ret x) _) $$ [Hb Hheld Hprng HO Hlev Hg' Ht' HTR]
  isplitr [Hb Hheld Hprng HO Hlev Hg' Ht']
  swap
  · isplitl [Hb]; · iexact Hb
    isplitl [Hheld Hprng HO]
    · iapply (Entails.of_eq (show (iprop(StableHlo.held (d : Thread nD τ) (Pipeline.ucRefs τ sig) (Wpre m d) ∗ Rst (F := F) d) : sProp 𝕄) = (reg0 m tc).pre d from rfl))
      isplitl [Hheld]; · iexact Hheld
      isplitl [Hprng]; · iexists _; iexact Hprng
      iexact HO
    isplitl [Hlev]; · iexact Hlev
    isplitl [Hg']; · iexact Hg'
    iexact Ht'
  iintro ⟨Hb, Hpost⟩
  ihave Hpost' := (Entails.of_eq (show (reg0 m tc).post d = (iprop(StableHlo.held (d : Thread nD τ) (Pipeline.ucRefs τ sig) (W1 m tc d) ∗ Rst (F := F) d) : sProp 𝕄) from rfl)) $$ Hpost
  icases Hpost' with ⟨Hheld, Hprng, HO⟩
  rw [wp_ret]; imodintro
  -- the SparseCore call: the node ids, the table and the rows' destination out of the unscoped buffers and back
  rw [wp_bind]
  ihave Hh := (Entails.of_eq (StableHlo.held_sub_split (T d) S3_sub (W1 m tc d))) $$ Hheld
  icases Hh with ⟨H3, Hrest⟩
  ihave H3' := (Entails.of_eq (held_S3 (F := F) d (W1 m tc d))) $$ H3
  icases H3' with ⟨Hi, Ht, Ho⟩
  iapply ((K (F := F)).wp_run (D (F := F)) 𝒱 (EH := EH) (P := sd.P) κ d 0) $$ [HO HTR Hi Ht Ho Hb Hrest Hprng]
  isplitr; · iexact Hctx
  isplitl [HO HTR]
  · iapply (Entails.of_eq (tcSt_eq (F := F) d).symm)
    isplitl [HO] <;> iassumption
  isplitl [Hi Ht Ho]
  · iapply (sd.st_of_whole d (W1 m tc d o'))
    isplitl [Hi]; · rw [W1_i]; iexact Hi
    isplitl [Ht]; · iexact Ht
    iexact Ho
  iintro ⟨Hst, Hdn⟩
  ihave Hdn' := (sd.whole_of_dn d) $$ Hdn
  icases Hdn' with ⟨Hi, Ht, Ho⟩
  ihave Hheld := (Entails.of_eq (held_W2 (F := F) m tc sd d).symm) $$ [Hi Ht Ho Hrest]
  · isplitr [Hrest]
    · isplitl [Hi]; · iexact Hi
      isplitl [Ht]; · iexact Ht
      iexact Ho
    iexact Hrest
  -- the two host operations after it
  iapply (StableHlo.wp_seq (defs := (K (F := F)).defs (D (F := F))) 𝒱 none Set.univ d (Pipeline.ucRefs τ sig) (fun x => .ret x) (postOps (F := F)) postOps_sub postOps_fresh (W2 m tc sd d)) $$ [Hb Hheld]
  · isplitl [Hb] <;> iassumption
  iintro ⟨Hb, Hheld⟩
  rw [wp_ret]; imodintro
  isplitl [Hst]; · iexact Hst
  iexact Hheld

/-- The claim read off a final memory: every unscoped buffer of the device holds the last boundary's contents. -/
def fq (d : Dev nD) (s' : Phys nD τ sig (Elt F)) : Prop := ∀ b ∈ Pipeline.ucRefs τ sig, s'.mem.mem (d, b) = Wfin m tc sd d b

theorem hfin (d : Dev nD) (s' : Phys nD τ sig (Elt F)) : iprop(FIN m tc sd d ∗ SI s') ⊢ (⌜fq m tc sd d s'⌝ : sProp 𝕄) := by
  unfold FIN StableHlo.held
  refine (pointsTo_read_all (Pipeline.ucRefs τ sig) (fun b => ((d, b) : Loc nD τ sig)) (Wfin m tc sd d) s').trans ?_
  iintro ⟨%h, -⟩
  ipureintro; exact h

def QC : PUnit × MemSt nD τ sig (Elt F) → Prop := fun r => ∀ c : Dev nD, ∀ b ∈ Pipeline.ucRefs τ sig, r.2.mem (c, b) = Wfin m tc sd c b

end Main

/-! ## The two proofs' data, and the program's run -/

/-- The region's proof data at the entry contents. -/
def tcData (c : Dev nD) : TcData (F := F) m c where
  dat := Cert.Proof.TcBodyK.dat0 (F := F) (Ix := HIx 1) (UU := UU) (Vpre m) (Otc (F := F) c) (Rec (F := F) c) c
  A_eq := Cert.Proof.TcBodyK.A_eq0 (F := F) (Ix := HIx 1) (UU := UU) (Vpre m) (Otc (F := F) c) (Rec (F := F) c) c
  q_full := fun _ => rfl
  owed_eq := fun _ => rfl
  rec_eq := fun _ => rfl
  body := Cert.Proof.TcBodyK.body_obligation0_loose (F := F) (Ix := HIx 1) (UU := UU) (Vpre m) (Otc (F := F) c) (Rec (F := F) c) c none
  phi_in := Cert.Proof.TcBodyK.phi_in0' (F := F) (Ix := HIx 1) (UU := UU) (Vpre m) (Otc (F := F) c) (Rec (F := F) c) c
  phi_out := (Cert.Proof.TcBodyK.phi_out0 (F := F) (Ix := HIx 1) (UU := UU) (Vpre m) (Otc (F := F) c) (Rec (F := F) c) c).trans (by
    rw [Pipeline.ownSems0_none]
    iintro ⟨Hp, -, Hr⟩
    isplitl [Hp] <;> iassumption)

/-- The SparseCore call's proof data over the table the region leaves. -/
def scData : ScData (F := F) m (tcData m) where
  P := Cert.Proof.ScGatherK.P (F := F) (UU := UU) m (tab m (tcData m))
  hx := fun _ _ => rfl
  gath := fun d => Cert.Proof.ScGatherK.gathered (tab m (tcData m) d) (m (iLoc d))
  st_of_whole := fun d f => Cert.Proof.ScGatherK.st_of_whole (F := F) (UU := UU) m (tab m (tcData m)) d f
  whole_of_dn := fun d => Cert.Proof.ScGatherK.whole_of_dn (F := F) (UU := UU) m (tab m (tcData m)) d

instance scP_storable : (scData (F := F) m).P.IsStorable := Cert.Proof.ScGatherK.P_storable (F := F) (UU := UU) m (tab m (tcData m))

/-- The run of the whole program: every weakly fair execution of all its threads terminates, and every unscoped buffer of every
    device ends at the last boundary's contents. -/
theorem run_main [∀ e, Nonempty (Elt F e)] (hin : ∀ (d : Dev nD) (j : S1024.Idx), (m (iLoc d) j).toNat < 10000) :
    θ_run (Cert.Kernel.defs (F := F)) (Cert.Kernel.threads (F := F)) ⟨m, fun _ => 0, ρ⟩ (QC m (tcData m) (scData m)) :=
  SparseCore.Cfg.θ_run_sc (K := K (F := F)) (D := D (F := F)) (𝒱 := 𝒱) (EH := EH) (P := (scData (F := F) m).P) facts v₀
    (fun q hq => match q with | 0 => nomatch hq)
    (fun q _ => match q with | 0 => Cert.Proof.ScGatherK.tileObl (F := F) (UU := UU) m (tab m (tcData m)) facts hin)
    (fun q _ => match q with | 0 => SparseCore.Cfg.VecSplit.of_plain (Cert.Proof.ScGatherK.vecSplit (F := F) (UU := UU) m (tab m (tcData m))))
    m ρ main (G (F := F)) (FIN m (tcData m) (scData m)) (u₀ (F := F)) (hu₀ (scData (F := F) m).P (scData (F := F) m).hx)
    (hmain m ρ (tcData m) (scData m)) (fq m (tcData m) (scData m)) (hfin m (tcData m) (scData m)) (QC m (tcData m) (scData m)) (fun _ h => h)

end Cert.Proof.LaunchK

end
-- ==== Proof.FoldArgsK.lean ====
/-
  The argument arrays end as launched: no host operation writes one, the kernel region only reads the nine it stages (an input
  window's array is left at its entry contents) and bypasses the other four, and the SparseCore call writes only the gathered
  rows' buffer. So the fold of contents through @main, read at an argument's buffer, walks back to the launch memory; the
  frame of the program is its run with everything else forgotten.
-/
import proofs.«208996_g46033459479168_cont_8to1c4_133_24_alg».proof.Proof.LaunchK

set_option maxRecDepth 16384

noncomputable section

namespace Cert.Proof.FoldArgsK

open Cert.Kernel Cert.Kernel.Gen Cert.Proof.LaunchK
open Idealize.ShloMosaic Idealize.ShloMosaic.TcCoe
open Idealize.SL Idealize.SL.Sem

variable {F : FTy → Type} [FloatOps F] (m : (ℓ : Loc nD τ sig) → Buf (Elt F) ℓ) (ρ : Dev nD → PrngReg)
variable (tc : (c : Dev nD) → TcData (F := F) m c) (sd : ScData (F := F) m tc)

/-- A buffer that no host operation writes, that is no array of the region and not the gathered rows' keeps its launch contents. -/
theorem Wfin_rest (d : Dev nD) (r : Ref sig .tc) (h1 : r ∉ postW) (h2 : (Proc.devRef .tc r : DevRef τ sig) ≠ o')
    (h3 : ∀ w, Pipeline.arrRef spec0 w ≠ r) (h4 : r ∉ preW) :
    Wfin m tc sd d (Proc.devRef .tc r) = m (d, Proc.devRef .tc r) :=
  (StableHlo.after_of_writes_sub (postOps (F := F)) (W2 m tc sd d) postOps_writes h1).trans
    ((Function.update_of_ne h2 _ _).trans ((W1_of_ne m tc d r h3).trans (Wpre_of_not_mem m d r h4)))

/-- An input window's array keeps its launch contents: the region leaves it as entered. -/
theorem Wfin_win (d : Dev nD) (w : Fin cfg0.W) (hw : (cfg0.win w).isOut = false) (h1 : Pipeline.arrRef spec0 w ∉ postW)
    (h2 : (Proc.devRef .tc (Pipeline.arrRef spec0 w) : DevRef τ sig) ≠ o') (h4 : Pipeline.arrRef spec0 w ∉ preW) :
    Wfin m tc sd d (Proc.devRef .tc (Pipeline.arrRef spec0 w)) = m (d, Proc.devRef .tc (Pipeline.arrRef spec0 w)) :=
  (StableHlo.after_of_writes_sub (postOps (F := F)) (W2 m tc sd d) postOps_writes h1).trans
    ((Function.update_of_ne h2 _ _).trans ((W1_arr m tc d w).trans (((tc d).dat.arrAt_in w hw _).trans
      (((tc d).A_eq w).trans (Wpre_of_not_mem m d _ h4)))))

/-- Every argument array ends as launched, in any final memory that holds the fold's last contents. -/
theorem args_of_QC (r : PUnit × MemSt nD τ sig (Elt F)) (h : QC m tc sd r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
    ⟨(h c _ (mem_uc main_arg0 (by decide))).trans (Wfin_rest m _ _ c main_arg0 (by decide) (by decide) (by decide) (by decide)),
     (h c _ (mem_uc main_arg1 (by decide))).trans (Wfin_win m _ _ c 2 rfl (by decide) (by decide) (by decide)),
     (h c _ (mem_uc main_arg2 (by decide))).trans (Wfin_win m _ _ c 0 rfl (by decide) (by decide) (by decide)),
     (h c _ (mem_uc main_arg3 (by decide))).trans (Wfin_win m _ _ c 1 rfl (by decide) (by decide) (by decide)),
     (h c _ (mem_uc main_arg4 (by decide))).trans (Wfin_win m _ _ c 3 rfl (by decide) (by decide) (by decide)),
     (h c _ (mem_uc main_arg5 (by decide))).trans (Wfin_win m _ _ c 4 rfl (by decide) (by decide) (by decide)),
     (h c _ (mem_uc main_arg6 (by decide))).trans (Wfin_win m _ _ c 5 rfl (by decide) (by decide) (by decide)),
     (h c _ (mem_uc main_arg7 (by decide))).trans (Wfin_win m _ _ c 6 rfl (by decide) (by decide) (by decide)),
     (h c _ (mem_uc main_arg8 (by decide))).trans (Wfin_win m _ _ c 7 rfl (by decide) (by decide) (by decide)),
     (h c _ (mem_uc main_arg9 (by decide))).trans (Wfin_win m _ _ c 8 rfl (by decide) (by decide) (by decide)),
     (h c _ (mem_uc main_arg10 (by decide))).trans (Wfin_rest m _ _ c main_arg10 (by decide) (by decide) (by decide) (by decide)),
     (h c _ (mem_uc main_arg11 (by decide))).trans (Wfin_rest m _ _ c main_arg11 (by decide) (by decide) (by decide) (by decide)),
     (h c _ (mem_uc main_arg12 (by decide))).trans (Wfin_rest m _ _ c main_arg12 (by decide) (by decide) (by decide) (by decide))⟩

/-- The program's run with the results forgotten: every argument array ends as launched. -/
theorem frame_run [∀ e, Nonempty (Elt F e)] (hin : ∀ (d : Dev nD) (j : S1024.Idx), (m (iLoc d) j).toNat < 10000) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.Kernel.defs (F := F)) _ _).mono (fun r h c => args_of_QC m _ _ r h c) (run_main m ρ hin)

end Cert.Proof.FoldArgsK

end
-- ==== Proof.AlgebraI.lean ====
import Mathlib
import Idealize.ShloMosaic.PureOps.Ideal
import Idealize.ShloMosaic.PureOps.Ideal.Laws

/-! # Finite sums of real products inside the extended reals

The extended reals are not a ring: multiplication does not distribute over addition once an
infinity can appear.  Every law of this module is therefore stated for extended reals that ARE
real numbers (`IsReal`), proved by moving to `ℝ`, and moved back by the coercion, which is
additive and multiplicative. -/

namespace Cert.Proof.RefSide

open scoped BigOperators
open Idealize.ShloMosaic

/-- An extended real that is the image of a real number. -/
def IsReal (x : EReal) : Prop := ∃ r : ℝ, x = (r : EReal)

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

theorem coe (r : ℝ) : IsReal (r : EReal) := ⟨r, rfl⟩
theorem zero : IsReal 0 := ⟨0, rfl⟩
theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem max {x y : EReal} (hx : IsReal x) (hy : IsReal y) : IsReal (max x y) := by
  rcases max_choice x y with h | h <;> rw [h] <;> assumption

theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

theorem tanh {x : EReal} (hx : IsReal x) : IsReal (Ideal.tanh x) := by
  obtain ⟨a, rfl⟩ := hx; exact ⟨Real.tanh a, rfl⟩

theorem exp {x : EReal} (hx : IsReal x) : IsReal (Ideal.exp x) := by
  obtain ⟨a, rfl⟩ := hx; exact ⟨Real.exp a, rfl⟩

theorem exp_pos {x : EReal} (hx : IsReal x) : 0 < Ideal.exp x := by
  obtain ⟨a, rfl⟩ := hx
  show (0 : EReal) < ((Real.exp a : ℝ) : EReal)
  exact_mod_cast Real.exp_pos a

theorem ne_top {x : EReal} (hx : IsReal x) : x ≠ ⊤ := by
  obtain ⟨a, rfl⟩ := hx; exact EReal.coe_ne_top a

theorem ne_bot {x : EReal} (hx : IsReal x) : x ≠ ⊥ := by
  obtain ⟨a, rfl⟩ := hx; exact EReal.coe_ne_bot a

end IsReal

/-- A value strictly between the infinities is a real. -/
theorem isReal_of_ne {x : EReal} (h1 : x ≠ ⊥) (h2 : x ≠ ⊤) : IsReal x := by
  induction x using EReal.rec with
  | bot => exact absurd rfl h1
  | coe r => exact ⟨r, rfl⟩
  | top => exact absurd rfl h2

/-! ## Associativity of matrix products -/

section Assoc
variable {κ δ μ : Type*} [Fintype κ] [Fintype δ] [Fintype μ]

/-- `((a · (X · P)) · w) = a · (X · (P · w))` for one row `a` and one column `w`, in `ℝ`. -/
theorem real_assoc3 (a : κ → ℝ) (x : κ → δ → ℝ) (p : δ → μ → ℝ) (w : μ → ℝ) :
    ∑ l, (∑ k, a k * ∑ d, x k d * p d l) * w l = ∑ k, a k * ∑ d, x k d * ∑ l, p d l * w l := by
  calc ∑ l, (∑ k, a k * ∑ d, x k d * p d l) * w l
      = ∑ l, ∑ k, ∑ d, a k * x k d * p d l * w l := by
        refine Finset.sum_congr rfl fun l _ => ?_
        rw [Finset.sum_mul]
        refine Finset.sum_congr rfl fun k _ => ?_
        rw [Finset.mul_sum, Finset.sum_mul]
        refine Finset.sum_congr rfl fun d _ => ?_
        ring
    _ = ∑ k, ∑ d, ∑ l, a k * x k d * p d l * w l := by
        rw [Finset.sum_comm]
        refine Finset.sum_congr rfl fun k _ => ?_
        rw [Finset.sum_comm]
    _ = ∑ k, a k * ∑ d, x k d * ∑ l, p d l * w l := by
        refine Finset.sum_congr rfl fun k _ => ?_
        rw [Finset.mul_sum]
        refine Finset.sum_congr rfl fun d _ => ?_
        rw [Finset.mul_sum, Finset.mul_sum]
        refine Finset.sum_congr rfl fun l _ => ?_
        ring

/-- `((x · P) · w) = x · (P · w)` for one row `x` and one column `w`, in `ℝ`. -/
theorem real_assoc2 (x : δ → ℝ) (p : δ → μ → ℝ) (w : μ → ℝ) :
    ∑ l, (∑ d, x d * p d l) * w l = ∑ d, x d * ∑ l, p d l * w l := by
  calc ∑ l, (∑ d, x d * p d l) * w l
      = ∑ l, ∑ d, x d * p d l * w l := by
        refine Finset.sum_congr rfl fun l _ => ?_
        rw [Finset.sum_mul]
    _ = ∑ d, ∑ l, x d * p d l * w l := Finset.sum_comm
    _ = ∑ d, x d * ∑ l, p d l * w l := by
        refine Finset.sum_congr rfl fun d _ => ?_
        rw [Finset.mul_sum]
        refine Finset.sum_congr rfl fun l _ => ?_
        ring

/-- The three-factor law in the extended reals, for entries that are reals. -/
theorem sum_assoc3 (a : κ → EReal) (x : κ → δ → EReal) (p : δ → μ → EReal) (w : μ → EReal)
    (ha : ∀ k, IsReal (a k)) (hx : ∀ k d, IsReal (x k d)) (hp : ∀ d l, IsReal (p d l))
    (hw : ∀ l, IsReal (w l)) :
    ∑ l, (∑ k, a k * ∑ d, x k d * p d l) * w l = ∑ k, a k * ∑ d, x k d * ∑ l, p d l * w l := by
  choose a' ha using ha
  choose x' hx using hx
  choose p' hp using hp
  choose w' hw using hw
  simp only [ha, hx, hp, hw, ← EReal.coe_mul, ← coe_sum]
  exact congrArg _ (real_assoc3 a' x' p' w')

/-- The two-factor law in the extended reals, for entries that are reals. -/
theorem sum_assoc2 (x : δ → EReal) (p : δ → μ → EReal) (w : μ → EReal)
    (hx : ∀ d, IsReal (x d)) (hp : ∀ d l, IsReal (p d l)) (hw : ∀ l, IsReal (w l)) :
    ∑ l, (∑ d, x d * p d l) * w l = ∑ d, x d * ∑ l, p d l * w l := by
  choose x' hx using hx
  choose p' hp using hp
  choose w' hw using hw
  simp only [hx, hp, hw, ← EReal.coe_mul, ← coe_sum]
  exact congrArg _ (real_assoc2 x' p' w')

end Assoc

/-! ## The float words that appear as literals -/

theorem ofBits_one_f32 : Ideal.ofBits .f32 0x3F800000#32 = 1 := by
  simp [Ideal.ofBits, Ideal.ieee]
  rw [← EReal.coe_mul]
  norm_num

theorem ofBits_neg_inf_f32 : Ideal.ofBits .f32 0xFF800000#32 = ⊥ := by
  simp [Ideal.ofBits, Ideal.ieee]

theorem ofBits_pos_inf_f32 : Ideal.ofBits .f32 0x7F800000#32 = ⊤ := by
  simp [Ideal.ofBits, Ideal.ieee]

/-! ## Division by a nonzero real is the product with the reciprocal -/

theorem isReal_div {x y : EReal} (hx : IsReal x) (hy : IsReal y) (h0 : y ≠ 0) :
    IsReal (Ideal.div x y) := by
  obtain ⟨b, rfl⟩ := hy
  have hb : b ≠ 0 := by intro h; exact h0 (by rw [h]; rfl)
  rw [Ideal.div_coe hb]
  exact hx.mul (IsReal.coe _)

/-- The quotient by `0 + y` is the product with `1 / y`: a normalisation by a sum started from zero against one by the reciprocal. -/
theorem div_zero_add_eq_mul_div_one {x y : EReal} (hy : IsReal y) (h0 : y ≠ 0) :
    Ideal.div x (0 + y) = x * Ideal.div 1 y := by
  obtain ⟨b, rfl⟩ := hy
  have hb : b ≠ 0 := by intro h; exact h0 (by rw [h]; rfl)
  rw [zero_add, Ideal.div_coe hb, Ideal.div_coe hb, one_mul]

theorem div_eq_mul_div_one {x y : EReal} (hy : IsReal y) (h0 : y ≠ 0) :
    Ideal.div x y = x * Ideal.div 1 y := by
  obtain ⟨b, rfl⟩ := hy
  have hb : b ≠ 0 := by intro h; exact h0 (by rw [h]; rfl)
  rw [Ideal.div_coe hb, Ideal.div_coe hb, one_mul]

/-- The sum of two exponentials of reals is a nonzero real. -/
theorem exp_add_exp_ne_zero {s t : EReal} (hs : IsReal s) (ht : IsReal t) :
    Ideal.exp s + Ideal.exp t ≠ 0 := by
  obtain ⟨a, rfl⟩ := hs
  obtain ⟨b, rfl⟩ := ht
  show ((Real.exp a : ℝ) : EReal) + ((Real.exp b : ℝ) : EReal) ≠ 0
  rw [← EReal.coe_add]
  have h : Real.exp a + Real.exp b ≠ 0 := (add_pos (Real.exp_pos a) (Real.exp_pos b)).ne'
  exact_mod_cast h

end Cert.Proof.RefSide
-- ==== Proof.FiniteI.lean ====
import proofs.«208996_g46033459479168_cont_8to1c4_133_24_alg».proof.Pre_input_domain
import proofs.«208996_g46033459479168_cont_8to1c4_133_24_alg».proof.Proof.AlgebraI
import Idealize.ShloMosaic.Lib.ReduceAll
import Idealize.ShloMosaic.Lib.ValueIdx
import Idealize.ShloMosaic.PureOps.Ideal.Laws

/-! # What the precondition says, element by element

The precondition is one bit: the conjunction, over the twelve float arrays, of "every element's absolute value
is below +∞", and of "every id lies in [0, 9999]".  Each conjunct is a reduction by `and` of a pointwise
comparison; a reduction by `and` that is 1 met only 1s.  At the extended reals an absolute value below +∞
excludes both infinities, so every float entry is a real number. -/

namespace Cert.Proof.RefSide

open Idealize.ShloMosaic Idealize.ShloMosaic.ValueIdx Cert.Pre_input_domain

instance : Subsingleton S_.Idx := ⟨fun a b => funext fun d => d.elim0⟩

variable [Cert.Pre_input_domain.Facts]
variable {F : FTy → Type} [FloatOps F]

/-- A pointwise `and` is 1 at an index exactly when both operands are. -/
theorem andi_apply_eq_one {s : Shape} (x y : IVec s 1) (i : s.Idx) :
    andi x y i = 1#1 ↔ x i = 1#1 ∧ y i = 1#1 := IntOp.andi_eq_one

/-- A 32-bit float whose absolute value compares below the word of +∞. -/
def Finite32 (x : F .f32) : Prop :=
  FloatOps.cmpf .olt (FloatOps.hostAbsf x) (FloatOps.ofBits .f32 0x7F800000#32) = 1#1

/-- The thirteen conjuncts of the precondition, read at every element, at any float instance. -/
theorem pre_elements (a0 : IVec S1024 32) (a1 : FVec F S10000x128 .f32) (a2 a3 : FVec F S10000x10000 .f32)
    (a4 a5 a6 a7 a8 a9 : FVec F S128x128 .f32) (a10 : FVec F S128 .f32) (a11 : FVec F S128x40 .f32)
    (a12 : FVec F S40 .f32)
    (h : fn (F := F) a0 a1 a2 a3 a4 a5 a6 a7 a8 a9 a10 a11 a12 = fun _ => 1#1) :
    (∀ i, Finite32 (a1 i)) ∧ (∀ i, Finite32 (a2 i)) ∧ (∀ i, Finite32 (a3 i)) ∧ (∀ i, Finite32 (a4 i)) ∧
    (∀ i, Finite32 (a5 i)) ∧ (∀ i, Finite32 (a6 i)) ∧ (∀ i, Finite32 (a7 i)) ∧ (∀ i, Finite32 (a8 i)) ∧
    (∀ i, Finite32 (a9 i)) ∧ (∀ i, Finite32 (a10 i)) ∧ (∀ i, Finite32 (a11 i)) ∧ (∀ i, Finite32 (a12 i)) ∧
    (∀ j, IntOp.cmpi .sge (a0 j) 0#32 = 1#1 ∧ IntOp.cmpi .sle (a0 j) 9999#32 = 1#1) := by
  have h0 := congrFun h ix0
  dsimp only [fn, fn_part1, fn_part2, fn_part3] at h0
  simp only [andi_apply_eq_one] at h0
  obtain ⟨⟨⟨⟨⟨⟨⟨⟨⟨⟨⟨⟨e1, e2⟩, e3⟩, e4⟩, e5⟩, e6⟩, e7⟩, e8⟩, e9⟩, e10⟩, e11⟩, e12⟩, e0⟩ := h0
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun i => Host.reduce_andi_all _ _ _ _ _ e7 i, fun i => Host.reduce_andi_all _ _ _ _ _ e8 i,
    fun i => Host.reduce_andi_all _ _ _ _ _ e9 i, fun i => Host.reduce_andi_all _ _ _ _ _ e10 i,
    fun i => Host.reduce_andi_all _ _ _ _ _ e11 i, fun i => Host.reduce_andi_all _ _ _ _ _ e12 i,
    fun j => IntOp.andi_eq_one.1 (Host.reduce_andi_all _ _ _ _ _ e0 j)⟩

/-- A 32-bit word that reads signed within [0, 9999] is below 10000 unsigned, is not negative, and reads the same signed and unsigned. -/
theorem word_range {x : BitVec 32} (h1 : IntOp.cmpi .sge x 0#32 = 1#1) (h2 : IntOp.cmpi .sle x 9999#32 = 1#1) :
    x.toNat < 10000 ∧ IntOp.cmpi .slt x 0#32 = 0#1 ∧ x.toInt.toNat = x.toNat := by
  rw [IntOp.cmpi_sge, show (0#32 : BitVec 32).toInt = 0 from by decide] at h1
  rw [IntOp.cmpi_sle, show (9999#32 : BitVec 32).toInt = 9999 from by decide] at h2
  have hc := BitVec.toInt_eq_toNat_cond x
  have hlt := x.isLt
  refine ⟨?_, ?_, ?_⟩
  · split at hc <;> omega
  · refine eq_zero_of_ne_one fun hs => ?_
    rw [IntOp.cmpi_slt, show (0#32 : BitVec 32).toInt = 0 from by decide] at hs
    omega
  · split at hc <;> omega

/-- The ids' range, at any float instance: every id is below 10000, not negative, and reads the same signed and unsigned. -/
theorem ids_range_of_pre (a0 : IVec S1024 32) (a1 : FVec F S10000x128 .f32) (a2 a3 : FVec F S10000x10000 .f32)
    (a4 a5 a6 a7 a8 a9 : FVec F S128x128 .f32) (a10 : FVec F S128 .f32) (a11 : FVec F S128x40 .f32)
    (a12 : FVec F S40 .f32)
    (h : fn (F := F) a0 a1 a2 a3 a4 a5 a6 a7 a8 a9 a10 a11 a12 = fun _ => 1#1) (j : S1024.Idx) :
    (a0 j).toNat < 10000 ∧ IntOp.cmpi .slt (a0 j) 0#32 = 0#1 ∧ (a0 j).toInt.toNat = (a0 j).toNat := by
  have hj := (pre_elements a0 a1 a2 a3 a4 a5 a6 a7 a8 a9 a10 a11 a12 h).2.2.2.2.2.2.2.2.2.2.2.2 j
  exact word_range hj.1 hj.2

/-- At the extended reals, an absolute value below +∞ is a real number. -/
theorem isReal_of_finite32 (x : EReal) (h : Finite32 (F := Ideal) x) : IsReal x := by
  unfold Finite32 at h
  rw [Ideal.cmpf_def, Ideal.hostAbsf_def, Ideal.absf_def, Ideal.ofBits_def, ofBits_pos_inf_f32] at h
  induction x using EReal.rec with
  | bot => simp [Ideal.cmp] at h
  | coe r => exact ⟨r, rfl⟩
  | top => simp [Ideal.cmp] at h

/-- From the precondition at the extended reals: every entry of the twelve float arrays is a real number, and every id
    is below 10000, not negative, and reads the same signed and unsigned. -/
theorem real_of_pre (a0 : IVec S1024 32) (a1 : FVec Ideal S10000x128 .f32) (a2 a3 : FVec Ideal S10000x10000 .f32)
    (a4 a5 a6 a7 a8 a9 : FVec Ideal S128x128 .f32) (a10 : FVec Ideal S128 .f32) (a11 : FVec Ideal S128x40 .f32)
    (a12 : FVec Ideal S40 .f32)
    (h : fn (F := Ideal) a0 a1 a2 a3 a4 a5 a6 a7 a8 a9 a10 a11 a12 = fun _ => 1#1) :
    (∀ i, IsReal (a1 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) ∧ (∀ i, IsReal (a12 i)) ∧
    (∀ j, (a0 j).toNat < 10000 ∧ IntOp.cmpi .slt (a0 j) 0#32 = 0#1 ∧ (a0 j).toInt.toNat = (a0 j).toNat) := by
  obtain ⟨e1, e2, e3, e4, e5, e6, e7, e8, e9, e10, e11, e12, e0⟩ :=
    pre_elements a0 a1 a2 a3 a4 a5 a6 a7 a8 a9 a10 a11 a12 h
  exact ⟨fun i => isReal_of_finite32 _ (e1 i), fun i => isReal_of_finite32 _ (e2 i),
    fun i => isReal_of_finite32 _ (e3 i), fun i => isReal_of_finite32 _ (e4 i),
    fun i => isReal_of_finite32 _ (e5 i), fun i => isReal_of_finite32 _ (e6 i),
    fun i => isReal_of_finite32 _ (e7 i), fun i => isReal_of_finite32 _ (e8 i),
    fun i => isReal_of_finite32 _ (e9 i), fun i => isReal_of_finite32 _ (e10 i),
    fun i => isReal_of_finite32 _ (e11 i), fun i => isReal_of_finite32 _ (e12 i),
    fun j => word_range (e0 j).1 (e0 j).2⟩

end Cert.Proof.RefSide
-- ==== Proof.HinI.lean ====
/-
  The range of the indices from the certificate's precondition: the precondition's last conjunct says every index,
  read signed, lies between 0 and 9999, so read unsigned it is below 10000, the number of rows of the table the gather
  reads.
-/
import proofs.«208996_g46033459479168_cont_8to1c4_133_24_alg».proof.Defs
import proofs.«208996_g46033459479168_cont_8to1c4_133_24_alg».proof.Proof.FiniteI
import Idealize.ShloMosaic.Lib.SparseCore.Cells

namespace Cert.Proof.HinI

open Idealize.ShloMosaic Cert.KernelIdeal

variable [Cert.Pre_input_domain.Facts]

/-- Under the precondition every index names a row of the table. -/
theorem hin_of_pre (m : (ℓ : Loc nD τ sig) → Buf (Elt Ideal) ℓ) (h : Cert.Pre_KernelIdeal m) :
    ∀ (d : Dev nD) (j : S1024.Idx), ((m ((SparseCore.T d).loc main_arg0) j : BitVec 32)).toNat < 10000 := fun d j =>
  (Cert.Proof.RefSide.ids_range_of_pre (F := Ideal) _ _ _ _ _ _ _ _ _ _ _ _ _ (h d) j).1

end Cert.Proof.HinI
-- ==== Proof.HinK.lean ====
/-
  The range of the indices from the certificate's precondition: the precondition's last conjunct says every index,
  read signed, lies between 0 and 9999, so read unsigned it is below 10000, the number of rows of the table the gather
  reads.
-/
import proofs.«208996_g46033459479168_cont_8to1c4_133_24_alg».proof.Defs
import proofs.«208996_g46033459479168_cont_8to1c4_133_24_alg».proof.Proof.FiniteI
import Idealize.ShloMosaic.Lib.SparseCore.Cells

namespace Cert.Proof.HinK

open Idealize.ShloMosaic Cert.Kernel

variable [Cert.Pre_input_domain.Facts]

/-- Under the precondition every index names a row of the table. -/
theorem hin_of_pre (m : (ℓ : Loc nD τ sig) → Buf (Elt Bits) ℓ) (h : Cert.Pre_Kernel m) :
    ∀ (d : Dev nD) (j : S1024.Idx), ((m ((SparseCore.T d).loc main_arg0) j : BitVec 32)).toNat < 10000 := fun d j =>
  (Cert.Proof.RefSide.ids_range_of_pre (F := Bits) _ _ _ _ _ _ _ _ _ _ _ _ _ (h d) j).1

end Cert.Proof.HinK
-- ==== Proof.SpecI.lean ====
/-
  THE SPECIFICATION both programs meet, at the extended reals: the two results as functions of the thirteen argument
  arrays, element by element, in the arrangement the kernel computes them.

  With features X [10000,128], adjacencies A_0, A_1 [10000,10000], weights Wp0, Wp1, Wa_k, Ws_k [128,128], the attention
  vector av [128], the classifier Wfc [128,40], bfc [40] and node ids [1024], for each metapath k ∈ {0, 1}:

      S_k = X · (Wp1 · Wa_k)                      C_k = Wp0 · Ws_k
      h_k[r,j] = max (Σ_n A_k[r,n] · S_k[n,j] + Σ_d X[r,d] · C_k[d,j]) 0
      s_k[r]   = Σ_j tanh (h_k[r,j]) · av[j]

  then the softmax over the two metapaths, written with one reciprocal,

      m = max s_0 s_1,   e_k = exp (s_k − m),   inv = 1 / (e_0 + e_1),   b_k = e_k · inv

  the mixture agg = b_0 · h_0 + b_1 · h_1 and the classifier over 128 columns of which the first 40 are real,
  lg[r,c] = Σ_j agg[r,j] · (Wfc[j,c] if c < 40 else 0) + (bfc[c] if c < 40 else 0). The results are
  logits[b,c] = lg[ids[b], c] for c < 40 and beta[k,r] = b_k[r].

  Sums are finite sums of products in the extended reals; tanh, exp and the division are the ideal instance's
  (PureOps/Ideal.lean: `Ideal.tanh`, `Ideal.exp`, `Ideal.div`). Every matrix is a function of its literal index type,
  read at `ix2 row column` (a vector at `ix1 coordinate`); the intermediate quantities are functions of coordinates.
-/
import proofs.«208996_g46033459479168_cont_8to1c4_133_24_alg».proof.KernelIdeal
import Idealize.ShloMosaic.PureOps.Ideal
import Idealize.ShloMosaic.PureOps.Ideal.Laws
import Idealize.ShloMosaic.Lib.ValueIdx

noncomputable section

open scoped BigOperators

namespace Cert.Proof.Spec

open Idealize.ShloMosaic Idealize.ShloMosaic.ValueIdx Cert.KernelIdeal

/-! ## One metapath: its adjacency `A`, aggregation weight `Wa` and self weight `Ws` -/

/-- `S = X · (Wp1 · Wa)`: the projected features a node sends to its neighbours, the inner product taken first. -/
def Sk (X : S10000x128.Idx → EReal) (Wp1 Wa : S128x128.Idx → EReal) (n : Fin 10000) (j : Fin 128) : EReal :=
  ∑ p : Fin 128, X (ix2 n p) * ∑ q : Fin 128, Wp1 (ix2 p q) * Wa (ix2 q j)

/-- `C = Wp0 · Ws`: the weight of a node's own features. -/
def Ck (Wp0 Ws : S128x128.Idx → EReal) (d j : Fin 128) : EReal :=
  ∑ q : Fin 128, Wp0 (ix2 d q) * Ws (ix2 q j)

/-- `h[r,j] = max (Σ_n A[r,n] · S[n,j] + Σ_d X[r,d] · C[d,j]) 0`: the hidden layer of one metapath. -/
def hk (A : S10000x10000.Idx → EReal) (X : S10000x128.Idx → EReal) (Wp0 Wp1 Wa Ws : S128x128.Idx → EReal)
    (r : Fin 10000) (j : Fin 128) : EReal :=
  max ((∑ n : Fin 10000, A (ix2 r n) * Sk X Wp1 Wa n j) + ∑ d : Fin 128, X (ix2 r d) * Ck Wp0 Ws d j) 0

/-- `s[r] = Σ_j tanh (h[r,j]) · av[j]`: the attention score of one metapath at a node. -/
def sk (A : S10000x10000.Idx → EReal) (X : S10000x128.Idx → EReal) (Wp0 Wp1 Wa Ws : S128x128.Idx → EReal)
    (av : S128.Idx → EReal) (r : Fin 10000) : EReal :=
  ∑ j : Fin 128, Ideal.tanh (hk A X Wp0 Wp1 Wa Ws r j) * av (ix1 j)

/-! ## The two metapaths together -/

section Whole

variable (ids : S1024.Idx → BitVec 32) (X : S10000x128.Idx → EReal) (A0 A1 : S10000x10000.Idx → EReal)
  (Wp0 Wp1 Wa0 Wa1 Ws0 Ws1 : S128x128.Idx → EReal) (av : S128.Idx → EReal) (Wfc : S128x40.Idx → EReal)
  (bfc : S40.Idx → EReal)

/-- The hidden layer of metapath 0. -/
def h0 (r : Fin 10000) (j : Fin 128) : EReal := hk A0 X Wp0 Wp1 Wa0 Ws0 r j
/-- The hidden layer of metapath 1. -/
def h1 (r : Fin 10000) (j : Fin 128) : EReal := hk A1 X Wp0 Wp1 Wa1 Ws1 r j
/-- The score of metapath 0. -/
def s0 (r : Fin 10000) : EReal := sk A0 X Wp0 Wp1 Wa0 Ws0 av r
/-- The score of metapath 1. -/
def s1 (r : Fin 10000) : EReal := sk A1 X Wp0 Wp1 Wa1 Ws1 av r
/-- The larger of the two scores at a node. -/
def mx (r : Fin 10000) : EReal := max (s0 X A0 Wp0 Wp1 Wa0 Ws0 av r) (s1 X A1 Wp0 Wp1 Wa1 Ws1 av r)
/-- `e_0 = exp (s_0 − m)`. -/
def e0 (r : Fin 10000) : EReal := Ideal.exp (s0 X A0 Wp0 Wp1 Wa0 Ws0 av r - mx X A0 A1 Wp0 Wp1 Wa0 Wa1 Ws0 Ws1 av r)
/-- `e_1 = exp (s_1 − m)`. -/
def e1 (r : Fin 10000) : EReal := Ideal.exp (s1 X A1 Wp0 Wp1 Wa1 Ws1 av r - mx X A0 A1 Wp0 Wp1 Wa0 Wa1 Ws0 Ws1 av r)
/-- `inv = 1 / (e_0 + e_1)`. -/
def inv (r : Fin 10000) : EReal :=
  Ideal.div 1 (e0 X A0 A1 Wp0 Wp1 Wa0 Wa1 Ws0 Ws1 av r + e1 X A0 A1 Wp0 Wp1 Wa0 Wa1 Ws0 Ws1 av r)
/-- `b_0 = e_0 · inv`: the weight of metapath 0 at a node. -/
def b0 (r : Fin 10000) : EReal :=
  e0 X A0 A1 Wp0 Wp1 Wa0 Wa1 Ws0 Ws1 av r * inv X A0 A1 Wp0 Wp1 Wa0 Wa1 Ws0 Ws1 av r
/-- `b_1 = e_1 · inv`: the weight of metapath 1 at a node. -/
def b1 (r : Fin 10000) : EReal :=
  e1 X A0 A1 Wp0 Wp1 Wa0 Wa1 Ws0 Ws1 av r * inv X A0 A1 Wp0 Wp1 Wa0 Wa1 Ws0 Ws1 av r
/-- The weight of metapath `k` at a node (`k` a natural number: `0` names the first, anything else the second). -/
def bK (k : Nat) (r : Fin 10000) : EReal :=
  if k = 0 then b0 X A0 A1 Wp0 Wp1 Wa0 Wa1 Ws0 Ws1 av r else b1 X A0 A1 Wp0 Wp1 Wa0 Wa1 Ws0 Ws1 av r

/-- The weights as the kernel stores them, nodes along the rows: `betaT[r,k] = b_k[r]`. -/
def betaT : S10000x2.Idx → EReal :=
  fun i => bK X A0 A1 Wp0 Wp1 Wa0 Wa1 Ws0 Ws1 av (i 1).val (i 0)

/-- The mixture `agg[r,j] = b_0[r] · h_0[r,j] + b_1[r] · h_1[r,j]`. -/
def agg (r : Fin 10000) (j : Fin 128) : EReal :=
  b0 X A0 A1 Wp0 Wp1 Wa0 Wa1 Ws0 Ws1 av r * h0 X A0 Wp0 Wp1 Wa0 Ws0 r j
    + b1 X A0 A1 Wp0 Wp1 Wa0 Wa1 Ws0 Ws1 av r * h1 X A1 Wp0 Wp1 Wa1 Ws1 r j

/-- The classifier's weight over 128 columns: `Wfc[j,c]` for `c < 40`, zero beyond. -/
def wfcPad (j c : Fin 128) : EReal := if hc : c.val < 40 then Wfc (ix2 j ⟨c.val, hc⟩) else 0
/-- The classifier's bias over 128 columns: `bfc[c]` for `c < 40`, zero beyond. -/
def bfcPad (c : Fin 128) : EReal := if hc : c.val < 40 then bfc (ix1 ⟨c.val, hc⟩) else 0

/-- The classifier on every node, over 128 columns: `lg[r,c] = Σ_j agg[r,j] · WfcPad[j,c] + bfcPad[c]`. -/
def lg : S10000x128.Idx → EReal :=
  fun i => (∑ j : Fin 128, agg X A0 A1 Wp0 Wp1 Wa0 Wa1 Ws0 Ws1 av (i 0) j * wfcPad Wfc j (i 1)) + bfcPad bfc (i 1)

/-- The node a batch position names: the id read as a natural number (kept below 10000: the precondition says every id
    is, and then this is the id itself, `rowOf_val`). -/
def rowOf (b : Fin 1024) : Fin 10000 := ⟨min (ids (ix1 b)).toNat 9999, by omega⟩

/-- A class column among the 128. -/
def col40 (c : Fin 40) : Fin 128 := ⟨c.val, by have := c.isLt; omega⟩

/-- RESULT 1: `logits[b,c] = lg[ids[b], c]` for the 40 real columns. -/
def logits : S1024x40.Idx → EReal :=
  fun i => lg X A0 A1 Wp0 Wp1 Wa0 Wa1 Ws0 Ws1 av Wfc bfc (ix2 (rowOf ids (i 0)) (col40 (i 1)))

/-- RESULT 2: `beta[k,r] = b_k[r]`, the stored weights transposed. -/
def beta : S2x10000.Idx → EReal :=
  fun i => betaT X A0 A1 Wp0 Wp1 Wa0 Wa1 Ws0 Ws1 av (ix2 (i 1) (i 0))

/-! ### The same, read at coordinates -/

theorem betaT_apply (r : Fin 10000) (k : Fin 2) :
    betaT X A0 A1 Wp0 Wp1 Wa0 Wa1 Ws0 Ws1 av (ix2 r k) = bK X A0 A1 Wp0 Wp1 Wa0 Wa1 Ws0 Ws1 av k.val r := rfl

theorem lg_apply (r : Fin 10000) (c : Fin 128) :
    lg X A0 A1 Wp0 Wp1 Wa0 Wa1 Ws0 Ws1 av Wfc bfc (ix2 r c)
      = (∑ j : Fin 128, agg X A0 A1 Wp0 Wp1 Wa0 Wa1 Ws0 Ws1 av r j * wfcPad Wfc j c) + bfcPad bfc c := rfl

theorem logits_apply (b : Fin 1024) (c : Fin 40) :
    logits ids X A0 A1 Wp0 Wp1 Wa0 Wa1 Ws0 Ws1 av Wfc bfc (ix2 b c)
      = lg X A0 A1 Wp0 Wp1 Wa0 Wa1 Ws0 Ws1 av Wfc bfc (ix2 (rowOf ids b) (col40 c)) := rfl

theorem beta_apply (k : Fin 2) (r : Fin 10000) :
    beta X A0 A1 Wp0 Wp1 Wa0 Wa1 Ws0 Ws1 av (ix2 k r) = bK X A0 A1 Wp0 Wp1 Wa0 Wa1 Ws0 Ws1 av k.val r := rfl

theorem bK_zero (r : Fin 10000) :
    bK X A0 A1 Wp0 Wp1 Wa0 Wa1 Ws0 Ws1 av 0 r = b0 X A0 A1 Wp0 Wp1 Wa0 Wa1 Ws0 Ws1 av r := rfl

theorem bK_one (r : Fin 10000) :
    bK X A0 A1 Wp0 Wp1 Wa0 Wa1 Ws0 Ws1 av 1 r = b1 X A0 A1 Wp0 Wp1 Wa0 Wa1 Ws0 Ws1 av r := rfl

/-- Where the id is below 10000 the row it names is the id. -/
theorem rowOf_val (b : Fin 1024) (hb : (ids (ix1 b)).toNat < 10000) : (rowOf ids b).val = (ids (ix1 b)).toNat := by
  show min (ids (ix1 b)).toNat 9999 = (ids (ix1 b)).toNat
  omega

end Whole

end Cert.Proof.Spec

end
-- ==== Proof.KValueIA.lean ====
/-
  THE KERNEL'S PAYLOADS AT AN INDEX, at the extended reals (first part): the layout operations the body uses read at
  coordinates, a one-axis matrix product as the sum over the contracted coordinate, and with them the four scratch
  values (S_k = X · (Wp1 · Wa_k), C_k = Wp0 · Ws_k), the hidden blocks h_k = max (A_k · S_k + X · C_k) 0 on a block of
  200 rows, and tanh (h_0) · av before its row sum — each as the specification's function of the same arrays.
-/
import proofs.«208996_g46033459479168_cont_8to1c4_133_24_alg».proof.Proof.Gen.KernelIdeal.Skeleton
import proofs.«208996_g46033459479168_cont_8to1c4_133_24_alg».proof.Proof.SpecI
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.Proof.KValue

open Idealize.ShloMosaic Idealize.ShloMosaic.ValueIdx Cert.KernelIdeal Cert.KernelIdeal.Gen

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two columns `[a, 1]` side by side: column 0 of the result is the first. -/
theorem concat_cols_zero {a : ℕ} (x₁ x₂ : (⟨2, ![a, 1]⟩ : Shape).Idx → α)
    (h : Shape.Concatenates [(⟨2, ![a, 1]⟩ : Shape), ⟨2, ![a, 1]⟩] ⟨2, ![a, 2]⟩ 1) (r : Fin a) :
    concatenate ⟨2, ![a, 2]⟩ 1 [⟨⟨2, ![a, 1]⟩, x₁⟩, ⟨⟨2, ![a, 1]⟩, x₂⟩] h (ix2 r (0 : Fin 2)) = x₁ (ix2 r (0 : Fin 1)) :=
  concatenate_pair_apply_left (1 : Fin 2) x₁ x₂ h (ix2 r (0 : Fin 2)) rfl (ix2 r (0 : Fin 1)) (fun b => by
    match b with
    | ⟨0, _⟩ => rfl
    | ⟨1, _⟩ => rfl)

/-- Two columns `[a, 1]` side by side: column 1 of the result is the second. -/
theorem concat_cols_one {a : ℕ} (x₁ x₂ : (⟨2, ![a, 1]⟩ : Shape).Idx → α)
    (h : Shape.Concatenates [(⟨2, ![a, 1]⟩ : Shape), ⟨2, ![a, 1]⟩] ⟨2, ![a, 2]⟩ 1) (r : Fin a) :
    concatenate ⟨2, ![a, 2]⟩ 1 [⟨⟨2, ![a, 1]⟩, x₁⟩, ⟨⟨2, ![a, 1]⟩, x₂⟩] h (ix2 r (1 : Fin 2)) = x₂ (ix2 r (0 : Fin 1)) :=
  concatenate_pair_apply_right (1 : Fin 2) x₁ x₂ h (ix2 r (1 : Fin 2)) rfl rfl (ix2 r (0 : Fin 1)) (fun b hb => by
    match b with
    | ⟨0, _⟩ => rfl
    | ⟨1, _⟩ => exact absurd rfl hb) rfl

end Layout

/-- The sum along a row of a [200,128] block, kept as a column: at `(r, u)` the sum over the 128 lanes of row `r`. -/
theorem rowsum_col (v : FVec Ideal S200x128 .f32) (r : Fin 200) (u : Fin 1) :
    shapeCast S200x1 (multiReduction (F := Ideal) .add [1] S200 v 0x00000000#32 reduces_S200x128_S200 (.inl rfl) rfl)
        shapeCasts_S200_S200x1 (ix2 r u) = ∑ j : Fin 128, v (ix2 r j) := by
  refine (shapeCast_a_a1_apply _ shapeCasts_S200_S200x1 r u).trans ?_
  refine (Ideal.multiReduction_add_single v 0x00000000#32 reduces_S200x128_S200 (.inl rfl) rfl (ix1 r)).trans ?_
  show ∑ k : Fin 128, v (reduces_S200x128_S200.lift (ix1 r) k) = _
  refine Finset.sum_congr rfl fun k _ => congrArg v ?_
  funext c; apply Fin.ext
  fin_cases c <;> rfl

/-! ## A matrix product with one contracted axis -/

/-- A matrix product `[m,k] · [k,n]` into the zero accumulator, read at row `r` and column `j`: the sum over the
    contracted coordinate of the products. -/
theorem matmul_ix2 {m k n : Nat} {φ₁ φ₂ : FTy}
    (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![m, k]⟩ φ₁) (rhs : FVec Ideal ⟨2, ![k, n]⟩ φ₂) (r : Fin m) (j : Fin n) :
    matmul D none lhs rhs (constant (F := Ideal) ⟨2, ![m, n]⟩ .f32 0x00000000#32) (ix2 r j)
      = ∑ q : Fin k, lhs (ix2 r q) * rhs (ix2 q j) := by
  show FloatOps.matmul D none lhs rhs _ _ = _
  rw [Ideal.matmul_constant_zero_apply, ← Equiv.sum_comp (contrEquiv1 D k hr hs).symm]
  refine Finset.sum_congr rfl fun q _ => ?_
  have hq := contrEquiv1_symm_val D k hr hs q
  have el : D.lhsIdx (ix2 r j) ((contrEquiv1 D k hr hs).symm q) = ix2 r q := funext fun a => Fin.ext (by
    match a with
    | ⟨0, _⟩ => exact hl0 _ _
    | ⟨1, _⟩ => exact (hl1 _ _).trans hq)
  have er : D.rhsIdx (ix2 r j) ((contrEquiv1 D k hr hs).symm q) = ix2 q j := funext fun a => Fin.ext (by
    match a with
    | ⟨0, _⟩ => exact (hr0 _ _).trans hq
    | ⟨1, _⟩ => exact hr1 _ _)
  rw [el, er]

/-- The [128,128] · [128,128] product at an index. -/
theorem mm128 {φ₁ φ₂ : FTy} (lhs : FVec Ideal S128x128 φ₁) (rhs : FVec Ideal S128x128 φ₂) (r : Fin 128) (j : Fin 128) :
    matmul dot_S128x128_S128x128_S128x128_1_0_0_1_n_n none lhs rhs (constant (F := Ideal) S128x128 .f32 0x00000000#32) (ix2 r j)
      = ∑ q : Fin 128, lhs (ix2 r q) * rhs (ix2 q j) :=
  matmul_ix2 dot_S128x128_S128x128_S128x128_1_0_0_1_n_n rfl rfl
    (fun i q => by
      unfold DotDims.lhsIdx
      rw [dif_neg (show ¬(0 : Fin S128x128.rank) ∈ dot_S128x128_S128x128_S128x128_1_0_0_1_n_n.lhsBatch by decide),
        dif_pos (show (0 : Fin S128x128.rank) ∈ dot_S128x128_S128x128_S128x128_1_0_0_1_n_n.lhsNonContracting by decide)]
      rfl)
    (fun i q => dot_S128x128_S128x128_S128x128_1_0_0_1_n_n.lhsIdx_val_of_single rfl i q)
    (fun i q => dot_S128x128_S128x128_S128x128_1_0_0_1_n_n.rhsIdx_val_of_single rfl i q)
    (fun i q => by
      unfold DotDims.rhsIdx
      rw [dif_neg (show ¬(1 : Fin S128x128.rank) ∈ dot_S128x128_S128x128_S128x128_1_0_0_1_n_n.rhsBatch by decide),
        dif_pos (show (1 : Fin S128x128.rank) ∈ dot_S128x128_S128x128_S128x128_1_0_0_1_n_n.rhsNonContracting by decide)]
      rfl)
    lhs rhs r j

/-- The [10000,128] · [128,128] product at an index. -/
theorem mmX {φ₁ φ₂ : FTy} (lhs : FVec Ideal S10000x128 φ₁) (rhs : FVec Ideal S128x128 φ₂) (r : Fin 10000) (j : Fin 128) :
    matmul dot_S10000x128_S128x128_S10000x128_1_0_0_1_n_n none lhs rhs (constant (F := Ideal) S10000x128 .f32 0x00000000#32) (ix2 r j)
      = ∑ q : Fin 128, lhs (ix2 r q) * rhs (ix2 q j) :=
  matmul_ix2 dot_S10000x128_S128x128_S10000x128_1_0_0_1_n_n rfl rfl
    (fun i q => by
      unfold DotDims.lhsIdx
      rw [dif_neg (show ¬(0 : Fin S10000x128.rank) ∈ dot_S10000x128_S128x128_S10000x128_1_0_0_1_n_n.lhsBatch by decide),
        dif_pos (show (0 : Fin S10000x128.rank) ∈ dot_S10000x128_S128x128_S10000x128_1_0_0_1_n_n.lhsNonContracting by decide)]
      rfl)
    (fun i q => dot_S10000x128_S128x128_S10000x128_1_0_0_1_n_n.lhsIdx_val_of_single rfl i q)
    (fun i q => dot_S10000x128_S128x128_S10000x128_1_0_0_1_n_n.rhsIdx_val_of_single rfl i q)
    (fun i q => by
      unfold DotDims.rhsIdx
      rw [dif_neg (show ¬(1 : Fin S128x128.rank) ∈ dot_S10000x128_S128x128_S10000x128_1_0_0_1_n_n.rhsBatch by decide),
        dif_pos (show (1 : Fin S128x128.rank) ∈ dot_S10000x128_S128x128_S10000x128_1_0_0_1_n_n.rhsNonContracting by decide)]
      rfl)
    lhs rhs r j

/-- The [200,10000] · [10000,128] product at an index. -/
theorem mmA {φ₁ φ₂ : FTy} (lhs : FVec Ideal S200x10000 φ₁) (rhs : FVec Ideal S10000x128 φ₂) (r : Fin 200) (j : Fin 128) :
    matmul dot_S200x10000_S10000x128_S200x128_1_0_0_1_n_n none lhs rhs (constant (F := Ideal) S200x128 .f32 0x00000000#32) (ix2 r j)
      = ∑ q : Fin 10000, lhs (ix2 r q) * rhs (ix2 q j) :=
  matmul_ix2 dot_S200x10000_S10000x128_S200x128_1_0_0_1_n_n rfl rfl
    (fun i q => by
      unfold DotDims.lhsIdx
      rw [dif_neg (show ¬(0 : Fin S200x10000.rank) ∈ dot_S200x10000_S10000x128_S200x128_1_0_0_1_n_n.lhsBatch by decide),
        dif_pos (show (0 : Fin S200x10000.rank) ∈ dot_S200x10000_S10000x128_S200x128_1_0_0_1_n_n.lhsNonContracting by decide)]
      rfl)
    (fun i q => dot_S200x10000_S10000x128_S200x128_1_0_0_1_n_n.lhsIdx_val_of_single rfl i q)
    (fun i q => dot_S200x10000_S10000x128_S200x128_1_0_0_1_n_n.rhsIdx_val_of_single rfl i q)
    (fun i q => by
      unfold DotDims.rhsIdx
      rw [dif_neg (show ¬(1 : Fin S10000x128.rank) ∈ dot_S200x10000_S10000x128_S200x128_1_0_0_1_n_n.rhsBatch by decide),
        dif_pos (show (1 : Fin S10000x128.rank) ∈ dot_S200x10000_S10000x128_S200x128_1_0_0_1_n_n.rhsNonContracting by decide)]
      rfl)
    lhs rhs r j

/-- The [200,128] · [128,128] product at an index. -/
theorem mmB {φ₁ φ₂ : FTy} (lhs : FVec Ideal S200x128 φ₁) (rhs : FVec Ideal S128x128 φ₂) (r : Fin 200) (j : Fin 128) :
    matmul dot_S200x128_S128x128_S200x128_1_0_0_1_n_n none lhs rhs (constant (F := Ideal) S200x128 .f32 0x00000000#32) (ix2 r j)
      = ∑ q : Fin 128, lhs (ix2 r q) * rhs (ix2 q j) :=
  matmul_ix2 dot_S200x128_S128x128_S200x128_1_0_0_1_n_n rfl rfl
    (fun i q => by
      unfold DotDims.lhsIdx
      rw [dif_neg (show ¬(0 : Fin S200x128.rank) ∈ dot_S200x128_S128x128_S200x128_1_0_0_1_n_n.lhsBatch by decide),
        dif_pos (show (0 : Fin S200x128.rank) ∈ dot_S200x128_S128x128_S200x128_1_0_0_1_n_n.lhsNonContracting by decide)]
      rfl)
    (fun i q => dot_S200x128_S128x128_S200x128_1_0_0_1_n_n.lhsIdx_val_of_single rfl i q)
    (fun i q => dot_S200x128_S128x128_S200x128_1_0_0_1_n_n.rhsIdx_val_of_single rfl i q)
    (fun i q => by
      unfold DotDims.rhsIdx
      rw [dif_neg (show ¬(1 : Fin S128x128.rank) ∈ dot_S200x128_S128x128_S200x128_1_0_0_1_n_n.rhsBatch by decide),
        dif_pos (show (1 : Fin S128x128.rank) ∈ dot_S200x128_S128x128_S200x128_1_0_0_1_n_n.rhsNonContracting by decide)]
      rfl)
    lhs rhs r j

/-! ## The scratch values -/

/-- `S_0 = X · (Wp1 · Wa_0)`, stored in the narrow format: the identity on extended reals. -/
theorem pay11_apply (X : S10000x128.Idx → EReal) (Wp1 Wa : S128x128.Idx → EReal) (n : Fin 10000) (j : Fin 128) :
    k0_pay11 (F := Ideal) X Wp1 Wa (ix2 n j) = Spec.Sk X Wp1 Wa n j := by
  unfold k0_pay11
  simp only [shapeCast_self, truncf_apply]
  rw [mmX]
  unfold Spec.Sk
  refine Finset.sum_congr rfl fun p _ => ?_
  rw [mm128]

/-- `S_1 = X · (Wp1 · Wa_1)` likewise. -/
theorem pay12_apply (X : S10000x128.Idx → EReal) (Wp1 Wa : S128x128.Idx → EReal) (n : Fin 10000) (j : Fin 128) :
    k0_pay12 (F := Ideal) X Wp1 Wa (ix2 n j) = Spec.Sk X Wp1 Wa n j := by
  unfold k0_pay12
  simp only [shapeCast_self, truncf_apply]
  rw [mmX]
  unfold Spec.Sk
  refine Finset.sum_congr rfl fun p _ => ?_
  rw [mm128]

/-- `C_0 = Wp0 · Ws_0`. -/
theorem pay13_apply (Wp0 Ws : S128x128.Idx → EReal) (d j : Fin 128) :
    k0_pay13 (F := Ideal) Wp0 Ws (ix2 d j) = Spec.Ck Wp0 Ws d j := by
  unfold k0_pay13
  simp only [shapeCast_self]
  rw [mm128]
  rfl

/-- `C_1 = Wp0 · Ws_1`. -/
theorem pay14_apply (Wp0 Ws : S128x128.Idx → EReal) (d j : Fin 128) :
    k0_pay14 (F := Ideal) Wp0 Ws (ix2 d j) = Spec.Ck Wp0 Ws d j := by
  unfold k0_pay14
  simp only [shapeCast_self]
  rw [mm128]
  rfl

/-! ## The hidden blocks -/

/-- The first hidden block at `(r, j)`: the adjacency row times the scratch column, plus the feature row times the
    self-weight column, cut below at zero. -/
theorem pay15_apply (Xb : S200x128.Idx → EReal) (Ab : S200x10000.Idx → EReal) (Sv : S10000x128.Idx → EReal)
    (Cv : S128x128.Idx → EReal) (r : Fin 200) (j : Fin 128) :
    k0_pay15 (F := Ideal) Xb Ab Sv Cv (ix2 r j)
      = max ((∑ n : Fin 10000, Ab (ix2 r n) * Sv (ix2 n j)) + ∑ d : Fin 128, Xb (ix2 r d) * Cv (ix2 d j)) 0 := by
  unfold k0_pay15
  show max (matmul dot_S200x10000_S10000x128_S200x128_1_0_0_1_n_n none (truncf .bf16 Ab bitsLt_bf16_f32) Sv
        (constant (F := Ideal) S200x128 .f32 0x00000000#32) (ix2 r j)
      + matmul dot_S200x128_S128x128_S200x128_1_0_0_1_n_n none Xb Cv (constant (F := Ideal) S200x128 .f32 0x00000000#32) (ix2 r j))
      (Ideal.ofBits .f32 0x00000000#32) = _
  rw [mmA, mmB, Ideal.ofBits_zero_f32]
  rfl

/-- The second hidden block, the same expression of its own operands. -/
theorem pay16_apply (Xb : S200x128.Idx → EReal) (Ab : S200x10000.Idx → EReal) (Sv : S10000x128.Idx → EReal)
    (Cv : S128x128.Idx → EReal) (r : Fin 200) (j : Fin 128) :
    k0_pay16 (F := Ideal) Xb Ab Sv Cv (ix2 r j)
      = max ((∑ n : Fin 10000, Ab (ix2 r n) * Sv (ix2 n j)) + ∑ d : Fin 128, Xb (ix2 r d) * Cv (ix2 d j)) 0 := by
  unfold k0_pay16
  show max (matmul dot_S200x10000_S10000x128_S200x128_1_0_0_1_n_n none (truncf .bf16 Ab bitsLt_bf16_f32) Sv
        (constant (F := Ideal) S200x128 .f32 0x00000000#32) (ix2 r j)
      + matmul dot_S200x128_S128x128_S200x128_1_0_0_1_n_n none Xb Cv (constant (F := Ideal) S200x128 .f32 0x00000000#32) (ix2 r j))
      (Ideal.ofBits .f32 0x00000000#32) = _
  rw [mmA, mmB, Ideal.ofBits_zero_f32]
  rfl

/-- tanh of the first hidden block times the attention vector (a [1,128] row), before the row sum. -/
theorem pay17_apply (Xb : S200x128.Idx → EReal) (Ab : S200x10000.Idx → EReal) (Sv : S10000x128.Idx → EReal)
    (Cv : S128x128.Idx → EReal) (avr : S1x128.Idx → EReal) (r : Fin 200) (j : Fin 128) :
    k0_pay17 (F := Ideal) Xb Ab Sv Cv avr (ix2 r j)
      = Ideal.tanh (k0_pay15 (F := Ideal) Xb Ab Sv Cv (ix2 r j)) * avr (ix2 (0 : Fin 1) j) := by
  unfold k0_pay17
  simp only [shapeCast_self]
  show Ideal.tanh (k0_pay15 (F := Ideal) Xb Ab Sv Cv (ix2 r j))
      * broadcastTo S200x128 avr broadcasts_S1x128_S200x128 (ix2 r j) = _
  rw [broadcastTo_1b_ab_apply]

end Cert.Proof.KValue

end
-- ==== Proof.KValueIB.lean ====
/-
  THE KERNEL'S PAYLOADS AT AN INDEX, at the extended reals (second part): on one row of a 200-row block, the two scores
  (row sums of tanh (h_k) · av), the softmax over the two metapaths written with one reciprocal, the two weights side by
  side, and the mixture through the classifier — each as the specification's function of the arrays, GIVEN that the row
  of the block is row `R` of the arrays, that the scratch values are S_k and C_k, and that the three small operands are
  the attention vector as a row, the padded classifier weight and the padded bias.
-/
import proofs.«208996_g46033459479168_cont_8to1c4_133_24_alg».proof.Proof.KValueIA

noncomputable section

open scoped BigOperators

namespace Cert.Proof.KValue

open Idealize.ShloMosaic Idealize.ShloMosaic.ValueIdx Cert.KernelIdeal Cert.KernelIdeal.Gen

/-! ## The pointwise transcendental operations at an index -/

/-- The exponential of a vector at an index is the exponential of the element. -/
theorem vexp_apply {s : Shape} {φ : FTy} (x : FVec Ideal s φ) (i : s.Idx) :
    Idealize.ShloMosaic.exp x i = Ideal.exp (x i) := rfl
/-- The hyperbolic tangent of a vector at an index is that of the element. -/
theorem vtanh_apply {s : Shape} {φ : FTy} (x : FVec Ideal s φ) (i : s.Idx) :
    Idealize.ShloMosaic.tanh x i = Ideal.tanh (x i) := rfl

/-! ## The two scores on a row -/

/-- The first score's column: the row sum of its operand. -/
theorem pay1_apply (v30 : FVec Ideal S200x128 .f32) (r : Fin 200) (u : Fin 1) :
    k0_pay1 (F := Ideal) v30 (ix2 r u) = ∑ j : Fin 128, v30 (ix2 r j) := by
  unfold k0_pay1
  exact rowsum_col v30 r u

/-- The second score's column: the row sum of tanh of the hidden block times the attention row. -/
theorem pay2_apply (v25 : FVec Ideal S200x128 .f32) (v34 : S1x128.Idx → EReal) (r : Fin 200) (u : Fin 1) :
    k0_pay2 (F := Ideal) v25 v34 (ix2 r u) = ∑ j : Fin 128, Ideal.tanh (v25 (ix2 r j)) * v34 (ix2 (0 : Fin 1) j) := by
  unfold k0_pay2
  simp only [shapeCast_self]
  refine (rowsum_col _ r u).trans ?_
  refine Finset.sum_congr rfl fun j _ => ?_
  show Ideal.tanh (v25 (ix2 r j)) * broadcastTo S200x128 v34 broadcasts_S1x128_S200x128 (ix2 r j) = _
  rw [broadcastTo_1b_ab_apply]

/-! ## A hidden block's row is the specification's -/

section Row

variable (X : S10000x128.Idx → EReal) (A : S10000x10000.Idx → EReal) (Wp0 Wp1 Wa Ws : S128x128.Idx → EReal)
  (av : S128.Idx → EReal)
variable (Xb : S200x128.Idx → EReal) (Ab : S200x10000.Idx → EReal) (Sv : S10000x128.Idx → EReal) (Cv : S128x128.Idx → EReal)
  (avr : S1x128.Idx → EReal) (r : Fin 200) (R : Fin 10000)

/-- Row `r` of the first hidden block is row `R` of the specification's hidden layer. -/
theorem pay15_spec (hX : ∀ d, Xb (ix2 r d) = X (ix2 R d)) (hA : ∀ n, Ab (ix2 r n) = A (ix2 R n))
    (hS : ∀ n j, Sv (ix2 n j) = Spec.Sk X Wp1 Wa n j) (hC : ∀ d j, Cv (ix2 d j) = Spec.Ck Wp0 Ws d j) (j : Fin 128) :
    k0_pay15 (F := Ideal) Xb Ab Sv Cv (ix2 r j) = Spec.hk A X Wp0 Wp1 Wa Ws R j := by
  rw [pay15_apply]
  unfold Spec.hk
  simp only [hX, hA, hS, hC]

/-- Row `r` of the second hidden block likewise. -/
theorem pay16_spec (hX : ∀ d, Xb (ix2 r d) = X (ix2 R d)) (hA : ∀ n, Ab (ix2 r n) = A (ix2 R n))
    (hS : ∀ n j, Sv (ix2 n j) = Spec.Sk X Wp1 Wa n j) (hC : ∀ d j, Cv (ix2 d j) = Spec.Ck Wp0 Ws d j) (j : Fin 128) :
    k0_pay16 (F := Ideal) Xb Ab Sv Cv (ix2 r j) = Spec.hk A X Wp0 Wp1 Wa Ws R j := by
  rw [pay16_apply]
  unfold Spec.hk
  simp only [hX, hA, hS, hC]

/-- The first score on row `r` is the specification's score at `R`. -/
theorem score0_spec (hX : ∀ d, Xb (ix2 r d) = X (ix2 R d)) (hA : ∀ n, Ab (ix2 r n) = A (ix2 R n))
    (hS : ∀ n j, Sv (ix2 n j) = Spec.Sk X Wp1 Wa n j) (hC : ∀ d j, Cv (ix2 d j) = Spec.Ck Wp0 Ws d j)
    (hav : ∀ j, avr (ix2 (0 : Fin 1) j) = av (ix1 j)) (u : Fin 1) :
    k0_pay1 (F := Ideal) (k0_pay17 (F := Ideal) Xb Ab Sv Cv avr) (ix2 r u) = Spec.sk A X Wp0 Wp1 Wa Ws av R := by
  rw [pay1_apply]
  unfold Spec.sk
  refine Finset.sum_congr rfl fun j _ => ?_
  rw [pay17_apply, pay15_spec X A Wp0 Wp1 Wa Ws Xb Ab Sv Cv r R hX hA hS hC, hav]

/-- The second score on row `r` is the specification's score at `R`. -/
theorem score1_spec (hX : ∀ d, Xb (ix2 r d) = X (ix2 R d)) (hA : ∀ n, Ab (ix2 r n) = A (ix2 R n))
    (hS : ∀ n j, Sv (ix2 n j) = Spec.Sk X Wp1 Wa n j) (hC : ∀ d j, Cv (ix2 d j) = Spec.Ck Wp0 Ws d j)
    (hav : ∀ j, avr (ix2 (0 : Fin 1) j) = av (ix1 j)) (u : Fin 1) :
    k0_pay2 (F := Ideal) (k0_pay16 (F := Ideal) Xb Ab Sv Cv) avr (ix2 r u) = Spec.sk A X Wp0 Wp1 Wa Ws av R := by
  rw [pay2_apply]
  unfold Spec.sk
  refine Finset.sum_congr rfl fun j _ => ?_
  rw [pay16_spec X A Wp0 Wp1 Wa Ws Xb Ab Sv Cv r R hX hA hS hC, hav]

end Row

/-! ## The softmax over the two metapaths on a row -/

section Softmax

variable (X : S10000x128.Idx → EReal) (A0 A1 : S10000x10000.Idx → EReal)
  (Wp0 Wp1 Wa0 Wa1 Ws0 Ws1 : S128x128.Idx → EReal) (av : S128.Idx → EReal)
variable (v25 v30 : FVec Ideal S200x128 .f32) (v34 : S1x128.Idx → EReal) (r : Fin 200) (R : Fin 10000) (u : Fin 1)

/-- The word of the constant one is one. -/
theorem one_word : (Ideal.ofBits .f32 0x3F800000#32 : EReal) = 1 := Ideal.ofBits_one_f32

/-- The first weight on row `r`, once the two scores are the specification's. -/
theorem pay7_spec (h0 : k0_pay1 (F := Ideal) v30 (ix2 r u) = Spec.s0 X A0 Wp0 Wp1 Wa0 Ws0 av R)
    (h1 : k0_pay2 (F := Ideal) v25 v34 (ix2 r u) = Spec.s1 X A1 Wp0 Wp1 Wa1 Ws1 av R) :
    k0_pay7 (F := Ideal) v25 v30 v34 (ix2 r u) = Spec.b0 X A0 A1 Wp0 Wp1 Wa0 Wa1 Ws0 Ws1 av R := by
  unfold k0_pay7 k0_pay6 k0_pay4 k0_pay5 k0_pay3
  simp only [mulf_apply, divf_apply, addf_apply, subf_apply, maximumf_apply, broadcast_apply, vexp_apply]
  rw [h0, h1]
  show _ * Ideal.div (Ideal.ofBits .f32 0x3F800000#32) _ = _
  rw [one_word]
  rfl

/-- The second weight on row `r`, once the two scores are the specification's. -/
theorem pay8_spec (h0 : k0_pay1 (F := Ideal) v30 (ix2 r u) = Spec.s0 X A0 Wp0 Wp1 Wa0 Ws0 av R)
    (h1 : k0_pay2 (F := Ideal) v25 v34 (ix2 r u) = Spec.s1 X A1 Wp0 Wp1 Wa1 Ws1 av R) :
    k0_pay8 (F := Ideal) v25 v30 v34 (ix2 r u) = Spec.b1 X A0 A1 Wp0 Wp1 Wa0 Wa1 Ws0 Ws1 av R := by
  unfold k0_pay8 k0_pay6 k0_pay4 k0_pay5 k0_pay3
  simp only [mulf_apply, divf_apply, addf_apply, subf_apply, maximumf_apply, broadcast_apply, vexp_apply]
  rw [h0, h1]
  show _ * Ideal.div (Ideal.ofBits .f32 0x3F800000#32) _ = _
  rw [one_word]
  rfl

/-- The two weights side by side: column `k` of row `r` is the weight of metapath `k` at `R`. -/
theorem pay9_spec (h0 : k0_pay1 (F := Ideal) v30 (ix2 r (0 : Fin 1)) = Spec.s0 X A0 Wp0 Wp1 Wa0 Ws0 av R)
    (h1 : k0_pay2 (F := Ideal) v25 v34 (ix2 r (0 : Fin 1)) = Spec.s1 X A1 Wp0 Wp1 Wa1 Ws1 av R) (k : Fin 2) :
    k0_pay9 (F := Ideal) v25 v30 v34 (ix2 r k) = Spec.bK X A0 A1 Wp0 Wp1 Wa0 Wa1 Ws0 Ws1 av k.val R := by
  unfold k0_pay9
  match k with
  | ⟨0, _⟩ =>
    refine (concat_cols_zero _ _ concatenates_S200x1_S200x1_S200x2_d1 r).trans ?_
    rw [pay7_spec X A0 A1 Wp0 Wp1 Wa0 Wa1 Ws0 Ws1 av v25 v30 v34 r R 0 h0 h1]
    rfl
  | ⟨1, _⟩ =>
    refine (concat_cols_one _ _ concatenates_S200x1_S200x1_S200x2_d1 r).trans ?_
    rw [pay8_spec X A0 A1 Wp0 Wp1 Wa0 Wa1 Ws0 Ws1 av v25 v30 v34 r R 0 h0 h1]
    rfl

/-- The mixture through the classifier on row `r`, over the block's own operands: the weights times the hidden rows,
    times the weight matrix's column, plus the bias row. -/
theorem pay10_apply (v16 : FVec Ideal S200x128 .f32) (v57 : S128x128.Idx → EReal) (v60 : S1x128.Idx → EReal) (c : Fin 128) :
    k0_pay10 (F := Ideal) v16 v25 v30 v34 v57 v60 (ix2 r c)
      = (∑ j : Fin 128, (k0_pay7 (F := Ideal) v25 v30 v34 (ix2 r (0 : Fin 1)) * v16 (ix2 r j)
            + k0_pay8 (F := Ideal) v25 v30 v34 (ix2 r (0 : Fin 1)) * v25 (ix2 r j)) * v57 (ix2 j c))
          + v60 (ix2 (0 : Fin 1) c) := by
  unfold k0_pay10
  simp only [shapeCast_self]
  show matmul dot_S200x128_S128x128_S200x128_1_0_0_1_n_n none
        (addf (mulf (broadcastTo S200x128 (k0_pay7 (F := Ideal) v25 v30 v34) broadcasts_S200x1_S200x128) v16)
          (mulf (broadcastTo S200x128 (k0_pay8 (F := Ideal) v25 v30 v34) broadcasts_S200x1_S200x128) v25))
        v57 (constant (F := Ideal) S200x128 .f32 0x00000000#32) (ix2 r c)
      + broadcastTo S200x128 v60 broadcasts_S1x128_S200x128 (ix2 r c) = _
  rw [mmB, broadcastTo_1b_ab_apply]
  refine congrArg (· + v60 (ix2 (0 : Fin 1) c)) (Finset.sum_congr rfl fun j _ => ?_)
  show (broadcastTo S200x128 (k0_pay7 (F := Ideal) v25 v30 v34) broadcasts_S200x1_S200x128 (ix2 r j) * v16 (ix2 r j)
      + broadcastTo S200x128 (k0_pay8 (F := Ideal) v25 v30 v34) broadcasts_S200x1_S200x128 (ix2 r j) * v25 (ix2 r j)) * v57 (ix2 j c) = _
  rw [broadcastTo_a1_ab_apply, broadcastTo_a1_ab_apply]

end Softmax

end Cert.Proof.KValue

end
-- ==== Proof.KValueIC.lean ====
/-
  THE TENSORCORE BODY'S TWO STORES ON A BLOCK OF ROWS, at the extended reals: row `r` of what the body leaves in the
  first result's block at grid point `i` is row `200 · i + r` of the specification's stored weights, and of the second
  result's block that row of the specification's classifier output — given that the adjacency blocks hold those rows of
  the adjacencies, the scratch buffers hold S_k and C_k, and the three small operands are the attention vector as a row,
  the padded classifier weight and the padded bias. Then the three host-written operands read at an index: a reshape of
  a vector to one row, and a matrix (a row) padded with zero columns.
-/
import proofs.«208996_g46033459479168_cont_8to1c4_133_24_alg».proof.Proof.KValueIB
import proofs.«208996_g46033459479168_cont_8to1c4_133_24_alg».proof.Proof.TcBodyIDefs
import Idealize.ShloMosaic.Lib.KernelVsHost

noncomputable section

open scoped BigOperators

namespace Cert.Proof.KValue

open Idealize.ShloMosaic Idealize.ShloMosaic.ValueIdx Cert.KernelIdeal Cert.KernelIdeal.Gen Cert.Proof.TcBodyI

/-- The row of the arrays that row `r` of the block at grid point `i` is: `200 · i + r`. -/
def rowOfPt (i : grid0.Coords) (r : Fin 200) : Fin 10000 :=
  ⟨200 * (i 0).val + r.val, by have h : (i 0).val < 50 := (i 0).isLt; have := r.isLt; omega⟩

theorem rowOfPt_val (i : grid0.Coords) (r : Fin 200) : (rowOfPt i r).val = 200 * (i 0).val + r.val := rfl

/-- Row `r` of the feature rows the body loads at point `i` is row `200 · i + r` of the feature matrix. -/
theorem fblk_apply (x2 : S10000x128.Idx → EReal) (i : grid0.Coords) (r : Fin 200) (d : Fin 128) :
    fblk (F := Ideal) x2 i (ix2 r d) = x2 (ix2 (rowOfPt i r) d) := by
  unfold fblk
  show x2 ((Rect.unit (s := S10000x128) (k0_off1 i) S200x128.size (k0_off1_inb i)).idx (ix2 r d)) = _
  refine congrArg x2 (funext fun a => Fin.ext ?_)
  match a with
  | ⟨0, _⟩ =>
    show k0_off1 i 0 + 1 * r.val = 200 * (i 0).val + r.val
    rw [k0_off1_eq i]
    show 200 * (i 0).val + 1 * r.val = _
    omega
  | ⟨1, _⟩ =>
    show k0_off1 i 1 + 1 * d.val = d.val
    rw [k0_off1_eq i]
    show 0 + 1 * d.val = d.val
    omega

section Block

variable (X : S10000x128.Idx → EReal) (A0 A1 : S10000x10000.Idx → EReal)
  (Wp0 Wp1 Wa0 Wa1 Ws0 Ws1 : S128x128.Idx → EReal) (av : S128.Idx → EReal) (Wfc : S128x40.Idx → EReal)
  (bfc : S40.Idx → EReal)
variable (i : grid0.Coords) (x0 x1 : S200x10000.Idx → EReal) (s0 s1 : S10000x128.Idx → EReal)
  (c0 c1 : S128x128.Idx → EReal) (x9 : S1x128.Idx → EReal) (x10 : S128x128.Idx → EReal) (x11 : S1x128.Idx → EReal)
  (r : Fin 200)

/-- THE FIRST STORE: at `(r, k)` the weight of metapath `k` at node `200 · i + r`. -/
theorem out12_spec (hx0 : ∀ n, x0 (ix2 r n) = A0 (ix2 (rowOfPt i r) n)) (hx1 : ∀ n, x1 (ix2 r n) = A1 (ix2 (rowOfPt i r) n))
    (hs0 : ∀ n j, s0 (ix2 n j) = Spec.Sk X Wp1 Wa0 n j) (hs1 : ∀ n j, s1 (ix2 n j) = Spec.Sk X Wp1 Wa1 n j)
    (hc0 : ∀ d j, c0 (ix2 d j) = Spec.Ck Wp0 Ws0 d j) (hc1 : ∀ d j, c1 (ix2 d j) = Spec.Ck Wp0 Ws1 d j)
    (hav : ∀ j, x9 (ix2 (0 : Fin 1) j) = av (ix1 j)) (k : Fin 2) :
    out12 (F := Ideal) i x0 x1 X s0 s1 c0 c1 x9 (ix2 r k) = Spec.betaT X A0 A1 Wp0 Wp1 Wa0 Wa1 Ws0 Ws1 av (ix2 (rowOfPt i r) k) := by
  unfold out12 h1of a0of
  rw [Spec.betaT_apply]
  exact pay9_spec X A0 A1 Wp0 Wp1 Wa0 Wa1 Ws0 Ws1 av _ _ x9 r (rowOfPt i r)
    (score0_spec X A0 Wp0 Wp1 Wa0 Ws0 av (fblk (F := Ideal) X i) x0 s0 c0 x9 r (rowOfPt i r)
      (fun d => fblk_apply X i r d) hx0 hs0 hc0 hav 0)
    (score1_spec X A1 Wp0 Wp1 Wa1 Ws1 av (fblk (F := Ideal) X i) x1 s1 c1 x9 r (rowOfPt i r)
      (fun d => fblk_apply X i r d) hx1 hs1 hc1 hav 0) k

/-- THE SECOND STORE: at `(r, c)` the classifier's output at node `200 · i + r`, column `c` of the 128. -/
theorem out13_spec (hx0 : ∀ n, x0 (ix2 r n) = A0 (ix2 (rowOfPt i r) n)) (hx1 : ∀ n, x1 (ix2 r n) = A1 (ix2 (rowOfPt i r) n))
    (hs0 : ∀ n j, s0 (ix2 n j) = Spec.Sk X Wp1 Wa0 n j) (hs1 : ∀ n j, s1 (ix2 n j) = Spec.Sk X Wp1 Wa1 n j)
    (hc0 : ∀ d j, c0 (ix2 d j) = Spec.Ck Wp0 Ws0 d j) (hc1 : ∀ d j, c1 (ix2 d j) = Spec.Ck Wp0 Ws1 d j)
    (hav : ∀ j, x9 (ix2 (0 : Fin 1) j) = av (ix1 j))
    (hw : ∀ j c, x10 (ix2 j c) = Spec.wfcPad Wfc j c) (hb : ∀ c, x11 (ix2 (0 : Fin 1) c) = Spec.bfcPad bfc c) (c : Fin 128) :
    out13 (F := Ideal) i x0 x1 X s0 s1 c0 c1 x9 x10 x11 (ix2 r c)
      = Spec.lg X A0 A1 Wp0 Wp1 Wa0 Wa1 Ws0 Ws1 av Wfc bfc (ix2 (rowOfPt i r) c) := by
  have hX : ∀ d, fblk (F := Ideal) X i (ix2 r d) = X (ix2 (rowOfPt i r) d) := fun d => fblk_apply X i r d
  have h0 := score0_spec X A0 Wp0 Wp1 Wa0 Ws0 av (fblk (F := Ideal) X i) x0 s0 c0 x9 r (rowOfPt i r) hX hx0 hs0 hc0 hav 0
  have h1 := score1_spec X A1 Wp0 Wp1 Wa1 Ws1 av (fblk (F := Ideal) X i) x1 s1 c1 x9 r (rowOfPt i r) hX hx1 hs1 hc1 hav 0
  unfold out13 h0of h1of a0of
  rw [pay10_apply, Spec.lg_apply,
    pay7_spec X A0 A1 Wp0 Wp1 Wa0 Wa1 Ws0 Ws1 av _ _ x9 r (rowOfPt i r) 0 h0 h1, pay8_spec X A0 A1 Wp0 Wp1 Wa0 Wa1 Ws0 Ws1 av _ _ x9 r (rowOfPt i r) 0 h0 h1, hb]
  unfold Spec.agg Spec.h0 Spec.h1
  refine congrArg (· + Spec.bfcPad bfc c) (Finset.sum_congr rfl fun j _ => ?_)
  rw [pay15_spec X A0 Wp0 Wp1 Wa0 Ws0 (fblk (F := Ideal) X i) x0 s0 c0 r (rowOfPt i r) hX hx0 hs0 hc0,
    pay16_spec X A1 Wp0 Wp1 Wa1 Ws1 (fblk (F := Ideal) X i) x1 s1 c1 r (rowOfPt i r) hX hx1 hs1 hc1, hw]

end Block

/-! ## The three host-written operands at an index -/

/-- The padding value the host computes: the integer zero converted. -/
theorem padValue_zero (i : S_.Idx) : sitofp (F := Ideal) .f32 (constantI S_ 32 0#32) i = (0 : EReal) := by
  show (((0#32 : BitVec 32).toInt : ℝ) : EReal) = 0
  simp

/-- The attention vector reshaped to one row reads, at `(0, j)`, the vector at `j`. -/
theorem avRow_apply (av : S128.Idx → EReal) (j : Fin 128) :
    shapeCast S1x128 av shapeCasts_S128_S1x128 (ix2 (0 : Fin 1) j) = av (ix1 j) :=
  shapeCast_a_1a_apply av shapeCasts_S128_S1x128 0 j

/-- The classifier weight padded with 88 zero columns reads the weight on the first 40 columns and zero beyond. -/
theorem wfcPadded_apply (Wfc : S128x40.Idx → EReal) (z : S_.Idx → EReal) (hz : ∀ i, z i = 0) (j c : Fin 128) :
    pad S128x128 ![0, 0] ![0, 88] ![0, 0] Wfc z pads_S128x40_S128x128_000_0880 h_S_ (ix2 j c) = Spec.wfcPad Wfc j c := by
  unfold Spec.wfcPad
  by_cases hc : c.val < 40
  · rw [dif_pos hc]
    exact pad_apply_of_inside _ _ _ Wfc z pads_S128x40_S128x128_000_0880 h_S_ _ (ix2 j (⟨c.val, hc⟩ : Fin 40)) (by
      intro a
      match a with
      | ⟨0, _⟩ => show j.val = 0 + j.val * (0 + 1); omega
      | ⟨1, _⟩ => show c.val = 0 + c.val * (0 + 1); omega)
  · rw [dif_neg hc]
    refine (pad_apply_of_not_inside _ _ _ Wfc z pads_S128x40_S128x128_000_0880 h_S_ _ (1 : Fin 2) (by
      intro hin
      have h3 : (c.val - 0) / (0 + 1) < 40 := hin.2.2
      rw [Nat.sub_zero, Nat.zero_add, Nat.div_one] at h3
      exact hc h3)).trans (hz _)

/-- The bias reshaped to one row and padded with 88 zero columns reads the bias on the first 40 columns and zero
    beyond. -/
theorem bfcPadded_apply (bfc : S40.Idx → EReal) (z : S_.Idx → EReal) (hz : ∀ i, z i = 0) (c : Fin 128) :
    pad S1x128 ![0, 0] ![0, 88] ![0, 0] (shapeCast S1x40 bfc shapeCasts_S40_S1x40) z pads_S1x40_S1x128_000_0880 h_S_
        (ix2 (0 : Fin 1) c) = Spec.bfcPad bfc c := by
  unfold Spec.bfcPad
  by_cases hc : c.val < 40
  · rw [dif_pos hc]
    refine (pad_apply_of_inside _ _ _ (shapeCast S1x40 bfc shapeCasts_S40_S1x40) z pads_S1x40_S1x128_000_0880 h_S_ _
      (ix2 (0 : Fin 1) (⟨c.val, hc⟩ : Fin 40)) (by
        intro a
        match a with
        | ⟨0, _⟩ => show 0 = 0 + 0 * (0 + 1); omega
        | ⟨1, _⟩ => show c.val = 0 + c.val * (0 + 1); omega)).trans ?_
    exact shapeCast_a_1a_apply bfc shapeCasts_S40_S1x40 0 ⟨c.val, hc⟩
  · rw [dif_neg hc]
    refine (pad_apply_of_not_inside _ _ _ (shapeCast S1x40 bfc shapeCasts_S40_S1x40) z pads_S1x40_S1x128_000_0880 h_S_ _
      (1 : Fin 2) (by
      intro hin
      have h3 : (c.val - 0) / (0 + 1) < 40 := hin.2.2
      rw [Nat.sub_zero, Nat.zero_add, Nat.div_one] at h3
      exact hc h3)).trans (hz _)

end Cert.Proof.KValue

end
-- ==== Proof.KValueID.lean ====
/-
  THE TENSORCORE REGION'S WINDOWS READ OFF THE ARRAYS, and with them what the body stores at a grid point in terms of
  the ARRAYS the region finds: the two adjacency windows stage rows 200 · t .. 200 · t + 200 of the adjacencies at point
  `t`, the ten other input windows stage their arrays whole at every point; so the scratch values are the
  specification's S_k and C_k of the arrays, and row `r` of the two stores at point `t` is row `200 · t + r` of the
  specification's stored weights and classifier output — given that the three host-written arrays are the attention
  vector as a row, the classifier weight padded with zero columns and the bias as a row padded likewise.
-/
import proofs.«208996_g46033459479168_cont_8to1c4_133_24_alg».proof.Proof.KValueIC

noncomputable section

open scoped BigOperators

namespace Cert.Proof.KValue

open Idealize.ShloMosaic Idealize.ShloMosaic.TcCoe Idealize.ShloMosaic.ValueIdx Cert.KernelIdeal Cert.KernelIdeal.Gen Cert.Proof.TcBodyI
open Idealize.SL.Sem

variable (V : (c : Dev nD) → (b : Ref sig .tc) → Buf (Elt Ideal) ((c : Thread nD τ).loc b))

/-! ## The windows that move with the grid -/

/-- The printed index maps of the four windows that move, decided over the grid's 50 points: block `(t, 0)` at
    point `t`, whose one coordinate is `t`. -/
theorem idx_facts : ∀ t : Fin cfg0.N, (grid0.coords t 0).val = t.val
    ∧ win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The first adjacency's block at point `t`, row `r`: row `200 · t + r` of the adjacency. -/
theorem iblk_adj0 (c : Dev nD) (t : Fin cfg0.N) (r : Fin 200) (n : Fin 10000) :
    iblk0 V c 0 t (ix2 r n) = V c main_arg2 (ix2 (rowOfPt (grid0.coords t) r) n) := by
  obtain ⟨e0, e1, e2, -⟩ := idx_facts t
  unfold iblk0
  show V c main_arg2 (((cfg0.win 0).blk t).view.emb (ix2 r n)) = _
  refine congrArg (V c main_arg2) (funext fun a => Fin.ext ?_)
  match a with
  | ⟨0, _⟩ =>
    show win0_0.index t (0 : Fin 2) * 200 + 1 * r.val = 200 * (grid0.coords t 0).val + r.val
    rw [e0, e1]; omega
  | ⟨1, _⟩ =>
    show win0_0.index t (1 : Fin 2) * 10000 + 1 * n.val = n.val
    rw [e2]; omega

/-- The second adjacency's block likewise. -/
theorem iblk_adj1 (c : Dev nD) (t : Fin cfg0.N) (r : Fin 200) (n : Fin 10000) :
    iblk0 V c 1 t (ix2 r n) = V c main_arg3 (ix2 (rowOfPt (grid0.coords t) r) n) := by
  obtain ⟨e0, -, -, e1, e2, -⟩ := idx_facts t
  unfold iblk0
  show V c main_arg3 (((cfg0.win 1).blk t).view.emb (ix2 r n)) = _
  refine congrArg (V c main_arg3) (funext fun a => Fin.ext ?_)
  match a with
  | ⟨0, _⟩ =>
    show win0_1.index t (0 : Fin 2) * 200 + 1 * r.val = 200 * (grid0.coords t 0).val + r.val
    rw [e0, e1]; omega
  | ⟨1, _⟩ =>
    show win0_1.index t (1 : Fin 2) * 10000 + 1 * n.val = n.val
    rw [e2]; omega

/-! ## The windows that stage their arrays whole -/

/-- Window 2's index map is constant: block (0, 0) at every point. -/
theorem idx_whole2 : ∀ (t : Fin cfg0.N) (a : Fin 2), win0_2.index t a = 0 :=
  (by decide +kernel : ∀ (t : Fin grid0.N) (a : Fin 2), win0_2.index t a = 0)

/-- Window 2 stages the feature matrix whole at every point. -/
theorem iblk_whole2 (c : Dev nD) (t : Fin cfg0.N) : (iblk0 V c 2 t : S10000x128.Idx → EReal) = V c main_arg1 := by
  have e := idx_whole2 t
  funext y
  unfold iblk0
  show V c main_arg1 (((cfg0.win 2).blk t).view.emb y) = V c main_arg1 y
  refine congrArg (V c main_arg1) (funext fun a => Fin.ext ?_)
  match a with
  | ⟨0, _⟩ =>
    show win0_2.index t (0 : Fin 2) * 10000 + 1 * (y 0).val = (y 0).val
    rw [e 0]; omega
  | ⟨1, _⟩ =>
    show win0_2.index t (1 : Fin 2) * 128 + 1 * (y 1).val = (y 1).val
    rw [e 1]; omega

/-- Window 3's index map is constant: block (0, 0) at every point. -/
theorem idx_whole3 : ∀ (t : Fin cfg0.N) (a : Fin 2), win0_3.index t a = 0 :=
  (by decide +kernel : ∀ (t : Fin grid0.N) (a : Fin 2), win0_3.index t a = 0)

/-- Window 3 stages the first preparation weight whole at every point. -/
theorem iblk_whole3 (c : Dev nD) (t : Fin cfg0.N) : (iblk0 V c 3 t : S128x128.Idx → EReal) = V c main_arg4 := by
  have e := idx_whole3 t
  funext y
  unfold iblk0
  show V c main_arg4 (((cfg0.win 3).blk t).view.emb y) = V c main_arg4 y
  refine congrArg (V c main_arg4) (funext fun a => Fin.ext ?_)
  match a with
  | ⟨0, _⟩ =>
    show win0_3.index t (0 : Fin 2) * 128 + 1 * (y 0).val = (y 0).val
    rw [e 0]; omega
  | ⟨1, _⟩ =>
    show win0_3.index t (1 : Fin 2) * 128 + 1 * (y 1).val = (y 1).val
    rw [e 1]; omega

/-- Window 4's index map is constant: block (0, 0) at every point. -/
theorem idx_whole4 : ∀ (t : Fin cfg0.N) (a : Fin 2), win0_4.index t a = 0 :=
  (by decide +kernel : ∀ (t : Fin grid0.N) (a : Fin 2), win0_4.index t a = 0)

/-- Window 4 stages the second preparation weight whole at every point. -/
theorem iblk_whole4 (c : Dev nD) (t : Fin cfg0.N) : (iblk0 V c 4 t : S128x128.Idx → EReal) = V c main_arg5 := by
  have e := idx_whole4 t
  funext y
  unfold iblk0
  show V c main_arg5 (((cfg0.win 4).blk t).view.emb y) = V c main_arg5 y
  refine congrArg (V c main_arg5) (funext fun a => Fin.ext ?_)
  match a with
  | ⟨0, _⟩ =>
    show win0_4.index t (0 : Fin 2) * 128 + 1 * (y 0).val = (y 0).val
    rw [e 0]; omega
  | ⟨1, _⟩ =>
    show win0_4.index t (1 : Fin 2) * 128 + 1 * (y 1).val = (y 1).val
    rw [e 1]; omega

/-- Window 5's index map is constant: block (0, 0) at every point. -/
theorem idx_whole5 : ∀ (t : Fin cfg0.N) (a : Fin 2), win0_5.index t a = 0 :=
  (by decide +kernel : ∀ (t : Fin grid0.N) (a : Fin 2), win0_5.index t a = 0)

/-- Window 5 stages the first aggregation weight whole at every point. -/
theorem iblk_whole5 (c : Dev nD) (t : Fin cfg0.N) : (iblk0 V c 5 t : S128x128.Idx → EReal) = V c main_arg6 := by
  have e := idx_whole5 t
  funext y
  unfold iblk0
  show V c main_arg6 (((cfg0.win 5).blk t).view.emb y) = V c main_arg6 y
  refine congrArg (V c main_arg6) (funext fun a => Fin.ext ?_)
  match a with
  | ⟨0, _⟩ =>
    show win0_5.index t (0 : Fin 2) * 128 + 1 * (y 0).val = (y 0).val
    rw [e 0]; omega
  | ⟨1, _⟩ =>
    show win0_5.index t (1 : Fin 2) * 128 + 1 * (y 1).val = (y 1).val
    rw [e 1]; omega

/-- Window 6's index map is constant: block (0, 0) at every point. -/
theorem idx_whole6 : ∀ (t : Fin cfg0.N) (a : Fin 2), win0_6.index t a = 0 :=
  (by decide +kernel : ∀ (t : Fin grid0.N) (a : Fin 2), win0_6.index t a = 0)

/-- Window 6 stages the second aggregation weight whole at every point. -/
theorem iblk_whole6 (c : Dev nD) (t : Fin cfg0.N) : (iblk0 V c 6 t : S128x128.Idx → EReal) = V c main_arg7 := by
  have e := idx_whole6 t
  funext y
  unfold iblk0
  show V c main_arg7 (((cfg0.win 6).blk t).view.emb y) = V c main_arg7 y
  refine congrArg (V c main_arg7) (funext fun a => Fin.ext ?_)
  match a with
  | ⟨0, _⟩ =>
    show win0_6.index t (0 : Fin 2) * 128 + 1 * (y 0).val = (y 0).val
    rw [e 0]; omega
  | ⟨1, _⟩ =>
    show win0_6.index t (1 : Fin 2) * 128 + 1 * (y 1).val = (y 1).val
    rw [e 1]; omega

/-- Window 7's index map is constant: block (0, 0) at every point. -/
theorem idx_whole7 : ∀ (t : Fin cfg0.N) (a : Fin 2), win0_7.index t a = 0 :=
  (by decide +kernel : ∀ (t : Fin grid0.N) (a : Fin 2), win0_7.index t a = 0)

/-- Window 7 stages the first self weight whole at every point. -/
theorem iblk_whole7 (c : Dev nD) (t : Fin cfg0.N) : (iblk0 V c 7 t : S128x128.Idx → EReal) = V c main_arg8 := by
  have e := idx_whole7 t
  funext y
  unfold iblk0
  show V c main_arg8 (((cfg0.win 7).blk t).view.emb y) = V c main_arg8 y
  refine congrArg (V c main_arg8) (funext fun a => Fin.ext ?_)
  match a with
  | ⟨0, _⟩ =>
    show win0_7.index t (0 : Fin 2) * 128 + 1 * (y 0).val = (y 0).val
    rw [e 0]; omega
  | ⟨1, _⟩ =>
    show win0_7.index t (1 : Fin 2) * 128 + 1 * (y 1).val = (y 1).val
    rw [e 1]; omega

/-- Window 8's index map is constant: block (0, 0) at every point. -/
theorem idx_whole8 : ∀ (t : Fin cfg0.N) (a : Fin 2), win0_8.index t a = 0 :=
  (by decide +kernel : ∀ (t : Fin grid0.N) (a : Fin 2), win0_8.index t a = 0)

/-- Window 8 stages the second self weight whole at every point. -/
theorem iblk_whole8 (c : Dev nD) (t : Fin cfg0.N) : (iblk0 V c 8 t : S128x128.Idx → EReal) = V c main_arg9 := by
  have e := idx_whole8 t
  funext y
  unfold iblk0
  show V c main_arg9 (((cfg0.win 8).blk t).view.emb y) = V c main_arg9 y
  refine congrArg (V c main_arg9) (funext fun a => Fin.ext ?_)
  match a with
  | ⟨0, _⟩ =>
    show win0_8.index t (0 : Fin 2) * 128 + 1 * (y 0).val = (y 0).val
    rw [e 0]; omega
  | ⟨1, _⟩ =>
    show win0_8.index t (1 : Fin 2) * 128 + 1 * (y 1).val = (y 1).val
    rw [e 1]; omega

/-- Window 9's index map is constant: block (0, 0) at every point. -/
theorem idx_whole9 : ∀ (t : Fin cfg0.N) (a : Fin 2), win0_9.index t a = 0 :=
  (by decide +kernel : ∀ (t : Fin grid0.N) (a : Fin 2), win0_9.index t a = 0)

/-- Window 9 stages the attention row whole at every point. -/
theorem iblk_whole9 (c : Dev nD) (t : Fin cfg0.N) : (iblk0 V c 9 t : S1x128.Idx → EReal) = V c main_v0 := by
  have e := idx_whole9 t
  funext y
  unfold iblk0
  show V c main_v0 (((cfg0.win 9).blk t).view.emb y) = V c main_v0 y
  refine congrArg (V c main_v0) (funext fun a => Fin.ext ?_)
  match a with
  | ⟨0, _⟩ =>
    show win0_9.index t (0 : Fin 2) * 1 + 1 * (y 0).val = (y 0).val
    rw [e 0]; omega
  | ⟨1, _⟩ =>
    show win0_9.index t (1 : Fin 2) * 128 + 1 * (y 1).val = (y 1).val
    rw [e 1]; omega

/-- Window 10's index map is constant: block (0, 0) at every point. -/
theorem idx_whole10 : ∀ (t : Fin cfg0.N) (a : Fin 2), win0_10.index t a = 0 :=
  (by decide +kernel : ∀ (t : Fin grid0.N) (a : Fin 2), win0_10.index t a = 0)

/-- Window 10 stages the padded classifier weight whole at every point. -/
theorem iblk_whole10 (c : Dev nD) (t : Fin cfg0.N) : (iblk0 V c 10 t : S128x128.Idx → EReal) = V c main_v1 := by
  have e := idx_whole10 t
  funext y
  unfold iblk0
  show V c main_v1 (((cfg0.win 10).blk t).view.emb y) = V c main_v1 y
  refine congrArg (V c main_v1) (funext fun a => Fin.ext ?_)
  match a with
  | ⟨0, _⟩ =>
    show win0_10.index t (0 : Fin 2) * 128 + 1 * (y 0).val = (y 0).val
    rw [e 0]; omega
  | ⟨1, _⟩ =>
    show win0_10.index t (1 : Fin 2) * 128 + 1 * (y 1).val = (y 1).val
    rw [e 1]; omega

/-- Window 11's index map is constant: block (0, 0) at every point. -/
theorem idx_whole11 : ∀ (t : Fin cfg0.N) (a : Fin 2), win0_11.index t a = 0 :=
  (by decide +kernel : ∀ (t : Fin grid0.N) (a : Fin 2), win0_11.index t a = 0)

/-- Window 11 stages the padded classifier bias whole at every point. -/
theorem iblk_whole11 (c : Dev nD) (t : Fin cfg0.N) : (iblk0 V c 11 t : S1x128.Idx → EReal) = V c main_v3 := by
  have e := idx_whole11 t
  funext y
  unfold iblk0
  show V c main_v3 (((cfg0.win 11).blk t).view.emb y) = V c main_v3 y
  refine congrArg (V c main_v3) (funext fun a => Fin.ext ?_)
  match a with
  | ⟨0, _⟩ =>
    show win0_11.index t (0 : Fin 2) * 1 + 1 * (y 0).val = (y 0).val
    rw [e 0]; omega
  | ⟨1, _⟩ =>
    show win0_11.index t (1 : Fin 2) * 128 + 1 * (y 1).val = (y 1).val
    rw [e 1]; omega

/-! ## The scratch values, of the arrays -/

/-- The first scratch buffer holds `S_0` of the arrays. -/
theorem S0_apply (c : Dev nD) (n : Fin 10000) (j : Fin 128) :
    S0 V c (ix2 n j) = Spec.Sk (V c main_arg1) (V c main_arg5) (V c main_arg6) n j := by
  unfold S0 s0of
  rw [iblk_whole2, iblk_whole4, iblk_whole5]
  exact pay11_apply _ _ _ n j

/-- The second holds `S_1`. -/
theorem S1_apply (c : Dev nD) (n : Fin 10000) (j : Fin 128) :
    S1 V c (ix2 n j) = Spec.Sk (V c main_arg1) (V c main_arg5) (V c main_arg7) n j := by
  unfold S1 s1of
  rw [iblk_whole2, iblk_whole4, iblk_whole6]
  exact pay12_apply _ _ _ n j

/-- The third holds `C_0`. -/
theorem C0_apply (c : Dev nD) (d j : Fin 128) :
    C0 V c (ix2 d j) = Spec.Ck (V c main_arg4) (V c main_arg8) d j := by
  unfold C0 c0of
  rw [iblk_whole3, iblk_whole7]
  exact pay13_apply _ _ d j

/-- The fourth holds `C_1`. -/
theorem C1_apply (c : Dev nD) (d j : Fin 128) :
    C1 V c (ix2 d j) = Spec.Ck (V c main_arg4) (V c main_arg9) d j := by
  unfold C1 c1of
  rw [iblk_whole3, iblk_whole8]
  exact pay14_apply _ _ d j

/-! ## The two stores at a point, of the arrays -/

/-- Row `r` of the first store at point `t` is row `200 · t + r` of the specification's stored weights, where the
    attention window's array reads as the attention vector `av` laid out as one row. -/
theorem OUT12_apply (av : S128.Idx → EReal) (c : Dev nD) (t : Fin cfg0.N) (r : Fin 200) (k : Fin 2)
    (hav : ∀ j, V c main_v0 (ix2 (0 : Fin 1) j) = av (ix1 j)) :
    OUT12 V c t (ix2 r k) = Spec.betaT (V c main_arg1) (V c main_arg2) (V c main_arg3) (V c main_arg4) (V c main_arg5) (V c main_arg6) (V c main_arg7) (V c main_arg8) (V c main_arg9) av (ix2 (rowOfPt (grid0.coords t) r) k) := by
  unfold OUT12
  rw [iblk_whole2, iblk_whole9]
  exact out12_spec (V c main_arg1) (V c main_arg2) (V c main_arg3) (V c main_arg4) (V c main_arg5) (V c main_arg6) (V c main_arg7) (V c main_arg8) (V c main_arg9) av (grid0.coords t) (iblk0 V c 0 t) (iblk0 V c 1 t) (S0 V c) (S1 V c) (C0 V c) (C1 V c)
    (V c main_v0) r (fun n => iblk_adj0 V c t r n) (fun n => iblk_adj1 V c t r n) (S0_apply V c) (S1_apply V c)
    (C0_apply V c) (C1_apply V c) hav k

/-- Row `r` of the second store at point `t` is row `200 · t + r` of the specification's classifier output, where
    the three small windows' arrays read as the attention vector as a row, the classifier weight with zero columns
    beyond the 40th, and the bias as a row with zeros beyond the 40th. -/
theorem OUT13_apply (av : S128.Idx → EReal) (Wfc : S128x40.Idx → EReal) (bfc : S40.Idx → EReal)
    (c : Dev nD) (t : Fin cfg0.N) (r : Fin 200) (col : Fin 128)
    (hav : ∀ j, V c main_v0 (ix2 (0 : Fin 1) j) = av (ix1 j))
    (hw : ∀ j c', V c main_v1 (ix2 j c') = Spec.wfcPad Wfc j c')
    (hb : ∀ c', V c main_v3 (ix2 (0 : Fin 1) c') = Spec.bfcPad bfc c') :
    OUT13 V c t (ix2 r col) = Spec.lg (V c main_arg1) (V c main_arg2) (V c main_arg3) (V c main_arg4) (V c main_arg5) (V c main_arg6) (V c main_arg7) (V c main_arg8) (V c main_arg9) av Wfc bfc (ix2 (rowOfPt (grid0.coords t) r) col) := by
  unfold OUT13
  rw [iblk_whole2, iblk_whole9, iblk_whole10, iblk_whole11]
  exact out13_spec (V c main_arg1) (V c main_arg2) (V c main_arg3) (V c main_arg4) (V c main_arg5) (V c main_arg6) (V c main_arg7) (V c main_arg8) (V c main_arg9) av Wfc bfc (grid0.coords t) (iblk0 V c 0 t) (iblk0 V c 1 t)
    (S0 V c) (S1 V c) (C0 V c) (C1 V c) (V c main_v0) (V c main_v1) (V c main_v3) r
    (fun n => iblk_adj0 V c t r n) (fun n => iblk_adj1 V c t r n) (S0_apply V c) (S1_apply V c)
    (C0_apply V c) (C1_apply V c) hav hw hb col

/-! ## The three host-written arrays, from the operations that write them -/

/-- The attention window's array, written by a reshape of the attention vector, reads as that vector. -/
theorem hav_of_reshape (c : Dev nD)
    (hv0 : V c main_v0 = shapeCast S1x128 (V c main_arg10) shapeCasts_S128_S1x128) (j : Fin 128) :
    V c main_v0 (ix2 (0 : Fin 1) j) = V c main_arg10 (ix1 j) := by
  rw [hv0]; exact avRow_apply _ j

/-- The classifier weight's window, written by a pad with a zero scalar, reads as the padded weight. -/
theorem hw_of_pad (c : Dev nD) (z : S_.Idx → EReal) (hz : ∀ i, z i = 0)
    (hv1 : V c main_v1 = pad S128x128 ![0, 0] ![0, 88] ![0, 0] (V c main_arg11) z pads_S128x40_S128x128_000_0880 h_S_)
    (j c' : Fin 128) : V c main_v1 (ix2 j c') = Spec.wfcPad (V c main_arg11) j c' := by
  rw [hv1]; exact wfcPadded_apply _ z hz j c'

/-- The bias's window, written by a reshape then a pad with a zero scalar, reads as the padded bias. -/
theorem hb_of_pad (c : Dev nD) (z : S_.Idx → EReal) (hz : ∀ i, z i = 0)
    (hv3 : V c main_v3 = pad S1x128 ![0, 0] ![0, 88] ![0, 0] (shapeCast S1x40 (V c main_arg12) shapeCasts_S40_S1x40) z
        pads_S1x40_S1x128_000_0880 h_S_) (c' : Fin 128) :
    V c main_v3 (ix2 (0 : Fin 1) c') = Spec.bfcPad (V c main_arg12) c' := by
  rw [hv3]; exact bfcPadded_apply _ z hz c'

end Cert.Proof.KValue

end
-- ==== Proof.KValueIE.lean ====
/-
  FROM BLOCKS TO THE ARRAYS: the two results of the TensorCore region as whole-array functions. Every grid point
  writes back its block of each result; the block of point `t` holds rows 200 · t .. 200 · t + 200, the 50 points'
  blocks cover all 10000 rows (row `ρ` lies in the block of point `ρ / 200`), and what point `t` writes is that block of
  the specification's function; so after the region the first result's array is the specification's stored weights and
  the second's its classifier output over 128 columns — for any proof data of the pipeline whose staging contents after
  the body at each point are the two stores' closed forms, and then for the region's own proof data.
-/
import proofs.«208996_g46033459479168_cont_8to1c4_133_24_alg».proof.Proof.KValueID
import proofs.«208996_g46033459479168_cont_8to1c4_133_24_alg».proof.Proof.TcBodyI

noncomputable section

open scoped BigOperators

namespace Cert.Proof.KValue

open Idealize.ShloMosaic Idealize.ShloMosaic.TcCoe Idealize.ShloMosaic.ValueIdx Cert.KernelIdeal Cert.KernelIdeal.Gen Cert.Proof.TcBodyI
open Idealize.SL Idealize.SL.RA Idealize.SL.Sem
open Idealize.ShloMosaic.Rounds
open Idealize.ShloMosaic.Pipeline (Dat)

variable {Ix : Type} [DecidableEq Ix] [Inhabited Ix] {UU : Type} [URA UU] [CountersIn UU]

variable (V : (c : Dev nD) → (b : Ref sig .tc) → Buf (Elt Ideal) ((c : Thread nD τ).loc b))

/-- An index of the array is in point `t`'s block of window 12 iff each coordinate is in the block's range. -/
theorem mem_blk12 (t : Fin cfg0.N) (i : S10000x2.Idx) :
    i ∈ ((cfg0.win 12).blk t).view.set ↔ ∀ a : Fin 2, win0_12.index t a * S200x2.size a ≤ (i a).val
      ∧ (i a).val < win0_12.index t a * S200x2.size a + S200x2.size a := by
  show i ∈ ((View.whole main_v4_0).slice (win0_12.rect t)).set ↔ _
  rw [View.set_slice_whole, Rect.mem_set_unit]
  exact Iff.rfl

/-- Every row of the array is in the block of the point `row / 200`, which writes it back. -/
theorem cover12 (i : S10000x2.Idx) : ∃ t : Fin cfg0.N, (cfg0.win 12).flush t = true ∧ i ∈ ((cfg0.win 12).blk t).view.set := by
  have hi0 : (i 0).val < 10000 := (i 0).isLt
  have hi1 : (i 1).val < 2 := (i 1).isLt
  have hN : cfg0.N = 50 := N_0
  have ht : (i 0).val / 200 < cfg0.N := by rw [hN]; omega
  refine ⟨⟨(i 0).val / 200, ht⟩, flush0_12 _, ?_⟩
  obtain ⟨-, -, -, -, -, q0, q1, -, -⟩ := idx_facts ⟨(i 0).val / 200, ht⟩
  rw [mem_blk12]
  intro a
  match a with
  | ⟨0, _⟩ =>
    show win0_12.index ⟨(i 0).val / 200, ht⟩ (0 : Fin 2) * 200 ≤ (i 0).val
      ∧ (i 0).val < win0_12.index ⟨(i 0).val / 200, ht⟩ (0 : Fin 2) * 200 + 200
    rw [q0]; show (i 0).val / 200 * 200 ≤ (i 0).val ∧ (i 0).val < (i 0).val / 200 * 200 + 200; omega
  | ⟨1, _⟩ =>
    show win0_12.index ⟨(i 0).val / 200, ht⟩ (1 : Fin 2) * 2 ≤ (i 1).val
      ∧ (i 1).val < win0_12.index ⟨(i 0).val / 200, ht⟩ (1 : Fin 2) * 2 + 2
    rw [q1]; omega

/-- An index of the array is in point `t`'s block of window 13 iff each coordinate is in the block's range. -/
theorem mem_blk13 (t : Fin cfg0.N) (i : S10000x128.Idx) :
    i ∈ ((cfg0.win 13).blk t).view.set ↔ ∀ a : Fin 2, win0_13.index t a * S200x128.size a ≤ (i a).val
      ∧ (i a).val < win0_13.index t a * S200x128.size a + S200x128.size a := by
  show i ∈ ((View.whole main_v4_1).slice (win0_13.rect t)).set ↔ _
  rw [View.set_slice_whole, Rect.mem_set_unit]
  exact Iff.rfl

/-- Every row of the array is in the block of the point `row / 200`, which writes it back. -/
theorem cover13 (i : S10000x128.Idx) : ∃ t : Fin cfg0.N, (cfg0.win 13).flush t = true ∧ i ∈ ((cfg0.win 13).blk t).view.set := by
  have hi0 : (i 0).val < 10000 := (i 0).isLt
  have hi1 : (i 1).val < 128 := (i 1).isLt
  have hN : cfg0.N = 50 := N_0
  have ht : (i 0).val / 200 < cfg0.N := by rw [hN]; omega
  refine ⟨⟨(i 0).val / 200, ht⟩, flush0_13 _, ?_⟩
  obtain ⟨-, -, -, -, -, -, -, q0, q1⟩ := idx_facts ⟨(i 0).val / 200, ht⟩
  rw [mem_blk13]
  intro a
  match a with
  | ⟨0, _⟩ =>
    show win0_13.index ⟨(i 0).val / 200, ht⟩ (0 : Fin 2) * 200 ≤ (i 0).val
      ∧ (i 0).val < win0_13.index ⟨(i 0).val / 200, ht⟩ (0 : Fin 2) * 200 + 200
    rw [q0]; show (i 0).val / 200 * 200 ≤ (i 0).val ∧ (i 0).val < (i 0).val / 200 * 200 + 200; omega
  | ⟨1, _⟩ =>
    show win0_13.index ⟨(i 0).val / 200, ht⟩ (1 : Fin 2) * 128 ≤ (i 1).val
      ∧ (i 1).val < win0_13.index ⟨(i 0).val / 200, ht⟩ (1 : Fin 2) * 128 + 128
    rw [q1]; omega

/-- What point `t` writes back to the first result is block `t` of the specification's stored weights. -/
theorem flushed12_eq (av : S128.Idx → EReal) (c : Dev nD) (dat : Dat τ (Elt Ideal) Ix ℕ UU ℕ cfg0 c)
    (h12 : ∀ t, dat.after 12 t = OUT12 V c t)
    (hav : ∀ j, V c main_v0 (ix2 (0 : Fin 1) j) = av (ix1 j)) (t : Fin cfg0.N) :
    dat.flushed 12 t = ((cfg0.win 12).blk t).view.read (Elt Ideal) (Spec.betaT (V c main_arg1) (V c main_arg2) (V c main_arg3) (V c main_arg4) (V c main_arg5) (V c main_arg6) (V c main_arg7) (V c main_arg8) (V c main_arg9) av) := by
  show (cfg0.win 12).cut (grid0.coords t) (dat.after 12 t) = _
  rw [h12]
  obtain ⟨e0, -, -, -, -, q0, q1, -⟩ := idx_facts t
  funext y
  obtain ⟨r, k, rfl⟩ : ∃ (r : Fin 200) (k : Fin 2), y = ix2 r k := ⟨y 0, y 1, eq_ix2 y⟩
  show OUT12 V c t (ix2 r k) = Spec.betaT (V c main_arg1) (V c main_arg2) (V c main_arg3) (V c main_arg4) (V c main_arg5) (V c main_arg6) (V c main_arg7) (V c main_arg8) (V c main_arg9) av (((cfg0.win 12).blk t).view.emb (ix2 r k))
  rw [OUT12_apply V av c t r k hav]
  refine congrArg (Spec.betaT (V c main_arg1) (V c main_arg2) (V c main_arg3) (V c main_arg4) (V c main_arg5) (V c main_arg6) (V c main_arg7) (V c main_arg8) (V c main_arg9) av) (funext fun a => Fin.ext ?_)
  match a with
  | ⟨0, _⟩ =>
    show 200 * (grid0.coords t 0).val + r.val = win0_12.index t (0 : Fin 2) * 200 + 1 * r.val
    rw [e0, q0]; omega
  | ⟨1, _⟩ =>
    show k.val = win0_12.index t (1 : Fin 2) * 2 + 1 * k.val
    rw [q1]; omega

/-- THE FIRST RESULT'S ARRAY after the region: the specification's stored weights. -/
theorem final12 (av : S128.Idx → EReal) (c : Dev nD) (dat : Dat τ (Elt Ideal) Ix ℕ UU ℕ cfg0 c)
    (h12 : ∀ t, dat.after 12 t = OUT12 V c t)
    (hav : ∀ j, V c main_v0 (ix2 (0 : Fin 1) j) = av (ix1 j)) :
    dat.arrAt 12 cfg0.N = Spec.betaT (V c main_arg1) (V c main_arg2) (V c main_arg3) (V c main_arg4) (V c main_arg5) (V c main_arg6) (V c main_arg7) (V c main_arg8) (V c main_arg9) av :=
  dat.arrAt_eq_of_cover 12 (Spec.betaT (V c main_arg1) (V c main_arg2) (V c main_arg3) (V c main_arg4) (V c main_arg5) (V c main_arg6) (V c main_arg7) (V c main_arg8) (V c main_arg9) av) (fun t _ => flushed12_eq V av c dat h12 hav t) (fun i => cover12 i)

/-- What point `t` writes back to the second result is block `t` of the specification's classifier output. -/
theorem flushed13_eq (av : S128.Idx → EReal) (Wfc : S128x40.Idx → EReal) (bfc : S40.Idx → EReal) (c : Dev nD)
    (dat : Dat τ (Elt Ideal) Ix ℕ UU ℕ cfg0 c) (h13 : ∀ t, dat.after 13 t = OUT13 V c t)
    (hav : ∀ j, V c main_v0 (ix2 (0 : Fin 1) j) = av (ix1 j))
    (hw : ∀ j c', V c main_v1 (ix2 j c') = Spec.wfcPad Wfc j c')
    (hb : ∀ c', V c main_v3 (ix2 (0 : Fin 1) c') = Spec.bfcPad bfc c') (t : Fin cfg0.N) :
    dat.flushed 13 t = ((cfg0.win 13).blk t).view.read (Elt Ideal) (Spec.lg (V c main_arg1) (V c main_arg2) (V c main_arg3) (V c main_arg4) (V c main_arg5) (V c main_arg6) (V c main_arg7) (V c main_arg8) (V c main_arg9) av Wfc bfc) := by
  show (cfg0.win 13).cut (grid0.coords t) (dat.after 13 t) = _
  rw [h13]
  obtain ⟨e0, -, -, -, -, -, -, q0, q1⟩ := idx_facts t
  funext y
  obtain ⟨r, col, rfl⟩ : ∃ (r : Fin 200) (col : Fin 128), y = ix2 r col := ⟨y 0, y 1, eq_ix2 y⟩
  show OUT13 V c t (ix2 r col) = Spec.lg (V c main_arg1) (V c main_arg2) (V c main_arg3) (V c main_arg4) (V c main_arg5) (V c main_arg6) (V c main_arg7) (V c main_arg8) (V c main_arg9) av Wfc bfc (((cfg0.win 13).blk t).view.emb (ix2 r col))
  rw [OUT13_apply V av Wfc bfc c t r col hav hw hb]
  refine congrArg (Spec.lg (V c main_arg1) (V c main_arg2) (V c main_arg3) (V c main_arg4) (V c main_arg5) (V c main_arg6) (V c main_arg7) (V c main_arg8) (V c main_arg9) av Wfc bfc) (funext fun a => Fin.ext ?_)
  match a with
  | ⟨0, _⟩ =>
    show 200 * (grid0.coords t 0).val + r.val = win0_13.index t (0 : Fin 2) * 200 + 1 * r.val
    rw [e0, q0]; omega
  | ⟨1, _⟩ =>
    show col.val = win0_13.index t (1 : Fin 2) * 128 + 1 * col.val
    rw [q1]; omega

/-- THE SECOND RESULT'S ARRAY after the region: the specification's classifier output over 128 columns. -/
theorem final13 (av : S128.Idx → EReal) (Wfc : S128x40.Idx → EReal) (bfc : S40.Idx → EReal) (c : Dev nD)
    (dat : Dat τ (Elt Ideal) Ix ℕ UU ℕ cfg0 c) (h13 : ∀ t, dat.after 13 t = OUT13 V c t)
    (hav : ∀ j, V c main_v0 (ix2 (0 : Fin 1) j) = av (ix1 j))
    (hw : ∀ j c', V c main_v1 (ix2 j c') = Spec.wfcPad Wfc j c')
    (hb : ∀ c', V c main_v3 (ix2 (0 : Fin 1) c') = Spec.bfcPad bfc c') :
    dat.arrAt 13 cfg0.N = Spec.lg (V c main_arg1) (V c main_arg2) (V c main_arg3) (V c main_arg4) (V c main_arg5) (V c main_arg6) (V c main_arg7) (V c main_arg8) (V c main_arg9) av Wfc bfc :=
  dat.arrAt_eq_of_cover 13 (Spec.lg (V c main_arg1) (V c main_arg2) (V c main_arg3) (V c main_arg4) (V c main_arg5) (V c main_arg6) (V c main_arg7) (V c main_arg8) (V c main_arg9) av Wfc bfc)
    (fun t _ => flushed13_eq V av Wfc bfc c dat h13 hav hw hb t) (fun i => cover13 i)

/-! ## For the region's own proof data, over named arrays -/

section Named

variable (O : CellTallies nD τ sig Ix) (Rec : Set (SemLoc sig × Ix)) (c : Dev nD)
variable (X : S10000x128.Idx → EReal) (A0 A1 : S10000x10000.Idx → EReal)
  (Wp0 Wp1 Wa0 Wa1 Ws0 Ws1 : S128x128.Idx → EReal) (av : S128.Idx → EReal) (Wfc : S128x40.Idx → EReal)
  (bfc : S40.Idx → EReal)

/-- The first result's array after the region, the arrays the region finds being `X`, `A0`, …: the specification's
    stored weights of them. -/
theorem final12_dat0 (hX : V c main_arg1 = X) (hA0 : V c main_arg2 = A0) (hA1 : V c main_arg3 = A1)
    (hWp0 : V c main_arg4 = Wp0) (hWp1 : V c main_arg5 = Wp1) (hWa0 : V c main_arg6 = Wa0) (hWa1 : V c main_arg7 = Wa1)
    (hWs0 : V c main_arg8 = Ws0) (hWs1 : V c main_arg9 = Ws1)
    (hav : ∀ j, V c main_v0 (ix2 (0 : Fin 1) j) = av (ix1 j)) :
    (dat0 (F := Ideal) (UU := UU) V O Rec c).arrAt 12 cfg0.N = Spec.betaT X A0 A1 Wp0 Wp1 Wa0 Wa1 Ws0 Ws1 av := by
  subst hX hA0 hA1 hWp0 hWp1 hWa0 hWa1 hWs0 hWs1
  exact final12 V av c (dat0 (F := Ideal) (UU := UU) V O Rec c) (after0_12 V O Rec c) hav

/-- The second result's array after the region likewise: the specification's classifier output of them. -/
theorem final13_dat0 (hX : V c main_arg1 = X) (hA0 : V c main_arg2 = A0) (hA1 : V c main_arg3 = A1)
    (hWp0 : V c main_arg4 = Wp0) (hWp1 : V c main_arg5 = Wp1) (hWa0 : V c main_arg6 = Wa0) (hWa1 : V c main_arg7 = Wa1)
    (hWs0 : V c main_arg8 = Ws0) (hWs1 : V c main_arg9 = Ws1)
    (hav : ∀ j, V c main_v0 (ix2 (0 : Fin 1) j) = av (ix1 j))
    (hw : ∀ j c', V c main_v1 (ix2 j c') = Spec.wfcPad Wfc j c')
    (hb : ∀ c', V c main_v3 (ix2 (0 : Fin 1) c') = Spec.bfcPad bfc c') :
    (dat0 (F := Ideal) (UU := UU) V O Rec c).arrAt 13 cfg0.N
      = Spec.lg X A0 A1 Wp0 Wp1 Wa0 Wa1 Ws0 Ws1 av Wfc bfc := by
  subst hX hA0 hA1 hWp0 hWp1 hWa0 hWa1 hWs0 hWs1
  exact final13 V av Wfc bfc c (dat0 (F := Ideal) (UU := UU) V O Rec c) (after0_13 V O Rec c) hav hw hb

end Named

end Cert.Proof.KValue

end
-- ==== Proof.KFinalI.lean ====
/-
  The kernel's two results from what the two calls leave. The program ends with two layout operations: the first result
  is the first forty columns of the gathered array, the second is the stored attention weights transposed. When the
  table the gather read is the specification's classifier output over 128 columns, the first result is the
  specification's logits: entry (b, c) is the table at row ids b (which the precondition keeps below the table's row
  count, so that it is the row the specification names) and column c. When the stored weights are the specification's,
  nodes along the rows, their transpose is the specification's second result by definition.
-/
import proofs.«208996_g46033459479168_cont_8to1c4_133_24_alg».proof.Proof.ScGatherI
import proofs.«208996_g46033459479168_cont_8to1c4_133_24_alg».proof.Proof.SpecI
import Idealize.ShloMosaic.Lib.ValueIdx
import Idealize.ShloMosaic.Lib.Pipeline.Value
import Idealize.ShloMosaic.PureOps.Ideal

noncomputable section

namespace Cert.Proof.KFinal

open Cert.KernelIdeal Cert.KernelIdeal.Gen
open Idealize.ShloMosaic Idealize.ShloMosaic.ValueIdx
open Cert.Proof.ScGatherI

variable {d : Dev nD}
  (X : S10000x128.Idx → EReal) (A0 A1 : S10000x10000.Idx → EReal)
  (Wp0 Wp1 Wa0 Wa1 Ws0 Ws1 : S128x128.Idx → EReal) (av : S128.Idx → EReal) (Wfc : S128x40.Idx → EReal)
  (bfc : S40.Idx → EReal)

/-- The first forty columns of the array gathered from the specification's classifier output are the specification's
    logits. -/
theorem logits_of_gather (ids : Buf (Elt Ideal) (iLoc d)) (tab : Buf (Elt Ideal) (tLoc d))
    (htab : tab = Spec.lg X A0 A1 Wp0 Wp1 Wa0 Wa1 Ws0 Ws1 av Wfc bfc)
    (hin : ∀ j : S1024.Idx, (ids j).toNat < 10000) :
    (extractStridedSlice S1024x40 ![0, 0] (gathered tab ids) slices_S1024x128_S1024x40_0_0)
      = Spec.logits ids X A0 A1 Wp0 Wp1 Wa0 Wa1 Ws0 Ws1 av Wfc bfc := by
  funext j
  obtain ⟨b, c, rfl⟩ : ∃ b c, j = ix2 b c := ⟨j 0, j 1, eq_ix2 j⟩
  rw [Spec.logits_apply]
  refine (extractStridedSlice_apply ![0, 0] _ _ (ix2 b c) (ix2 b (Spec.col40 c) : S1024x128.Idx) (fun a => ?_)).trans ?_
  · match a with
    | ⟨0, _⟩ => show b.val = 0 + b.val; omega
    | ⟨1, _⟩ => show c.val = 0 + c.val; omega
  · subst htab
    unfold gathered
    rw [dif_pos (hin _)]
    refine congrArg _ (idx2_ext _ _ ?_ ?_)
    · exact (Spec.rowOf_val ids b (hin _)).symm
    · rfl

/-- The stored attention weights, nodes along the rows, transposed are the specification's second result. -/
theorem beta_of_transpose (bt : S10000x2.Idx → EReal) (hbt : bt = Spec.betaT X A0 A1 Wp0 Wp1 Wa0 Wa1 Ws0 Ws1 av) :
    (transpose S2x10000 [1, 0] bt transposes_S10000x2_S2x10000_1_0) = Spec.beta X A0 A1 Wp0 Wp1 Wa0 Wa1 Ws0 Ws1 av := by
  funext j
  obtain ⟨k, r, rfl⟩ : ∃ k r, j = ix2 k r := ⟨j 0, j 1, eq_ix2 j⟩
  subst hbt
  refine transpose_apply [1, 0] _ _ (ix2 k r) (ix2 r k : S10000x2.Idx) (fun b => ?_)
  match b with
  | ⟨0, _⟩ => rfl
  | ⟨1, _⟩ => rfl

end Cert.Proof.KFinal

end
-- ==== Proof.KResultI.lean ====
/-
  THE KERNEL'S TWO RESULTS AS THE SPECIFICATION'S FUNCTIONS OF THE LAUNCH ARRAYS. The contents every buffer ends at are
  a fold through the program: the host prefix (the attention vector as a row, the classifier's weight and bias padded
  with zero columns), the TensorCore region (whose two result arrays are the specification's stored weights and
  classifier output of the arrays it finds, which for the thirteen arguments are the launch arrays), the gather of the
  rows the ids name, and the last two layout operations. Read at the two results: the first is the specification's
  logits, the second its metapath weights.
-/
import proofs.«208996_g46033459479168_cont_8to1c4_133_24_alg».proof.Proof.LaunchI
import proofs.«208996_g46033459479168_cont_8to1c4_133_24_alg».proof.Proof.KValueIE
import proofs.«208996_g46033459479168_cont_8to1c4_133_24_alg».proof.Proof.KFinalI

set_option maxRecDepth 16384

noncomputable section

namespace Cert.Proof.KResult

open Cert.KernelIdeal Cert.KernelIdeal.Gen
open Idealize.ShloMosaic Idealize.ShloMosaic.TcCoe Idealize.ShloMosaic.ValueIdx
open Idealize.ShloMosaic.StableHlo
open Idealize.SL.Sem
open Cert.Proof.LaunchI Cert.Proof.KValue

variable (m : (ℓ : Loc nD τ sig) → Buf (Elt Ideal) ℓ)

/-! ## The host prefix's three results -/

/-- The attention window's array at the region's entry: the attention vector reshaped to one row. -/
theorem Wpre_v0 (c : Dev nD) :
    Wpre m c (Proc.devRef .tc main_v0) = shapeCast S1x128 (m (c, Proc.devRef .tc main_arg10)) shapeCasts_S128_S1x128 := by
  unfold Wpre preOps
  after_results
  rfl

/-- The classifier weight's window at the region's entry: the weight padded with the converted integer zero. -/
theorem Wpre_v1 (c : Dev nD) :
    Wpre m c (Proc.devRef .tc main_v1) = pad S128x128 ![0, 0] ![0, 88] ![0, 0] (m (c, Proc.devRef .tc main_arg11))
      (sitofp (F := Ideal) .f32 (constantI S_ 32 0#32)) pads_S128x40_S128x128_000_0880 h_S_ := by
  unfold Wpre preOps
  after_results
  rfl

/-- The bias's window at the region's entry: the bias as a row, padded with the converted integer zero. -/
theorem Wpre_v3 (c : Dev nD) :
    Wpre m c (Proc.devRef .tc main_v3) = pad S1x128 ![0, 0] ![0, 88] ![0, 0]
      (shapeCast S1x40 (m (c, Proc.devRef .tc main_arg12)) shapeCasts_S40_S1x40)
      (sitofp (F := Ideal) .f32 (constantI S_ 32 0#32)) pads_S1x40_S1x128_000_0880 h_S_ := by
  unfold Wpre preOps
  after_results
  rfl

/-- The attention window reads as the launch attention vector. -/
theorem hav (c : Dev nD) (j : Fin 128) :
    Vpre m c main_v0 (ix2 (0 : Fin 1) j) = m ((c.tc : Thread nD τ).loc main_arg10) (ix1 j) :=
  (congrFun (Wpre_v0 m c) _).trans (avRow_apply _ j)

/-- The classifier weight's window reads as the launch weight with zero columns beyond the 40th. -/
theorem hw (c : Dev nD) (j c' : Fin 128) :
    Vpre m c main_v1 (ix2 j c') = Spec.wfcPad (m ((c.tc : Thread nD τ).loc main_arg11)) j c' :=
  (congrFun (Wpre_v1 m c) _).trans (wfcPadded_apply _ _ padValue_zero j c')

/-- The bias's window reads as the launch bias with zeros beyond the 40th column. -/
theorem hb (c : Dev nD) (c' : Fin 128) :
    Vpre m c main_v3 (ix2 (0 : Fin 1) c') = Spec.bfcPad (m ((c.tc : Thread nD τ).loc main_arg12)) c' :=
  (congrFun (Wpre_v3 m c) _).trans (bfcPadded_apply _ _ padValue_zero c')

/-! ## The region's two result arrays -/

/-- After the region the first result's array is the specification's stored weights of the launch arrays. -/
theorem arr12 (c : Dev nD) :
    W1 m (tcData m) c (Proc.devRef .tc main_v4_0) = Spec.betaT (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W1_arr m (tcData m) c (12 : Fin cfg0.W)).trans ?_
  exact final12_dat0 (Vpre m) (Otc (F := Ideal) c) (Rec (F := Ideal) c) c _ _ _ _ _ _ _ _ _ _
    (Wpre_of_not_mem m c main_arg1 (by decide)) (Wpre_of_not_mem m c main_arg2 (by decide))
    (Wpre_of_not_mem m c main_arg3 (by decide)) (Wpre_of_not_mem m c main_arg4 (by decide))
    (Wpre_of_not_mem m c main_arg5 (by decide)) (Wpre_of_not_mem m c main_arg6 (by decide))
    (Wpre_of_not_mem m c main_arg7 (by decide)) (Wpre_of_not_mem m c main_arg8 (by decide))
    (Wpre_of_not_mem m c main_arg9 (by decide)) (hav m c)

/-- After the region the table the gather reads is the specification's classifier output of the launch arrays. -/
theorem arr13 (c : Dev nD) :
    tab m (tcData m) c = Spec.lg (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold tab
  refine (W1_arr m (tcData m) c (13 : Fin cfg0.W)).trans ?_
  exact final13_dat0 (Vpre m) (Otc (F := Ideal) c) (Rec (F := Ideal) c) c _ _ _ _ _ _ _ _ _ _ _ _
    (Wpre_of_not_mem m c main_arg1 (by decide)) (Wpre_of_not_mem m c main_arg2 (by decide))
    (Wpre_of_not_mem m c main_arg3 (by decide)) (Wpre_of_not_mem m c main_arg4 (by decide))
    (Wpre_of_not_mem m c main_arg5 (by decide)) (Wpre_of_not_mem m c main_arg6 (by decide))
    (Wpre_of_not_mem m c main_arg7 (by decide)) (Wpre_of_not_mem m c main_arg8 (by decide))
    (Wpre_of_not_mem m c main_arg9 (by decide)) (hav m c) (hw m c) (hb m c)

/-! ## The last two host operations -/

/-- The first result is the first 40 columns of what the gather's destination holds. -/
theorem post_v6 (W : Valuation τ sig (Elt Ideal)) :
    StableHlo.after (postOps (F := Ideal)) W (Proc.devRef .tc main_v6)
      = extractStridedSlice S1024x40 ![0, 0] (W (Proc.devRef .tc main_v5)) slices_S1024x128_S1024x40_0_0 := by
  unfold postOps
  after_results

/-- The second result is the transpose of what the first result array of the region holds. -/
theorem post_v7 (W : Valuation τ sig (Elt Ideal)) :
    StableHlo.after (postOps (F := Ideal)) W (Proc.devRef .tc main_v7)
      = transpose S2x10000 [1, 0] (W (Proc.devRef .tc main_v4_0)) transposes_S10000x2_S2x10000_1_0 := by
  unfold postOps
  after_results

/-! ## The two results -/

/-- THE FIRST RESULT: the specification's logits of the launch arrays, where every id names a node. -/
theorem result_v6 (c : Dev nD)
    (hin : ∀ j : S1024.Idx, (m ((c.tc : Thread nD τ).loc main_arg0) j).toNat < 10000) :
    Wfin m (tcData m) (scData m) c (Proc.devRef .tc main_v6)
      = Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Wfin
  rw [post_v6]
  have hW2 : W2 m (tcData m) (scData m) c (Proc.devRef .tc main_v5) = (scData m).gath c := by
    unfold W2; exact Function.update_self _ _ _
  rw [hW2]
  exact KFinal.logits_of_gather _ _ _ _ _ _ _ _ _ _ _ _ (m (iLoc c)) (tab m (tcData m) c) (arr13 m c) hin

/-- THE SECOND RESULT: the specification's metapath weights of the launch arrays. -/
theorem result_v7 (c : Dev nD) :
    Wfin m (tcData m) (scData m) c (Proc.devRef .tc main_v7) = Spec.beta (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Wfin
  rw [post_v7]
  have hW2 : W2 m (tcData m) (scData m) c (Proc.devRef .tc main_v4_0) = W1 m (tcData m) c (Proc.devRef .tc main_v4_0) := by
    unfold W2; exact Function.update_of_ne (by decide) _ _
  rw [hW2]
  exact KFinal.beta_of_transpose _ _ _ _ _ _ _ _ _ _ _ (arr12 m c)

end Cert.Proof.KResult

end
-- ==== Proof.RefReadI.lean ====
import proofs.«208996_g46033459479168_cont_8to1c4_133_24_alg».proof.Proof.Gen.ReferenceIdeal.Read
import proofs.«208996_g46033459479168_cont_8to1c4_133_24_alg».proof.Proof.AlgebraI
import Idealize.ShloMosaic.Lib.Pipeline.Value
import Idealize.ShloMosaic.Lib.ValueIdx
import Idealize.ShloMosaic.PureOps.Ideal.Laws
import Idealize.ShloMosaic.PureOps.Reduce

/-! # The reference, stage by stage, at named coordinates

Every stage of the reference is read at an index built from its coordinates (`ix1`, `ix2`, `ix3`): a matrix product
is the sum over the contracted coordinate, a layout stage reads its operand at the coordinates it keeps.  Three stages
are read from their definitions: the stacking of the two hidden layers (a concatenation along a new leading axis of
size two), the maximum over that axis started from −∞, and the final gather of rows at the ids. -/

noncomputable section

namespace Cert.Proof.RefSide

open scoped BigOperators
open Cert.ReferenceIdeal Cert.ReferenceIdeal.Read Idealize.ShloMosaic Idealize.ShloMosaic.ValueIdx

/-! ## The index maps of the stages, at coordinates -/

theorem lidx_v0_at (r : Fin 10000) (j k : Fin 128) :
    lidx_main_v0 (ix2 r j) k = (ix2 r k : S10000x128.Idx) := funext fun a => match a with | ⟨0, _⟩ => rfl | ⟨1, _⟩ => rfl
theorem ridx_v0_at (r : Fin 10000) (j k : Fin 128) :
    ridx_main_v0 (ix2 r j) k = (ix2 k j : S128x128.Idx) := funext fun a => match a with | ⟨0, _⟩ => rfl | ⟨1, _⟩ => rfl
theorem lidx_v1_at (r : Fin 10000) (j k : Fin 128) :
    lidx_main_v1 (ix2 r j) k = (ix2 r k : S10000x128.Idx) := funext fun a => match a with | ⟨0, _⟩ => rfl | ⟨1, _⟩ => rfl
theorem ridx_v1_at (r : Fin 10000) (j k : Fin 128) :
    ridx_main_v1 (ix2 r j) k = (ix2 k j : S128x128.Idx) := funext fun a => match a with | ⟨0, _⟩ => rfl | ⟨1, _⟩ => rfl
theorem lidx_v3_at (r : Fin 10000) (j k : Fin 128) :
    lidx_main_v3 (ix2 r j) k = (ix2 r k : S10000x128.Idx) := funext fun a => match a with | ⟨0, _⟩ => rfl | ⟨1, _⟩ => rfl
theorem ridx_v3_at (r : Fin 10000) (j k : Fin 128) :
    ridx_main_v3 (ix2 r j) k = (ix2 k j : S128x128.Idx) := funext fun a => match a with | ⟨0, _⟩ => rfl | ⟨1, _⟩ => rfl
theorem lidx_v4_at (r : Fin 10000) (j k : Fin 128) :
    lidx_main_v4 (ix2 r j) k = (ix2 r k : S10000x128.Idx) := funext fun a => match a with | ⟨0, _⟩ => rfl | ⟨1, _⟩ => rfl
theorem ridx_v4_at (r : Fin 10000) (j k : Fin 128) :
    ridx_main_v4 (ix2 r j) k = (ix2 k j : S128x128.Idx) := funext fun a => match a with | ⟨0, _⟩ => rfl | ⟨1, _⟩ => rfl
theorem lidx_v8_at (r : Fin 10000) (j k : Fin 128) :
    lidx_main_v8 (ix2 r j) k = (ix2 r k : S10000x128.Idx) := funext fun a => match a with | ⟨0, _⟩ => rfl | ⟨1, _⟩ => rfl
theorem ridx_v8_at (r : Fin 10000) (j k : Fin 128) :
    ridx_main_v8 (ix2 r j) k = (ix2 k j : S128x128.Idx) := funext fun a => match a with | ⟨0, _⟩ => rfl | ⟨1, _⟩ => rfl
theorem lidx_v9_at (r : Fin 10000) (j k : Fin 128) :
    lidx_main_v9 (ix2 r j) k = (ix2 r k : S10000x128.Idx) := funext fun a => match a with | ⟨0, _⟩ => rfl | ⟨1, _⟩ => rfl
theorem ridx_v9_at (r : Fin 10000) (j k : Fin 128) :
    ridx_main_v9 (ix2 r j) k = (ix2 k j : S128x128.Idx) := funext fun a => match a with | ⟨0, _⟩ => rfl | ⟨1, _⟩ => rfl
theorem lidx_v2_at (r : Fin 10000) (j : Fin 128) (k : Fin 10000) :
    lidx_main_v2 (ix2 r j) k = (ix2 r k : S10000x10000.Idx) := funext fun a => match a with | ⟨0, _⟩ => rfl | ⟨1, _⟩ => rfl
theorem ridx_v2_at (r : Fin 10000) (j : Fin 128) (k : Fin 10000) :
    ridx_main_v2 (ix2 r j) k = (ix2 k j : S10000x128.Idx) := funext fun a => match a with | ⟨0, _⟩ => rfl | ⟨1, _⟩ => rfl
theorem lidx_v7_at (r : Fin 10000) (j : Fin 128) (k : Fin 10000) :
    lidx_main_v7 (ix2 r j) k = (ix2 r k : S10000x10000.Idx) := funext fun a => match a with | ⟨0, _⟩ => rfl | ⟨1, _⟩ => rfl
theorem ridx_v7_at (r : Fin 10000) (j : Fin 128) (k : Fin 10000) :
    ridx_main_v7 (ix2 r j) k = (ix2 k j : S10000x128.Idx) := funext fun a => match a with | ⟨0, _⟩ => rfl | ⟨1, _⟩ => rfl
theorem lidx_v16_at (k : Fin 2) (r : Fin 10000) (j : Fin 128) :
    lidx_main_v16 (ix2 k r) j = (ix3 k r j : S2x10000x128.Idx) := funext fun a => match a with | ⟨0, _⟩ => rfl | ⟨1, _⟩ => rfl | ⟨2, _⟩ => rfl
theorem ridx_v16_at (k : Fin 2) (r : Fin 10000) (j : Fin 128) :
    ridx_main_v16 (ix2 k r) j = (ix1 j : S128.Idx) := funext fun a => match a with | ⟨0, _⟩ => rfl
theorem lidx_v32_at (r : Fin 10000) (c : Fin 40) (k : Fin 128) :
    lidx_main_v32 (ix2 r c) k = (ix2 r k : S10000x128.Idx) := funext fun a => match a with | ⟨0, _⟩ => rfl | ⟨1, _⟩ => rfl
theorem ridx_v32_at (r : Fin 10000) (c : Fin 40) (k : Fin 128) :
    ridx_main_v32 (ix2 r c) k = (ix2 k c : S128x40.Idx) := funext fun a => match a with | ⟨0, _⟩ => rfl | ⟨1, _⟩ => rfl
theorem idx_v12_at (z : Fin 1) (r : Fin 10000) (j : Fin 128) :
    idx_main_v12 (ix3 z r j) = (ix2 r j : S10000x128.Idx) := funext fun a => match a with | ⟨0, _⟩ => rfl | ⟨1, _⟩ => rfl
theorem idx_v13_at (z : Fin 1) (r : Fin 10000) (j : Fin 128) :
    idx_main_v13 (ix3 z r j) = (ix2 r j : S10000x128.Idx) := funext fun a => match a with | ⟨0, _⟩ => rfl | ⟨1, _⟩ => rfl
theorem idx_v20_at (z : Fin 1) (r : Fin 10000) :
    idx_main_v20 (ix2 z r) = (ix1 r : S10000.Idx) := funext fun a => match a with | ⟨0, _⟩ => rfl
theorem idx_v21_at (k : Fin 2) (r : Fin 10000) :
    idx_main_v21 (ix2 k r) = (ix2 (0 : Fin 1) r : S1x10000.Idx) := funext fun a => match a with | ⟨0, _⟩ => rfl | ⟨1, _⟩ => rfl
theorem idx_v24_at (r : Fin 10000) (k : Fin 2) :
    idx_main_v24 (ix1 r) k = (ix2 k r : S2x10000.Idx) := funext fun a => match a with | ⟨0, _⟩ => rfl | ⟨1, _⟩ => rfl
theorem idx_v25_at (z : Fin 1) (r : Fin 10000) :
    idx_main_v25 (ix2 z r) = (ix1 r : S10000.Idx) := funext fun a => match a with | ⟨0, _⟩ => rfl
theorem idx_v26_at (k : Fin 2) (r : Fin 10000) :
    idx_main_v26 (ix2 k r) = (ix2 (0 : Fin 1) r : S1x10000.Idx) := funext fun a => match a with | ⟨0, _⟩ => rfl | ⟨1, _⟩ => rfl
theorem idx_v28_at (k : Fin 2) (r : Fin 10000) (z : Fin 1) :
    idx_main_v28 (ix3 k r z) = (ix2 k r : S2x10000.Idx) := funext fun a => match a with | ⟨0, _⟩ => rfl | ⟨1, _⟩ => rfl
theorem idx_v29_at (k : Fin 2) (r : Fin 10000) (j : Fin 128) :
    idx_main_v29 (ix3 k r j) = (ix3 k r (0 : Fin 1) : S2x10000x1.Idx) := funext fun a => match a with | ⟨0, _⟩ => rfl | ⟨1, _⟩ => rfl | ⟨2, _⟩ => rfl
theorem idx_v31_at (r : Fin 10000) (j : Fin 128) (k : Fin 2) :
    idx_main_v31 (ix2 r j) k = (ix3 k r j : S2x10000x128.Idx) := funext fun a => match a with | ⟨0, _⟩ => rfl | ⟨1, _⟩ => rfl | ⟨2, _⟩ => rfl
theorem idx_v33_at (z : Fin 1) (c : Fin 40) :
    idx_main_v33 (ix2 z c) = (ix1 c : S40.Idx) := funext fun a => match a with | ⟨0, _⟩ => rfl
theorem idx_v34_at (r : Fin 10000) (c : Fin 40) :
    idx_main_v34 (ix2 r c) = (ix2 (0 : Fin 1) c : S1x40.Idx) := funext fun a => match a with | ⟨0, _⟩ => rfl | ⟨1, _⟩ => rfl
theorem idx_v41_at (b : Fin 1024) (z : Fin 1) :
    idx_main_v41 (ix2 b z) = (ix1 b : S1024.Idx) := funext fun a => match a with | ⟨0, _⟩ => rfl

/-! ## The matrix products -/

section Stages
variable (x0 : (⟨S1024, .i32⟩ : BufTy).Contents (Elt Ideal)) (x1 : (⟨S10000x128, .f32⟩ : BufTy).Contents (Elt Ideal)) (x2 x3 : (⟨S10000x10000, .f32⟩ : BufTy).Contents (Elt Ideal))
  (x4 x5 x6 x7 x8 x9 : (⟨S128x128, .f32⟩ : BufTy).Contents (Elt Ideal)) (x10 : (⟨S128, .f32⟩ : BufTy).Contents (Elt Ideal)) (x11 : (⟨S128x40, .f32⟩ : BufTy).Contents (Elt Ideal)) (x12 : (⟨S40, .f32⟩ : BufTy).Contents (Elt Ideal))

theorem v0_at (r : Fin 10000) (j : Fin 128) :
    val_main_v0 (F := Ideal) x1 x4 (ix2 r j) = ∑ k : Fin 128, x1 (ix2 r k) * x4 (ix2 k j) := by
  rw [val_main_v0_apply]; simp only [lidx_v0_at, ridx_v0_at]

theorem v1_at (r : Fin 10000) (j : Fin 128) :
    val_main_v1 (F := Ideal) x1 x5 (ix2 r j) = ∑ k : Fin 128, x1 (ix2 r k) * x5 (ix2 k j) := by
  rw [val_main_v1_apply]; simp only [lidx_v1_at, ridx_v1_at]

theorem v2_at (r : Fin 10000) (j : Fin 128) :
    val_main_v2 (F := Ideal) x1 x2 x5 (ix2 r j)
      = ∑ n : Fin 10000, x2 (ix2 r n) * val_main_v1 (F := Ideal) x1 x5 (ix2 n j) := by
  rw [val_main_v2_apply]; simp only [lidx_v2_at, ridx_v2_at]

theorem v3_at (r : Fin 10000) (j : Fin 128) :
    val_main_v3 (F := Ideal) x1 x2 x5 x6 (ix2 r j)
      = ∑ p : Fin 128, val_main_v2 (F := Ideal) x1 x2 x5 (ix2 r p) * x6 (ix2 p j) := by
  rw [val_main_v3_apply]; simp only [lidx_v3_at, ridx_v3_at]

theorem v4_at (r : Fin 10000) (j : Fin 128) :
    val_main_v4 (F := Ideal) x1 x4 x8 (ix2 r j)
      = ∑ p : Fin 128, val_main_v0 (F := Ideal) x1 x4 (ix2 r p) * x8 (ix2 p j) := by
  rw [val_main_v4_apply]; simp only [lidx_v4_at, ridx_v4_at]

theorem v7_at (r : Fin 10000) (j : Fin 128) :
    val_main_v7 (F := Ideal) x1 x3 x5 (ix2 r j)
      = ∑ n : Fin 10000, x3 (ix2 r n) * val_main_v1 (F := Ideal) x1 x5 (ix2 n j) := by
  rw [val_main_v7_apply]; simp only [lidx_v7_at, ridx_v7_at]

theorem v8_at (r : Fin 10000) (j : Fin 128) :
    val_main_v8 (F := Ideal) x1 x3 x5 x7 (ix2 r j)
      = ∑ p : Fin 128, val_main_v7 (F := Ideal) x1 x3 x5 (ix2 r p) * x7 (ix2 p j) := by
  rw [val_main_v8_apply]; simp only [lidx_v8_at, ridx_v8_at]

theorem v9_at (r : Fin 10000) (j : Fin 128) :
    val_main_v9 (F := Ideal) x1 x4 x9 (ix2 r j)
      = ∑ p : Fin 128, val_main_v0 (F := Ideal) x1 x4 (ix2 r p) * x9 (ix2 p j) := by
  rw [val_main_v9_apply]; simp only [lidx_v9_at, ridx_v9_at]

/-- The pre-activation of metapath 0 in the reference's arrangement: `((A₀ · (X · Wp1)) · Wa₀) + ((X · Wp0) · Ws₀)`. -/
theorem v5_at (r : Fin 10000) (j : Fin 128) :
    val_main_v5 (F := Ideal) x1 x2 x4 x5 x6 x8 (ix2 r j)
      = (∑ p : Fin 128, (∑ n : Fin 10000, x2 (ix2 r n) * ∑ d : Fin 128, x1 (ix2 n d) * x5 (ix2 d p)) * x6 (ix2 p j))
        + ∑ p : Fin 128, (∑ d : Fin 128, x1 (ix2 r d) * x4 (ix2 d p)) * x8 (ix2 p j) := by
  rw [val_main_v5_apply, Ideal.addf_def, v3_at, v4_at]
  simp only [v2_at, v1_at, v0_at]

/-- The pre-activation of metapath 1 in the reference's arrangement. -/
theorem v10_at (r : Fin 10000) (j : Fin 128) :
    val_main_v10 (F := Ideal) x1 x3 x4 x5 x7 x9 (ix2 r j)
      = (∑ p : Fin 128, (∑ n : Fin 10000, x3 (ix2 r n) * ∑ d : Fin 128, x1 (ix2 n d) * x5 (ix2 d p)) * x7 (ix2 p j))
        + ∑ p : Fin 128, (∑ d : Fin 128, x1 (ix2 r d) * x4 (ix2 d p)) * x9 (ix2 p j) := by
  rw [val_main_v10_apply, Ideal.addf_def, v8_at, v9_at]
  simp only [v7_at, v1_at, v0_at]

/-- The hidden layer of metapath 0: the pre-activation cut below at zero. -/
theorem v6_at (r : Fin 10000) (j : Fin 128) :
    val_main_v6 (F := Ideal) x1 x2 x4 x5 x6 x8 (ix2 r j)
      = max (val_main_v5 (F := Ideal) x1 x2 x4 x5 x6 x8 (ix2 r j)) 0 := by
  rw [val_main_v6_apply, Ideal.maximumf_def, val_main_call0_v0_apply, val_main_call0_cst_apply, Ideal.ofBits_def,
    Ideal.ofBits_zero_f32]

/-- The hidden layer of metapath 1. -/
theorem v11_at (r : Fin 10000) (j : Fin 128) :
    val_main_v11 (F := Ideal) x1 x3 x4 x5 x7 x9 (ix2 r j)
      = max (val_main_v10 (F := Ideal) x1 x3 x4 x5 x7 x9 (ix2 r j)) 0 := by
  rw [val_main_v11_apply, Ideal.maximumf_def, val_main_call1_v0_apply, val_main_call1_cst_apply, Ideal.ofBits_def,
    Ideal.ofBits_zero_f32]

end Stages

/-! ## Three stages read from their definitions -/

/-- A stack of two [1, 10000, 128] arrays along the leading axis, read in its first layer. -/
theorem stack2_at0 {α : Type} (y0 y1 : S1x10000x128.Idx → α)
    (h : Shape.Concatenates [S1x10000x128, S1x10000x128] S2x10000x128 0) (r : Fin 10000) (j : Fin 128) :
    concatenate S2x10000x128 0 [⟨S1x10000x128, y0⟩, ⟨S1x10000x128, y1⟩] h (ix3 (0 : Fin 2) r j)
      = y0 (ix3 (0 : Fin 1) r j) :=
  concatenate_pair_apply_left 0 y0 y1 h (ix3 (0 : Fin 2) r j) rfl (ix3 (0 : Fin 1) r j)
    (fun b => match b with | ⟨0, _⟩ => rfl | ⟨1, _⟩ => rfl | ⟨2, _⟩ => rfl)

/-- The same stack read in its second layer. -/
theorem stack2_at1 {α : Type} (y0 y1 : S1x10000x128.Idx → α)
    (h : Shape.Concatenates [S1x10000x128, S1x10000x128] S2x10000x128 0) (r : Fin 10000) (j : Fin 128) :
    concatenate S2x10000x128 0 [⟨S1x10000x128, y0⟩, ⟨S1x10000x128, y1⟩] h (ix3 (1 : Fin 2) r j)
      = y1 (ix3 (0 : Fin 1) r j) :=
  concatenate_pair_apply_right 0 y0 y1 h (ix3 (1 : Fin 2) r j) rfl rfl (ix3 (0 : Fin 1) r j)
    (fun b hb => match b, hb with
      | ⟨0, _⟩, hb => absurd rfl hb
      | ⟨1, _⟩, _ => rfl
      | ⟨2, _⟩, _ => rfl)
    rfl

/-- A fold over the two elements of `Fin 2`. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The maximum over the leading axis of size two, started from −∞, is the larger of the two entries. -/
theorem reduce_max_two (x : FVec Ideal S2x10000 .f32) (h' : S2x10000.ReducesTo [0] S10000)
    (hu : 0 < S_.numel) (r : Fin 10000) :
    Host.reduce FloatOps.maximumf x (constant S_ .f32 0xFF800000#32) h' hu (ix1 r)
      = max (x (ix2 (0 : Fin 2) r)) (x (ix2 (1 : Fin 2) r)) := by
  have h : S2x10000.Reduces [0] S10000 := by decide
  rw [Host.reduce_eq_fold_single FloatOps.maximumf x _ h' h hu]
  have hl : ∀ k : Fin 2, h.lift (ix1 r) k = ix2 k r := fun k => by
    funext c; apply Fin.ext
    match c with
    | ⟨0, _⟩ => rfl
    | ⟨1, _⟩ => rfl
  refine (fold_univ_fin2 (FloatOps.maximumf (F := Ideal) (φ := .f32)) _ (x ∘ h.lift (ix1 r))).trans ?_
  show max (x (h.lift (ix1 r) (0 : Fin 2))) (max (x (h.lift (ix1 r) (1 : Fin 2))) (Ideal.ofBits .f32 0xFF800000#32)) = _
  rw [hl 0, hl 1, ofBits_neg_inf_f32, max_bot_right]

/-- The gather of whole rows of a [10000, 40] array at a [1024, 1] array of row numbers: row `b` of the result is the
    row the start index names, read signed and clamped into [0, 9999]. -/
theorem gather_rows_at {α : Type} (x : S10000x40.Idx → α) (idx : IVec S1024x1 32) (b : Fin 1024) (c : Fin 40) :
    Host.gather gather_S10000x40_S1024x1_S1024x40_1_0_n_n_0_1_140 x idx (ix2 b c)
      = x (ix2 (⟨min (idx (ix2 b (0 : Fin 1))).toInt.toNat 9999, by omega⟩ : Fin 10000) c) := by
  unfold Host.gather
  congr 1
  funext a
  refine Fin.ext ?_
  match a with
  | ⟨0, _⟩ =>
    show gather_S10000x40_S1024x1_S1024x40_1_0_n_n_0_1_140.start (ix2 b c) idx 0
      + gather_S10000x40_S1024x1_S1024x40_1_0_n_n_0_1_140.batchCoord (ix2 b c) 0
      + gather_S10000x40_S1024x1_S1024x40_1_0_n_n_0_1_140.offCoord (ix2 b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x40_S1024x1_S1024x40_1_0_n_n_0_1_140.startIndexMap from List.mem_singleton.mpr rfl)]
    have hsi : gather_S10000x40_S1024x1_S1024x40_1_0_n_n_0_1_140.siIdx (ix2 b c)
        ⟨List.idxOf (0 : Fin 2) gather_S10000x40_S1024x1_S1024x40_1_0_n_n_0_1_140.startIndexMap,
          List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  | ⟨1, _⟩ =>
    show gather_S10000x40_S1024x1_S1024x40_1_0_n_n_0_1_140.start (ix2 b c) idx 1
      + gather_S10000x40_S1024x1_S1024x40_1_0_n_n_0_1_140.batchCoord (ix2 b c) 1
      + gather_S10000x40_S1024x1_S1024x40_1_0_n_n_0_1_140.offCoord (ix2 b c) 1 = _
    rw [GatherDims.batchCoord_eq_zero _ _ _ List.not_mem_nil]
    unfold GatherDims.start
    rw [dif_neg (show ¬ (1 : Fin 2) ∈ gather_S10000x40_S1024x1_S1024x40_1_0_n_n_0_1_140.startIndexMap from by decide)]
    unfold GatherDims.offCoord
    rw [dif_pos (show (1 : Fin 2) ∈ gather_S10000x40_S1024x1_S1024x40_1_0_n_n_0_1_140.sKept from by decide)]
    simp only [Nat.zero_add, Nat.add_zero]
    rfl

/-! ## The two hidden layers stacked, the scores and the softmax -/

section Stages2
variable (x0 : (⟨S1024, .i32⟩ : BufTy).Contents (Elt Ideal)) (x1 : (⟨S10000x128, .f32⟩ : BufTy).Contents (Elt Ideal)) (x2 x3 : (⟨S10000x10000, .f32⟩ : BufTy).Contents (Elt Ideal))
  (x4 x5 x6 x7 x8 x9 : (⟨S128x128, .f32⟩ : BufTy).Contents (Elt Ideal)) (x10 : (⟨S128, .f32⟩ : BufTy).Contents (Elt Ideal)) (x11 : (⟨S128x40, .f32⟩ : BufTy).Contents (Elt Ideal)) (x12 : (⟨S40, .f32⟩ : BufTy).Contents (Elt Ideal))

theorem v12_at (z : Fin 1) (r : Fin 10000) (j : Fin 128) :
    val_main_v12 (F := Ideal) x1 x2 x4 x5 x6 x8 (ix3 z r j) = val_main_v6 (F := Ideal) x1 x2 x4 x5 x6 x8 (ix2 r j) := by
  rw [val_main_v12_apply, idx_v12_at]

theorem v13_at (z : Fin 1) (r : Fin 10000) (j : Fin 128) :
    val_main_v13 (F := Ideal) x1 x3 x4 x5 x7 x9 (ix3 z r j) = val_main_v11 (F := Ideal) x1 x3 x4 x5 x7 x9 (ix2 r j) := by
  rw [val_main_v13_apply, idx_v13_at]

/-- Layer 0 of the stack is the hidden layer of metapath 0. -/
theorem v14_at0 (r : Fin 10000) (j : Fin 128) :
    val_main_v14 (F := Ideal) x1 x2 x3 x4 x5 x6 x7 x8 x9 (ix3 (0 : Fin 2) r j) = val_main_v6 (F := Ideal) x1 x2 x4 x5 x6 x8 (ix2 r j) := by
  unfold val_main_v14
  rw [stack2_at0, v12_at]

/-- Layer 1 of the stack is the hidden layer of metapath 1. -/
theorem v14_at1 (r : Fin 10000) (j : Fin 128) :
    val_main_v14 (F := Ideal) x1 x2 x3 x4 x5 x6 x7 x8 x9 (ix3 (1 : Fin 2) r j) = val_main_v11 (F := Ideal) x1 x3 x4 x5 x7 x9 (ix2 r j) := by
  unfold val_main_v14
  rw [stack2_at1, v13_at]

/-- The score of metapath `k` at node `r`: the sum over the hidden coordinates of tanh of the hidden layer times the attention vector. -/
theorem v16_at (k : Fin 2) (r : Fin 10000) :
    val_main_v16 (F := Ideal) x1 x2 x3 x4 x5 x6 x7 x8 x9 x10 (ix2 k r)
      = ∑ j : Fin 128, Ideal.tanh (val_main_v14 (F := Ideal) x1 x2 x3 x4 x5 x6 x7 x8 x9 (ix3 k r j)) * x10 (ix1 j) := by
  rw [val_main_v16_apply]
  simp only [lidx_v16_at, ridx_v16_at, val_main_v15_apply, Ideal.hostUnary_tanh_def]

/-- The maximum over the two metapaths, started from −∞. -/
theorem v17_at (r : Fin 10000) :
    val_main_v17 (F := Ideal) x1 x2 x3 x4 x5 x6 x7 x8 x9 x10 (ix1 r)
      = max (val_main_v16 (F := Ideal) x1 x2 x3 x4 x5 x6 x7 x8 x9 x10 (ix2 (0 : Fin 2) r)) (val_main_v16 (F := Ideal) x1 x2 x3 x4 x5 x6 x7 x8 x9 x10 (ix2 (1 : Fin 2) r)) := by
  unfold val_main_v17 val_main_cst
  rw [reduce_max_two]

/-- Taking the maximum with −∞ once more changes nothing. -/
theorem v19_at (r : Fin 10000) :
    val_main_v19 (F := Ideal) x1 x2 x3 x4 x5 x6 x7 x8 x9 x10 (ix1 r)
      = max (val_main_v16 (F := Ideal) x1 x2 x3 x4 x5 x6 x7 x8 x9 x10 (ix2 (0 : Fin 2) r)) (val_main_v16 (F := Ideal) x1 x2 x3 x4 x5 x6 x7 x8 x9 x10 (ix2 (1 : Fin 2) r)) := by
  rw [val_main_v19_apply, Ideal.maximumf_def, val_main_v18_apply, val_main_cst_0_apply, Ideal.ofBits_def, ofBits_neg_inf_f32,
    v17_at, max_bot_left]

theorem v21_at (k : Fin 2) (r : Fin 10000) :
    val_main_v21 (F := Ideal) x1 x2 x3 x4 x5 x6 x7 x8 x9 x10 (ix2 k r) = val_main_v19 (F := Ideal) x1 x2 x3 x4 x5 x6 x7 x8 x9 x10 (ix1 r) := by
  rw [val_main_v21_apply, idx_v21_at, val_main_v20_apply, idx_v20_at]

/-- The exponential of the score less the maximum. -/
theorem v23_at (k : Fin 2) (r : Fin 10000) :
    val_main_v23 (F := Ideal) x1 x2 x3 x4 x5 x6 x7 x8 x9 x10 (ix2 k r)
      = Ideal.exp (val_main_v16 (F := Ideal) x1 x2 x3 x4 x5 x6 x7 x8 x9 x10 (ix2 k r) - val_main_v19 (F := Ideal) x1 x2 x3 x4 x5 x6 x7 x8 x9 x10 (ix1 r)) := by
  rw [val_main_v23_apply, Ideal.hostUnary_exp_def, val_main_v22_apply, Ideal.subf_def, v21_at]

/-- The normaliser: the sum of the two exponentials, started from zero. -/
theorem v24_at (r : Fin 10000) :
    val_main_v24 (F := Ideal) x1 x2 x3 x4 x5 x6 x7 x8 x9 x10 (ix1 r)
      = 0 + (val_main_v23 (F := Ideal) x1 x2 x3 x4 x5 x6 x7 x8 x9 x10 (ix2 (0 : Fin 2) r) + val_main_v23 (F := Ideal) x1 x2 x3 x4 x5 x6 x7 x8 x9 x10 (ix2 (1 : Fin 2) r)) := by
  rw [val_main_v24_apply, val_main_cst_1_apply, Ideal.ofBits_def, Ideal.ofBits_zero_f32, Fin.sum_univ_two]
  simp only [idx_v24_at]

theorem v26_at (k : Fin 2) (r : Fin 10000) :
    val_main_v26 (F := Ideal) x1 x2 x3 x4 x5 x6 x7 x8 x9 x10 (ix2 k r) = val_main_v24 (F := Ideal) x1 x2 x3 x4 x5 x6 x7 x8 x9 x10 (ix1 r) := by
  rw [val_main_v26_apply, idx_v26_at, val_main_v25_apply, idx_v25_at]

/-- The weight of metapath `k` at node `r`: its exponential over the normaliser. -/
theorem v27_at (k : Fin 2) (r : Fin 10000) :
    val_main_v27 (F := Ideal) x1 x2 x3 x4 x5 x6 x7 x8 x9 x10 (ix2 k r)
      = Ideal.div (val_main_v23 (F := Ideal) x1 x2 x3 x4 x5 x6 x7 x8 x9 x10 (ix2 k r)) (val_main_v24 (F := Ideal) x1 x2 x3 x4 x5 x6 x7 x8 x9 x10 (ix1 r)) := by
  rw [val_main_v27_apply, Ideal.hostDivf_def, v26_at]

/-! ## The mixture, the classifier and the gather -/

theorem v30_at (k : Fin 2) (r : Fin 10000) (j : Fin 128) :
    val_main_v30 (F := Ideal) x1 x2 x3 x4 x5 x6 x7 x8 x9 x10 (ix3 k r j)
      = val_main_v27 (F := Ideal) x1 x2 x3 x4 x5 x6 x7 x8 x9 x10 (ix2 k r) * val_main_v14 (F := Ideal) x1 x2 x3 x4 x5 x6 x7 x8 x9 (ix3 k r j) := by
  rw [val_main_v30_apply, Ideal.mulf_def, val_main_v29_apply, idx_v29_at, val_main_v28_apply, idx_v28_at]

/-- The mixture: the sum over the two metapaths, started from zero, of weight times hidden layer. -/
theorem v31_at (r : Fin 10000) (j : Fin 128) :
    val_main_v31 (F := Ideal) x1 x2 x3 x4 x5 x6 x7 x8 x9 x10 (ix2 r j)
      = 0 + (val_main_v27 (F := Ideal) x1 x2 x3 x4 x5 x6 x7 x8 x9 x10 (ix2 (0 : Fin 2) r) * val_main_v14 (F := Ideal) x1 x2 x3 x4 x5 x6 x7 x8 x9 (ix3 (0 : Fin 2) r j)
          + val_main_v27 (F := Ideal) x1 x2 x3 x4 x5 x6 x7 x8 x9 x10 (ix2 (1 : Fin 2) r) * val_main_v14 (F := Ideal) x1 x2 x3 x4 x5 x6 x7 x8 x9 (ix3 (1 : Fin 2) r j)) := by
  rw [val_main_v31_apply, val_main_cst_2_apply, Ideal.ofBits_def, Ideal.ofBits_zero_f32, Fin.sum_univ_two]
  simp only [idx_v31_at, v30_at]

/-- The classifier on every node: the mixture times the weight, plus the bias. -/
theorem v35_at (r : Fin 10000) (c : Fin 40) :
    val_main_v35 (F := Ideal) x1 x2 x3 x4 x5 x6 x7 x8 x9 x10 x11 x12 (ix2 r c)
      = (∑ j : Fin 128, val_main_v31 (F := Ideal) x1 x2 x3 x4 x5 x6 x7 x8 x9 x10 (ix2 r j) * x11 (ix2 j c)) + x12 (ix1 c) := by
  rw [val_main_v35_apply, Ideal.addf_def, val_main_v32_apply, val_main_v34_apply, idx_v34_at, val_main_v33_apply, idx_v33_at]
  simp only [lidx_v32_at, ridx_v32_at]

/-- The start index of batch position `b`: the id, moved up by 10000 where it reads negative. -/
theorem v41_at (b : Fin 1024) (z : Fin 1) :
    val_main_v41 (F := Ideal) x0 (ix2 b z)
      = Scalar.select (IntOp.cmpi .slt (x0 (ix1 b)) 0#32) (IntOp.addi (x0 (ix1 b)) 10000#32) (x0 (ix1 b)) := by
  rw [val_main_v41_apply, idx_v41_at, val_main_v40_apply, val_main_v37_apply, val_main_v39_apply, val_main_v36_apply,
    val_main_c_apply, val_main_v38_apply, val_main_c_3_apply]

/-- The result: row `b` is the classifier's row at the start index, read signed and clamped into [0, 9999]. -/
theorem v42_at (b : Fin 1024) (c : Fin 40) :
    val_main_v42 (F := Ideal) x0 x1 x2 x3 x4 x5 x6 x7 x8 x9 x10 x11 x12 (ix2 b c)
      = val_main_v35 (F := Ideal) x1 x2 x3 x4 x5 x6 x7 x8 x9 x10 x11 x12
          (ix2 (⟨min (val_main_v41 (F := Ideal) x0 (ix2 b (0 : Fin 1))).toInt.toNat 9999, by omega⟩ : Fin 10000) c) := by
  unfold val_main_v42
  rw [gather_rows_at]

end Stages2

end Cert.Proof.RefSide

end
-- ==== Proof.RefIsSpecI.lean ====
import proofs.«208996_g46033459479168_cont_8to1c4_133_24_alg».proof.Proof.RefReadI
import proofs.«208996_g46033459479168_cont_8to1c4_133_24_alg».proof.Proof.SpecI
import proofs.«208996_g46033459479168_cont_8to1c4_133_24_alg».proof.Proof.AlgebraI

/-! # The reference computes the specification

The reference multiplies `((A · (X · Wp1)) · Wa)` and `((X · Wp0) · Ws)`; the specification has `A · (X · (Wp1 · Wa))` and
`X · (Wp0 · Ws)`.  Where every entry is a real number these are equal (associativity of finite sums of real products),
and then every later quantity — hidden layers, scores, the softmax over the two metapaths, the mixture, the classifier —
is the same term on both sides but for three spellings: a maximum taken once more with −∞, sums over the two metapaths
started from zero, and a quotient `e / (0 + (e₀ + e₁))` against the product `e · (1 / (e₀ + e₁))`, equal because `e₀ + e₁` is a
nonzero real.  The final gather reads the row the id names: under `0 ≤ id ≤ 9999` neither the wrap of negative ids nor
the clamp changes it. -/

noncomputable section

namespace Cert.Proof.RefSide

open scoped BigOperators
open Cert.ReferenceIdeal Cert.ReferenceIdeal.Read Idealize.ShloMosaic Idealize.ShloMosaic.ValueIdx

/-! ## Real entries give real intermediate quantities -/

section Reals
variable {A : S10000x10000.Idx → EReal} {X : S10000x128.Idx → EReal} {Wp0 Wp1 Wa Ws : S128x128.Idx → EReal}
  {av : S128.Idx → EReal}

theorem isReal_Sk (hX : ∀ i, IsReal (X i)) (hWp1 : ∀ i, IsReal (Wp1 i)) (hWa : ∀ i, IsReal (Wa i))
    (n : Fin 10000) (j : Fin 128) : IsReal (Spec.Sk X Wp1 Wa n j) :=
  IsReal.sum _ _ fun p _ => (hX _).mul (IsReal.sum _ _ fun q _ => (hWp1 _).mul (hWa _))

theorem isReal_Ck (hWp0 : ∀ i, IsReal (Wp0 i)) (hWs : ∀ i, IsReal (Ws i)) (d j : Fin 128) :
    IsReal (Spec.Ck Wp0 Ws d j) :=
  IsReal.sum _ _ fun q _ => (hWp0 _).mul (hWs _)

theorem isReal_hk (hA : ∀ i, IsReal (A i)) (hX : ∀ i, IsReal (X i)) (hWp0 : ∀ i, IsReal (Wp0 i))
    (hWp1 : ∀ i, IsReal (Wp1 i)) (hWa : ∀ i, IsReal (Wa i)) (hWs : ∀ i, IsReal (Ws i)) (r : Fin 10000) (j : Fin 128) :
    IsReal (Spec.hk A X Wp0 Wp1 Wa Ws r j) :=
  IsReal.max
    (IsReal.add (IsReal.sum _ _ fun n _ => (hA _).mul (isReal_Sk hX hWp1 hWa n j))
      (IsReal.sum _ _ fun d _ => (hX _).mul (isReal_Ck hWp0 hWs d j)))
    IsReal.zero

theorem isReal_sk (hA : ∀ i, IsReal (A i)) (hX : ∀ i, IsReal (X i)) (hWp0 : ∀ i, IsReal (Wp0 i))
    (hWp1 : ∀ i, IsReal (Wp1 i)) (hWa : ∀ i, IsReal (Wa i)) (hWs : ∀ i, IsReal (Ws i)) (hav : ∀ i, IsReal (av i))
    (r : Fin 10000) : IsReal (Spec.sk A X Wp0 Wp1 Wa Ws av r) :=
  IsReal.sum _ _ fun j _ => (IsReal.tanh (isReal_hk hA hX hWp0 hWp1 hWa hWs r j)).mul (hav _)

/-- The pre-activation: the reference's arrangement of the two products is the specification's, for real entries. -/
theorem pre_eq (hA : ∀ i, IsReal (A i)) (hX : ∀ i, IsReal (X i)) (hWp0 : ∀ i, IsReal (Wp0 i))
    (hWp1 : ∀ i, IsReal (Wp1 i)) (hWa : ∀ i, IsReal (Wa i)) (hWs : ∀ i, IsReal (Ws i)) (r : Fin 10000) (j : Fin 128) :
    (∑ p : Fin 128, (∑ n : Fin 10000, A (ix2 r n) * ∑ d : Fin 128, X (ix2 n d) * Wp1 (ix2 d p)) * Wa (ix2 p j))
        + ∑ p : Fin 128, (∑ d : Fin 128, X (ix2 r d) * Wp0 (ix2 d p)) * Ws (ix2 p j)
      = (∑ n : Fin 10000, A (ix2 r n) * Spec.Sk X Wp1 Wa n j) + ∑ d : Fin 128, X (ix2 r d) * Spec.Ck Wp0 Ws d j := by
  rw [sum_assoc3 (fun n => A (ix2 r n)) (fun n d => X (ix2 n d)) (fun d p => Wp1 (ix2 d p)) (fun p => Wa (ix2 p j))
      (fun _ => hA _) (fun _ _ => hX _) (fun _ _ => hWp1 _) (fun _ => hWa _),
    sum_assoc2 (fun d => X (ix2 r d)) (fun d p => Wp0 (ix2 d p)) (fun p => Ws (ix2 p j))
      (fun _ => hX _) (fun _ _ => hWp0 _) (fun _ => hWs _)]
  rfl

end Reals

/-! ## The padded classifier among its first 40 columns -/

/-- Among the first 40 columns the padded weight is the weight. -/
theorem wfcPad_col40 (Wfc : S128x40.Idx → EReal) (j : Fin 128) (c : Fin 40) :
    Spec.wfcPad Wfc j (Spec.col40 c) = Wfc (ix2 j c) := by
  unfold Spec.wfcPad
  rw [dif_pos (show (Spec.col40 c).val < 40 from c.isLt)]
  rfl

/-- Among the first 40 columns the padded bias is the bias. -/
theorem bfcPad_col40 (bfc : S40.Idx → EReal) (c : Fin 40) :
    Spec.bfcPad bfc (Spec.col40 c) = bfc (ix1 c) := by
  unfold Spec.bfcPad
  rw [dif_pos (show (Spec.col40 c).val < 40 from c.isLt)]
  rfl

/-! ## The hypotheses on the thirteen arguments -/

/-- Every float entry is a real number; every id is below 10000, is not negative, and reads the same signed and unsigned. -/
structure Inputs (x0 : (⟨S1024, .i32⟩ : BufTy).Contents (Elt Ideal)) (x1 : (⟨S10000x128, .f32⟩ : BufTy).Contents (Elt Ideal))
    (x2 x3 : (⟨S10000x10000, .f32⟩ : BufTy).Contents (Elt Ideal))
    (x4 x5 x6 x7 x8 x9 : (⟨S128x128, .f32⟩ : BufTy).Contents (Elt Ideal))
    (x10 : (⟨S128, .f32⟩ : BufTy).Contents (Elt Ideal)) (x11 : (⟨S128x40, .f32⟩ : BufTy).Contents (Elt Ideal))
    (x12 : (⟨S40, .f32⟩ : BufTy).Contents (Elt Ideal)) : Prop where
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, IsReal (x10 i)
  r11 : ∀ i, IsReal (x11 i)
  r12 : ∀ i, IsReal (x12 i)
  ids : ∀ j, (x0 j).toNat < 10000 ∧ IntOp.cmpi .slt (x0 j) 0#32 = 0#1 ∧ (x0 j).toInt.toNat = (x0 j).toNat

section Chain
variable {x0 : (⟨S1024, .i32⟩ : BufTy).Contents (Elt Ideal)} {x1 : (⟨S10000x128, .f32⟩ : BufTy).Contents (Elt Ideal)}
  {x2 x3 : (⟨S10000x10000, .f32⟩ : BufTy).Contents (Elt Ideal)}
  {x4 x5 x6 x7 x8 x9 : (⟨S128x128, .f32⟩ : BufTy).Contents (Elt Ideal)}
  {x10 : (⟨S128, .f32⟩ : BufTy).Contents (Elt Ideal)} {x11 : (⟨S128x40, .f32⟩ : BufTy).Contents (Elt Ideal)}
  {x12 : (⟨S40, .f32⟩ : BufTy).Contents (Elt Ideal)}
variable (H : Inputs x0 x1 x2 x3 x4 x5 x6 x7 x8 x9 x10 x11 x12)
include H

/-! ## Hidden layers and scores -/

theorem ref_h0 (r : Fin 10000) (j : Fin 128) :
    val_main_v6 (F := Ideal) x1 x2 x4 x5 x6 x8 (ix2 r j) = Spec.h0 x1 x2 x4 x5 x6 x8 r j := by
  rw [v6_at, v5_at, pre_eq H.r2 H.r1 H.r4 H.r5 H.r6 H.r8]
  rfl

theorem ref_h1 (r : Fin 10000) (j : Fin 128) :
    val_main_v11 (F := Ideal) x1 x3 x4 x5 x7 x9 (ix2 r j) = Spec.h1 x1 x3 x4 x5 x7 x9 r j := by
  rw [v11_at, v10_at, pre_eq H.r3 H.r1 H.r4 H.r5 H.r7 H.r9]
  rfl

theorem ref_s0 (r : Fin 10000) :
    val_main_v16 (F := Ideal) x1 x2 x3 x4 x5 x6 x7 x8 x9 x10 (ix2 (0 : Fin 2) r) = Spec.s0 x1 x2 x4 x5 x6 x8 x10 r := by
  rw [v16_at]
  simp only [v14_at0, ref_h0 H]
  rfl

theorem ref_s1 (r : Fin 10000) :
    val_main_v16 (F := Ideal) x1 x2 x3 x4 x5 x6 x7 x8 x9 x10 (ix2 (1 : Fin 2) r) = Spec.s1 x1 x3 x4 x5 x7 x9 x10 r := by
  rw [v16_at]
  simp only [v14_at1, ref_h1 H]
  rfl

theorem isReal_s0 (r : Fin 10000) : IsReal (Spec.s0 x1 x2 x4 x5 x6 x8 x10 r) :=
  isReal_sk H.r2 H.r1 H.r4 H.r5 H.r6 H.r8 H.r10 r

theorem isReal_s1 (r : Fin 10000) : IsReal (Spec.s1 x1 x3 x4 x5 x7 x9 x10 r) :=
  isReal_sk H.r3 H.r1 H.r4 H.r5 H.r7 H.r9 H.r10 r

/-! ## The softmax over the two metapaths -/

theorem ref_mx (r : Fin 10000) :
    val_main_v19 (F := Ideal) x1 x2 x3 x4 x5 x6 x7 x8 x9 x10 (ix1 r) = Spec.mx x1 x2 x3 x4 x5 x6 x7 x8 x9 x10 r := by
  rw [v19_at, ref_s0 H, ref_s1 H]
  rfl

theorem ref_e0 (r : Fin 10000) :
    val_main_v23 (F := Ideal) x1 x2 x3 x4 x5 x6 x7 x8 x9 x10 (ix2 (0 : Fin 2) r) = Spec.e0 x1 x2 x3 x4 x5 x6 x7 x8 x9 x10 r := by
  rw [v23_at, ref_s0 H, ref_mx H]
  rfl

theorem ref_e1 (r : Fin 10000) :
    val_main_v23 (F := Ideal) x1 x2 x3 x4 x5 x6 x7 x8 x9 x10 (ix2 (1 : Fin 2) r) = Spec.e1 x1 x2 x3 x4 x5 x6 x7 x8 x9 x10 r := by
  rw [v23_at, ref_s1 H, ref_mx H]
  rfl

theorem isReal_mx (r : Fin 10000) : IsReal (Spec.mx x1 x2 x3 x4 x5 x6 x7 x8 x9 x10 r) :=
  IsReal.max (isReal_s0 H r) (isReal_s1 H r)

/-- The normaliser `e₀ + e₁` is a real number. -/
theorem isReal_esum (r : Fin 10000) :
    IsReal (Spec.e0 x1 x2 x3 x4 x5 x6 x7 x8 x9 x10 r + Spec.e1 x1 x2 x3 x4 x5 x6 x7 x8 x9 x10 r) :=
  IsReal.add (IsReal.exp (IsReal.sub (isReal_s0 H r) (isReal_mx H r)))
    (IsReal.exp (IsReal.sub (isReal_s1 H r) (isReal_mx H r)))

/-- The normaliser `e₀ + e₁` is not zero. -/
theorem esum_ne_zero (r : Fin 10000) :
    Spec.e0 x1 x2 x3 x4 x5 x6 x7 x8 x9 x10 r + Spec.e1 x1 x2 x3 x4 x5 x6 x7 x8 x9 x10 r ≠ 0 :=
  exp_add_exp_ne_zero (IsReal.sub (isReal_s0 H r) (isReal_mx H r)) (IsReal.sub (isReal_s1 H r) (isReal_mx H r))

theorem ref_b0 (r : Fin 10000) :
    val_main_v27 (F := Ideal) x1 x2 x3 x4 x5 x6 x7 x8 x9 x10 (ix2 (0 : Fin 2) r) = Spec.b0 x1 x2 x3 x4 x5 x6 x7 x8 x9 x10 r := by
  rw [v27_at, v24_at, ref_e0 H, ref_e1 H, div_zero_add_eq_mul_div_one (isReal_esum H r) (esum_ne_zero H r)]
  rfl

theorem ref_b1 (r : Fin 10000) :
    val_main_v27 (F := Ideal) x1 x2 x3 x4 x5 x6 x7 x8 x9 x10 (ix2 (1 : Fin 2) r) = Spec.b1 x1 x2 x3 x4 x5 x6 x7 x8 x9 x10 r := by
  rw [v27_at, v24_at, ref_e0 H, ref_e1 H, div_zero_add_eq_mul_div_one (isReal_esum H r) (esum_ne_zero H r)]
  rfl

/-- RESULT 2 of the reference is the specification's `beta`. -/
theorem ref_beta :
    val_main_v27 (F := Ideal) x1 x2 x3 x4 x5 x6 x7 x8 x9 x10 = Spec.beta x1 x2 x3 x4 x5 x6 x7 x8 x9 x10 := by
  funext i
  obtain ⟨k, r, rfl⟩ : ∃ (k : Fin 2) (r : Fin 10000), i = ix2 k r := ⟨i 0, i 1, eq_ix2 i⟩
  rw [Spec.beta_apply]
  match k with
  | ⟨0, _⟩ => exact ref_b0 H r
  | ⟨1, _⟩ => exact ref_b1 H r

/-! ## The mixture, the classifier, the gather -/

theorem ref_agg (r : Fin 10000) (j : Fin 128) :
    val_main_v31 (F := Ideal) x1 x2 x3 x4 x5 x6 x7 x8 x9 x10 (ix2 r j) = Spec.agg x1 x2 x3 x4 x5 x6 x7 x8 x9 x10 r j := by
  rw [v31_at, zero_add, ref_b0 H, ref_b1 H, v14_at0, v14_at1, ref_h0 H, ref_h1 H]
  rfl

theorem ref_lg (r : Fin 10000) (c : Fin 40) :
    val_main_v35 (F := Ideal) x1 x2 x3 x4 x5 x6 x7 x8 x9 x10 x11 x12 (ix2 r c)
      = Spec.lg x1 x2 x3 x4 x5 x6 x7 x8 x9 x10 x11 x12 (ix2 r (Spec.col40 c)) := by
  rw [v35_at, Spec.lg_apply, bfcPad_col40]
  simp only [ref_agg H, wfcPad_col40]

/-- Under `0 ≤ id ≤ 9999` the row the gather reads is the id's. -/
theorem ref_row (b : Fin 1024) (hlt : min (val_main_v41 (F := Ideal) x0 (ix2 b (0 : Fin 1))).toInt.toNat 9999 < 10000) :
    (⟨min (val_main_v41 (F := Ideal) x0 (ix2 b (0 : Fin 1))).toInt.toNat 9999, hlt⟩ : Fin 10000) = Spec.rowOf x0 b := by
  apply Fin.ext
  show min (val_main_v41 (F := Ideal) x0 (ix2 b (0 : Fin 1))).toInt.toNat 9999 = min (x0 (ix1 b)).toNat 9999
  rw [v41_at, (H.ids (ix1 b)).2.1, select_zero, (H.ids (ix1 b)).2.2]

/-- RESULT 1 of the reference is the specification's `logits`. -/
theorem ref_logits :
    val_main_v42 (F := Ideal) x0 x1 x2 x3 x4 x5 x6 x7 x8 x9 x10 x11 x12 = Spec.logits x0 x1 x2 x3 x4 x5 x6 x7 x8 x9 x10 x11 x12 := by
  funext i
  obtain ⟨b, c, rfl⟩ : ∃ (b : Fin 1024) (c : Fin 40), i = ix2 b c := ⟨i 0, i 1, eq_ix2 i⟩
  rw [v42_at, Spec.logits_apply, ref_row H b, ref_lg H]

end Chain

/-- The hypotheses in one: what the precondition gives (module FiniteI's `real_of_pre`) is `Inputs`. -/
theorem Inputs.of_facts (x0 : (⟨S1024, .i32⟩ : BufTy).Contents (Elt Ideal)) (x1 : (⟨S10000x128, .f32⟩ : BufTy).Contents (Elt Ideal))
    (x2 x3 : (⟨S10000x10000, .f32⟩ : BufTy).Contents (Elt Ideal))
    (x4 x5 x6 x7 x8 x9 : (⟨S128x128, .f32⟩ : BufTy).Contents (Elt Ideal))
    (x10 : (⟨S128, .f32⟩ : BufTy).Contents (Elt Ideal)) (x11 : (⟨S128x40, .f32⟩ : BufTy).Contents (Elt Ideal))
    (x12 : (⟨S40, .f32⟩ : BufTy).Contents (Elt Ideal))
    (h : (∀ i, IsReal (x1 i)) ∧ (∀ i, IsReal (x2 i)) ∧ (∀ i, IsReal (x3 i)) ∧ (∀ i, IsReal (x4 i)) ∧
      (∀ i, IsReal (x5 i)) ∧ (∀ i, IsReal (x6 i)) ∧ (∀ i, IsReal (x7 i)) ∧ (∀ i, IsReal (x8 i)) ∧
      (∀ i, IsReal (x9 i)) ∧ (∀ i, IsReal (x10 i)) ∧ (∀ i, IsReal (x11 i)) ∧ (∀ i, IsReal (x12 i)) ∧
      (∀ j, (x0 j).toNat < 10000 ∧ IntOp.cmpi .slt (x0 j) 0#32 = 0#1 ∧ (x0 j).toInt.toNat = (x0 j).toNat)) :
    Inputs x0 x1 x2 x3 x4 x5 x6 x7 x8 x9 x10 x11 x12 :=
  ⟨h.1, h.2.1, h.2.2.1, h.2.2.2.1, h.2.2.2.2.1, h.2.2.2.2.2.1, h.2.2.2.2.2.2.1, h.2.2.2.2.2.2.2.1,
    h.2.2.2.2.2.2.2.2.1, h.2.2.2.2.2.2.2.2.2.1, h.2.2.2.2.2.2.2.2.2.2.1, h.2.2.2.2.2.2.2.2.2.2.2.1,
    h.2.2.2.2.2.2.2.2.2.2.2.2⟩

end Cert.Proof.RefSide

end
-- ==== Proof.RefPreI.lean ====
import proofs.«208996_g46033459479168_cont_8to1c4_133_24_alg».proof.Proof.RefIsSpecI
import proofs.«208996_g46033459479168_cont_8to1c4_133_24_alg».proof.Proof.FiniteI

/-! # From the precondition to the hypotheses of the reference's identification -/

namespace Cert.Proof.RefSide

open Cert.ReferenceIdeal Idealize.ShloMosaic

/-- The precondition, stated of the reference's thirteen argument arrays at the extended reals, gives `Inputs`:
    every float entry a real number, every id in range. -/
theorem inputs_of_pre [hF : Cert.Pre_input_domain.Facts]
    (x0 : (⟨S1024, .i32⟩ : BufTy).Contents (Elt Ideal)) (x1 : (⟨S10000x128, .f32⟩ : BufTy).Contents (Elt Ideal))
    (x2 x3 : (⟨S10000x10000, .f32⟩ : BufTy).Contents (Elt Ideal))
    (x4 x5 x6 x7 x8 x9 : (⟨S128x128, .f32⟩ : BufTy).Contents (Elt Ideal))
    (x10 : (⟨S128, .f32⟩ : BufTy).Contents (Elt Ideal)) (x11 : (⟨S128x40, .f32⟩ : BufTy).Contents (Elt Ideal))
    (x12 : (⟨S40, .f32⟩ : BufTy).Contents (Elt Ideal))
    (h : Cert.Pre_input_domain.fn (F := Ideal) x0 x1 x2 x3 x4 x5 x6 x7 x8 x9 x10 x11 x12 = fun _ => 1#1) :
    Inputs x0 x1 x2 x3 x4 x5 x6 x7 x8 x9 x10 x11 x12 :=
  Inputs.of_facts x0 x1 x2 x3 x4 x5 x6 x7 x8 x9 x10 x11 x12 (real_of_pre x0 x1 x2 x3 x4 x5 x6 x7 x8 x9 x10 x11 x12 h)

/-- The two results of the reference under the precondition. -/
theorem ref_results_of_pre [hF : Cert.Pre_input_domain.Facts]
    (x0 : (⟨S1024, .i32⟩ : BufTy).Contents (Elt Ideal)) (x1 : (⟨S10000x128, .f32⟩ : BufTy).Contents (Elt Ideal))
    (x2 x3 : (⟨S10000x10000, .f32⟩ : BufTy).Contents (Elt Ideal))
    (x4 x5 x6 x7 x8 x9 : (⟨S128x128, .f32⟩ : BufTy).Contents (Elt Ideal))
    (x10 : (⟨S128, .f32⟩ : BufTy).Contents (Elt Ideal)) (x11 : (⟨S128x40, .f32⟩ : BufTy).Contents (Elt Ideal))
    (x12 : (⟨S40, .f32⟩ : BufTy).Contents (Elt Ideal))
    (h : Cert.Pre_input_domain.fn (F := Ideal) x0 x1 x2 x3 x4 x5 x6 x7 x8 x9 x10 x11 x12 = fun _ => 1#1) :
    Cert.ReferenceIdeal.Read.val_main_v42 (F := Ideal) x0 x1 x2 x3 x4 x5 x6 x7 x8 x9 x10 x11 x12 = Spec.logits x0 x1 x2 x3 x4 x5 x6 x7 x8 x9 x10 x11 x12
      ∧ Cert.ReferenceIdeal.Read.val_main_v27 (F := Ideal) x1 x2 x3 x4 x5 x6 x7 x8 x9 x10 = Spec.beta x1 x2 x3 x4 x5 x6 x7 x8 x9 x10 :=
  ⟨ref_logits (inputs_of_pre x0 x1 x2 x3 x4 x5 x6 x7 x8 x9 x10 x11 x12 h), ref_beta (inputs_of_pre x0 x1 x2 x3 x4 x5 x6 x7 x8 x9 x10 x11 x12 h)⟩

end Cert.Proof.RefSide
-- ==== Proof.RefRunI.lean ====
import proofs.«208996_g46033459479168_cont_8to1c4_133_24_alg».proof.Defs
import proofs.«208996_g46033459479168_cont_8to1c4_133_24_alg».proof.KernelIdeal
import proofs.«208996_g46033459479168_cont_8to1c4_133_24_alg».proof.Proof.Gen.ReferenceIdeal
import proofs.«208996_g46033459479168_cont_8to1c4_133_24_alg».proof.Proof.Gen.Pre_input_domain
import proofs.«208996_g46033459479168_cont_8to1c4_133_24_alg».proof.Proof.Gen.ReferenceIdeal.Run
import proofs.«208996_g46033459479168_cont_8to1c4_133_24_alg».proof.Proof.Gen.ReferenceIdeal.Read
import proofs.«208996_g46033459479168_cont_8to1c4_133_24_alg».proof.Proof.RefIsSpecI
import proofs.«208996_g46033459479168_cont_8to1c4_133_24_alg».proof.Proof.FiniteI
import proofs.«208996_g46033459479168_cont_8to1c4_133_24_alg».proof.Proof.RefPreI

/-! # The reference's half of the claims

The reference runs: every weakly fair execution ends, the arguments unchanged, each result at the composed term of
the arguments.  Under the precondition (every float entry a real number, every id in [0, 9999]) those two terms are the
specification's `logits` and `beta`. -/

noncomputable section

namespace Cert.Proof.RefSide

open Idealize.ShloMosaic Idealize.SL.Sem

/-- The reference terminates with its thirteen argument arrays unchanged. -/
theorem frame_ri : Cert.frame_ReferenceIdeal (hReferenceIdeal := Cert.ReferenceIdeal.Gen.facts)
    (hPre_input_domain := Cert.Pre_input_domain.Gen.facts) :=
  fun m ρ _ => (θ_run (Cert.ReferenceIdeal.defs (F := Ideal)) _ _).mono (fun _ h c => (h c).2.2)
    (Cert.ReferenceIdeal.Value.run (F := Ideal) m ρ)

/-- The precondition on the kernel's memory gives, on every device, the hypotheses on its thirteen argument arrays. -/
theorem inputs_of_pre_ki
    (m : (ℓ : Loc Cert.KernelIdeal.nD Cert.KernelIdeal.τ Cert.KernelIdeal.sig) → Buf (Elt Ideal) ℓ)
    (h : Cert.Pre_KernelIdeal (hPre_input_domain := Cert.Pre_input_domain.Gen.facts) m)
    (c : Dev Cert.KernelIdeal.nD) :
    Inputs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) :=
  inputs_of_pre (hF := Cert.Pre_input_domain.Gen.facts) _ _ _ _ _ _ _ _ _ _ _ _ _ (h c)

/-- The same from the precondition on the reference's memory. -/
theorem inputs_of_pre_ri
    (m' : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m')
    (c : Dev Cert.ReferenceIdeal.nD) :
    Inputs (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) :=
  inputs_of_pre (hF := Cert.Pre_input_domain.Gen.facts) _ _ _ _ _ _ _ _ _ _ _ _ _ (h c)

/-- The reference's run with its results named by the specification: where the argument arrays satisfy the hypotheses,
    every execution ends with `logits` and `beta` of the arguments in the two result arrays and the arguments unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg)
    (H : ∀ c : Dev Cert.ReferenceIdeal.nD,
      Inputs (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v42)
            = Spec.logits (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
                (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9))
                (m' ((c.tc : Thread Cert.ReferenceIdeal.nD Cert.ReferenceIdeal.τ).loc Cert.ReferenceIdeal.main_arg10))
                (m' ((c.tc : Thread Cert.ReferenceIdeal.nD Cert.ReferenceIdeal.τ).loc Cert.ReferenceIdeal.main_arg11))
                (m' ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_v27)
            = Spec.beta (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
                (m' ((c.tc : Thread Cert.ReferenceIdeal.nD Cert.ReferenceIdeal.τ).loc Cert.ReferenceIdeal.main_arg5))
                (m' ((c.tc : Thread Cert.ReferenceIdeal.nD Cert.ReferenceIdeal.τ).loc Cert.ReferenceIdeal.main_arg6))
                (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9))
                (m' ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run (Cert.ReferenceIdeal.defs (F := Ideal)) _ _).mono
    (fun _ h c =>
      ⟨(h c).1.trans ((Cert.ReferenceIdeal.Read.val_main_v42_eq (F := Ideal) m' c).trans (ref_logits (H c))),
        (h c).2.1.trans ((Cert.ReferenceIdeal.Read.val_main_v27_eq (F := Ideal) m' c).trans (ref_beta (H c))),
        (h c).2.2⟩)
    (Cert.ReferenceIdeal.Value.run (F := Ideal) m' ρ')

end Cert.Proof.RefSide

end
-- ==== Proof.RefHalfI.lean ====
import proofs.«208996_g46033459479168_cont_8to1c4_133_24_alg».proof.Proof.RefRunI

/-! # The reference's half of the comparison

The two values both programs end with, named from the KERNEL's argument arrays: the specification's `logits` and `beta`.
From a memory that agrees with the kernel's on the thirteen arguments, of which the precondition holds, the reference
ends with exactly these in its two result arrays. -/

noncomputable section

namespace Cert.Proof.RefSide

open Idealize.ShloMosaic Idealize.SL.Sem

/-- From a memory agreeing with the kernel's on the thirteen argument arrays, of which the precondition holds, the
    reference ends with `logits` and `beta` OF THE KERNEL'S ARGUMENTS in its two result arrays, its own arguments unchanged. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v42)
            = Spec.logits (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8))
                (m ((c.tc : Thread Cert.KernelIdeal.nD Cert.KernelIdeal.τ).loc Cert.KernelIdeal.main_arg9))
                (m ((c.tc : Thread Cert.KernelIdeal.nD Cert.KernelIdeal.τ).loc Cert.KernelIdeal.main_arg10))
                (m ((c.tc : Thread Cert.KernelIdeal.nD Cert.KernelIdeal.τ).loc Cert.KernelIdeal.main_arg11))
                (m ((c.tc : Thread Cert.KernelIdeal.nD Cert.KernelIdeal.τ).loc Cert.KernelIdeal.main_arg12))
        ∧ r.2.mem ((c.tc : Thread Cert.ReferenceIdeal.nD Cert.ReferenceIdeal.τ).loc Cert.ReferenceIdeal.main_v27)
            = Spec.beta (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7))
                (m ((c.tc : Thread Cert.KernelIdeal.nD Cert.KernelIdeal.τ).loc Cert.KernelIdeal.main_arg8))
                (m ((c.tc : Thread Cert.KernelIdeal.nD Cert.KernelIdeal.τ).loc Cert.KernelIdeal.main_arg9))
                (m ((c.tc : Thread Cert.KernelIdeal.nD Cert.KernelIdeal.τ).loc Cert.KernelIdeal.main_arg10))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) := by
  have H : ∀ c : Dev Cert.ReferenceIdeal.nD,
      Inputs (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) := fun c => by
    obtain ⟨e0, e1, e2, e3, e4, e5, e6, e7, e8, e9, e10, e11, e12⟩ := hagree c
    rw [e0, e1, e2, e3, e4, e5, e6, e7, e8, e9, e10, e11, e12]
    exact inputs_of_pre_ki m hpre c
  refine (θ_run (Cert.ReferenceIdeal.defs (F := Ideal)) _ _).mono (fun r h c => ?_) (ref_run m' ρ' H)
  obtain ⟨e0, e1, e2, e3, e4, e5, e6, e7, e8, e9, e10, e11, e12⟩ := hagree c
  refine ⟨?_, ?_, (h c).2.2⟩
  · rw [← e0, ← e1, ← e2, ← e3, ← e4, ← e5, ← e6, ← e7, ← e8, ← e9, ← e10, ← e11, ← e12]
    exact (h c).1
  · rw [← e1, ← e2, ← e3, ← e4, ← e5, ← e6, ← e7, ← e8, ← e9, ← e10]
    exact (h c).2.1

/-- The first common value: `logits` of the kernel's thirteen argument arrays. -/
def v0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v6) :=
  Spec.logits (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))

/-- The second common value: `beta` of the kernel's argument arrays. -/
def v1 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v7) :=
  Spec.beta (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))

/-- The reference's half: from a memory agreeing with the kernel's on the arguments, under the precondition, every
    execution of the reference ends with the two common values in its result arrays and its arguments unchanged. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v42) = v0 m c
        ∧ r.2.mem ((c.tc : Thread Cert.ReferenceIdeal.nD Cert.ReferenceIdeal.τ).loc Cert.ReferenceIdeal.main_v27) = v1 m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  ref_run_agree m m' ρ' hpre hagree

end Cert.Proof.RefSide

end
-- ==== Proof.lean ====
/-
  The certificate's claim. The kernel computes, for 10000 nodes with 128 features and two dense adjacencies, the hidden layers
  h_k = max(A_k·S_k + X·C_k, 0) with S_k = X·(Wp1·Wa_k) and C_k = Wp0·Ws_k formed once, the attention scores s_k = tanh(h_k)·av,
  their softmax over the two metapaths with one reciprocal, the mixture and a 128-column padded classifier, block of 200 nodes by
  block of 200 nodes on the TensorCore; a SparseCore kernel on 32 vector subcores then gathers the rows of the 1024 requested
  nodes, of which the host keeps the 40 real columns, and the weights are transposed. The reference forms
  ((A_k·(X·Wp1))·Wa_k) + ((X·Wp0)·Ws_k), the softmax with a division, and indexes the classifier's output by the ids.

  At the extended reals the two agree where every input is a real number and every id names a node: the re-associated matrix
  products are finite sums of real products (the law fails at infinities, so the precondition is used), the division by the
  sum of two exponentials of reals is the product with its reciprocal, the padded columns are never read back, and the
  transposition and the gather are index equations. Both are stated against one specification (`Cert.Proof.Spec`): the
  kernel's side is the fold of buffer contents through its @main read at the two results (`Cert.Proof.KResult`), the
  reference's its generated run read stage by stage (`Cert.Proof.RefSide`).

  The three frames: the kernel's programs run to the end on every thread — the TensorCore, the two sequencers, the 32 vector
  subcores — with the argument arrays unchanged (`Cert.Proof.FoldArgsI`, `Cert.Proof.FoldArgsK`: one proof read at the two
  instances), under the precondition's range of the ids, which is what makes every gathered row exist; the reference's frame
  is its run with the results dropped. The idealization rewrote nothing, so `preserves` has no conjunct.
-/
import proofs.«208996_g46033459479168_cont_8to1c4_133_24_alg».proof.Defs
import proofs.«208996_g46033459479168_cont_8to1c4_133_24_alg».proof.Proof.Gen.Kernel
import proofs.«208996_g46033459479168_cont_8to1c4_133_24_alg».proof.Proof.Gen.KernelIdeal
import proofs.«208996_g46033459479168_cont_8to1c4_133_24_alg».proof.Proof.Gen.ReferenceIdeal
import proofs.«208996_g46033459479168_cont_8to1c4_133_24_alg».proof.Proof.Gen.Pre_input_domain
import proofs.«208996_g46033459479168_cont_8to1c4_133_24_alg».proof.Proof.FoldArgsI
import proofs.«208996_g46033459479168_cont_8to1c4_133_24_alg».proof.Proof.FoldArgsK
import proofs.«208996_g46033459479168_cont_8to1c4_133_24_alg».proof.Proof.HinI
import proofs.«208996_g46033459479168_cont_8to1c4_133_24_alg».proof.Proof.HinK
import proofs.«208996_g46033459479168_cont_8to1c4_133_24_alg».proof.Proof.KResultI
import proofs.«208996_g46033459479168_cont_8to1c4_133_24_alg».proof.Proof.RefRunI
import proofs.«208996_g46033459479168_cont_8to1c4_133_24_alg».proof.Proof.RefHalfI
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end on every thread, its arguments unchanged. -/
theorem frame_k : Cert.frame_Kernel (hKernel := Cert.Kernel.Gen.facts) (hPre_input_domain := Cert.Pre_input_domain.Gen.facts) :=
  fun m ρ hpre => Cert.Proof.FoldArgsK.frame_run (F := Bits) m ρ (Cert.Proof.HinK.hin_of_pre m hpre)

/-- The idealized kernel likewise. -/
theorem frame_ki : Cert.frame_KernelIdeal (hKernelIdeal := Cert.KernelIdeal.Gen.facts) (hPre_input_domain := Cert.Pre_input_domain.Gen.facts) :=
  fun m ρ hpre => Cert.Proof.FoldArgsI.frame_run (F := Ideal) m ρ (Cert.Proof.HinI.hin_of_pre m hpre)

/-- The idealized kernel's run with its two results named: the specification's logits and weights of the launch arrays. -/
theorem kernel_half (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (fun r => ∀ c : Dev Cert.KernelIdeal.nD,
          r.2.mem ((c.tc : Thread Cert.KernelIdeal.nD Cert.KernelIdeal.τ).loc Cert.KernelIdeal.main_v6) = Cert.Proof.RefSide.v0 m c
          ∧ r.2.mem ((c.tc : Thread Cert.KernelIdeal.nD Cert.KernelIdeal.τ).loc Cert.KernelIdeal.main_v7) = Cert.Proof.RefSide.v1 m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono (fun r h c =>
    ⟨(h c _ (Cert.Proof.LaunchI.mem_uc Cert.KernelIdeal.main_v6 (by decide))).trans (Cert.Proof.KResult.result_v6 m c (Cert.Proof.HinI.hin_of_pre m hpre c)),
     (h c _ (Cert.Proof.LaunchI.mem_uc Cert.KernelIdeal.main_v7 (by decide))).trans (Cert.Proof.KResult.result_v7 m c),
     Cert.Proof.FoldArgsI.args_of_QC m _ _ r h c⟩)
    (Cert.Proof.LaunchI.run_main (F := Ideal) m ρ (Cert.Proof.HinI.hin_of_pre m hpre))

/-- Both idealized programs, from memories agreeing on the arguments, end with the specification's two results. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) :=
  fun m ρ m' ρ' hpre hagree => ⟨Cert.Proof.RefSide.v0 m, Cert.Proof.RefSide.v1 m, kernel_half m ρ hpre, Cert.Proof.RefSide.ref_half m m' ρ' hpre hagree⟩

theorem claim : Cert.Claim :=
  ⟨Cert.Kernel.Gen.facts, Cert.KernelIdeal.Gen.facts, Cert.ReferenceIdeal.Gen.facts, Cert.Pre_input_domain.Gen.facts,
    frame_k, frame_ki, Cert.Proof.RefSide.frame_ri, trivial, algebraic⟩

end Cert.Proof

end
